-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x14x512x512 : Shape := ⟨4, ![4, 14, 512, 512]⟩
abbrev S4x1x512x512 : Shape := ⟨4, ![4, 1, 512, 512]⟩
abbrev S_ : Shape := ⟨0, ![]⟩

class Facts : Prop where
  bcast_S_S4x14x512x512 : S_.BroadcastsInDim S4x14x512x512 (![] : Fin 0 → Fin S4x14x512x512.rank)
  reducesTo_S4x14x512x512_S_d0_1_2_3 : S4x14x512x512.ReducesTo [0, 1, 2, 3] S_
  h_S_ : 0 < S_.numel

variable [Facts]

def fn {F : FTy → Type} [FloatOps F] (main_arg0 : FVec F S4x14x512x512 .f32) (main_arg1 : FVec F S4x14x512x512 .f32) (main_arg2 : IVec S4x1x512x512 32) : IVec S_ 1 :=
  let main_v0 : FVec F S4x14x512x512 .f32 := Host.absf main_arg0
  let main_cst : FVec F S_ .f32 := constant S_ .f32 0x7F800000#32
  let main_v1 : FVec F S4x14x512x512 .f32 := broadcastInDim S4x14x512x512 ![] bcast_S_S4x14x512x512 main_cst
  let main_v2 : IVec S4x14x512x512 1 := cmpf .olt main_v0 main_v1
  let main_c : IVec S_ 1 := constantI S_ 1 1#1
  let main_v3 : IVec S_ 1 := (fun x v => Host.reduce IntOp.andi x v reducesTo_S4x14x512x512_S_d0_1_2_3 h_S_) main_v2 main_c
  let main_v4 : FVec F S4x14x512x512 .f32 := Host.absf main_arg1
  let main_cst_0 : FVec F S_ .f32 := constant S_ .f32 0x7F800000#32
  let main_v5 : FVec F S4x14x512x512 .f32 := broadcastInDim S4x14x512x512 ![] bcast_S_S4x14x512x512 main_cst_0
  let main_v6 : IVec S4x14x512x512 1 := cmpf .olt main_v4 main_v5
  let main_c_1 : IVec S_ 1 := constantI S_ 1 1#1
  let main_v7 : IVec S_ 1 := (fun x v => Host.reduce IntOp.andi x v reducesTo_S4x14x512x512_S_d0_1_2_3 h_S_) main_v6 main_c_1
  let main_v8 : IVec S_ 1 := andi main_v3 main_v7
  main_v8
-- ==== Kernel.lean ====
abbrev S4x14x512x512 : Shape := ⟨4, ![4, 14, 512, 512]⟩
abbrev S4x1x512x512 : Shape := ⟨4, ![4, 1, 512, 512]⟩
abbrev S4x13 : Shape := ⟨2, ![4, 13]⟩
abbrev S1x1x512x512 : Shape := ⟨4, ![1, 1, 512, 512]⟩
abbrev S512x512 : Shape := ⟨2, ![512, 512]⟩
abbrev S1x512 : Shape := ⟨2, ![1, 512]⟩
abbrev S512x1 : Shape := ⟨2, ![512, 1]⟩
abbrev S511x512 : Shape := ⟨2, ![511, 512]⟩
abbrev S512x511 : Shape := ⟨2, ![512, 511]⟩
abbrev S1x512x512 : Shape := ⟨3, ![1, 512, 512]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S4 : Shape := ⟨1, ![4]⟩
abbrev S2 : Shape := ⟨1, ![2]⟩

abbrev nBuf : Space → Nat
  | .hbm => 51
  | .vmem => 12
  | .smem => 0
  | _ => 0

abbrev bufTy : (tb : Table) → Fin (tcTables nBuf tb) → BufTy
  | .hbm, ⟨0, _⟩ => ⟨S4x14x512x512, .f32⟩
  | .hbm, ⟨1, _⟩ => ⟨S4x14x512x512, .f32⟩
  | .hbm, ⟨2, _⟩ => ⟨S4x1x512x512, .i32⟩
  | .hbm, ⟨3, _⟩ => ⟨S4x13, .f32⟩
  | .hbm, ⟨4, _⟩ => ⟨S4x13, .f32⟩
  | .hbm, ⟨5, _⟩ => ⟨S4x13, .f32⟩
  | .hbm, ⟨6, _⟩ => ⟨S_, .f32⟩
  | .hbm, ⟨7, _⟩ => ⟨S4x13, .f32⟩
  | .hbm, ⟨8, _⟩ => ⟨S4x13, .i1⟩
  | .hbm, ⟨9, _⟩ => ⟨S_, .f32⟩
  | .hbm, ⟨10, _⟩ => ⟨S_, .f32⟩
  | .hbm, ⟨11, _⟩ => ⟨S4x13, .f32⟩
  | .hbm, ⟨12, _⟩ => ⟨S4x13, .f32⟩
  | .hbm, ⟨13, _⟩ => ⟨S_, .f32⟩
  | .hbm, ⟨14, _⟩ => ⟨S4, .f32⟩
  | .hbm, ⟨15, _⟩ => ⟨S_, .f32⟩
  | .hbm, ⟨16, _⟩ => ⟨S_, .f32⟩
  | .hbm, ⟨17, _⟩ => ⟨S4x13, .f32⟩
  | .hbm, ⟨18, _⟩ => ⟨S4x13, .f32⟩
  | .hbm, ⟨19, _⟩ => ⟨S_, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .i1⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x13, .f32⟩
  | .hbm, ⟨37, _⟩ => ⟨S4x13, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S2, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .i32⟩
  | .local _ .vmem, ⟨5, _⟩ => ⟨S1x1x512x512, .i32⟩
  | .local _ .vmem, ⟨6, _⟩ => ⟨S4x13, .f32⟩
  | .local _ .vmem, ⟨7, _⟩ => ⟨S4x13, .f32⟩
  | .local _ .vmem, ⟨8, _⟩ => ⟨S4x13, .f32⟩
  | .local _ .vmem, ⟨9, _⟩ => ⟨S4x13, .f32⟩
  | .local _ .vmem, ⟨10, _⟩ => ⟨S4x13, .f32⟩
  | .local _ .vmem, ⟨11, _⟩ => ⟨S4x13, .f32⟩
  | _, _ => ⟨S4x14x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_cst_4 : Ref sig .tc := ⟨.hbm, 21, rfl⟩
abbrev main_v7 : Ref sig .tc := ⟨.hbm, 22, rfl⟩
abbrev main_v8 : Ref sig .tc := ⟨.hbm, 23, rfl⟩
abbrev main_cst_5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_6 : Ref sig .tc := ⟨.hbm, 28, rfl⟩
abbrev main_call2_v0 : Ref sig .tc := ⟨.hbm, 29, rfl⟩
abbrev main_call2_v1 : Ref sig .tc := ⟨.hbm, 30, rfl⟩
abbrev main_v12 : Ref sig .tc := ⟨.hbm, 31, rfl⟩
abbrev main_cst_7 : Ref sig .tc := ⟨.hbm, 32, rfl⟩
abbrev main_v13 : Ref sig .tc := ⟨.hbm, 33, rfl⟩
abbrev main_cst_8 : Ref sig .tc := ⟨.hbm, 34, rfl⟩
abbrev main_call3_v0 : Ref sig .tc := ⟨.hbm, 35, rfl⟩
abbrev main_call3_v1 : Ref sig .tc := ⟨.hbm, 36, rfl⟩
abbrev main_v14 : Ref sig .tc := ⟨.hbm, 37, rfl⟩
abbrev main_cst_9 : Ref sig .tc := ⟨.hbm, 38, rfl⟩
abbrev main_v15 : Ref sig .tc := ⟨.hbm, 39, rfl⟩
abbrev main_cst_10 : Ref sig .tc := ⟨.hbm, 40, rfl⟩
abbrev main_v16 : Ref sig .tc := ⟨.hbm, 41, rfl⟩
abbrev main_cst_11 : Ref sig .tc := ⟨.hbm, 42, rfl⟩
abbrev main_v17 : Ref sig .tc := ⟨.hbm, 43, rfl⟩
abbrev main_cst_12 : Ref sig .tc := ⟨.hbm, 44, rfl⟩
abbrev main_v18 : Ref sig .tc := ⟨.hbm, 45, rfl⟩
abbrev main_cst_13 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![4, 13], ![false, false]⟩

def k0_cond2 (i : grid0.Coords) : BitVec 1 :=
  let arg0 : BitVec 32 := BitVec.ofNat 32 (i 0).val
  let c3_i32 : BitVec 32 := 3#32
  let v187 : BitVec 1 := Scalar.cmpi .eq arg0 c3_i32
  let arg1 : BitVec 32 := BitVec.ofNat 32 (i 1).val
  let c12_i32 : BitVec 32 := 12#32
  let v188 : BitVec 1 := Scalar.cmpi .eq arg1 c12_i32
  let v189 : BitVec 1 := Scalar.andi v187 v188
  let v190 : BitVec 32 := Scalar.extui v189
  let c0_i32_48 : BitVec 32 := 0#32
  let v191 : BitVec 1 := Scalar.cmpi .ne v190 c0_i32_48
  v191

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x13 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x13 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x13 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  inb_S4x13_S4x13_0_0 : ∀ a, (![0, 0] : Fin 2 → Nat) a + S4x13.size a ≤ S4x13.size a
  h_S4x13 : 0 < S4x13.numel
  shapeCasts_S4x13_S4x13 : S4x13.ShapeCasts S4x13
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  natLt_1_32 : 1 < 32
  slices_S512x512_o0_0_S511x512 : S512x512.Slices ![0, 0] S511x512
  concatenates_S1x512_S511x512_S512x512_d0 : Shape.Concatenates [S1x512, S511x512] S512x512 0
  slices_S512x512_o1_0_S511x512 : S512x512.Slices ![1, 0] S511x512
  concatenates_S511x512_S1x512_S512x512_d0 : Shape.Concatenates [S511x512, S1x512] S512x512 0
  slices_S512x512_o0_0_S512x511 : S512x512.Slices ![0, 0] S512x511
  concatenates_S512x1_S512x511_S512x512_d1 : Shape.Concatenates [S512x1, S512x511] S512x512 1
  slices_S512x512_o0_1_S512x511 : S512x512.Slices ![0, 1] S512x511
  concatenates_S512x511_S512x1_S512x512_d1 : Shape.Concatenates [S512x511, S512x1] S512x512 1
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  broadcasts_S1x1_S512x512 : S1x1.Broadcasts S512x512
  iota_S4x13_d0_w32 : S4x13.Iotas .tc 32 [0]
  iota_S4x13_d1_w32 : S4x13.Iotas .tc 32 [1]
  shapeCasts_S1x1_S1x1 : S1x1.ShapeCasts S1x1
  broadcasts_S1x1_S4x13 : S1x1.Broadcasts S4x13
  bcast_S_S4x13 : S_.BroadcastsInDim S4x13 (![] : Fin 0 → Fin S4x13.rank)
  reducesTo_S4x13_S4_d1 : S4x13.ReducesTo [1] S4
  h_S_ : 0 < S_.numel
  bcast_S_S4 : S_.BroadcastsInDim S4 (![] : Fin 0 → Fin S4.rank)
  reducesTo_S4_S_d0 : S4.ReducesTo [0] S_
  reducesTo_S4x13_S_d0_1 : S4x13.ReducesTo [0, 1] S_
  bcast_S_S1 : S_.BroadcastsInDim S1 (![] : Fin 0 → Fin S1.rank)
  concatenates_S1_S1_S2_d0 : Shape.Concatenates [S1, S1] S2 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S4x14x512x512.size a
  hwx0_0 : ∀ i : grid0.Coords, EltTy.bits .f32 = 32 ∨ (Rect.block (s := S4x14x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S4x14x512x512.size a
  hwx0_1 : ∀ i : grid0.Coords, EltTy.bits .f32 = 32 ∨ (Rect.block (s := S4x14x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S4x1x512x512.size a
  hwx0_2 : ∀ i : grid0.Coords, EltTy.bits .i32 = 32 ∨ (Rect.block (s := S4x1x512x512) S1x1x512x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x13.size a ≤ S4x13.size a
  hwx0_3 : ∀ i : grid0.Coords, EltTy.bits .f32 = 32 ∨ (Rect.block (s := S4x13) S4x13.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x13.size a ≤ S4x13.size a
  hwx0_4 : ∀ i : grid0.Coords, EltTy.bits .f32 = 32 ∨ (Rect.block (s := S4x13) S4x13.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x13.size a ≤ S4x13.size a
  hwx0_5 : ∀ i : grid0.Coords, EltTy.bits .f32 = 32 ∨ (Rect.block (s := S4x13) S4x13.size (cc0_transform_5 i) (hinb0_5 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S4x13.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S4x13.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S4x13.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x14x512x512 : Shape := ⟨4, ![4, 14, 512, 512]⟩
abbrev S4x1x512x512 : Shape := ⟨4, ![4, 1, 512, 512]⟩
abbrev S13 : Shape := ⟨1, ![13]⟩
abbrev S_ : Shape := ⟨0, ![]⟩
abbrev S4x512x512 : Shape := ⟨3, ![4, 512, 512]⟩
abbrev S1x13x1x1 : Shape := ⟨4, ![1, 13, 1, 1]⟩
abbrev S4x13x512x512 : Shape := ⟨4, ![4, 13, 512, 512]⟩
abbrev S4x13x514x514 : Shape := ⟨4, ![4, 13, 514, 514]⟩
abbrev S4x13 : Shape := ⟨2, ![4, 13]⟩
abbrev S4x13x262144 : Shape := ⟨3, ![4, 13, 262144]⟩
abbrev S4x13x1 : Shape := ⟨3, ![4, 13, 1]⟩
abbrev S4 : Shape := ⟨1, ![4]⟩
abbrev S1 : Shape := ⟨1, ![1]⟩
abbrev S2 : Shape := ⟨1, ![2]⟩

abbrev nBuf : Space → Nat
  | .hbm => 187
  | .vmem => 0
  | .smem => 0
  | _ => 0

abbrev hbmTy0_0 (i : Nat) : BufTy := match i % 128 with
  | 0 => ⟨S4x14x512x512, .f32⟩
  | 1 => ⟨S4x14x512x512, .f32⟩
  | 2 => ⟨S4x1x512x512, .i32⟩
  | 3 => ⟨S13, .i32⟩
  | 4 => ⟨S_, .i32⟩
  | 5 => ⟨S13, .i32⟩
  | 6 => ⟨S13, .i32⟩
  | 7 => ⟨S4x512x512, .i32⟩
  | 8 => ⟨S4x1x512x512, .i32⟩
  | 9 => ⟨S1x13x1x1, .i32⟩
  | 10 => ⟨S4x13x512x512, .i32⟩
  | 11 => ⟨S4x13x512x512, .i32⟩
  | 12 => ⟨S4x13x512x512, .i1⟩
  | 13 => ⟨S_, .i1⟩
  | 14 => ⟨S4x13x514x514, .i1⟩
  | 15 => ⟨S4x13x512x512, .i1⟩
  | 16 => ⟨S4x13x512x512, .i1⟩
  | 17 => ⟨S4x13x512x512, .i1⟩
  | 18 => ⟨S4x13x512x512, .i1⟩
  | 19 => ⟨S4x13x512x512, .i1⟩
  | 20 => ⟨S4x13x512x512, .i1⟩
  | 21 => ⟨S4x13x512x512, .i1⟩
  | 22 => ⟨S4x13x512x512, .i1⟩
  | 23 => ⟨S4x13x512x512, .i1⟩
  | 24 => ⟨S_, .i1⟩
  | 25 => ⟨S4x13x514x514, .i1⟩
  | 26 => ⟨S4x13x512x512, .i1⟩
  | 27 => ⟨S4x13x512x512, .i1⟩
  | 28 => ⟨S4x13x512x512, .i1⟩
  | 29 => ⟨S4x13x512x512, .i1⟩
  | 30 => ⟨S4x13x512x512, .i1⟩
  | 31 => ⟨S4x13x512x512, .i1⟩
  | 32 => ⟨S4x13x512x512, .i1⟩
  | 33 => ⟨S4x13x512x512, .i1⟩
  | 34 => ⟨S4x13x512x512, .i1⟩
  | 35 => ⟨S4x13x512x512, .i1⟩
  | 36 => ⟨S4x13x512x512, .i1⟩
  | 37 => ⟨S4x13x512x512, .i1⟩
  | 38 => ⟨S4x13x512x512, .i32⟩
  | 39 => ⟨S_, .i32⟩
  | 40 => ⟨S4x13, .i32⟩
  | 41 => ⟨S_, .i32⟩
  | 42 => ⟨S4x13, .i32⟩
  | 43 => ⟨S4x13, .i1⟩
  | 44 => ⟨S4x13x512x512, .f32⟩
  | 45 => ⟨S4x13x512x512, .f32⟩
  | 46 => ⟨S4x13x512x512, .f32⟩
  | 47 => ⟨S4x13x512x512, .f32⟩
  | 48 => ⟨S4x13x512x512, .f32⟩
  | 49 => ⟨S4x13x262144, .f32⟩
  | 50 => ⟨S4x13x512x512, .f32⟩
  | 51 => ⟨S4x13x262144, .f32⟩
  | 52 => ⟨S_, .f32⟩
  | 53 => ⟨S4x13x262144, .f32⟩
  | 54 => ⟨S4x13x262144, .f32⟩
  | 55 => ⟨S_, .f32⟩
  | 56 => ⟨S4x13, .f32⟩
  | 57 => ⟨S_, .f32⟩
  | 58 => ⟨S4x13, .f32⟩
  | 59 => ⟨S4x13, .f32⟩
  | 60 => ⟨S4x13x1, .f32⟩
  | 61 => ⟨S4x13x262144, .f32⟩
  | 62 => ⟨S4x13x262144, .f32⟩
  | 63 => ⟨S4x13x262144, .f32⟩
  | 64 => ⟨S_, .f32⟩
  | 65 => ⟨S4x13, .f32⟩
  | 66 => ⟨S4x13x1, .f32⟩
  | 67 => ⟨S4x13x1, .f32⟩
  | 68 => ⟨S4x13x262144, .f32⟩
  | 69 => ⟨S4x13x262144, .f32⟩
  | 70 => ⟨S_, .f32⟩
  | 71 => ⟨S4x13x262144, .f32⟩
  | 72 => ⟨S4x13x262144, .f32⟩
  | 73 => ⟨S_, .f32⟩
  | 74 => ⟨S4x13, .f32⟩
  | 75 => ⟨S_, .f32⟩
  | 76 => ⟨S4x13, .f32⟩
  | 77 => ⟨S4x13, .f32⟩
  | 78 => ⟨S4x13x1, .f32⟩
  | 79 => ⟨S4x13x262144, .f32⟩
  | 80 => ⟨S4x13x262144, .f32⟩
  | 81 => ⟨S4x13x262144, .f32⟩
  | 82 => ⟨S_, .f32⟩
  | 83 => ⟨S4x13, .f32⟩
  | 84 => ⟨S4x13x1, .f32⟩
  | 85 => ⟨S4x13x1, .f32⟩
  | 86 => ⟨S4x13x262144, .f32⟩
  | 87 => ⟨S4x13x262144, .f32⟩
  | 88 => ⟨S4x13x262144, .f32⟩
  | 89 => ⟨S4x13x262144, .f32⟩
  | 90 => ⟨S4x13x262144, .f32⟩
  | 91 => ⟨S_, .f32⟩
  | 92 => ⟨S4x13, .f32⟩
  | 93 => ⟨S_, .f32⟩
  | 94 => ⟨S4x13, .f32⟩
  | 95 => ⟨S4x13, .f32⟩
  | 96 => ⟨S4x13x512x512, .f32⟩
  | 97 => ⟨S4x13x262144, .f32⟩
  | 98 => ⟨S4x13x512x512, .f32⟩
  | 99 => ⟨S4x13x262144, .f32⟩
  | 100 => ⟨S_, .f32⟩
  | 101 => ⟨S4x13x262144, .f32⟩
  | 102 => ⟨S4x13x262144, .f32⟩
  | 103 => ⟨S_, .f32⟩
  | 104 => ⟨S4x13, .f32⟩
  | 105 => ⟨S_, .f32⟩
  | 106 => ⟨S4x13, .f32⟩
  | 107 => ⟨S4x13, .f32⟩
  | 108 => ⟨S4x13x1, .f32⟩
  | 109 => ⟨S4x13x262144, .f32⟩
  | 110 => ⟨S4x13x262144, .f32⟩
  | 111 => ⟨S4x13x262144, .f32⟩
  | 112 => ⟨S_, .f32⟩
  | 113 => ⟨S4x13, .f32⟩
  | 114 => ⟨S4x13x1, .f32⟩
  | 115 => ⟨S4x13x1, .f32⟩
  | 116 => ⟨S4x13x262144, .f32⟩
  | 117 => ⟨S4x13x262144, .f32⟩
  | 118 => ⟨S_, .f32⟩
  | 119 => ⟨S4x13x262144, .f32⟩
  | 120 => ⟨S4x13x262144, .f32⟩
  | 121 => ⟨S_, .f32⟩
  | 122 => ⟨S4x13, .f32⟩
  | 123 => ⟨S_, .f32⟩
  | 124 => ⟨S4x13, .f32⟩
  | 125 => ⟨S4x13, .f32⟩
  | 126 => ⟨S4x13x1, .f32⟩
  | 127 => ⟨S4x13x262144, .f32⟩
  | _ => ⟨S4x14x512x512, .f32⟩

abbrev hbmTy0_1 (i : Nat) : BufTy := match i % 128 with
  | 0 => ⟨S4x13x262144, .f32⟩
  | 1 => ⟨S4x13x262144, .f32⟩
  | 2 => ⟨S_, .f32⟩
  | 3 => ⟨S4x13, .f32⟩
  | 4 => ⟨S4x13x1, .f32⟩
  | 5 => ⟨S4x13x1, .f32⟩
  | 6 => ⟨S4x13x262144, .f32⟩
  | 7 => ⟨S4x13x262144, .f32⟩
  | 8 => ⟨S4x13x262144, .f32⟩
  | 9 => ⟨S4x13x262144, .f32⟩
  | 10 => ⟨S4x13x262144, .f32⟩
  | 11 => ⟨S_, .f32⟩
  | 12 => ⟨S4x13, .f32⟩
  | 13 => ⟨S_, .f32⟩
  | 14 => ⟨S4x13, .f32⟩
  | 15 => ⟨S4x13, .f32⟩
  | 16 => ⟨S_, .i32⟩
  | 17 => ⟨S_, .i32⟩
  | 18 => ⟨S4x13, .i32⟩
  | 19 => ⟨S4x13, .i32⟩
  | 20 => ⟨S_, .i32⟩
  | 21 => ⟨S4, .i32⟩
  | 22 => ⟨S4, .f32⟩
  | 23 => ⟨S_, .f32⟩
  | 24 => ⟨S_, .f32⟩
  | 25 => ⟨S4x13, .f32⟩
  | 26 => ⟨S4x13, .f32⟩
  | 27 => ⟨S_, .f32⟩
  | 28 => ⟨S4, .f32⟩
  | 29 => ⟨S_, .f32⟩
  | 30 => ⟨S4, .f32⟩
  | 31 => ⟨S4, .i1⟩
  | 32 => ⟨S_, .f32⟩
  | 33 => ⟨S4, .f32⟩
  | 34 => ⟨S4, .f32⟩
  | 35 => ⟨S4, .f32⟩
  | 36 => ⟨S_, .f32⟩
  | 37 => ⟨S_, .f32⟩
  | 38 => ⟨S4, .f32⟩
  | 39 => ⟨S4, .f32⟩
  | 40 => ⟨S_, .f32⟩
  | 41 => ⟨S_, .f32⟩
  | 42 => ⟨S_, .f32⟩
  | 43 => ⟨S_, .f32⟩
  | 44 => ⟨S4x13, .f32⟩
  | 45 => ⟨S4x13, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S1, .f32⟩
  | 57 => ⟨S1, .f32⟩
  | 58 => ⟨S2, .f32⟩
  | _ => ⟨S4x14x512x512, .f32⟩

abbrev hbmTy (i : Nat) : BufTy := match i / 128 with
  | 0 => hbmTy0_0 i
  | 1 => hbmTy0_1 i
  | _ => ⟨S4x14x512x512, .f32⟩

abbrev bufTy : (tb : Table) → Fin (tcTables nBuf tb) → BufTy
  | .hbm, ⟨i, _⟩ => hbmTy i
  | _, _ => ⟨S4x14x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c_2 : Ref sig .tc := ⟨.hbm, 39, rfl⟩
abbrev main_v33 : Ref sig .tc := ⟨.hbm, 40, rfl⟩
abbrev main_c_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst : Ref sig .tc := ⟨.hbm, 52, rfl⟩
abbrev main_v44 : Ref sig .tc := ⟨.hbm, 53, rfl⟩
abbrev main_v45 : Ref sig .tc := ⟨.hbm, 54, rfl⟩
abbrev main_call2_cst : Ref sig .tc := ⟨.hbm, 55, rfl⟩
abbrev main_call2_v0 : Ref sig .tc := ⟨.hbm, 56, rfl⟩
abbrev main_call2_cst_0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_cst_1 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_v46 : Ref sig .tc := ⟨.hbm, 69, rfl⟩
abbrev main_cst_4 : Ref sig .tc := ⟨.hbm, 70, rfl⟩
abbrev main_v47 : Ref sig .tc := ⟨.hbm, 71, rfl⟩
abbrev main_v48 : Ref sig .tc := ⟨.hbm, 72, rfl⟩
abbrev main_call3_cst : Ref sig .tc := ⟨.hbm, 73, rfl⟩
abbrev main_call3_v0 : Ref sig .tc := ⟨.hbm, 74, rfl⟩
abbrev main_call3_cst_0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_cst_1 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_5 : Ref sig .tc := ⟨.hbm, 91, rfl⟩
abbrev main_v53 : Ref sig .tc := ⟨.hbm, 92, rfl⟩
abbrev main_cst_6 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_7 : Ref sig .tc := ⟨.hbm, 100, rfl⟩
abbrev main_v60 : Ref sig .tc := ⟨.hbm, 101, rfl⟩
abbrev main_v61 : Ref sig .tc := ⟨.hbm, 102, rfl⟩
abbrev main_call4_cst : Ref sig .tc := ⟨.hbm, 103, rfl⟩
abbrev main_call4_v0 : Ref sig .tc := ⟨.hbm, 104, rfl⟩
abbrev main_call4_cst_0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_v6 : Ref sig .tc := ⟨.hbm, 111, rfl⟩
abbrev main_call4_cst_1 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_v62 : Ref sig .tc := ⟨.hbm, 117, rfl⟩
abbrev main_cst_8 : Ref sig .tc := ⟨.hbm, 118, rfl⟩
abbrev main_v63 : Ref sig .tc := ⟨.hbm, 119, rfl⟩
abbrev main_v64 : Ref sig .tc := ⟨.hbm, 120, rfl⟩
abbrev main_call5_cst : Ref sig .tc := ⟨.hbm, 121, rfl⟩
abbrev main_call5_v0 : Ref sig .tc := ⟨.hbm, 122, rfl⟩
abbrev main_call5_cst_0 : Ref sig .tc := ⟨.hbm, 123, rfl⟩
abbrev main_call5_v1 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_call5_v5 : Ref sig .tc := ⟨.hbm, 128, rfl⟩
abbrev main_call5_v6 : Ref sig .tc := ⟨.hbm, 129, rfl⟩
abbrev main_call5_cst_1 : Ref sig .tc := ⟨.hbm, 130, rfl⟩
abbrev main_call5_v7 : Ref sig .tc := ⟨.hbm, 131, rfl⟩
abbrev main_call5_v8 : Ref sig .tc := ⟨.hbm, 132, rfl⟩
abbrev main_call5_v9 : Ref sig .tc := ⟨.hbm, 133, rfl⟩
abbrev main_call5_v10 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_cst_9 : Ref sig .tc := ⟨.hbm, 139, rfl⟩
abbrev main_v69 : Ref sig .tc := ⟨.hbm, 140, rfl⟩
abbrev main_cst_10 : Ref sig .tc := ⟨.hbm, 141, rfl⟩
abbrev main_v70 : Ref sig .tc := ⟨.hbm, 142, rfl⟩
abbrev main_v71 : Ref sig .tc := ⟨.hbm, 143, rfl⟩
abbrev main_c_11 : Ref sig .tc := ⟨.hbm, 144, rfl⟩
abbrev main_call6_v0 : Ref sig .tc := ⟨.hbm, 145, rfl⟩
abbrev main_call6_v1 : Ref sig .tc := ⟨.hbm, 146, rfl⟩
abbrev main_v72 : Ref sig .tc := ⟨.hbm, 147, rfl⟩
abbrev main_c_12 : Ref sig .tc := ⟨.hbm, 148, rfl⟩
abbrev main_v73 : Ref sig .tc := ⟨.hbm, 149, rfl⟩
abbrev main_v74 : Ref sig .tc := ⟨.hbm, 150, rfl⟩
abbrev main_cst_13 : Ref sig .tc := ⟨.hbm, 151, rfl⟩
abbrev main_call7_v0 : Ref sig .tc := ⟨.hbm, 152, rfl⟩
abbrev main_call7_v1 : Ref sig .tc := ⟨.hbm, 153, rfl⟩
abbrev main_v75 : Ref sig .tc := ⟨.hbm, 154, rfl⟩
abbrev main_cst_14 : Ref sig .tc := ⟨.hbm, 155, rfl⟩
abbrev main_v76 : Ref sig .tc := ⟨.hbm, 156, rfl⟩
abbrev main_cst_15 : Ref sig .tc := ⟨.hbm, 157, rfl⟩
abbrev main_v77 : Ref sig .tc := ⟨.hbm, 158, rfl⟩
abbrev main_v78 : Ref sig .tc := ⟨.hbm, 159, rfl⟩
abbrev main_cst_16 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_cst_17 : Ref sig .tc := ⟨.hbm, 164, rfl⟩
abbrev main_call8_v0 : Ref sig .tc := ⟨.hbm, 165, rfl⟩
abbrev main_call8_v1 : Ref sig .tc := ⟨.hbm, 166, rfl⟩
abbrev main_v82 : Ref sig .tc := ⟨.hbm, 167, rfl⟩
abbrev main_cst_18 : Ref sig .tc := ⟨.hbm, 168, rfl⟩
abbrev main_v83 : Ref sig .tc := ⟨.hbm, 169, rfl⟩
abbrev main_cst_19 : Ref sig .tc := ⟨.hbm, 170, rfl⟩
abbrev main_call9_v0 : Ref sig .tc := ⟨.hbm, 171, rfl⟩
abbrev main_call9_v1 : Ref sig .tc := ⟨.hbm, 172, rfl⟩
abbrev main_v84 : Ref sig .tc := ⟨.hbm, 173, rfl⟩
abbrev main_cst_20 : Ref sig .tc := ⟨.hbm, 174, rfl⟩
abbrev main_v85 : Ref sig .tc := ⟨.hbm, 175, rfl⟩
abbrev main_cst_21 : Ref sig .tc := ⟨.hbm, 176, rfl⟩
abbrev main_v86 : Ref sig .tc := ⟨.hbm, 177, rfl⟩
abbrev main_cst_22 : Ref sig .tc := ⟨.hbm, 178, rfl⟩
abbrev main_v87 : Ref sig .tc := ⟨.hbm, 179, rfl⟩
abbrev main_cst_23 : Ref sig .tc := ⟨.hbm, 180, rfl⟩
abbrev main_v88 : Ref sig .tc := ⟨.hbm, 181, rfl⟩
abbrev main_cst_24 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩

abbrev nD : Nat := 1
abbrev τ : Topo := Topo.v7x

variable {F : FTy → Type} [FloatOps F]

class Facts₀ : Prop where
  bcast_S_S13 : S_.BroadcastsInDim S13 (![] : Fin 0 → Fin S13.rank)
  shapeCasts_S4x1x512x512_S4x512x512 : S4x1x512x512.ShapeCasts S4x512x512
  bcast_S4x512x512_S4x1x512x512_0_2_3 : S4x512x512.BroadcastsInDim S4x1x512x512 (![0, 2, 3] : Fin 3 → Fin S4x1x512x512.rank)
  bcast_S13_S1x13x1x1_1 : S13.BroadcastsInDim S1x13x1x1 (![1] : Fin 1 → Fin S1x13x1x1.rank)
  bcast_S4x1x512x512_S4x13x512x512_0_1_2_3 : S4x1x512x512.BroadcastsInDim S4x13x512x512 (![0, 1, 2, 3] : Fin 4 → Fin S4x13x512x512.rank)
  bcast_S1x13x1x1_S4x13x512x512_0_1_2_3 : S1x13x1x1.BroadcastsInDim S4x13x512x512 (![0, 1, 2, 3] : Fin 4 → Fin S4x13x512x512.rank)
  pads_S4x13x512x512_S4x13x514x514_000_000_110_110 : S4x13x512x512.Pads (![0, 0, 1, 1] : Fin 4 → Nat) ![0, 0, 1, 1] ![0, 0, 0, 0] S4x13x514x514
  h_S_ : 0 < S_.numel
  slices_S4x13x514x514_S4x13x512x512_0_0_1_1 : S4x13x514x514.Slices ![0, 0, 1, 1] S4x13x512x512
  slices_S4x13x514x514_S4x13x512x512_0_0_0_1 : S4x13x514x514.Slices ![0, 0, 0, 1] S4x13x512x512
  slices_S4x13x514x514_S4x13x512x512_0_0_2_1 : S4x13x514x514.Slices ![0, 0, 2, 1] S4x13x512x512
  slices_S4x13x514x514_S4x13x512x512_0_0_1_0 : S4x13x514x514.Slices ![0, 0, 1, 0] S4x13x512x512
  slices_S4x13x514x514_S4x13x512x512_0_0_1_2 : S4x13x514x514.Slices ![0, 0, 1, 2] S4x13x512x512
  natLt_1_32 : 1 < 32
  reducesTo_S4x13x512x512_S4x13_d2_3 : S4x13x512x512.ReducesTo [2, 3] S4x13
  bcast_S_S4x13 : S_.BroadcastsInDim S4x13 (![] : Fin 0 → Fin S4x13.rank)
  slices_S4x14x512x512_S4x13x512x512_0_1_0_0 : S4x14x512x512.Slices ![0, 1, 0, 0] S4x13x512x512
  shapeCasts_S4x13x512x512_S4x13x262144 : S4x13x512x512.ShapeCasts S4x13x262144
  bcast_S_S4x13x262144 : S_.BroadcastsInDim S4x13x262144 (![] : Fin 0 → Fin S4x13x262144.rank)
  reducesTo_S4x13x262144_S4x13_d2 : S4x13x262144.ReducesTo [2] S4x13
  bcast_S4x13_S4x13x1_0_1 : S4x13.BroadcastsInDim S4x13x1 (![0, 1] : Fin 2 → Fin S4x13x1.rank)
  bcast_S4x13x1_S4x13x262144_0_1_2 : S4x13x1.BroadcastsInDim S4x13x262144 (![0, 1, 2] : Fin 3 → Fin S4x13x262144.rank)
  reducesTo_S4x13_S4_d1 : S4x13.ReducesTo [1] S4
  bcast_S_S4 : S_.BroadcastsInDim S4 (![] : Fin 0 → Fin S4.rank)
  reducesTo_S4_S_d0 : S4.ReducesTo [0] S_
  reducesTo_S4x13_S_d0_1 : S4x13.ReducesTo [0, 1] S_
  bcast_S_S1 : S_.BroadcastsInDim S1 (![] : Fin 0 → Fin S1.rank)
  concatenates_S1_S1_S2_d0 : Shape.Concatenates [S1, S1] S2 0

variable [Facts₀]

class Facts : Prop extends Facts₀ where

variable [Facts]
-- ==== Proof.KPieces.lean ====
/-
  What one grid point of the kernel leaves in its three 4 by 13 accumulators, as pure terms.

  The kernel visits the 52 grid points (batch entry b, class c) in order. Each point computes three numbers from its
  label plane and its student and teacher logit planes — the edge pixel count, the Kullback-Leibler sum over the edge
  pixels and the one over the body pixels — and adds each into entry (b, c) of one accumulator, all other entries
  getting + 0. The first point zeroes the accumulators before adding; the last point copies them to the three outputs.
  Here each accumulator's contents after a point is identified with ONE term of the body's arithmetic applied to the
  point's input planes and the contents before: `newCnt`, `newKle`, `newKlb`.
-/
import proofs.«165479_j24979529793863_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

theorem hz : (![0, 0] : Fin 2 → Nat) = fun _ => 0 := funext fun a => by fin_cases a <;> rfl
theorem hz4 : (![0, 0, 0, 0] : Fin 4 → Nat) = fun _ => 0 := funext fun a => by fin_cases a <;> rfl

/-- The edge-count accumulator after a point with label plane `x2`, from its contents `xs` before. -/
def newCnt (i : grid0.Coords) (x2 : Vec F S1x1x512x512 .i32) (xs : Vec F S4x13 .f32) : Vec F S4x13 .f32 :=
  k0_pay34 (BitVec.ofNat 32 (i 0).val) (BitVec.ofNat 32 (i 1).val) (k0_pay7 i x2) xs

/-- The edge Kullback-Leibler accumulator after a point with student plane `x0`, teacher plane `x1`, label plane `x2`. -/
def newKle (i : grid0.Coords) (x0 : Vec F S1x1x512x512 .f32) (x1 : Vec F S1x1x512x512 .f32) (x2 : Vec F S1x1x512x512 .i32) (xs : Vec F S4x13 .f32) : Vec F S4x13 .f32 :=
  k0_pay35 (BitVec.ofNat 32 (i 0).val) (BitVec.ofNat 32 (i 1).val)
    (k0_pay22 (k0_pay16 (k0_pay11 i x2 x0)) (k0_pay20 (k0_pay7 i x2) (k0_pay10 x1))
      (k0_pay21 (k0_pay7 i x2) (k0_pay10 x1) (k0_pay11 i x2 x0))) xs

/-- The body Kullback-Leibler accumulator after a point. -/
def newKlb (i : grid0.Coords) (x0 : Vec F S1x1x512x512 .f32) (x1 : Vec F S1x1x512x512 .f32) (x2 : Vec F S1x1x512x512 .i32) (xs : Vec F S4x13 .f32) : Vec F S4x13 .f32 :=
  k0_pay1 (k0_pay36 (BitVec.ofNat 32 (i 0).val) (BitVec.ofNat 32 (i 1).val)
    (k0_pay25 (k0_pay12 (k0_pay8 i x2) (k0_pay9 x0))) (k0_pay29 (k0_pay13 (k0_pay8 i x2) (k0_pay10 x1)))
    (k0_pay31 (k0_pay13 (k0_pay8 i x2) (k0_pay10 x1)))
    (k0_pay32 (k0_pay12 (k0_pay8 i x2) (k0_pay9 x0)) (k0_pay13 (k0_pay8 i x2) (k0_pay10 x1))) xs)

/-- The first grid point: accumulator 0 is zeroed, read back, and updated. -/
theorem sout_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S4x13 .f32) (harg5 : arg5.IsWhole) (arg6 : Memref sig .tc .vmem S4x13 .f32) (harg6 : arg6.IsWhole) (arg7 : Memref sig .tc .vmem S4x13 .f32) (harg7 : arg7.IsWhole) (arg8 : Memref sig .tc .vmem S4x13 .f32) (harg8 : arg8.IsWhole) (arg9 : Memref sig .tc .vmem S4x13 .f32) (harg9 : arg9.IsWhole) (arg10 : Memref sig .tc .vmem S4x13 .f32) (harg10 : arg10.IsWhole) (hc0 : cond0_0 i) (hc1 : ¬cond0_1 i) (x0 : Vec F S1x1x512x512 .f32) (x1 : Vec F S1x1x512x512 .f32) (x2 : Vec F S1x1x512x512 .i32) :
    sout0_A_0 c i arg2 harg2 arg3 harg3 arg4 harg4 arg5 harg5 arg6 harg6 arg7 harg7 arg8 harg8 arg9 harg9 arg10 harg10 hc0 hc1 x0 x1 x2 = newCnt i x2 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S4x13) hz, View.readCov_unit_zero (S := S4x13) _ hz]
  simp only [View.readAt_eq_ld, harg2.read_unread, harg3.read_unread, harg4.read_unread, harg8.read_unread, harg9.read_unread, harg10.read_unread, View.ld_unit_zero (S := S4x13) hz, View.ld_unit_zero (S := S1x1x512x512) hz4]
  rfl

/-- A middle grid point: accumulator 0 is updated from what the point before left. -/
theorem sout_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S4x13 .f32) (harg5 : arg5.IsWhole) (arg6 : Memref sig .tc .vmem S4x13 .f32) (harg6 : arg6.IsWhole) (arg7 : Memref sig .tc .vmem S4x13 .f32) (harg7 : arg7.IsWhole) (arg8 : Memref sig .tc .vmem S4x13 .f32) (harg8 : arg8.IsWhole) (arg9 : Memref sig .tc .vmem S4x13 .f32) (harg9 : arg9.IsWhole) (arg10 : Memref sig .tc .vmem S4x13 .f32) (harg10 : arg10.IsWhole) (hc0 : ¬cond0_0 i) (hc1 : ¬cond0_1 i) (x0 : Vec F S1x1x512x512 .f32) (x1 : Vec F S1x1x512x512 .f32) (x2 : Vec F S1x1x512x512 .i32) (xs0 xs1 xs2 : Vec F S4x13 .f32) :
    sout0_B_0 c i arg2 harg2 arg3 harg3 arg4 harg4 arg5 harg5 arg6 harg6 arg7 harg7 arg8 harg8 arg9 harg9 arg10 harg10 hc0 hc1 x0 x1 x2 xs0 xs1 xs2 = newCnt i x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg8.read_unread, harg9.read_unread, harg10.read_unread, View.ld_unit_zero (S := S4x13) hz, View.ld_unit_zero (S := S1x1x512x512) hz4]
  rfl

/-- The last grid point: accumulator 0 is updated the same way … -/
theorem sout_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S4x13 .f32) (harg5 : arg5.IsWhole) (arg6 : Memref sig .tc .vmem S4x13 .f32) (harg6 : arg6.IsWhole) (arg7 : Memref sig .tc .vmem S4x13 .f32) (harg7 : arg7.IsWhole) (arg8 : Memref sig .tc .vmem S4x13 .f32) (harg8 : arg8.IsWhole) (arg9 : Memref sig .tc .vmem S4x13 .f32) (harg9 : arg9.IsWhole) (arg10 : Memref sig .tc .vmem S4x13 .f32) (harg10 : arg10.IsWhole) (hc0 : ¬cond0_0 i) (hc1 : cond0_1 i) (x0 : Vec F S1x1x512x512 .f32) (x1 : Vec F S1x1x512x512 .f32) (x2 : Vec F S1x1x512x512 .i32) (xs0 xs1 xs2 : Vec F S4x13 .f32) :
    sout0_C_0 c i arg2 harg2 arg3 harg3 arg4 harg4 arg5 harg5 arg6 harg6 arg7 harg7 arg8 harg8 arg9 harg9 arg10 harg10 hc0 hc1 x0 x1 x2 xs0 xs1 xs2 = newCnt i x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg8.read_unread, harg9.read_unread, harg10.read_unread, View.ld_unit_zero (S := S4x13) hz, View.ld_unit_zero (S := S1x1x512x512) hz4]
  rfl

/-- … and copied whole into output 3. -/
theorem out_C_3 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S4x13 .f32) (harg5 : arg5.IsWhole) (arg6 : Memref sig .tc .vmem S4x13 .f32) (harg6 : arg6.IsWhole) (arg7 : Memref sig .tc .vmem S4x13 .f32) (harg7 : arg7.IsWhole) (arg8 : Memref sig .tc .vmem S4x13 .f32) (harg8 : arg8.IsWhole) (arg9 : Memref sig .tc .vmem S4x13 .f32) (harg9 : arg9.IsWhole) (arg10 : Memref sig .tc .vmem S4x13 .f32) (harg10 : arg10.IsWhole) (hc0 : ¬cond0_0 i) (hc1 : cond0_1 i) (x0 : Vec F S1x1x512x512 .f32) (x1 : Vec F S1x1x512x512 .f32) (x2 : Vec F S1x1x512x512 .i32) (xs0 xs1 xs2 : Vec F S4x13 .f32) :
    out0_C_3 c i arg2 harg2 arg3 harg3 arg4 harg4 arg5 harg5 arg6 harg6 arg7 harg7 arg8 harg8 arg9 harg9 arg10 harg10 hc0 hc1 x0 x1 x2 xs0 xs1 xs2 = newCnt i x2 xs0 := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz, View.readCov_unit_zero (S := S4x13) _ hz]
  simp only [View.readAt_eq_ld, harg2.read_unread, harg3.read_unread, harg4.read_unread, harg8.read_unread, harg9.read_unread, harg10.read_unread, View.ld_unit_zero (S := S4x13) hz, View.ld_unit_zero (S := S1x1x512x512) hz4]
  rfl

/-- The first grid point: accumulator 1 is zeroed, read back, and updated. -/
theorem sout_A_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S4x13 .f32) (harg5 : arg5.IsWhole) (arg6 : Memref sig .tc .vmem S4x13 .f32) (harg6 : arg6.IsWhole) (arg7 : Memref sig .tc .vmem S4x13 .f32) (harg7 : arg7.IsWhole) (arg8 : Memref sig .tc .vmem S4x13 .f32) (harg8 : arg8.IsWhole) (arg9 : Memref sig .tc .vmem S4x13 .f32) (harg9 : arg9.IsWhole) (arg10 : Memref sig .tc .vmem S4x13 .f32) (harg10 : arg10.IsWhole) (hc0 : cond0_0 i) (hc1 : ¬cond0_1 i) (x0 : Vec F S1x1x512x512 .f32) (x1 : Vec F S1x1x512x512 .f32) (x2 : Vec F S1x1x512x512 .i32) :
    sout0_A_1 c i arg2 harg2 arg3 harg3 arg4 harg4 arg5 harg5 arg6 harg6 arg7 harg7 arg8 harg8 arg9 harg9 arg10 harg10 hc0 hc1 x0 x1 x2 = newKle i x0 x1 x2 k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S4x13) hz, View.readCov_unit_zero (S := S4x13) _ hz]
  simp only [View.readAt_eq_ld, harg2.read_unread, harg3.read_unread, harg4.read_unread, harg8.read_unread, harg9.read_unread, harg10.read_unread, View.ld_unit_zero (S := S4x13) hz, View.ld_unit_zero (S := S1x1x512x512) hz4]
  rfl

/-- A middle grid point: accumulator 1 is updated from what the point before left. -/
theorem sout_B_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S4x13 .f32) (harg5 : arg5.IsWhole) (arg6 : Memref sig .tc .vmem S4x13 .f32) (harg6 : arg6.IsWhole) (arg7 : Memref sig .tc .vmem S4x13 .f32) (harg7 : arg7.IsWhole) (arg8 : Memref sig .tc .vmem S4x13 .f32) (harg8 : arg8.IsWhole) (arg9 : Memref sig .tc .vmem S4x13 .f32) (harg9 : arg9.IsWhole) (arg10 : Memref sig .tc .vmem S4x13 .f32) (harg10 : arg10.IsWhole) (hc0 : ¬cond0_0 i) (hc1 : ¬cond0_1 i) (x0 : Vec F S1x1x512x512 .f32) (x1 : Vec F S1x1x512x512 .f32) (x2 : Vec F S1x1x512x512 .i32) (xs0 xs1 xs2 : Vec F S4x13 .f32) :
    sout0_B_1 c i arg2 harg2 arg3 harg3 arg4 harg4 arg5 harg5 arg6 harg6 arg7 harg7 arg8 harg8 arg9 harg9 arg10 harg10 hc0 hc1 x0 x1 x2 xs0 xs1 xs2 = newKle i x0 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg8.read_unread, harg9.read_unread, harg10.read_unread, View.ld_unit_zero (S := S4x13) hz, View.ld_unit_zero (S := S1x1x512x512) hz4]
  rfl

/-- The last grid point: accumulator 1 is updated the same way … -/
theorem sout_C_1 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S4x13 .f32) (harg5 : arg5.IsWhole) (arg6 : Memref sig .tc .vmem S4x13 .f32) (harg6 : arg6.IsWhole) (arg7 : Memref sig .tc .vmem S4x13 .f32) (harg7 : arg7.IsWhole) (arg8 : Memref sig .tc .vmem S4x13 .f32) (harg8 : arg8.IsWhole) (arg9 : Memref sig .tc .vmem S4x13 .f32) (harg9 : arg9.IsWhole) (arg10 : Memref sig .tc .vmem S4x13 .f32) (harg10 : arg10.IsWhole) (hc0 : ¬cond0_0 i) (hc1 : cond0_1 i) (x0 : Vec F S1x1x512x512 .f32) (x1 : Vec F S1x1x512x512 .f32) (x2 : Vec F S1x1x512x512 .i32) (xs0 xs1 xs2 : Vec F S4x13 .f32) :
    sout0_C_1 c i arg2 harg2 arg3 harg3 arg4 harg4 arg5 harg5 arg6 harg6 arg7 harg7 arg8 harg8 arg9 harg9 arg10 harg10 hc0 hc1 x0 x1 x2 xs0 xs1 xs2 = newKle i x0 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg8.read_unread, harg9.read_unread, harg10.read_unread, View.ld_unit_zero (S := S4x13) hz, View.ld_unit_zero (S := S1x1x512x512) hz4]
  rfl

/-- … and copied whole into output 4. -/
theorem out_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S4x13 .f32) (harg5 : arg5.IsWhole) (arg6 : Memref sig .tc .vmem S4x13 .f32) (harg6 : arg6.IsWhole) (arg7 : Memref sig .tc .vmem S4x13 .f32) (harg7 : arg7.IsWhole) (arg8 : Memref sig .tc .vmem S4x13 .f32) (harg8 : arg8.IsWhole) (arg9 : Memref sig .tc .vmem S4x13 .f32) (harg9 : arg9.IsWhole) (arg10 : Memref sig .tc .vmem S4x13 .f32) (harg10 : arg10.IsWhole) (hc0 : ¬cond0_0 i) (hc1 : cond0_1 i) (x0 : Vec F S1x1x512x512 .f32) (x1 : Vec F S1x1x512x512 .f32) (x2 : Vec F S1x1x512x512 .i32) (xs0 xs1 xs2 : Vec F S4x13 .f32) :
    out0_C_4 c i arg2 harg2 arg3 harg3 arg4 harg4 arg5 harg5 arg6 harg6 arg7 harg7 arg8 harg8 arg9 harg9 arg10 harg10 hc0 hc1 x0 x1 x2 xs0 xs1 xs2 = newKle i x0 x1 x2 xs1 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz, View.readCov_unit_zero (S := S4x13) _ hz]
  simp only [View.readAt_eq_ld, harg2.read_unread, harg3.read_unread, harg4.read_unread, harg8.read_unread, harg9.read_unread, harg10.read_unread, View.ld_unit_zero (S := S4x13) hz, View.ld_unit_zero (S := S1x1x512x512) hz4]
  rfl

/-- The first grid point: accumulator 2 is zeroed, read back, and updated. -/
theorem sout_A_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S4x13 .f32) (harg5 : arg5.IsWhole) (arg6 : Memref sig .tc .vmem S4x13 .f32) (harg6 : arg6.IsWhole) (arg7 : Memref sig .tc .vmem S4x13 .f32) (harg7 : arg7.IsWhole) (arg8 : Memref sig .tc .vmem S4x13 .f32) (harg8 : arg8.IsWhole) (arg9 : Memref sig .tc .vmem S4x13 .f32) (harg9 : arg9.IsWhole) (arg10 : Memref sig .tc .vmem S4x13 .f32) (harg10 : arg10.IsWhole) (hc0 : cond0_0 i) (hc1 : ¬cond0_1 i) (x0 : Vec F S1x1x512x512 .f32) (x1 : Vec F S1x1x512x512 .f32) (x2 : Vec F S1x1x512x512 .i32) :
    sout0_A_2 c i arg2 harg2 arg3 harg3 arg4 harg4 arg5 harg5 arg6 harg6 arg7 harg7 arg8 harg8 arg9 harg9 arg10 harg10 hc0 hc1 x0 x1 x2 = newKlb i x0 x1 x2 k0_pay4 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S4x13) hz, View.readCov_unit_zero (S := S4x13) _ hz]
  simp only [View.readAt_eq_ld, harg2.read_unread, harg3.read_unread, harg4.read_unread, harg8.read_unread, harg9.read_unread, harg10.read_unread, View.ld_unit_zero (S := S4x13) hz, View.ld_unit_zero (S := S1x1x512x512) hz4]
  rfl

/-- A middle grid point: accumulator 2 is updated from what the point before left. -/
theorem sout_B_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S4x13 .f32) (harg5 : arg5.IsWhole) (arg6 : Memref sig .tc .vmem S4x13 .f32) (harg6 : arg6.IsWhole) (arg7 : Memref sig .tc .vmem S4x13 .f32) (harg7 : arg7.IsWhole) (arg8 : Memref sig .tc .vmem S4x13 .f32) (harg8 : arg8.IsWhole) (arg9 : Memref sig .tc .vmem S4x13 .f32) (harg9 : arg9.IsWhole) (arg10 : Memref sig .tc .vmem S4x13 .f32) (harg10 : arg10.IsWhole) (hc0 : ¬cond0_0 i) (hc1 : ¬cond0_1 i) (x0 : Vec F S1x1x512x512 .f32) (x1 : Vec F S1x1x512x512 .f32) (x2 : Vec F S1x1x512x512 .i32) (xs0 xs1 xs2 : Vec F S4x13 .f32) :
    sout0_B_2 c i arg2 harg2 arg3 harg3 arg4 harg4 arg5 harg5 arg6 harg6 arg7 harg7 arg8 harg8 arg9 harg9 arg10 harg10 hc0 hc1 x0 x1 x2 xs0 xs1 xs2 = newKlb i x0 x1 x2 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg8.read_unread, harg9.read_unread, harg10.read_unread, View.ld_unit_zero (S := S4x13) hz, View.ld_unit_zero (S := S1x1x512x512) hz4]
  rfl

/-- The last grid point: accumulator 2 is updated the same way … -/
theorem sout_C_2 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S4x13 .f32) (harg5 : arg5.IsWhole) (arg6 : Memref sig .tc .vmem S4x13 .f32) (harg6 : arg6.IsWhole) (arg7 : Memref sig .tc .vmem S4x13 .f32) (harg7 : arg7.IsWhole) (arg8 : Memref sig .tc .vmem S4x13 .f32) (harg8 : arg8.IsWhole) (arg9 : Memref sig .tc .vmem S4x13 .f32) (harg9 : arg9.IsWhole) (arg10 : Memref sig .tc .vmem S4x13 .f32) (harg10 : arg10.IsWhole) (hc0 : ¬cond0_0 i) (hc1 : cond0_1 i) (x0 : Vec F S1x1x512x512 .f32) (x1 : Vec F S1x1x512x512 .f32) (x2 : Vec F S1x1x512x512 .i32) (xs0 xs1 xs2 : Vec F S4x13 .f32) :
    sout0_C_2 c i arg2 harg2 arg3 harg3 arg4 harg4 arg5 harg5 arg6 harg6 arg7 harg7 arg8 harg8 arg9 harg9 arg10 harg10 hc0 hc1 x0 x1 x2 xs0 xs1 xs2 = newKlb i x0 x1 x2 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg8.read_unread, harg9.read_unread, harg10.read_unread, View.ld_unit_zero (S := S4x13) hz, View.ld_unit_zero (S := S1x1x512x512) hz4]
  rfl

/-- … and copied whole into output 5. -/
theorem out_C_5 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .i32) (harg4 : arg4.IsWhole) (arg5 : Memref sig .tc .vmem S4x13 .f32) (harg5 : arg5.IsWhole) (arg6 : Memref sig .tc .vmem S4x13 .f32) (harg6 : arg6.IsWhole) (arg7 : Memref sig .tc .vmem S4x13 .f32) (harg7 : arg7.IsWhole) (arg8 : Memref sig .tc .vmem S4x13 .f32) (harg8 : arg8.IsWhole) (arg9 : Memref sig .tc .vmem S4x13 .f32) (harg9 : arg9.IsWhole) (arg10 : Memref sig .tc .vmem S4x13 .f32) (harg10 : arg10.IsWhole) (hc0 : ¬cond0_0 i) (hc1 : cond0_1 i) (x0 : Vec F S1x1x512x512 .f32) (x1 : Vec F S1x1x512x512 .f32) (x2 : Vec F S1x1x512x512 .i32) (xs0 xs1 xs2 : Vec F S4x13 .f32) :
    out0_C_5 c i arg2 harg2 arg3 harg3 arg4 harg4 arg5 harg5 arg6 harg6 arg7 harg7 arg8 harg8 arg9 harg9 arg10 harg10 hc0 hc1 x0 x1 x2 xs0 xs1 xs2 = newKlb i x0 x1 x2 xs2 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero hz, View.readCov_unit_zero (S := S4x13) _ hz]
  simp only [View.readAt_eq_ld, harg2.read_unread, harg3.read_unread, harg4.read_unread, harg8.read_unread, harg9.read_unread, harg10.read_unread, View.ld_unit_zero (S := S4x13) hz, View.ld_unit_zero (S := S1x1x512x512) hz4]
  rfl

end Cert.KernelIdeal.KVal

end
-- ==== Proof.KInv.lean ====
/-
  The three accumulators after each grid point, by induction on the point.

  After point n the accumulators hold the ordered composition of the per-point updates of points 0 … n, starting
  from the zero blocks the first point stores. The generated frame states the accumulators point by point over the
  cases (first / middle / last point); by induction on the point they are this chain, and the three outputs, stored
  once at the last point, are the chain's last value.
-/
import proofs.«165479_j24979529793863_2_alg».proof.Proof.KPieces

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

/-- The three accumulators as one value: edge count, edge sum, body sum. -/
abbrev Acc (F : FTy → Type) [FloatOps F] := Vec F S4x13 .f32 × Vec F S4x13 .f32 × Vec F S4x13 .f32

/-- One point's update of the three accumulators, from the student, teacher and label planes the body reads there. -/
def step (c : Dev nD) (t : Fin cfg0.N) (p : Acc F) : Acc F :=
  (newCnt (grid0.coords t) (iblk m c 2 t) p.1,
   newKle (grid0.coords t) (iblk m c 0 t) (iblk m c 1 t) (iblk m c 2 t) p.2.1,
   newKlb (grid0.coords t) (iblk m c 0 t) (iblk m c 1 t) (iblk m c 2 t) p.2.2)

/-- The zero blocks the first point stores. -/
def acc0 : Acc F := (k0_pay2, k0_pay3, k0_pay4)

set_option maxHeartbeats 1000000 in
/-- The first point: the accumulators are the update of the zero blocks. -/
theorem step_A (c : Dev nD) (t : Fin cfg0.N) (h0 : t.val % 52 = 0) (h1 : ¬t.val % 52 = 51) :
    (outsAt0 m c t.val t.isLt).2.2.2 = step m c t acc0 := by
  rw [outsAt0_A m c t h0 h1]
  exact Prod.ext (sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t))
    (Prod.ext (sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t))
      (sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)))

set_option maxHeartbeats 1000000 in
/-- A middle point: the accumulators are the update of what the point before left. -/
theorem step_B (c : Dev nD) (t : Fin cfg0.N) (h0 : ¬t.val % 52 = 0) (h1 : ¬t.val % 52 = 51) :
    (outsAt0 m c t.val t.isLt).2.2.2 = step m c t (outsAt0 m c (t.val - 1) (Nat.lt_of_le_of_lt (Nat.sub_le _ _) t.isLt)).2.2.2 := by
  rw [outsAt0_B m c t h0 h1]
  exact Prod.ext (sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    (Prod.ext (sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
      (sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2))

set_option maxHeartbeats 1000000 in
/-- The last point: the accumulators likewise … -/
theorem step_C (c : Dev nD) (t : Fin cfg0.N) (h0 : ¬t.val % 52 = 0) (h1 : t.val % 52 = 51) :
    (outsAt0 m c t.val t.isLt).2.2.2 = step m c t (outsAt0 m c (t.val - 1) (Nat.lt_of_le_of_lt (Nat.sub_le _ _) t.isLt)).2.2.2 := by
  rw [outsAt0_C m c t h0 h1]
  exact Prod.ext (sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    (Prod.ext (sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
      (sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2))

set_option maxHeartbeats 1000000 in
/-- … and the three outputs' staging buffers are the same three values, copied. -/
theorem outs_C (c : Dev nD) (t : Fin cfg0.N) (h0 : ¬t.val % 52 = 0) (h1 : t.val % 52 = 51) :
    ((outsAt0 m c t.val t.isLt).1, (outsAt0 m c t.val t.isLt).2.1, (outsAt0 m c t.val t.isLt).2.2.1)
      = step m c t (outsAt0 m c (t.val - 1) (Nat.lt_of_le_of_lt (Nat.sub_le _ _) t.isLt)).2.2.2 := by
  rw [outsAt0_C m c t h0 h1]
  exact Prod.ext (out_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    (Prod.ext (out_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
      (out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2))

/-- The accumulators after point `n`. -/
def chain (c : Dev nD) : (n : ℕ) → n < cfg0.N → Acc F
  | 0, h => step m c ⟨0, h⟩ acc0
  | n + 1, h => step m c ⟨n + 1, h⟩ (chain c n (Nat.lt_of_succ_lt h))

/-- The chain's recursion, as an equation. -/
theorem chain_succ (c : Dev nD) (n : ℕ) (h : n + 1 < cfg0.N) :
    chain m c (n + 1) h = step m c ⟨n + 1, h⟩ (chain m c n (Nat.lt_of_succ_lt h)) := by
  rw [chain]

set_option maxHeartbeats 1000000 in
/-- The frame's accumulators after point `n` are the chain. -/
theorem outsAt_scr (c : Dev nD) (n : ℕ) : ∀ h : n < cfg0.N, (outsAt0 m c n h).2.2.2 = chain m c n h := by
  induction n with
  | zero =>
    intro h
    exact step_A m c ⟨0, h⟩ (Nat.zero_mod _) (by show ¬ 0 % 52 = 51; decide)
  | succ n ih =>
    intro h
    have hN : cfg0.N = 52 := N_0
    have h0 : ¬(⟨n + 1, h⟩ : Fin cfg0.N).val % 52 = 0 := by show ¬ (n + 1) % 52 = 0; omega
    have ih' : (outsAt0 m c n (Nat.lt_of_succ_lt h)).2.2.2 = chain m c n (Nat.lt_of_succ_lt h) := ih _
    rw [chain_succ]
    by_cases h1 : (⟨n + 1, h⟩ : Fin cfg0.N).val % 52 = 51
    · exact (step_C m c ⟨n + 1, h⟩ h0 h1).trans (congrArg (step m c ⟨n + 1, h⟩) ih')
    · exact (step_B m c ⟨n + 1, h⟩ h0 h1).trans (congrArg (step m c ⟨n + 1, h⟩) ih')

/-- The last point's index. -/
abbrev tLast : Fin cfg0.N := ⟨50 + 1, by rw [show cfg0.N = 52 from N_0]; decide⟩

set_option maxHeartbeats 1000000 in
/-- The three outputs' staging buffers after a point that stores them (the last one): the chain's value there. -/
theorem outs_at (c : Dev nD) (n : ℕ) (h : n + 1 < cfg0.N) (h1 : (n + 1) % 52 = 51) :
    ((outsAt0 m c (n + 1) h).1, (outsAt0 m c (n + 1) h).2.1, (outsAt0 m c (n + 1) h).2.2.1) = chain m c (n + 1) h := by
  have hN : cfg0.N = 52 := N_0
  have h0 : ¬(⟨n + 1, h⟩ : Fin cfg0.N).val % 52 = 0 := by show ¬ (n + 1) % 52 = 0; omega
  have ih : (outsAt0 m c n (Nat.lt_of_succ_lt h)).2.2.2 = chain m c n (Nat.lt_of_succ_lt h) := outsAt_scr m c n _
  rw [chain_succ]
  exact (outs_C m c ⟨n + 1, h⟩ h0 h1).trans (congrArg (step m c ⟨n + 1, h⟩) ih)

end Cert.KernelIdeal.KVal

end
-- ==== Proof.KFinal.lean ====
/-
  The three result arrays of the kernel's region.

  Each output window is the whole 4 by 13 array and is written back once, after the last grid point; what it then
  holds is the corresponding accumulator after that point. So the three arrays end at the accumulators' last values:
  the edge counts, the edge sums and the body sums of all 52 (batch entry, class) pairs.
-/
import proofs.«165479_j24979529793863_2_alg».proof.Proof.KInv

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

/-- The accumulators after the last point, as contents of the three result arrays. -/
abbrev resCnt (c : Dev nD) : Buf (Elt F) ((c : Thread nD τ).loc main_v0_0) := (chain m c (50 + 1) tLast.isLt).1
abbrev resKle (c : Dev nD) : Buf (Elt F) ((c : Thread nD τ).loc main_v0_1) := (chain m c (50 + 1) tLast.isLt).2.1
abbrev resKlb (c : Dev nD) : Buf (Elt F) ((c : Thread nD τ).loc main_v0_2) := (chain m c (50 + 1) tLast.isLt).2.2

/-- Output 3's one write-back, at the last point, writes the Cnt: its block is the whole 4 by 13 array. -/
theorem flushed_3 (c : Dev nD) (t : Fin cfg0.N) (hf : (cfg0.win 3).flush t = true) :
    (dats m 0 c).flushed 3 t = ((cfg0.win 3).blk t).view.read (Elt F) (resCnt m c) := by
  have hN : cfg0.N = 52 := N_0
  have h3 : t.val = 51 := by have := (flush0_3 t).mp hf; have := t.isLt; omega
  obtain rfl : t = tLast := Fin.ext h3
  show (cfg0.win 3).cut (grid0.coords tLast) ((dats m 0 c).after 3 tLast) = _
  rw [after0_3, show (outsAt0 m c tLast.val tLast.isLt).1 = (chain m c (50 + 1) tLast.isLt).1 from congrArg (fun p : Acc F => p.1) (outs_at m c 50 tLast.isLt (by decide))]
  have hz' : (fun a => win0_3.index tLast a * main_v0_0.ty.shape.size a) = fun _ => 0 := funext fun a => by fin_cases a <;> decide +kernel
  exact (Memref.read_access_unit_zero (Elt F) main_v0_0 hz' (fun a => by rw [congrFun hz' a]; simp) (resCnt m c)).symm

/-- So result array 0 ends holding the Cnt. -/
theorem final_3 (c : Dev nD) : (dats m 0 c).arrAt 3 cfg0.N = resCnt m c :=
  (dats m 0 c).arrAt_eq_of_cover 3 (resCnt m c) (flushed_3 m c) fun i =>
    ⟨tLast, (flush0_3 tLast).mpr (by decide), by
      show i ∈ ((View.whole main_v0_0).slice (win0_3.rect tLast)).set
      rw [View.set_slice_whole, Rect.mem_set_unit]
      intro a
      have h0 : (i 0 : Nat) < 4 := (i 0).isLt
      have h1 : (i 1 : Nat) < 13 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 4 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 13 from by decide +kernel]; omega⟩

/-- Output 4's one write-back, at the last point, writes the Kle: its block is the whole 4 by 13 array. -/
theorem flushed_4 (c : Dev nD) (t : Fin cfg0.N) (hf : (cfg0.win 4).flush t = true) :
    (dats m 0 c).flushed 4 t = ((cfg0.win 4).blk t).view.read (Elt F) (resKle m c) := by
  have hN : cfg0.N = 52 := N_0
  have h3 : t.val = 51 := by have := (flush0_4 t).mp hf; have := t.isLt; omega
  obtain rfl : t = tLast := Fin.ext h3
  show (cfg0.win 4).cut (grid0.coords tLast) ((dats m 0 c).after 4 tLast) = _
  rw [after0_4, show (outsAt0 m c tLast.val tLast.isLt).2.1 = (chain m c (50 + 1) tLast.isLt).2.1 from congrArg (fun p : Acc F => p.2.1) (outs_at m c 50 tLast.isLt (by decide))]
  have hz' : (fun a => win0_4.index tLast a * main_v0_1.ty.shape.size a) = fun _ => 0 := funext fun a => by fin_cases a <;> decide +kernel
  exact (Memref.read_access_unit_zero (Elt F) main_v0_1 hz' (fun a => by rw [congrFun hz' a]; simp) (resKle m c)).symm

/-- So result array 1 ends holding the Kle. -/
theorem final_4 (c : Dev nD) : (dats m 0 c).arrAt 4 cfg0.N = resKle m c :=
  (dats m 0 c).arrAt_eq_of_cover 4 (resKle m c) (flushed_4 m c) fun i =>
    ⟨tLast, (flush0_4 tLast).mpr (by decide), by
      show i ∈ ((View.whole main_v0_1).slice (win0_4.rect tLast)).set
      rw [View.set_slice_whole, Rect.mem_set_unit]
      intro a
      have h0 : (i 0 : Nat) < 4 := (i 0).isLt
      have h1 : (i 1 : Nat) < 13 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 4 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 13 from by decide +kernel]; omega⟩

/-- Output 5's one write-back, at the last point, writes the Klb: its block is the whole 4 by 13 array. -/
theorem flushed_5 (c : Dev nD) (t : Fin cfg0.N) (hf : (cfg0.win 5).flush t = true) :
    (dats m 0 c).flushed 5 t = ((cfg0.win 5).blk t).view.read (Elt F) (resKlb m c) := by
  have hN : cfg0.N = 52 := N_0
  have h3 : t.val = 51 := by have := (flush0_5 t).mp hf; have := t.isLt; omega
  obtain rfl : t = tLast := Fin.ext h3
  show (cfg0.win 5).cut (grid0.coords tLast) ((dats m 0 c).after 5 tLast) = _
  rw [after0_5, show (outsAt0 m c tLast.val tLast.isLt).2.2.1 = (chain m c (50 + 1) tLast.isLt).2.2 from congrArg (fun p : Acc F => p.2.2) (outs_at m c 50 tLast.isLt (by decide))]
  have hz' : (fun a => win0_5.index tLast a * main_v0_2.ty.shape.size a) = fun _ => 0 := funext fun a => by fin_cases a <;> decide +kernel
  exact (Memref.read_access_unit_zero (Elt F) main_v0_2 hz' (fun a => by rw [congrFun hz' a]; simp) (resKlb m c)).symm

/-- So result array 2 ends holding the Klb. -/
theorem final_5 (c : Dev nD) : (dats m 0 c).arrAt 5 cfg0.N = resKlb m c :=
  (dats m 0 c).arrAt_eq_of_cover 5 (resKlb m c) (flushed_5 m c) fun i =>
    ⟨tLast, (flush0_5 tLast).mpr (by decide), by
      show i ∈ ((View.whole main_v0_2).slice (win0_5.rect tLast)).set
      rw [View.set_slice_whole, Rect.mem_set_unit]
      intro a
      have h0 : (i 0 : Nat) < 4 := (i 0).isLt
      have h1 : (i 1 : Nat) < 13 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 4 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 13 from by decide +kernel]; omega⟩

end Cert.KernelIdeal.KVal

end
-- ==== Proof.TailSpec.lean ====
/-
  The last stage of the loss, as one function of four arrays.

  Given, for every plane b and class c, the bit "this class has an edge in this plane" (valid), the per-plane number of
  edge pixels as a number (nEdge), and two arrays E and B of per-plane, per-class values, the stage computes two numbers:

    first  = 50 * (sum over the planes b of  [ s_b > 0 ] * s_b / max (nEdge_b, 1)) / 4,
             where s_b is the sum over the classes c of (E b c where valid b c, else 0);
    second = 20 * (sum over all planes and classes of (B b c where valid b c, else 0)) / 56;

  and returns the array of length two holding them. Every float is an extended real and every operation exact.
-/
import proofs.«165479_j24979529793863_2_alg».proof.Defs

noncomputable section

namespace Cert.TailSpec

open Idealize.ShloMosaic

/-- The scalar shape. -/
abbrev S_ : Shape := ⟨0, ![]⟩
/-- One element. -/
abbrev S1 : Shape := ⟨1, ![1]⟩
/-- Two elements: the result. -/
abbrev S2 : Shape := ⟨1, ![2]⟩
/-- One element per plane. -/
abbrev S4 : Shape := ⟨1, ![4]⟩
/-- One element per plane and class. -/
abbrev S4x13 : Shape := ⟨2, ![4, 13]⟩

theorem h_S_ : 0 < S_.numel := by decide
theorem bcast_S_S4x13 : S_.BroadcastsInDim S4x13 (![] : Fin 0 → Fin S4x13.rank) := by decide
theorem bcast_S_S4 : S_.BroadcastsInDim S4 (![] : Fin 0 → Fin S4.rank) := by decide
theorem bcast_S_S1 : S_.BroadcastsInDim S1 (![] : Fin 0 → Fin S1.rank) := by decide
theorem reducesTo_S4x13_S4_d1 : S4x13.ReducesTo [1] S4 := by decide
theorem reducesTo_S4_S_d0 : S4.ReducesTo [0] S_ := by decide
theorem reducesTo_S4x13_S_d0_1 : S4x13.ReducesTo [0, 1] S_ := by decide
theorem concatenates_S1_S1_S2_d0 : Shape.Concatenates [S1, S1] S2 0 := by decide

/-- The zero scalar. -/
def zero : FVec Ideal S_ .f32 := constant (F := Ideal) S_ .f32 0x00000000#32
/-- The one scalar. -/
def one : FVec Ideal S_ .f32 := constant (F := Ideal) S_ .f32 0x3F800000#32

/-- E where the class has an edge, else zero. -/
def maskedE (valid : IVec S4x13 1) (E : FVec Ideal S4x13 .f32) : FVec Ideal S4x13 .f32 :=
  select valid E (broadcastInDim S4x13 ![] bcast_S_S4x13 (id zero))
/-- Its sum over the classes, per plane. -/
def sumE (valid : IVec S4x13 1) (E : FVec Ideal S4x13 .f32) : FVec Ideal S4 .f32 :=
  Host.reduceAdd (maskedE valid E) zero reducesTo_S4x13_S4_d1 h_S_
/-- "The plane's sum is positive". -/
def posE (valid : IVec S4x13 1) (E : FVec Ideal S4x13 .f32) : IVec S4 1 :=
  cmpf .ogt (sumE valid E) (broadcastInDim S4 ![] bcast_S_S4 zero)
/-- The plane's sum over the larger of its edge-pixel count and one. -/
def meanE (valid : IVec S4x13 1) (nEdge : FVec Ideal S4 .f32) (E : FVec Ideal S4x13 .f32) : FVec Ideal S4 .f32 :=
  Host.divf (sumE valid E) (maximumf nEdge (broadcastInDim S4 ![] bcast_S_S4 one))
/-- The first number before its scaling: the sum over the planes of the quotient where the sum is positive. -/
def totalE (valid : IVec S4x13 1) (nEdge : FVec Ideal S4 .f32) (E : FVec Ideal S4x13 .f32) : FVec Ideal S_ .f32 :=
  Host.reduceAdd (select (posE valid E) (meanE valid nEdge E) (broadcastInDim S4 ![] bcast_S_S4 (id zero))) zero
    reducesTo_S4_S_d0 h_S_
/-- The second number before its scaling: the sum over all planes and classes of B where the class has an edge. -/
def totalB (valid : IVec S4x13 1) (B : FVec Ideal S4x13 .f32) : FVec Ideal S_ .f32 :=
  Host.reduceAdd (select valid B (broadcastInDim S4x13 ![] bcast_S_S4x13 (id zero))) zero reducesTo_S4x13_S_d0_1 h_S_

/-- The last stage: the two scaled numbers, 50 * totalE / 4 and 20 * totalB / 56, side by side. -/
def tailR (valid : IVec S4x13 1) (nEdge : FVec Ideal S4 .f32) (E B : FVec Ideal S4x13 .f32) : FVec Ideal S2 .f32 :=
  concatenate S2 0
    [⟨S1, broadcastInDim S1 ![] bcast_S_S1
        (Host.divf (mulf (constant (F := Ideal) S_ .f32 0x42480000#32) (totalE valid nEdge E))
          (constant (F := Ideal) S_ .f32 0x40800000#32))⟩,
     ⟨S1, broadcastInDim S1 ![] bcast_S_S1
        (Host.divf (mulf (constant (F := Ideal) S_ .f32 0x41A00000#32) (totalB valid B))
          (constant (F := Ideal) S_ .f32 0x42600000#32))⟩]
    concatenates_S1_S1_S2_d0

end Cert.TailSpec

end
-- ==== Proof.LibERealSum.lean ====
/-
  Finite sums of real numbers read as extended reals.

  The coercion ℝ → EReal is additive, so it commutes with finite sums: the coercion of a finite sum
  of reals is the sum of the coercions.  Consequently a finite sum of extended reals each of which
  is the coercion of a real is the coercion of the real sum, and a finite sum of products of two
  such families is the coercion of the real sum of products (the coercion is multiplicative too).
  No infinity can arise in such sums, so they may be computed in ℝ.
-/
import Mathlib.Data.EReal.Operations
import Mathlib.Algebra.BigOperators.Group.Finset.Basic

open scoped BigOperators

namespace ERealSum

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of extended reals that are termwise coercions of reals is the coercion of the real sum. -/
theorem sum_eq_coe {ι : Type*} (s : Finset ι) (g : ι → EReal) (f : ι → ℝ) (h : ∀ i ∈ s, g i = ((f i : ℝ) : EReal)) :
    ∑ i ∈ s, g i = ((∑ i ∈ s, f i : ℝ) : EReal) := by
  rw [coe_sum]; exact Finset.sum_congr rfl h

/-- A finite sum of products of two families of termwise coercions is the coercion of the real sum of products. -/
theorem sum_mul_eq_coe {ι : Type*} (s : Finset ι) (g h : ι → EReal) (f k : ι → ℝ)
    (hg : ∀ i ∈ s, g i = ((f i : ℝ) : EReal)) (hh : ∀ i ∈ s, h i = ((k i : ℝ) : EReal)) :
    ∑ i ∈ s, g i * h i = ((∑ i ∈ s, f i * k i : ℝ) : EReal) :=
  sum_eq_coe s _ _ fun i hi => by rw [hg i hi, hh i hi, ← EReal.coe_mul]

end ERealSum
-- ==== Proof.KTailIn.lean ====
/-
  The two inputs the kernel program computes for the last stage from its array of edge counts.

  The kernel's edge counts are floats holding natural numbers. The bit "the class has an edge in the plane" is the
  comparison of the count with zero: it is set exactly when the number is positive. The plane's number of edge pixels
  is the sum over the classes of the counts selected by that bit; a count of zero contributes zero either way, so it
  is the sum of all the plane's counts, as a number.
-/
import proofs.«165479_j24979529793863_2_alg».proof.Proof.TailSpec
import proofs.«165479_j24979529793863_2_alg».proof.Proof.LibERealSum
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.KTailIn

open Idealize.ShloMosaic Idealize.ShloMosaic.ValueIdx Cert.TailSpec

/-- "The class has an edge in the plane": its edge count, as a float, is positive. -/
def kValid (cnt : FVec Ideal S4x13 .f32) : IVec S4x13 1 :=
  cmpf .ogt cnt (broadcastInDim S4x13 ![] bcast_S_S4x13 zero)

/-- The plane's number of edge pixels: the sum over the classes of the counts where the bit is set. -/
def kNEdge (cnt : FVec Ideal S4x13 .f32) : FVec Ideal S4 .f32 :=
  Host.reduceAdd (select (kValid cnt) cnt (broadcastInDim S4x13 ![] bcast_S_S4x13 (id zero))) zero reducesTo_S4x13_S4_d1 h_S_

theorem zero_apply (j : S_.Idx) : zero j = (0 : EReal) := by
  unfold zero
  rw [constant_apply]
  exact Ideal.ofBits_zero_f32

theorem bzero_apply (j : S4x13.Idx) : broadcastInDim S4x13 ![] bcast_S_S4x13 zero j = (0 : EReal) := by
  rw [broadcastInDim_apply _ bcast_S_S4x13 zero j ix0 (fun a => a.elim0)]
  exact zero_apply _

/-- A natural number, as an extended real, is positive exactly when it is. -/
theorem coe_nat_pos (n : ℕ) : (0 : EReal) < (((n : ℝ)) : EReal) ↔ 0 < n := by
  rw [show (0 : EReal) = ((0 : ℝ) : EReal) from rfl, EReal.coe_lt_coe_iff]
  exact Nat.cast_pos

/-- The bit at an entry holding the natural number `n`: set exactly when `n` is positive. -/
theorem kValid_apply (cnt : FVec Ideal S4x13 .f32) (j : S4x13.Idx) (n : ℕ) (h : cnt j = (((n : ℝ)) : EReal)) :
    kValid cnt j = if 0 < n then 1#1 else 0#1 := by
  unfold kValid
  rw [cmpf_apply, bzero_apply, h, Ideal.cmpf_def]
  unfold Ideal.cmp
  by_cases hn : 0 < n
  · rw [if_pos hn, decide_eq_true ((coe_nat_pos n).mpr hn)]
    rfl
  · rw [if_neg hn, decide_eq_false (fun h' => hn ((coe_nat_pos n).mp h'))]
    rfl

theorem hR41 : S4x13.Reduces [1] S4 := by decide

theorem lift41 (b : Fin 4) (k : Fin 13) : hR41.lift (ix1 b) k = ix2 b k := by
  funext d
  match d with
  | ⟨0, _⟩ => rfl
  | ⟨1, _⟩ => rfl

/-- The selected count at an entry holding the natural number `n` is `n`: where the bit is clear the count is zero. -/
theorem masked_apply (cnt : FVec Ideal S4x13 .f32) (j : S4x13.Idx) (n : ℕ) (h : cnt j = (((n : ℝ)) : EReal)) :
    select (kValid cnt) cnt (broadcastInDim S4x13 ![] bcast_S_S4x13 (id zero)) j = (((n : ℝ)) : EReal) := by
  rw [select_apply, kValid_apply cnt j n h]
  by_cases hn : 0 < n
  · rw [if_pos hn, select_one, h]
  · rw [if_neg hn, select_zero]
    have h0 : n = 0 := by omega
    rw [show (id zero : FVec Ideal S_ .f32) = zero from rfl, bzero_apply, h0]
    simp

/-- The plane's number of edge pixels when the plane's counts hold the natural numbers `N`: their sum. -/
theorem kNEdge_apply (cnt : FVec Ideal S4x13 .f32) (b : Fin 4) (N : Fin 13 → ℕ)
    (h : ∀ k : Fin 13, cnt (ix2 b k) = (((N k : ℝ)) : EReal)) :
    kNEdge cnt (ix1 b) = ((((∑ k : Fin 13, N k : ℕ) : ℝ)) : EReal) := by
  unfold kNEdge
  rw [hostReduceAdd_apply, Ideal.hostReduceAdd_single reducesTo_S4x13_S4_d1 hR41, zero_apply, zero_add]
  have e : ∀ k : Fin 13, select (kValid cnt) cnt (broadcastInDim S4x13 ![] bcast_S_S4x13 (id zero)) (hR41.lift (ix1 b) k)
      = (((N k : ℝ)) : EReal) := fun k => by
    rw [lift41 b k]
    exact masked_apply cnt (ix2 b k) (N k) (h k)
  refine (ERealSum.sum_eq_coe Finset.univ _ (fun k : Fin 13 => (N k : ℝ)) (fun k _ => e k)).trans ?_
  congr 1
  push_cast
  rfl

end Cert.KTailIn

end
-- ==== Proof.KTail.lean ====
/-
  The kernel program's result.

  After the region, the program applies the last stage of the loss to the region's three arrays: the bit "the edge
  count is positive", the per-plane total of the edge counts, and the two arrays of sums go into the common last stage.
  So the program's result is that stage of the accumulators' last values.
-/
import proofs.«165479_j24979529793863_2_alg».proof.Proof.KFinal
import proofs.«165479_j24979529793863_2_alg».proof.Proof.KTailIn
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.StableHlo Cert.KTailIn

variable (m : (ℓ : Loc nD τ sig) → Buf (Elt Ideal) ℓ) (ρ : Dev nD → PrngReg)

/-- The region's three result arrays among the core's buffers after the region. -/
abbrev regCnt (c : Dev nD) : Buf (Elt Ideal) ((c : Thread nD τ).loc main_v0_0) :=
  Pipeline.withArrays (cfgs 0).spec c (V0 m c) (fun w => (dats m 0 c).arrAt w (cfgs 0).N) (Proc.devRef .tc main_v0_0)
abbrev regKle (c : Dev nD) : Buf (Elt Ideal) ((c : Thread nD τ).loc main_v0_1) :=
  Pipeline.withArrays (cfgs 0).spec c (V0 m c) (fun w => (dats m 0 c).arrAt w (cfgs 0).N) (Proc.devRef .tc main_v0_1)
abbrev regKlb (c : Dev nD) : Buf (Elt Ideal) ((c : Thread nD τ).loc main_v0_2) :=
  Pipeline.withArrays (cfgs 0).spec c (V0 m c) (fun w => (dats m 0 c).arrAt w (cfgs 0).N) (Proc.devRef .tc main_v0_2)

theorem regCnt_eq (c : Dev nD) : regCnt m c = resCnt m c :=
  (Pipeline.withArrays_arr spec0 launch0.win.arr_inj c _ _ 3).trans (final_3 m c)
theorem regKle_eq (c : Dev nD) : regKle m c = resKle m c :=
  (Pipeline.withArrays_arr spec0 launch0.win.arr_inj c _ _ 4).trans (final_4 m c)
theorem regKlb_eq (c : Dev nD) : regKlb m c = resKlb m c :=
  (Pipeline.withArrays_arr spec0 launch0.win.arr_inj c _ _ 5).trans (final_5 m c)

/-- The program's result as the last stage of the accumulators' last values. -/
def kOut (c : Dev nD) : FVec Ideal Cert.TailSpec.S2 .f32 :=
  Cert.TailSpec.tailR (kValid (resCnt m c)) (kNEdge (resCnt m c)) (resKle m c) (resKlb m c)

set_option maxHeartbeats 4000000 in
/-- The lines after the region compute the common last stage of the three arrays. -/
theorem tail_eq (c : Dev nD) :
    Pipeline.afterTail₀ cfgs (dats m) 0 (V0 m) [hostOps1, hostOps1_1, hostOps1_2, hostOps1_3, hostOps1_4, hostOps1_5, hostOps1_6, hostOps1_7, hostOps1_8] c main_v22 = kOut m c := by
  unfold Pipeline.afterTail₀
  show StableHlo.after (List.flatten [hostOps1, hostOps1_1, hostOps1_2, hostOps1_3, hostOps1_4, hostOps1_5, hostOps1_6, hostOps1_7, hostOps1_8]) _ (Proc.devRef .tc main_v22) = _
  simp only [hostOps1, hostOps1_1, hostOps1_2, hostOps1_3, hostOps1_4, hostOps1_5, hostOps1_6, hostOps1_7, hostOps1_8,
    List.flatten_cons, List.flatten_nil, List.append_nil, List.cons_append, List.nil_append]
  after_results
  refine Eq.trans (b := Cert.TailSpec.tailR (kValid (regCnt m c)) (kNEdge (regCnt m c)) (regKle m c) (regKlb m c)) rfl ?_
  unfold kOut
  rw [regCnt_eq m c, regKle_eq m c, regKlb_eq m c]

/-- The kernel program's run at the ideal values: its result is `kOut`, its arguments are unchanged. -/
theorem run : θ_run defs (onTc (τ := τ) (main (F := Ideal))) ⟨m, fun _ => 0, ρ⟩ fun r => ∀ c : Dev nD,
      r.2.mem ((c.tc : Thread nD τ).loc main_v22) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v22 (Pipeline.mem_restRefs_of main_v22 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KVal

end
-- ==== Proof.LibSsa.lean ====
/-
  A line of host operations in single-assignment form, read one operation at a time.

  `after ops V` is what the buffers hold once the operations `ops` have run in order from the contents `V`. Suppose each
  operation writes one buffer, operation `k` the reference `W[k]` (`WritesIn ops W`). Then

    * a reference that is not among `W[k], W[k+1], …` is written by no operation from position `k` on, so after the whole
      line it holds what it held after the first `k` operations (`after_eq_take`);
    * the reference operation `k` writes, if no LATER operation writes it again, holds after the whole line that
      operation's result from the contents after the first `k` operations (`after_out`).

  Together: when every operand of operation `k` was written before `k` (or never) and nothing is written twice, the
  final contents `R := after ops V` satisfy the operation's own equation `R y = f (R a) (R b) …` — one small fact per
  operation, whose proof mentions two positions of the list and never the composed term of the whole line. The
  equations are stated for the builders a printed program uses.
-/
import Idealize.ShloMosaic.Lib.StableHlo.Run

noncomputable section

namespace Idealize.ShloMosaic.StableHlo

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Operation `k` of the line writes (at most) the reference `W[k]`, for every `k`. -/
def WritesIn (ops : List (HloOp τ sig Val)) (W : List (Ref sig .tc)) : Prop :=
  List.Forall₂ (fun op w => op.writes ⊆ ({Proc.devRef (τ := τ) .tc w} : Finset (DevRef τ sig))) ops W

theorem WritesIn.nil : WritesIn ([] : List (HloOp τ sig Val)) [] := List.Forall₂.nil

theorem WritesIn.cons {op : HloOp τ sig Val} {w : Ref sig .tc} {ops : List (HloOp τ sig Val)} {W : List (Ref sig .tc)}
    (h : op.writes ⊆ ({Proc.devRef (τ := τ) .tc w} : Finset (DevRef τ sig))) (t : WritesIn ops W) :
    WritesIn (op :: ops) (w :: W) := List.Forall₂.cons h t

/-- The same holds of the line and the list from position `k` on. -/
theorem WritesIn.drop {ops : List (HloOp τ sig Val)} {W : List (Ref sig .tc)} (h : WritesIn ops W) :
    ∀ k, WritesIn (ops.drop k) (W.drop k) := by
  induction h with
  | nil => intro k; simp only [List.drop_nil]; exact List.Forall₂.nil
  | cons hd tl ih =>
    intro k
    cases k with
    | zero => exact List.Forall₂.cons hd tl
    | succ k => exact ih k

/-- Two lines one after the other, each with its list. -/
theorem WritesIn.append {a b : List (HloOp τ sig Val)} {A B : List (Ref sig .tc)} (h1 : WritesIn a A) (h2 : WritesIn b B) :
    WritesIn (a ++ b) (A ++ B) := by
  induction h1 with
  | nil => exact h2
  | cons hd _ ih => exact List.Forall₂.cons hd ih

/-- In a list without repetition, the entry at position `j` does not occur from a later position `k` on. -/
theorem not_mem_drop_of_pos {W : List (Ref sig .tc)} (hnd : W.Nodup) {j k : Nat} {x : Ref sig .tc}
    (e : W[j]? = some x) (hjk : j < k) : x ∉ W.drop k := by
  intro hmem
  obtain ⟨i, hi, ei⟩ := List.getElem_of_mem hmem
  rw [List.getElem_drop] at ei
  have hj : j < W.length := by
    by_contra hcon
    rw [List.getElem?_eq_none (Nat.le_of_not_lt hcon)] at e
    cases e
  rw [List.getElem?_eq_getElem hj] at e
  have e' : W[j] = x := Option.some.inj e
  have hki : k + i < W.length := by
    have := hi; rw [List.length_drop] at this; omega
  have : k + i = j := (List.Nodup.getElem_inj_iff hnd).mp (ei.trans e'.symm)
  omega

/-- A reference that does not occur in the list does not occur from position `k` on. -/
theorem not_mem_drop_of_not_mem {W : List (Ref sig .tc)} {x : Ref sig .tc} (h : x ∉ W) (k : Nat) : x ∉ W.drop k :=
  fun hm => h (List.mem_of_mem_drop hm)

/-- Every operation of the line writes only references of the list. -/
theorem WritesIn.forall_sub {ops : List (HloOp τ sig Val)} {W : List (Ref sig .tc)} (h : WritesIn ops W) :
    ops.Forall fun op => op.writes ⊆ (W.map (Proc.devRef (τ := τ) .tc)).toFinset := by
  induction h with
  | nil => exact trivial
  | @cons op w ops W hd _ ih =>
    rw [List.forall_cons]
    refine ⟨fun b hb => ?_, ?_⟩
    · have := Finset.mem_singleton.mp (hd hb)
      rw [this, List.mem_toFinset, List.map_cons]
      exact List.mem_cons_self
    · refine (List.forall_iff_forall_mem.mpr fun o ho b hb => ?_)
      have := (List.forall_iff_forall_mem.mp ih) o ho hb
      rw [List.mem_toFinset, List.map_cons]
      exact List.mem_cons_of_mem _ (List.mem_toFinset.mp this)

/-- A reference written by no operation from position `k` on holds, after the line, what it held after the first `k`
    operations. -/
theorem after_eq_take {ops : List (HloOp τ sig Val)} {W : List (Ref sig .tc)} (hW : WritesIn ops W)
    (V : Valuation τ sig Val) (k : Nat) (x : Ref sig .tc) (hx : x ∉ W.drop k) :
    after ops V (Proc.devRef .tc x) = after (ops.take k) V (Proc.devRef .tc x) := by
  have e : after ops V = after (ops.drop k) (after (ops.take k) V) := by
    rw [← after_append, List.take_append_drop]
  rw [e]
  exact after_of_writes_sub (ops.drop k) _ (hW.drop k).forall_sub hx

/-- The reference operation `k` writes, not written again later, holds after the line that operation's result from the
    contents after the first `k` operations. -/
theorem after_out {ops : List (HloOp τ sig Val)} {W : List (Ref sig .tc)} (hW : WritesIn ops W)
    (V : Valuation τ sig Val) (k : Nat) (hk : k < ops.length) (y : Ref sig .tc) (hy : y ∉ W.drop (k + 1)) :
    after ops V (Proc.devRef .tc y) = (ops[k]).result (after (ops.take k) V) (Proc.devRef .tc y) := by
  have e : after ops V = after (ops.drop (k + 1)) ((ops[k]).result (after (ops.take k) V)) := by
    conv_lhs => rw [← List.take_append_drop k ops, after_append, List.drop_eq_getElem_cons hk, after_cons]
  rw [e]
  exact after_of_writes_sub (ops.drop (k + 1)) _ (hW.drop (k + 1)).forall_sub hy

/-! ## The builders' equations -/

section Equations

variable {ops : List (HloOp τ sig Val)} {W : List (Ref sig .tc)}

/-- `%y = ‹constant›` at position `k`. -/
theorem eq_nullary (hW : WritesIn ops W) (V : Valuation τ sig Val) (k : Nat) (hk : k < ops.length) {y : Ref sig .tc} (v : y.ty.Contents Val) (hy)
    (hop : ops[k] = nullary y v hy) (hyW : y ∉ W.drop (k + 1)) :
    after ops V (Proc.devRef .tc y) = v := by
  rw [after_out hW V k hk y hyW, hop, nullary_result]

/-- `%y = ‹op› %x` at position `k`. -/
theorem eq_unary (hW : WritesIn ops W) (V : Valuation τ sig Val) (k : Nat) (hk : k < ops.length) {x y : Ref sig .tc} (f : x.ty.Contents Val → y.ty.Contents Val) (hx hy)
    (hop : ops[k] = unary x y f hx hy) (hxW : x ∉ W.drop k) (hyW : y ∉ W.drop (k + 1)) :
    after ops V (Proc.devRef .tc y) = f (after ops V (Proc.devRef .tc x)) := by
  rw [after_out hW V k hk y hyW, hop, unary_result, ← after_eq_take hW V k x hxW]

/-- `%y = ‹op› %a, %b` at position `k`. -/
theorem eq_binary (hW : WritesIn ops W) (V : Valuation τ sig Val) (k : Nat) (hk : k < ops.length) {a b y : Ref sig .tc}
    (f : a.ty.Contents Val → b.ty.Contents Val → y.ty.Contents Val) (ha hb hy)
    (hop : ops[k] = binary a b y f ha hb hy) (haW : a ∉ W.drop k) (hbW : b ∉ W.drop k) (hyW : y ∉ W.drop (k + 1)) :
    after ops V (Proc.devRef .tc y) = f (after ops V (Proc.devRef .tc a)) (after ops V (Proc.devRef .tc b)) := by
  rw [after_out hW V k hk y hyW, hop, binary_result, ← after_eq_take hW V k a haW, ← after_eq_take hW V k b hbW]

/-- `%y = ‹op› %c, %a, %b` at position `k`. -/
theorem eq_ternary (hW : WritesIn ops W) (V : Valuation τ sig Val) (k : Nat) (hk : k < ops.length) {c a b y : Ref sig .tc}
    (f : c.ty.Contents Val → a.ty.Contents Val → b.ty.Contents Val → y.ty.Contents Val) (hc ha hb hy)
    (hop : ops[k] = ternary c a b y f hc ha hb hy) (hcW : c ∉ W.drop k) (haW : a ∉ W.drop k) (hbW : b ∉ W.drop k)
    (hyW : y ∉ W.drop (k + 1)) :
    after ops V (Proc.devRef .tc y)
      = f (after ops V (Proc.devRef .tc c)) (after ops V (Proc.devRef .tc a)) (after ops V (Proc.devRef .tc b)) := by
  rw [after_out hW V k hk y hyW, hop, ternary_result, ← after_eq_take hW V k c hcW, ← after_eq_take hW V k a haW,
    ← after_eq_take hW V k b hbW]

/-! The same with the operands' values already known: the form a stage-by-stage reading uses. -/

theorem eq_unary' (hW : WritesIn ops W) (V : Valuation τ sig Val) (k : Nat) (hk : k < ops.length) {x y : Ref sig .tc}
    (f : x.ty.Contents Val → y.ty.Contents Val) (hx hy) (hop : ops[k] = unary x y f hx hy)
    (hxW : x ∉ W.drop k) (hyW : y ∉ W.drop (k + 1)) {vx : x.ty.Contents Val}
    (ex : after ops V (Proc.devRef .tc x) = vx) :
    after ops V (Proc.devRef .tc y) = f vx := by
  rw [eq_unary hW V k hk f hx hy hop hxW hyW, ex]

theorem eq_binary' (hW : WritesIn ops W) (V : Valuation τ sig Val) (k : Nat) (hk : k < ops.length) {a b y : Ref sig .tc}
    (f : a.ty.Contents Val → b.ty.Contents Val → y.ty.Contents Val) (ha hb hy)
    (hop : ops[k] = binary a b y f ha hb hy) (haW : a ∉ W.drop k) (hbW : b ∉ W.drop k) (hyW : y ∉ W.drop (k + 1))
    {va : a.ty.Contents Val} {vb : b.ty.Contents Val}
    (ea : after ops V (Proc.devRef .tc a) = va) (eb : after ops V (Proc.devRef .tc b) = vb) :
    after ops V (Proc.devRef .tc y) = f va vb := by
  rw [eq_binary hW V k hk f ha hb hy hop haW hbW hyW, ea, eb]

theorem eq_ternary' (hW : WritesIn ops W) (V : Valuation τ sig Val) (k : Nat) (hk : k < ops.length) {c a b y : Ref sig .tc}
    (f : c.ty.Contents Val → a.ty.Contents Val → b.ty.Contents Val → y.ty.Contents Val) (hc ha hb hy)
    (hop : ops[k] = ternary c a b y f hc ha hb hy) (hcW : c ∉ W.drop k) (haW : a ∉ W.drop k) (hbW : b ∉ W.drop k)
    (hyW : y ∉ W.drop (k + 1)) {vc : c.ty.Contents Val} {va : a.ty.Contents Val} {vb : b.ty.Contents Val}
    (ec : after ops V (Proc.devRef .tc c) = vc) (ea : after ops V (Proc.devRef .tc a) = va)
    (eb : after ops V (Proc.devRef .tc b) = vb) :
    after ops V (Proc.devRef .tc y) = f vc va vb := by
  rw [eq_ternary hW V k hk f hc ha hb hy hop hcW haW hbW hyW, ec, ea, eb]

/-- A reference no operation of the line writes keeps its launch contents. -/
theorem after_kept (hW : WritesIn ops W) (V : Valuation τ sig Val) (x : Ref sig .tc) (hx : x ∉ W) :
    after ops V (Proc.devRef .tc x) = V (Proc.devRef .tc x) :=
  after_of_writes_sub ops V hW.forall_sub hx

end Equations

end Idealize.ShloMosaic.StableHlo

end
-- ==== Proof.RRun.lean ====
/-
  The reference program as one straight line of operations.

  The reference's entry function is a sequence of host tensor operations; the functions it calls (pad, log-softmax,
  the three selects) are straight lines too, so with each callee's operations written at its call site, over the
  buffers that call names, the whole program is ONE list of operations `ops` in single-assignment form: operation
  `k` writes the buffer `W[k]`, no buffer is written twice, and the three arguments are written by none.

  Running the program from launch contents `V` leaves every buffer at the fold `after ops V` (`run_after`). For the
  final contents `R := after ops V` each operation contributes its own equation `R y = f (R a) (R b)`.
-/
import proofs.«165479_j24979529793863_2_alg».proof.Proof.Gen.ReferenceIdeal
import proofs.«165479_j24979529793863_2_alg».proof.Defs
import Idealize.ShloMosaic.Lib.StableHlo.Run
import proofs.«165479_j24979529793863_2_alg».proof.Proof.LibSsa

noncomputable section

namespace Cert.RRun

open Cert.ReferenceIdeal Cert.ReferenceIdeal.Gen Idealize.ShloMosaic Idealize.ShloMosaic.TcCoe Idealize.SL.Sem Idealize.ShloMosaic.StableHlo

variable {F : FTy → Type} [FloatOps F]

/-- The first window of the entry function: its 88 operations in order, the two pads and the first two log-softmax calls written at their call sites. -/
abbrev ops0 : List (HloOp τ sig (Elt F)) :=
  [ StableHlo.nullary main_v0 (iotaInDim S13 32 0),
    StableHlo.nullary main_c (constantI S_ 32 1#32),
    StableHlo.unary main_c main_v1 (broadcastInDim S13 ![] bcast_S_S13 : (⟨S_, .i32⟩ : BufTy).Contents (Elt F) → (⟨S13, .i32⟩ : BufTy).Contents (Elt F)),
    StableHlo.binary main_v1 main_v0 main_v2 (addi : (⟨S13, .i32⟩ : BufTy).Contents (Elt F) → (⟨S13, .i32⟩ : BufTy).Contents (Elt F) → (⟨S13, .i32⟩ : BufTy).Contents (Elt F)),
    StableHlo.reshape main_arg2 main_v3 rfl shapeCasts_S4x1x512x512_S4x512x512,
    StableHlo.unary main_v3 main_v4 (broadcastInDim S4x1x512x512 ![0, 2, 3] bcast_S4x512x512_S4x1x512x512_0_2_3 : (⟨S4x512x512, .i32⟩ : BufTy).Contents (Elt F) → (⟨S4x1x512x512, .i32⟩ : BufTy).Contents (Elt F)),
    StableHlo.unary main_v2 main_v5 (broadcastInDim S1x13x1x1 ![1] bcast_S13_S1x13x1x1_1 : (⟨S13, .i32⟩ : BufTy).Contents (Elt F) → (⟨S1x13x1x1, .i32⟩ : BufTy).Contents (Elt F)),
    StableHlo.unary main_v4 main_v6 (broadcastInDim S4x13x512x512 ![0, 1, 2, 3] bcast_S4x1x512x512_S4x13x512x512_0_1_2_3 : (⟨S4x1x512x512, .i32⟩ : BufTy).Contents (Elt F) → (⟨S4x13x512x512, .i32⟩ : BufTy).Contents (Elt F)),
    StableHlo.unary main_v5 main_v7 (broadcastInDim S4x13x512x512 ![0, 1, 2, 3] bcast_S1x13x1x1_S4x13x512x512_0_1_2_3 : (⟨S1x13x1x1, .i32⟩ : BufTy).Contents (Elt F) → (⟨S4x13x512x512, .i32⟩ : BufTy).Contents (Elt F)),
    StableHlo.binary main_v6 main_v7 main_v8 (cmpi .eq : (⟨S4x13x512x512, .i32⟩ : BufTy).Contents (Elt F) → (⟨S4x13x512x512, .i32⟩ : BufTy).Contents (Elt F) → (⟨S4x13x512x512, .i1⟩ : BufTy).Contents (Elt F)),
    StableHlo.nullary main_c_0 (constantI S_ 1 0#1),
    StableHlo.TRef.binary (.of main_v8 : StableHlo.TRef sig ⟨S4x13x512x512, .i1⟩) (.of main_c_0 : StableHlo.TRef sig ⟨S_, .i1⟩) main_call0.v0 (fun x v => pad S4x13x514x514 ![0, 0, 1, 1] ![0, 0, 1, 1] ![0, 0, 0, 0] x v pads_S4x13x512x512_S4x13x514x514_000_000_110_110 h_S_),
    StableHlo.unary main_v9 main_v10 ((extractStridedSlice S4x13x512x512 ![0, 0, 1, 1] · slices_S4x13x514x514_S4x13x512x512_0_0_1_1) : (⟨S4x13x514x514, .i1⟩ : BufTy).Contents (Elt F) → (⟨S4x13x512x512, .i1⟩ : BufTy).Contents (Elt F)),
    StableHlo.unary main_v9 main_v11 ((extractStridedSlice S4x13x512x512 ![0, 0, 0, 1] · slices_S4x13x514x514_S4x13x512x512_0_0_0_1) : (⟨S4x13x514x514, .i1⟩ : BufTy).Contents (Elt F) → (⟨S4x13x512x512, .i1⟩ : BufTy).Contents (Elt F)),
    StableHlo.binary main_v10 main_v11 main_v12 (ori : (⟨S4x13x512x512, .i1⟩ : BufTy).Contents (Elt F) → (⟨S4x13x512x512, .i1⟩ : BufTy).Contents (Elt F) → (⟨S4x13x512x512, .i1⟩ : BufTy).Contents (Elt F)),
    StableHlo.unary main_v9 main_v13 ((extractStridedSlice S4x13x512x512 ![0, 0, 2, 1] · slices_S4x13x514x514_S4x13x512x512_0_0_2_1) : (⟨S4x13x514x514, .i1⟩ : BufTy).Contents (Elt F) → (⟨S4x13x512x512, .i1⟩ : BufTy).Contents (Elt F)),
    StableHlo.binary main_v12 main_v13 main_v14 (ori : (⟨S4x13x512x512, .i1⟩ : BufTy).Contents (Elt F) → (⟨S4x13x512x512, .i1⟩ : BufTy).Contents (Elt F) → (⟨S4x13x512x512, .i1⟩ : BufTy).Contents (Elt F)),
    StableHlo.unary main_v9 main_v15 ((extractStridedSlice S4x13x512x512 ![0, 0, 1, 0] · slices_S4x13x514x514_S4x13x512x512_0_0_1_0) : (⟨S4x13x514x514, .i1⟩ : BufTy).Contents (Elt F) → (⟨S4x13x512x512, .i1⟩ : BufTy).Contents (Elt F)),
    StableHlo.binary main_v14 main_v15 main_v16 (ori : (⟨S4x13x512x512, .i1⟩ : BufTy).Contents (Elt F) → (⟨S4x13x512x512, .i1⟩ : BufTy).Contents (Elt F) → (⟨S4x13x512x512, .i1⟩ : BufTy).Contents (Elt F)),
    StableHlo.unary main_v9 main_v17 ((extractStridedSlice S4x13x512x512 ![0, 0, 1, 2] · slices_S4x13x514x514_S4x13x512x512_0_0_1_2) : (⟨S4x13x514x514, .i1⟩ : BufTy).Contents (Elt F) → (⟨S4x13x512x512, .i1⟩ : BufTy).Contents (Elt F)),
    StableHlo.binary main_v16 main_v17 main_v18 (ori : (⟨S4x13x512x512, .i1⟩ : BufTy).Contents (Elt F) → (⟨S4x13x512x512, .i1⟩ : BufTy).Contents (Elt F) → (⟨S4x13x512x512, .i1⟩ : BufTy).Contents (Elt F)),
    StableHlo.nullary main_c_1 (constantI S_ 1 0#1),
    StableHlo.TRef.binary (.of main_v8 : StableHlo.TRef sig ⟨S4x13x512x512, .i1⟩) (.of main_c_1 : StableHlo.TRef sig ⟨S_, .i1⟩) main_call1.v0 (fun x v => pad S4x13x514x514 ![0, 0, 1, 1] ![0, 0, 1, 1] ![0, 0, 0, 0] x v pads_S4x13x512x512_S4x13x514x514_000_000_110_110 h_S_),
    StableHlo.unary main_v19 main_v20 ((extractStridedSlice S4x13x512x512 ![0, 0, 1, 1] · slices_S4x13x514x514_S4x13x512x512_0_0_1_1) : (⟨S4x13x514x514, .i1⟩ : BufTy).Contents (Elt F) → (⟨S4x13x512x512, .i1⟩ : BufTy).Contents (Elt F)),
    StableHlo.unary main_v19 main_v21 ((extractStridedSlice S4x13x512x512 ![0, 0, 0, 1] · slices_S4x13x514x514_S4x13x512x512_0_0_0_1) : (⟨S4x13x514x514, .i1⟩ : BufTy).Contents (Elt F) → (⟨S4x13x512x512, .i1⟩ : BufTy).Contents (Elt F)),
    StableHlo.binary main_v20 main_v21 main_v22 (andi : (⟨S4x13x512x512, .i1⟩ : BufTy).Contents (Elt F) → (⟨S4x13x512x512, .i1⟩ : BufTy).Contents (Elt F) → (⟨S4x13x512x512, .i1⟩ : BufTy).Contents (Elt F)),
    StableHlo.unary main_v19 main_v23 ((extractStridedSlice S4x13x512x512 ![0, 0, 2, 1] · slices_S4x13x514x514_S4x13x512x512_0_0_2_1) : (⟨S4x13x514x514, .i1⟩ : BufTy).Contents (Elt F) → (⟨S4x13x512x512, .i1⟩ : BufTy).Contents (Elt F)),
    StableHlo.binary main_v22 main_v23 main_v24 (andi : (⟨S4x13x512x512, .i1⟩ : BufTy).Contents (Elt F) → (⟨S4x13x512x512, .i1⟩ : BufTy).Contents (Elt F) → (⟨S4x13x512x512, .i1⟩ : BufTy).Contents (Elt F)),
    StableHlo.unary main_v19 main_v25 ((extractStridedSlice S4x13x512x512 ![0, 0, 1, 0] · slices_S4x13x514x514_S4x13x512x512_0_0_1_0) : (⟨S4x13x514x514, .i1⟩ : BufTy).Contents (Elt F) → (⟨S4x13x512x512, .i1⟩ : BufTy).Contents (Elt F)),
    StableHlo.binary main_v24 main_v25 main_v26 (andi : (⟨S4x13x512x512, .i1⟩ : BufTy).Contents (Elt F) → (⟨S4x13x512x512, .i1⟩ : BufTy).Contents (Elt F) → (⟨S4x13x512x512, .i1⟩ : BufTy).Contents (Elt F)),
    StableHlo.unary main_v19 main_v27 ((extractStridedSlice S4x13x512x512 ![0, 0, 1, 2] · slices_S4x13x514x514_S4x13x512x512_0_0_1_2) : (⟨S4x13x514x514, .i1⟩ : BufTy).Contents (Elt F) → (⟨S4x13x512x512, .i1⟩ : BufTy).Contents (Elt F)),
    StableHlo.binary main_v26 main_v27 main_v28 (andi : (⟨S4x13x512x512, .i1⟩ : BufTy).Contents (Elt F) → (⟨S4x13x512x512, .i1⟩ : BufTy).Contents (Elt F) → (⟨S4x13x512x512, .i1⟩ : BufTy).Contents (Elt F)),
    StableHlo.binary main_v18 main_v28 main_v29 (xori : (⟨S4x13x512x512, .i1⟩ : BufTy).Contents (Elt F) → (⟨S4x13x512x512, .i1⟩ : BufTy).Contents (Elt F) → (⟨S4x13x512x512, .i1⟩ : BufTy).Contents (Elt F)),
    StableHlo.unary main_v29 main_v30 (noti : (⟨S4x13x512x512, .i1⟩ : BufTy).Contents (Elt F) → (⟨S4x13x512x512, .i1⟩ : BufTy).Contents (Elt F)),
    StableHlo.binary main_v30 main_v8 main_v31 (andi : (⟨S4x13x512x512, .i1⟩ : BufTy).Contents (Elt F) → (⟨S4x13x512x512, .i1⟩ : BufTy).Contents (Elt F) → (⟨S4x13x512x512, .i1⟩ : BufTy).Contents (Elt F)),
    StableHlo.unary main_v29 main_v32 ((extui 32 · natLt_1_32) : (⟨S4x13x512x512, .i1⟩ : BufTy).Contents (Elt F) → (⟨S4x13x512x512, .i32⟩ : BufTy).Contents (Elt F)),
    StableHlo.nullary main_c_2 (constantI S_ 32 0#32),
    StableHlo.binary main_v32 main_c_2 main_v33 ((fun x v => Host.reduce IntOp.addi x v reducesTo_S4x13x512x512_S4x13_d2_3 h_S_) : (⟨S4x13x512x512, .i32⟩ : BufTy).Contents (Elt F) → (⟨S_, .i32⟩ : BufTy).Contents (Elt F) → (⟨S4x13, .i32⟩ : BufTy).Contents (Elt F)),
    StableHlo.nullary main_c_3 (constantI S_ 32 0#32),
    StableHlo.unary main_c_3 main_v34 (broadcastInDim S4x13 ![] bcast_S_S4x13 : (⟨S_, .i32⟩ : BufTy).Contents (Elt F) → (⟨S4x13, .i32⟩ : BufTy).Contents (Elt F)),
    StableHlo.binary main_v33 main_v34 main_v35 (cmpi .sgt : (⟨S4x13, .i32⟩ : BufTy).Contents (Elt F) → (⟨S4x13, .i32⟩ : BufTy).Contents (Elt F) → (⟨S4x13, .i1⟩ : BufTy).Contents (Elt F)),
    StableHlo.unary main_v29 main_v36 (uitofp .f32 : (⟨S4x13x512x512, .i1⟩ : BufTy).Contents (Elt F) → (⟨S4x13x512x512, .f32⟩ : BufTy).Contents (Elt F)),
    StableHlo.unary main_v31 main_v37 (uitofp .f32 : (⟨S4x13x512x512, .i1⟩ : BufTy).Contents (Elt F) → (⟨S4x13x512x512, .f32⟩ : BufTy).Contents (Elt F)),
    StableHlo.unary main_arg0 main_v38 ((extractStridedSlice S4x13x512x512 ![0, 1, 0, 0] · slices_S4x14x512x512_S4x13x512x512_0_1_0_0) : (⟨S4x14x512x512, .f32⟩ : BufTy).Contents (Elt F) → (⟨S4x13x512x512, .f32⟩ : BufTy).Contents (Elt F)),
    StableHlo.unary main_arg1 main_v39 ((extractStridedSlice S4x13x512x512 ![0, 1, 0, 0] · slices_S4x14x512x512_S4x13x512x512_0_1_0_0) : (⟨S4x14x512x512, .f32⟩ : BufTy).Contents (Elt F) → (⟨S4x13x512x512, .f32⟩ : BufTy).Contents (Elt F)),
    StableHlo.binary main_v38 main_v36 main_v40 (mulf : (⟨S4x13x512x512, .f32⟩ : BufTy).Contents (Elt F) → (⟨S4x13x512x512, .f32⟩ : BufTy).Contents (Elt F) → (⟨S4x13x512x512, .f32⟩ : BufTy).Contents (Elt F)),
    StableHlo.reshape main_v40 main_v41 rfl shapeCasts_S4x13x512x512_S4x13x262144,
    StableHlo.binary main_v39 main_v36 main_v42 (mulf : (⟨S4x13x512x512, .f32⟩ : BufTy).Contents (Elt F) → (⟨S4x13x512x512, .f32⟩ : BufTy).Contents (Elt F) → (⟨S4x13x512x512, .f32⟩ : BufTy).Contents (Elt F)),
    StableHlo.reshape main_v42 main_v43 rfl shapeCasts_S4x13x512x512_S4x13x262144,
    StableHlo.nullary main_cst (constant S_ .f32 0x3F800000#32),
    StableHlo.unary main_cst main_v44 (broadcastInDim S4x13x262144 ![] bcast_S_S4x13x262144 : (⟨S_, .f32⟩ : BufTy).Contents (Elt F) → (⟨S4x13x262144, .f32⟩ : BufTy).Contents (Elt F)),
    StableHlo.binary main_v41 main_v44 main_v45 (Host.divf : (⟨S4x13x262144, .f32⟩ : BufTy).Contents (Elt F) → (⟨S4x13x262144, .f32⟩ : BufTy).Contents (Elt F) → (⟨S4x13x262144, .f32⟩ : BufTy).Contents (Elt F)),
    StableHlo.TRef.nullary main_call2.cst (constant S_ .f32 0xFF800000#32),
    StableHlo.TRef.binary (.of main_v45 : StableHlo.TRef sig ⟨S4x13x262144, .f32⟩) main_call2.cst main_call2.v0 (fun x v => Host.reduce FloatOps.maximumf x v reducesTo_S4x13x262144_S4x13_d2 h_S_),
    StableHlo.TRef.nullary main_call2.cst_0 (constant S_ .f32 0xFF800000#32),
    StableHlo.TRef.unary main_call2.cst_0 main_call2.v1 (broadcastInDim S4x13 ![] bcast_S_S4x13),
    StableHlo.TRef.binary main_call2.v1 main_call2.v0 main_call2.v2 maximumf,
    StableHlo.TRef.unary main_call2.v2 main_call2.v3 (broadcastInDim S4x13x1 ![0, 1] bcast_S4x13_S4x13x1_0_1),
    StableHlo.TRef.unary main_call2.v3 main_call2.v4 (broadcastInDim S4x13x262144 ![0, 1, 2] bcast_S4x13x1_S4x13x262144_0_1_2),
    StableHlo.TRef.binary (.of main_v45 : StableHlo.TRef sig ⟨S4x13x262144, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S4x13x262144_S4x13_d2 h_S_),
    StableHlo.TRef.unary main_call2.v7 main_call2.v8 (broadcastInDim S4x13x1 ![0, 1] bcast_S4x13_S4x13x1_0_1),
    StableHlo.TRef.unary main_call2.v8 main_call2.v9 Host.log,
    StableHlo.TRef.unary main_call2.v9 main_call2.v10 (broadcastInDim S4x13x262144 ![0, 1, 2] bcast_S4x13x1_S4x13x262144_0_1_2),
    StableHlo.TRef.binary main_call2.v5 main_call2.v10 main_call2.v11 subf,
    StableHlo.nullary main_cst_4 (constant S_ .f32 0x3F800000#32),
    StableHlo.unary main_cst_4 main_v47 (broadcastInDim S4x13x262144 ![] bcast_S_S4x13x262144 : (⟨S_, .f32⟩ : BufTy).Contents (Elt F) → (⟨S4x13x262144, .f32⟩ : BufTy).Contents (Elt F)),
    StableHlo.binary main_v43 main_v47 main_v48 (Host.divf : (⟨S4x13x262144, .f32⟩ : BufTy).Contents (Elt F) → (⟨S4x13x262144, .f32⟩ : BufTy).Contents (Elt F) → (⟨S4x13x262144, .f32⟩ : BufTy).Contents (Elt F)),
    StableHlo.TRef.nullary main_call3.cst (constant S_ .f32 0xFF800000#32),
    StableHlo.TRef.binary (.of main_v48 : StableHlo.TRef sig ⟨S4x13x262144, .f32⟩) main_call3.cst main_call3.v0 (fun x v => Host.reduce FloatOps.maximumf x v reducesTo_S4x13x262144_S4x13_d2 h_S_),
    StableHlo.TRef.nullary main_call3.cst_0 (constant S_ .f32 0xFF800000#32),
    StableHlo.TRef.unary main_call3.cst_0 main_call3.v1 (broadcastInDim S4x13 ![] bcast_S_S4x13),
    StableHlo.TRef.binary main_call3.v1 main_call3.v0 main_call3.v2 maximumf,
    StableHlo.TRef.unary main_call3.v2 main_call3.v3 (broadcastInDim S4x13x1 ![0, 1] bcast_S4x13_S4x13x1_0_1),
    StableHlo.TRef.unary main_call3.v3 main_call3.v4 (broadcastInDim S4x13x262144 ![0, 1, 2] bcast_S4x13x1_S4x13x262144_0_1_2),
    StableHlo.TRef.binary (.of main_v48 : StableHlo.TRef sig ⟨S4x13x262144, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S4x13x262144_S4x13_d2 h_S_),
    StableHlo.TRef.unary main_call3.v7 main_call3.v8 (broadcastInDim S4x13x1 ![0, 1] bcast_S4x13_S4x13x1_0_1),
    StableHlo.TRef.unary main_call3.v8 main_call3.v9 Host.log,
    StableHlo.TRef.unary main_call3.v9 main_call3.v10 (broadcastInDim S4x13x262144 ![0, 1, 2] bcast_S4x13x1_S4x13x262144_0_1_2),
    StableHlo.TRef.binary main_call3.v5 main_call3.v10 main_call3.v11 subf,
    StableHlo.unary main_v49 main_v50 (Host.exp : (⟨S4x13x262144, .f32⟩ : BufTy).Contents (Elt F) → (⟨S4x13x262144, .f32⟩ : BufTy).Contents (Elt F)),
    StableHlo.binary main_v49 main_v46 main_v51 (subf : (⟨S4x13x262144, .f32⟩ : BufTy).Contents (Elt F) → (⟨S4x13x262144, .f32⟩ : BufTy).Contents (Elt F) → (⟨S4x13x262144, .f32⟩ : BufTy).Contents (Elt F)),
    StableHlo.binary main_v50 main_v51 main_v52 (mulf : (⟨S4x13x262144, .f32⟩ : BufTy).Contents (Elt F) → (⟨S4x13x262144, .f32⟩ : BufTy).Contents (Elt F) → (⟨S4x13x262144, .f32⟩ : BufTy).Contents (Elt F)) ]

/-- The second window: its 96 operations in order, the last two log-softmax calls and the four selects written at their call sites. -/
abbrev ops1 : List (HloOp τ sig (Elt F)) :=
  [ StableHlo.nullary main_cst_5 (constant S_ .f32 0x00000000#32),
    StableHlo.binary main_v52 main_cst_5 main_v53 ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)),
    StableHlo.nullary main_cst_6 (constant S_ .f32 0x3F800000#32),
    StableHlo.unary main_cst_6 main_v54 (broadcastInDim S4x13 ![] bcast_S_S4x13 : (⟨S_, .f32⟩ : BufTy).Contents (Elt F) → (⟨S4x13, .f32⟩ : BufTy).Contents (Elt F)),
    StableHlo.binary main_v53 main_v54 main_v55 (mulf : (⟨S4x13, .f32⟩ : BufTy).Contents (Elt F) → (⟨S4x13, .f32⟩ : BufTy).Contents (Elt F) → (⟨S4x13, .f32⟩ : BufTy).Contents (Elt F)),
    StableHlo.binary main_v38 main_v37 main_v56 (mulf : (⟨S4x13x512x512, .f32⟩ : BufTy).Contents (Elt F) → (⟨S4x13x512x512, .f32⟩ : BufTy).Contents (Elt F) → (⟨S4x13x512x512, .f32⟩ : BufTy).Contents (Elt F)),
    StableHlo.reshape main_v56 main_v57 rfl shapeCasts_S4x13x512x512_S4x13x262144,
    StableHlo.binary main_v39 main_v37 main_v58 (mulf : (⟨S4x13x512x512, .f32⟩ : BufTy).Contents (Elt F) → (⟨S4x13x512x512, .f32⟩ : BufTy).Contents (Elt F) → (⟨S4x13x512x512, .f32⟩ : BufTy).Contents (Elt F)),
    StableHlo.reshape main_v58 main_v59 rfl shapeCasts_S4x13x512x512_S4x13x262144,
    StableHlo.nullary main_cst_7 (constant S_ .f32 0x3F800000#32),
    StableHlo.unary main_cst_7 main_v60 (broadcastInDim S4x13x262144 ![] bcast_S_S4x13x262144 : (⟨S_, .f32⟩ : BufTy).Contents (Elt F) → (⟨S4x13x262144, .f32⟩ : BufTy).Contents (Elt F)),
    StableHlo.binary main_v57 main_v60 main_v61 (Host.divf : (⟨S4x13x262144, .f32⟩ : BufTy).Contents (Elt F) → (⟨S4x13x262144, .f32⟩ : BufTy).Contents (Elt F) → (⟨S4x13x262144, .f32⟩ : BufTy).Contents (Elt F)),
    StableHlo.TRef.nullary main_call4.cst (constant S_ .f32 0xFF800000#32),
    StableHlo.TRef.binary (.of main_v61 : StableHlo.TRef sig ⟨S4x13x262144, .f32⟩) main_call4.cst main_call4.v0 (fun x v => Host.reduce FloatOps.maximumf x v reducesTo_S4x13x262144_S4x13_d2 h_S_),
    StableHlo.TRef.nullary main_call4.cst_0 (constant S_ .f32 0xFF800000#32),
    StableHlo.TRef.unary main_call4.cst_0 main_call4.v1 (broadcastInDim S4x13 ![] bcast_S_S4x13),
    StableHlo.TRef.binary main_call4.v1 main_call4.v0 main_call4.v2 maximumf,
    StableHlo.TRef.unary main_call4.v2 main_call4.v3 (broadcastInDim S4x13x1 ![0, 1] bcast_S4x13_S4x13x1_0_1),
    StableHlo.TRef.unary main_call4.v3 main_call4.v4 (broadcastInDim S4x13x262144 ![0, 1, 2] bcast_S4x13x1_S4x13x262144_0_1_2),
    StableHlo.TRef.binary (.of main_v61 : StableHlo.TRef sig ⟨S4x13x262144, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S4x13x262144_S4x13_d2 h_S_),
    StableHlo.TRef.unary main_call4.v7 main_call4.v8 (broadcastInDim S4x13x1 ![0, 1] bcast_S4x13_S4x13x1_0_1),
    StableHlo.TRef.unary main_call4.v8 main_call4.v9 Host.log,
    StableHlo.TRef.unary main_call4.v9 main_call4.v10 (broadcastInDim S4x13x262144 ![0, 1, 2] bcast_S4x13x1_S4x13x262144_0_1_2),
    StableHlo.TRef.binary main_call4.v5 main_call4.v10 main_call4.v11 subf,
    StableHlo.nullary main_cst_8 (constant S_ .f32 0x3F800000#32),
    StableHlo.unary main_cst_8 main_v63 (broadcastInDim S4x13x262144 ![] bcast_S_S4x13x262144 : (⟨S_, .f32⟩ : BufTy).Contents (Elt F) → (⟨S4x13x262144, .f32⟩ : BufTy).Contents (Elt F)),
    StableHlo.binary main_v59 main_v63 main_v64 (Host.divf : (⟨S4x13x262144, .f32⟩ : BufTy).Contents (Elt F) → (⟨S4x13x262144, .f32⟩ : BufTy).Contents (Elt F) → (⟨S4x13x262144, .f32⟩ : BufTy).Contents (Elt F)),
    StableHlo.TRef.nullary main_call5.cst (constant S_ .f32 0xFF800000#32),
    StableHlo.TRef.binary (.of main_v64 : StableHlo.TRef sig ⟨S4x13x262144, .f32⟩) main_call5.cst main_call5.v0 (fun x v => Host.reduce FloatOps.maximumf x v reducesTo_S4x13x262144_S4x13_d2 h_S_),
    StableHlo.TRef.nullary main_call5.cst_0 (constant S_ .f32 0xFF800000#32),
    StableHlo.TRef.unary main_call5.cst_0 main_call5.v1 (broadcastInDim S4x13 ![] bcast_S_S4x13),
    StableHlo.TRef.binary main_call5.v1 main_call5.v0 main_call5.v2 maximumf,
    StableHlo.TRef.unary main_call5.v2 main_call5.v3 (broadcastInDim S4x13x1 ![0, 1] bcast_S4x13_S4x13x1_0_1),
    StableHlo.TRef.unary main_call5.v3 main_call5.v4 (broadcastInDim S4x13x262144 ![0, 1, 2] bcast_S4x13x1_S4x13x262144_0_1_2),
    StableHlo.TRef.binary (.of main_v64 : StableHlo.TRef sig ⟨S4x13x262144, .f32⟩) main_call5.v4 main_call5.v5 subf,
    StableHlo.TRef.unary main_call5.v5 main_call5.v6 Host.exp,
    StableHlo.TRef.nullary main_call5.cst_1 (constant S_ .f32 0x00000000#32),
    StableHlo.TRef.binary main_call5.v6 main_call5.cst_1 main_call5.v7 (fun x v => Host.reduceAdd x v reducesTo_S4x13x262144_S4x13_d2 h_S_),
    StableHlo.TRef.unary main_call5.v7 main_call5.v8 (broadcastInDim S4x13x1 ![0, 1] bcast_S4x13_S4x13x1_0_1),
    StableHlo.TRef.unary main_call5.v8 main_call5.v9 Host.log,
    StableHlo.TRef.unary main_call5.v9 main_call5.v10 (broadcastInDim S4x13x262144 ![0, 1, 2] bcast_S4x13x1_S4x13x262144_0_1_2),
    StableHlo.TRef.binary main_call5.v5 main_call5.v10 main_call5.v11 subf,
    StableHlo.unary main_v65 main_v66 (Host.exp : (⟨S4x13x262144, .f32⟩ : BufTy).Contents (Elt F) → (⟨S4x13x262144, .f32⟩ : BufTy).Contents (Elt F)),
    StableHlo.binary main_v65 main_v62 main_v67 (subf : (⟨S4x13x262144, .f32⟩ : BufTy).Contents (Elt F) → (⟨S4x13x262144, .f32⟩ : BufTy).Contents (Elt F) → (⟨S4x13x262144, .f32⟩ : BufTy).Contents (Elt F)),
    StableHlo.binary main_v66 main_v67 main_v68 (mulf : (⟨S4x13x262144, .f32⟩ : BufTy).Contents (Elt F) → (⟨S4x13x262144, .f32⟩ : BufTy).Contents (Elt F) → (⟨S4x13x262144, .f32⟩ : BufTy).Contents (Elt F)),
    StableHlo.nullary main_cst_9 (constant S_ .f32 0x00000000#32),
    StableHlo.binary main_v68 main_cst_9 main_v69 ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)),
    StableHlo.nullary main_cst_10 (constant S_ .f32 0x3F800000#32),
    StableHlo.unary main_cst_10 main_v70 (broadcastInDim S4x13 ![] bcast_S_S4x13 : (⟨S_, .f32⟩ : BufTy).Contents (Elt F) → (⟨S4x13, .f32⟩ : BufTy).Contents (Elt F)),
    StableHlo.binary main_v69 main_v70 main_v71 (mulf : (⟨S4x13, .f32⟩ : BufTy).Contents (Elt F) → (⟨S4x13, .f32⟩ : BufTy).Contents (Elt F) → (⟨S4x13, .f32⟩ : BufTy).Contents (Elt F)),
    StableHlo.nullary main_c_11 (constantI S_ 32 0#32),
    StableHlo.TRef.unary (.of main_c_11 : StableHlo.TRef sig ⟨S_, .i32⟩) main_call6.v0 id,
    StableHlo.TRef.unary main_call6.v0 main_call6.v1 (broadcastInDim S4x13 ![] bcast_S_S4x13),
    StableHlo.TRef.ternary (.of main_v35 : StableHlo.TRef sig ⟨S4x13, .i1⟩) (.of main_v33 : StableHlo.TRef sig ⟨S4x13, .i32⟩) main_call6.v1 main_call6.v2 select,
    StableHlo.nullary main_c_12 (constantI S_ 32 0#32),
    StableHlo.binary main_v72 main_c_12 main_v73 ((fun x v => Host.reduce IntOp.addi x v reducesTo_S4x13_S4_d1 h_S_) : (⟨S4x13, .i32⟩ : BufTy).Contents (Elt F) → (⟨S_, .i32⟩ : BufTy).Contents (Elt F) → (⟨S4, .i32⟩ : BufTy).Contents (Elt F)),
    StableHlo.unary main_v73 main_v74 (sitofp .f32 : (⟨S4, .i32⟩ : BufTy).Contents (Elt F) → (⟨S4, .f32⟩ : BufTy).Contents (Elt F)),
    StableHlo.nullary main_cst_13 (constant S_ .f32 0x00000000#32),
    StableHlo.TRef.unary (.of main_cst_13 : StableHlo.TRef sig ⟨S_, .f32⟩) main_call7.v0 id,
    StableHlo.TRef.unary main_call7.v0 main_call7.v1 (broadcastInDim S4x13 ![] bcast_S_S4x13),
    StableHlo.TRef.ternary (.of main_v35 : StableHlo.TRef sig ⟨S4x13, .i1⟩) (.of main_v55 : StableHlo.TRef sig ⟨S4x13, .f32⟩) main_call7.v1 main_call7.v2 select,
    StableHlo.nullary main_cst_14 (constant S_ .f32 0x00000000#32),
    StableHlo.binary main_v75 main_cst_14 main_v76 ((fun x v => Host.reduceAdd x v reducesTo_S4x13_S4_d1 h_S_) : (⟨S4x13, .f32⟩ : BufTy).Contents (Elt F) → (⟨S_, .f32⟩ : BufTy).Contents (Elt F) → (⟨S4, .f32⟩ : BufTy).Contents (Elt F)),
    StableHlo.nullary main_cst_15 (constant S_ .f32 0x00000000#32),
    StableHlo.unary main_cst_15 main_v77 (broadcastInDim S4 ![] bcast_S_S4 : (⟨S_, .f32⟩ : BufTy).Contents (Elt F) → (⟨S4, .f32⟩ : BufTy).Contents (Elt F)),
    StableHlo.binary main_v76 main_v77 main_v78 (cmpf .ogt : (⟨S4, .f32⟩ : BufTy).Contents (Elt F) → (⟨S4, .f32⟩ : BufTy).Contents (Elt F) → (⟨S4, .i1⟩ : BufTy).Contents (Elt F)),
    StableHlo.nullary main_cst_16 (constant S_ .f32 0x3F800000#32),
    StableHlo.unary main_cst_16 main_v79 (broadcastInDim S4 ![] bcast_S_S4 : (⟨S_, .f32⟩ : BufTy).Contents (Elt F) → (⟨S4, .f32⟩ : BufTy).Contents (Elt F)),
    StableHlo.binary main_v74 main_v79 main_v80 (maximumf : (⟨S4, .f32⟩ : BufTy).Contents (Elt F) → (⟨S4, .f32⟩ : BufTy).Contents (Elt F) → (⟨S4, .f32⟩ : BufTy).Contents (Elt F)),
    StableHlo.binary main_v76 main_v80 main_v81 (Host.divf : (⟨S4, .f32⟩ : BufTy).Contents (Elt F) → (⟨S4, .f32⟩ : BufTy).Contents (Elt F) → (⟨S4, .f32⟩ : BufTy).Contents (Elt F)),
    StableHlo.nullary main_cst_17 (constant S_ .f32 0x00000000#32),
    StableHlo.TRef.unary (.of main_cst_17 : StableHlo.TRef sig ⟨S_, .f32⟩) main_call8.v0 id,
    StableHlo.TRef.unary main_call8.v0 main_call8.v1 (broadcastInDim S4 ![] bcast_S_S4),
    StableHlo.TRef.ternary (.of main_v78 : StableHlo.TRef sig ⟨S4, .i1⟩) (.of main_v81 : StableHlo.TRef sig ⟨S4, .f32⟩) main_call8.v1 main_call8.v2 select,
    StableHlo.nullary main_cst_18 (constant S_ .f32 0x00000000#32),
    StableHlo.binary main_v82 main_cst_18 main_v83 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_19 (constant S_ .f32 0x00000000#32),
    StableHlo.TRef.unary (.of main_cst_19 : StableHlo.TRef sig ⟨S_, .f32⟩) main_call9.v0 id,
    StableHlo.TRef.unary main_call9.v0 main_call9.v1 (broadcastInDim S4x13 ![] bcast_S_S4x13),
    StableHlo.TRef.ternary (.of main_v35 : StableHlo.TRef sig ⟨S4x13, .i1⟩) (.of main_v71 : StableHlo.TRef sig ⟨S4x13, .f32⟩) main_call9.v1 main_call9.v2 select,
    StableHlo.nullary main_cst_20 (constant S_ .f32 0x00000000#32),
    StableHlo.binary main_v84 main_cst_20 main_v85 ((fun x v => Host.reduceAdd x v reducesTo_S4x13_S_d0_1 h_S_) : (⟨S4x13, .f32⟩ : BufTy).Contents (Elt F) → (⟨S_, .f32⟩ : BufTy).Contents (Elt F) → (⟨S_, .f32⟩ : BufTy).Contents (Elt F)),
    StableHlo.nullary main_cst_21 (constant S_ .f32 0x42480000#32),
    StableHlo.binary main_cst_21 main_v83 main_v86 (mulf : (⟨S_, .f32⟩ : BufTy).Contents (Elt F) → (⟨S_, .f32⟩ : BufTy).Contents (Elt F) → (⟨S_, .f32⟩ : BufTy).Contents (Elt F)),
    StableHlo.nullary main_cst_22 (constant S_ .f32 0x40800000#32),
    StableHlo.binary main_v86 main_cst_22 main_v87 (Host.divf : (⟨S_, .f32⟩ : BufTy).Contents (Elt F) → (⟨S_, .f32⟩ : BufTy).Contents (Elt F) → (⟨S_, .f32⟩ : BufTy).Contents (Elt F)),
    StableHlo.nullary main_cst_23 (constant S_ .f32 0x41A00000#32),
    StableHlo.binary main_cst_23 main_v85 main_v88 (mulf : (⟨S_, .f32⟩ : BufTy).Contents (Elt F) → (⟨S_, .f32⟩ : BufTy).Contents (Elt F) → (⟨S_, .f32⟩ : BufTy).Contents (Elt F)),
    StableHlo.nullary main_cst_24 (constant S_ .f32 0x42600000#32),
    StableHlo.binary main_v88 main_cst_24 main_v89 (Host.divf : (⟨S_, .f32⟩ : BufTy).Contents (Elt F) → (⟨S_, .f32⟩ : BufTy).Contents (Elt F) → (⟨S_, .f32⟩ : BufTy).Contents (Elt F)),
    StableHlo.unary main_v87 main_v90 (broadcastInDim S1 ![] bcast_S_S1 : (⟨S_, .f32⟩ : BufTy).Contents (Elt F) → (⟨S1, .f32⟩ : BufTy).Contents (Elt F)),
    StableHlo.unary main_v89 main_v91 (broadcastInDim S1 ![] bcast_S_S1 : (⟨S_, .f32⟩ : BufTy).Contents (Elt F) → (⟨S1, .f32⟩ : BufTy).Contents (Elt F)),
    StableHlo.binary main_v90 main_v91 main_v92 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) ]

/-- The entry function's 184 operations in order. -/
abbrev ops : List (HloOp τ sig (Elt F)) := ops0 ++ ops1

theorem ops0_length : (ops0 : List (HloOp τ sig (Elt F))).length = 88 := rfl
theorem ops1_length : (ops1 : List (HloOp τ sig (Elt F))).length = 96 := rfl
theorem ops_length : (ops : List (HloOp τ sig (Elt F))).length = 184 := rfl

set_option maxRecDepth 16384 in
set_option maxHeartbeats 4000000 in
/-- The first window is its list run in order: both sides are the same chain of steps once the callees' bodies are
    unfolded at their calls. -/
theorem part0_eq (c : Dev nD) : main_part0 (F := F) c = seq ops0 := rfl

set_option maxRecDepth 16384 in
set_option maxHeartbeats 4000000 in
/-- The second window likewise. -/
theorem part1_eq (c : Dev nD) : main_part1 (F := F) c = seq ops1 := rfl

/-- The entry function runs its windows in order; the third is the bare return. -/
theorem main_eq (c : Dev nD) : main (F := F) c = seq ops := by
  have h2 : (main_part1 (F := F) c >>= fun _ => main_part2 (F := F) c) = main_part1 (F := F) c := bind_pure _
  rw [show (ops : List (HloOp τ sig (Elt F))) = ops0 ++ ops1 from rfl, seq_append, ← part0_eq c, ← part1_eq c]
  exact congrArg (fun k => main_part0 (F := F) c >>= k) (funext fun _ => h2)

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., nullary_bufs_sub .., unary_bufs_sub .., binary_bufs_sub .., reshape_bufs_sub .., unary_bufs_sub .., unary_bufs_sub .., unary_bufs_sub .., unary_bufs_sub .., binary_bufs_sub .., nullary_bufs_sub .., binary_bufs_sub .., unary_bufs_sub .., unary_bufs_sub .., binary_bufs_sub .., unary_bufs_sub .., binary_bufs_sub .., unary_bufs_sub .., binary_bufs_sub .., unary_bufs_sub .., binary_bufs_sub .., nullary_bufs_sub .., binary_bufs_sub .., unary_bufs_sub .., unary_bufs_sub .., binary_bufs_sub .., unary_bufs_sub .., binary_bufs_sub .., unary_bufs_sub .., binary_bufs_sub .., unary_bufs_sub .., binary_bufs_sub .., binary_bufs_sub .., unary_bufs_sub .., binary_bufs_sub .., unary_bufs_sub .., nullary_bufs_sub .., binary_bufs_sub .., nullary_bufs_sub .., unary_bufs_sub .., binary_bufs_sub .., unary_bufs_sub .., unary_bufs_sub .., unary_bufs_sub .., unary_bufs_sub .., binary_bufs_sub .., reshape_bufs_sub .., binary_bufs_sub .., reshape_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., binary_bufs_sub ..⟩

theorem ops1_sub : (ops1 : List (HloOp τ sig (Elt F))).Forall fun op => op.bufs ⊆ tcRefs τ sig :=
  ⟨nullary_bufs_sub .., binary_bufs_sub .., nullary_bufs_sub .., unary_bufs_sub .., binary_bufs_sub .., binary_bufs_sub .., reshape_bufs_sub .., binary_bufs_sub .., reshape_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., nullary_bufs_sub .., unary_bufs_sub .., unary_bufs_sub .., ternary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., unary_bufs_sub .., unary_bufs_sub .., binary_bufs_sub ..⟩

/-- Every operation touches TensorCore buffers only. -/
theorem ops_sub : (ops : List (HloOp τ sig (Elt F))).Forall fun op => op.bufs ⊆ tcRefs τ sig := by
  rw [List.forall_iff_forall_mem]
  intro op hop
  rcases List.mem_append.mp hop with h | h
  · exact (List.forall_iff_forall_mem.mp ops0_sub) op h
  · exact (List.forall_iff_forall_mem.mp ops1_sub) op h

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation determines what it writes: none leaves a buffer at contents the machine chooses. -/
theorem ops_fresh : ∀ op ∈ (ops : List (HloOp τ sig (Elt F))), op.fresh = ∅ := by
  intro op hop
  rcases List.mem_append.mp hop with h | h
  · exact (List.forall_iff_forall_mem.mp ops0_fresh) op h
  · exact (List.forall_iff_forall_mem.mp ops1_fresh) op h

/-- On every device, for any float values, from any memory with zero counters: every weakly fair execution of the
    entry function terminates, and every final state has each TensorCore buffer at the fold of the operations over
    the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (fun b => m (c, b)) (Proc.devRef .tc b) :=
  run_seq scopedRefs_eq scopedSems_eq defs main (fun _ => ops) main_eq (fun _ => ops_sub) m ρ (fun _ => ops_fresh)

/-! ## Single assignment -/

/-- The buffer each operation of the first window writes, in order. -/
abbrev W0 : List (Ref sig .tc) :=
  [ main_v0, main_c, main_v1, main_v2, main_v3, main_v4, main_v5, main_v6, main_v7, main_v8, main_c_0, main_v9,
    main_v10, main_v11, main_v12, main_v13, main_v14, main_v15, main_v16, main_v17, main_v18, main_c_1, main_v19, main_v20,
    main_v21, main_v22, main_v23, main_v24, main_v25, main_v26, main_v27, main_v28, main_v29, main_v30, main_v31, main_v32,
    main_c_2, main_v33, main_c_3, main_v34, main_v35, main_v36, main_v37, main_v38, main_v39, main_v40, main_v41, main_v42,
    main_v43, main_cst, main_v44, main_v45, main_call2_cst, main_call2_v0, main_call2_cst_0, main_call2_v1, main_call2_v2, main_call2_v3, main_call2_v4, main_call2_v5,
    main_call2_v6, main_call2_cst_1, main_call2_v7, main_call2_v8, main_call2_v9, main_call2_v10, main_v46, main_cst_4, main_v47, main_v48, main_call3_cst, main_call3_v0,
    main_call3_cst_0, main_call3_v1, main_call3_v2, main_call3_v3, main_call3_v4, main_call3_v5, main_call3_v6, main_call3_cst_1, main_call3_v7, main_call3_v8, main_call3_v9, main_call3_v10,
    main_v49, main_v50, main_v51, main_v52 ]

/-- The buffer each operation of the second window writes, in order. -/
abbrev W1 : List (Ref sig .tc) :=
  [ main_cst_5, main_v53, main_cst_6, main_v54, main_v55, main_v56, main_v57, main_v58, main_v59, main_cst_7, main_v60, main_v61,
    main_call4_cst, main_call4_v0, main_call4_cst_0, main_call4_v1, main_call4_v2, main_call4_v3, main_call4_v4, main_call4_v5, main_call4_v6, main_call4_cst_1, main_call4_v7, main_call4_v8,
    main_call4_v9, main_call4_v10, main_v62, main_cst_8, main_v63, main_v64, main_call5_cst, main_call5_v0, main_call5_cst_0, main_call5_v1, main_call5_v2, main_call5_v3,
    main_call5_v4, main_call5_v5, main_call5_v6, main_call5_cst_1, main_call5_v7, main_call5_v8, main_call5_v9, main_call5_v10, main_v65, main_v66, main_v67, main_v68,
    main_cst_9, main_v69, main_cst_10, main_v70, main_v71, main_c_11, main_call6_v0, main_call6_v1, main_v72, main_c_12, main_v73, main_v74,
    main_cst_13, main_call7_v0, main_call7_v1, main_v75, main_cst_14, main_v76, main_cst_15, main_v77, main_v78, main_cst_16, main_v79, main_v80,
    main_v81, main_cst_17, main_call8_v0, main_call8_v1, main_v82, main_cst_18, main_v83, main_cst_19, main_call9_v0, main_call9_v1, main_v84, main_cst_20,
    main_v85, main_cst_21, main_v86, main_cst_22, main_v87, main_cst_23, main_v88, main_cst_24, main_v89, main_v90, main_v91, main_v92 ]

/-- The buffer each operation writes, in order. -/
abbrev W : List (Ref sig .tc) := W0 ++ W1

theorem W_length : W.length = 184 := rfl

/-- No buffer is written twice. -/
theorem W_nodup : W.Nodup := by decide

theorem writes0 : WritesIn (ops0 : List (HloOp τ sig (Elt F))) W0 := by
  repeat (first | exact WritesIn.nil | refine WritesIn.cons (Finset.Subset.refl _) ?_)

theorem writes1 : WritesIn (ops1 : List (HloOp τ sig (Elt F))) W1 := by
  repeat (first | exact WritesIn.nil | refine WritesIn.cons (Finset.Subset.refl _) ?_)

/-- Operation `k` writes `W[k]`. -/
theorem writesIn : WritesIn (ops : List (HloOp τ sig (Elt F))) W := writes0.append writes1

/-- The three arguments are written by no operation. -/
theorem arg0_not_mem : main_arg0 ∉ W := by decide
theorem arg1_not_mem : main_arg1 ∉ W := by decide
theorem arg2_not_mem : main_arg2 ∉ W := by decide

/-- The final contents of a buffer: the fold of the whole line over the launch contents `V`, read at that buffer. -/
abbrev R (V : Valuation τ sig (Elt F)) (b : Ref sig .tc) : b.ty.Contents (Elt F) := after ops V (Proc.devRef .tc b)

/-- The arguments end as they were launched. -/
theorem R_arg0 (V : Valuation τ sig (Elt F)) : R V main_arg0 = V (Proc.devRef .tc main_arg0) :=
  after_kept writesIn V main_arg0 arg0_not_mem
theorem R_arg1 (V : Valuation τ sig (Elt F)) : R V main_arg1 = V (Proc.devRef .tc main_arg1) :=
  after_kept writesIn V main_arg1 arg1_not_mem
theorem R_arg2 (V : Valuation τ sig (Elt F)) : R V main_arg2 = V (Proc.devRef .tc main_arg2) :=
  after_kept writesIn V main_arg2 arg2_not_mem

/-- `%y = reshape %x` at position `k` of a line in single-assignment form: in the final contents `y` holds `x`'s
    elements in row-major order at `y`'s shape. -/
theorem eq_reshape {τ : Topo} {sig : RefSig} {Val : EltTy → Type} {ops : List (HloOp τ sig Val)} {W : List (Ref sig .tc)}
    (hW : WritesIn ops W) (V : Valuation τ sig Val) (k : Nat) (hk : k < ops.length) {x y : Ref sig .tc}
    (he : x.ty.elt = y.ty.elt) (hn : x.ty.shape.ShapeCasts y.ty.shape) (hx hy)
    (hop : ops[k] = reshape x y he hn hx hy) (hxW : x ∉ W.drop k) (hyW : y ∉ W.drop (k + 1)) :
    after ops V (Proc.devRef .tc y)
      = fun i => he ▸ shapeCast y.ty.shape (after ops V (Proc.devRef .tc x)) hn i := by
  rw [after_out hW V k hk y hyW, hop, reshape_result, ← after_eq_take hW V k x hxW]

end Cert.RRun

end
-- ==== Proof.RRunEqA.lean ====
/-
  The reference program's integer part, one equation per operation: positions 0 … 40 of the line — the class
  indices 1 … 13 (%0 … %2), the label array compared with them (%3 … %8), that mask padded with false and the or,
  then the and, of its five shifted slices (%9 … %18, %19 … %28), their exclusive or (%29), its complement within
  the mask (%30, %31), the per-class count of %29 and whether it is positive (%32 … %35) — and positions 141 … 147:
  the integer select's body (call 6: %72), its sum over the classes and the conversion to float (%73, %74).

  The final contents `R V b` (the whole line folded over the launch contents `V`, read at buffer `b`) satisfy each
  operation's own equation: for operation `k`, writing `y` from operands written at earlier positions or never,
  `R V y = f (R V a) (R V b)`. Each is an instance of the single-assignment reading of a line: an operand written at
  position `j < k` does not occur in the write list from `k` on because the list has no repetition, and the result,
  written at `k`, does not occur from `k + 1` on.
-/
import proofs.«165479_j24979529793863_2_alg».proof.Proof.RRun

noncomputable section

namespace Cert.RRun

open Cert.ReferenceIdeal Cert.ReferenceIdeal.Gen Idealize.ShloMosaic Idealize.ShloMosaic.TcCoe Idealize.SL.Sem Idealize.ShloMosaic.StableHlo

variable {F : FTy → Type} [FloatOps F]

private theorem nd {j k : Nat} {x : Ref sig .tc} (e : W[j]? = some x) (hjk : j < k) : x ∉ W.drop k :=
  not_mem_drop_of_pos W_nodup e hjk

private theorem lt_len {k : Nat} (h : k < 184) : k < (ops : List (HloOp τ sig (Elt F))).length :=
  Nat.lt_of_lt_of_eq h ops_length.symm

-- The reductions and the pad are folds over their operand's elements; the equations below do not depend on their values.
attribute [local irreducible] Host.reduce Host.reduceAdd pad

theorem eq_main_v0 (V : Valuation τ sig (Elt F)) :
    R V main_v0 = (iotaInDim S13 32 0) :=
  eq_nullary writesIn V 0 (lt_len (by decide : 0 < 184)) (y := main_v0) (iotaInDim S13 32 0) (by exact ⟨by decide, rfl⟩) rfl (nd (j := 0) rfl (by decide))

theorem eq_main_c (V : Valuation τ sig (Elt F)) :
    R V main_c = (constantI S_ 32 1#32) :=
  eq_nullary writesIn V 1 (lt_len (by decide : 1 < 184)) (y := main_c) (constantI S_ 32 1#32) (by exact ⟨by decide, rfl⟩) rfl (nd (j := 1) rfl (by decide))

theorem eq_main_v1 (V : Valuation τ sig (Elt F)) :
    R V main_v1 = (broadcastInDim S13 ![] bcast_S_S13 : (⟨S_, .i32⟩ : BufTy).Contents (Elt F) → (⟨S13, .i32⟩ : BufTy).Contents (Elt F)) (R V main_c) :=
  eq_unary writesIn V 2 (lt_len (by decide : 2 < 184)) (x := main_c) (y := main_v1) (broadcastInDim S13 ![] bcast_S_S13 : (⟨S_, .i32⟩ : BufTy).Contents (Elt F) → (⟨S13, .i32⟩ : BufTy).Contents (Elt F)) (by exact ⟨by decide, rfl⟩) (by exact ⟨by decide, rfl⟩) rfl (nd (j := 1) rfl (by decide)) (nd (j := 2) rfl (by decide))

theorem eq_main_v2 (V : Valuation τ sig (Elt F)) :
    R V main_v2 = (addi : (⟨S13, .i32⟩ : BufTy).Contents (Elt F) → (⟨S13, .i32⟩ : BufTy).Contents (Elt F) → (⟨S13, .i32⟩ : BufTy).Contents (Elt F)) (R V main_v1) (R V main_v0) :=
  eq_binary writesIn V 3 (lt_len (by decide : 3 < 184)) (a := main_v1) (b := main_v0) (y := main_v2) (addi : (⟨S13, .i32⟩ : BufTy).Contents (Elt F) → (⟨S13, .i32⟩ : BufTy).Contents (Elt F) → (⟨S13, .i32⟩ : BufTy).Contents (Elt F)) (by exact ⟨by decide, rfl⟩) (by exact ⟨by decide, rfl⟩) (by exact ⟨by decide, rfl⟩) rfl (nd (j := 2) rfl (by decide)) (nd (j := 0) rfl (by decide)) (nd (j := 3) rfl (by decide))

theorem eq_main_v3 (V : Valuation τ sig (Elt F)) :
    R V main_v3 = shapeCast S4x512x512 (R V main_arg2) shapeCasts_S4x1x512x512_S4x512x512 :=
  eq_reshape writesIn V 4 (lt_len (by decide : 4 < 184)) (x := main_arg2) (y := main_v3) rfl shapeCasts_S4x1x512x512_S4x512x512 (by exact ⟨by decide, rfl⟩) (by exact ⟨by decide, rfl⟩) rfl (not_mem_drop_of_not_mem arg2_not_mem 4) (nd (j := 4) rfl (by decide))

theorem eq_main_v4 (V : Valuation τ sig (Elt F)) :
    R V main_v4 = (broadcastInDim S4x1x512x512 ![0, 2, 3] bcast_S4x512x512_S4x1x512x512_0_2_3 : (⟨S4x512x512, .i32⟩ : BufTy).Contents (Elt F) → (⟨S4x1x512x512, .i32⟩ : BufTy).Contents (Elt F)) (R V main_v3) :=
  eq_unary writesIn V 5 (lt_len (by decide : 5 < 184)) (x := main_v3) (y := main_v4) (broadcastInDim S4x1x512x512 ![0, 2, 3] bcast_S4x512x512_S4x1x512x512_0_2_3 : (⟨S4x512x512, .i32⟩ : BufTy).Contents (Elt F) → (⟨S4x1x512x512, .i32⟩ : BufTy).Contents (Elt F)) (by exact ⟨by decide, rfl⟩) (by exact ⟨by decide, rfl⟩) rfl (nd (j := 4) rfl (by decide)) (nd (j := 5) rfl (by decide))

theorem eq_main_v5 (V : Valuation τ sig (Elt F)) :
    R V main_v5 = (broadcastInDim S1x13x1x1 ![1] bcast_S13_S1x13x1x1_1 : (⟨S13, .i32⟩ : BufTy).Contents (Elt F) → (⟨S1x13x1x1, .i32⟩ : BufTy).Contents (Elt F)) (R V main_v2) :=
  eq_unary writesIn V 6 (lt_len (by decide : 6 < 184)) (x := main_v2) (y := main_v5) (broadcastInDim S1x13x1x1 ![1] bcast_S13_S1x13x1x1_1 : (⟨S13, .i32⟩ : BufTy).Contents (Elt F) → (⟨S1x13x1x1, .i32⟩ : BufTy).Contents (Elt F)) (by exact ⟨by decide, rfl⟩) (by exact ⟨by decide, rfl⟩) rfl (nd (j := 3) rfl (by decide)) (nd (j := 6) rfl (by decide))

theorem eq_main_v6 (V : Valuation τ sig (Elt F)) :
    R V main_v6 = (broadcastInDim S4x13x512x512 ![0, 1, 2, 3] bcast_S4x1x512x512_S4x13x512x512_0_1_2_3 : (⟨S4x1x512x512, .i32⟩ : BufTy).Contents (Elt F) → (⟨S4x13x512x512, .i32⟩ : BufTy).Contents (Elt F)) (R V main_v4) :=
  eq_unary writesIn V 7 (lt_len (by decide : 7 < 184)) (x := main_v4) (y := main_v6) (broadcastInDim S4x13x512x512 ![0, 1, 2, 3] bcast_S4x1x512x512_S4x13x512x512_0_1_2_3 : (⟨S4x1x512x512, .i32⟩ : BufTy).Contents (Elt F) → (⟨S4x13x512x512, .i32⟩ : BufTy).Contents (Elt F)) (by exact ⟨by decide, rfl⟩) (by exact ⟨by decide, rfl⟩) rfl (nd (j := 5) rfl (by decide)) (nd (j := 7) rfl (by decide))

theorem eq_main_v7 (V : Valuation τ sig (Elt F)) :
    R V main_v7 = (broadcastInDim S4x13x512x512 ![0, 1, 2, 3] bcast_S1x13x1x1_S4x13x512x512_0_1_2_3 : (⟨S1x13x1x1, .i32⟩ : BufTy).Contents (Elt F) → (⟨S4x13x512x512, .i32⟩ : BufTy).Contents (Elt F)) (R V main_v5) :=
  eq_unary writesIn V 8 (lt_len (by decide : 8 < 184)) (x := main_v5) (y := main_v7) (broadcastInDim S4x13x512x512 ![0, 1, 2, 3] bcast_S1x13x1x1_S4x13x512x512_0_1_2_3 : (⟨S1x13x1x1, .i32⟩ : BufTy).Contents (Elt F) → (⟨S4x13x512x512, .i32⟩ : BufTy).Contents (Elt F)) (by exact ⟨by decide, rfl⟩) (by exact ⟨by decide, rfl⟩) rfl (nd (j := 6) rfl (by decide)) (nd (j := 8) rfl (by decide))

theorem eq_main_v8 (V : Valuation τ sig (Elt F)) :
    R V main_v8 = (cmpi .eq : (⟨S4x13x512x512, .i32⟩ : BufTy).Contents (Elt F) → (⟨S4x13x512x512, .i32⟩ : BufTy).Contents (Elt F) → (⟨S4x13x512x512, .i1⟩ : BufTy).Contents (Elt F)) (R V main_v6) (R V main_v7) :=
  eq_binary writesIn V 9 (lt_len (by decide : 9 < 184)) (a := main_v6) (b := main_v7) (y := main_v8) (cmpi .eq : (⟨S4x13x512x512, .i32⟩ : BufTy).Contents (Elt F) → (⟨S4x13x512x512, .i32⟩ : BufTy).Contents (Elt F) → (⟨S4x13x512x512, .i1⟩ : BufTy).Contents (Elt F)) (by exact ⟨by decide, rfl⟩) (by exact ⟨by decide, rfl⟩) (by exact ⟨by decide, rfl⟩) rfl (nd (j := 7) rfl (by decide)) (nd (j := 8) rfl (by decide)) (nd (j := 9) rfl (by decide))

theorem eq_main_c_0 (V : Valuation τ sig (Elt F)) :
    R V main_c_0 = (constantI S_ 1 0#1) :=
  eq_nullary writesIn V 10 (lt_len (by decide : 10 < 184)) (y := main_c_0) (constantI S_ 1 0#1) (by exact ⟨by decide, rfl⟩) rfl (nd (j := 10) rfl (by decide))

theorem eq_main_v9 (V : Valuation τ sig (Elt F)) :
    R V main_v9 = ((fun x v => pad S4x13x514x514 ![0, 0, 1, 1] ![0, 0, 1, 1] ![0, 0, 0, 0] x v pads_S4x13x512x512_S4x13x514x514_000_000_110_110 h_S_) : (⟨S4x13x512x512, .i1⟩ : BufTy).Contents (Elt F) → (⟨S_, .i1⟩ : BufTy).Contents (Elt F) → (⟨S4x13x514x514, .i1⟩ : BufTy).Contents (Elt F)) (R V main_v8) (R V main_c_0) :=
  eq_binary writesIn V 11 (lt_len (by decide : 11 < 184)) (a := main_v8) (b := main_c_0) (y := main_v9) ((fun x v => pad S4x13x514x514 ![0, 0, 1, 1] ![0, 0, 1, 1] ![0, 0, 0, 0] x v pads_S4x13x512x512_S4x13x514x514_000_000_110_110 h_S_) : (⟨S4x13x512x512, .i1⟩ : BufTy).Contents (Elt F) → (⟨S_, .i1⟩ : BufTy).Contents (Elt F) → (⟨S4x13x514x514, .i1⟩ : BufTy).Contents (Elt F)) (by exact ⟨by decide, rfl⟩) (by exact ⟨by decide, rfl⟩) (by exact ⟨by decide, rfl⟩) rfl (nd (j := 9) rfl (by decide)) (nd (j := 10) rfl (by decide)) (nd (j := 11) rfl (by decide))

theorem eq_main_v10 (V : Valuation τ sig (Elt F)) :
    R V main_v10 = ((extractStridedSlice S4x13x512x512 ![0, 0, 1, 1] · slices_S4x13x514x514_S4x13x512x512_0_0_1_1) : (⟨S4x13x514x514, .i1⟩ : BufTy).Contents (Elt F) → (⟨S4x13x512x512, .i1⟩ : BufTy).Contents (Elt F)) (R V main_v9) :=
  eq_unary writesIn V 12 (lt_len (by decide : 12 < 184)) (x := main_v9) (y := main_v10) ((extractStridedSlice S4x13x512x512 ![0, 0, 1, 1] · slices_S4x13x514x514_S4x13x512x512_0_0_1_1) : (⟨S4x13x514x514, .i1⟩ : BufTy).Contents (Elt F) → (⟨S4x13x512x512, .i1⟩ : BufTy).Contents (Elt F)) (by exact ⟨by decide, rfl⟩) (by exact ⟨by decide, rfl⟩) rfl (nd (j := 11) rfl (by decide)) (nd (j := 12) rfl (by decide))

theorem eq_main_v11 (V : Valuation τ sig (Elt F)) :
    R V main_v11 = ((extractStridedSlice S4x13x512x512 ![0, 0, 0, 1] · slices_S4x13x514x514_S4x13x512x512_0_0_0_1) : (⟨S4x13x514x514, .i1⟩ : BufTy).Contents (Elt F) → (⟨S4x13x512x512, .i1⟩ : BufTy).Contents (Elt F)) (R V main_v9) :=
  eq_unary writesIn V 13 (lt_len (by decide : 13 < 184)) (x := main_v9) (y := main_v11) ((extractStridedSlice S4x13x512x512 ![0, 0, 0, 1] · slices_S4x13x514x514_S4x13x512x512_0_0_0_1) : (⟨S4x13x514x514, .i1⟩ : BufTy).Contents (Elt F) → (⟨S4x13x512x512, .i1⟩ : BufTy).Contents (Elt F)) (by exact ⟨by decide, rfl⟩) (by exact ⟨by decide, rfl⟩) rfl (nd (j := 11) rfl (by decide)) (nd (j := 13) rfl (by decide))

theorem eq_main_v12 (V : Valuation τ sig (Elt F)) :
    R V main_v12 = (ori : (⟨S4x13x512x512, .i1⟩ : BufTy).Contents (Elt F) → (⟨S4x13x512x512, .i1⟩ : BufTy).Contents (Elt F) → (⟨S4x13x512x512, .i1⟩ : BufTy).Contents (Elt F)) (R V main_v10) (R V main_v11) :=
  eq_binary writesIn V 14 (lt_len (by decide : 14 < 184)) (a := main_v10) (b := main_v11) (y := main_v12) (ori : (⟨S4x13x512x512, .i1⟩ : BufTy).Contents (Elt F) → (⟨S4x13x512x512, .i1⟩ : BufTy).Contents (Elt F) → (⟨S4x13x512x512, .i1⟩ : BufTy).Contents (Elt F)) (by exact ⟨by decide, rfl⟩) (by exact ⟨by decide, rfl⟩) (by exact ⟨by decide, rfl⟩) rfl (nd (j := 12) rfl (by decide)) (nd (j := 13) rfl (by decide)) (nd (j := 14) rfl (by decide))

theorem eq_main_v13 (V : Valuation τ sig (Elt F)) :
    R V main_v13 = ((extractStridedSlice S4x13x512x512 ![0, 0, 2, 1] · slices_S4x13x514x514_S4x13x512x512_0_0_2_1) : (⟨S4x13x514x514, .i1⟩ : BufTy).Contents (Elt F) → (⟨S4x13x512x512, .i1⟩ : BufTy).Contents (Elt F)) (R V main_v9) :=
  eq_unary writesIn V 15 (lt_len (by decide : 15 < 184)) (x := main_v9) (y := main_v13) ((extractStridedSlice S4x13x512x512 ![0, 0, 2, 1] · slices_S4x13x514x514_S4x13x512x512_0_0_2_1) : (⟨S4x13x514x514, .i1⟩ : BufTy).Contents (Elt F) → (⟨S4x13x512x512, .i1⟩ : BufTy).Contents (Elt F)) (by exact ⟨by decide, rfl⟩) (by exact ⟨by decide, rfl⟩) rfl (nd (j := 11) rfl (by decide)) (nd (j := 15) rfl (by decide))

theorem eq_main_v14 (V : Valuation τ sig (Elt F)) :
    R V main_v14 = (ori : (⟨S4x13x512x512, .i1⟩ : BufTy).Contents (Elt F) → (⟨S4x13x512x512, .i1⟩ : BufTy).Contents (Elt F) → (⟨S4x13x512x512, .i1⟩ : BufTy).Contents (Elt F)) (R V main_v12) (R V main_v13) :=
  eq_binary writesIn V 16 (lt_len (by decide : 16 < 184)) (a := main_v12) (b := main_v13) (y := main_v14) (ori : (⟨S4x13x512x512, .i1⟩ : BufTy).Contents (Elt F) → (⟨S4x13x512x512, .i1⟩ : BufTy).Contents (Elt F) → (⟨S4x13x512x512, .i1⟩ : BufTy).Contents (Elt F)) (by exact ⟨by decide, rfl⟩) (by exact ⟨by decide, rfl⟩) (by exact ⟨by decide, rfl⟩) rfl (nd (j := 14) rfl (by decide)) (nd (j := 15) rfl (by decide)) (nd (j := 16) rfl (by decide))

theorem eq_main_v15 (V : Valuation τ sig (Elt F)) :
    R V main_v15 = ((extractStridedSlice S4x13x512x512 ![0, 0, 1, 0] · slices_S4x13x514x514_S4x13x512x512_0_0_1_0) : (⟨S4x13x514x514, .i1⟩ : BufTy).Contents (Elt F) → (⟨S4x13x512x512, .i1⟩ : BufTy).Contents (Elt F)) (R V main_v9) :=
  eq_unary writesIn V 17 (lt_len (by decide : 17 < 184)) (x := main_v9) (y := main_v15) ((extractStridedSlice S4x13x512x512 ![0, 0, 1, 0] · slices_S4x13x514x514_S4x13x512x512_0_0_1_0) : (⟨S4x13x514x514, .i1⟩ : BufTy).Contents (Elt F) → (⟨S4x13x512x512, .i1⟩ : BufTy).Contents (Elt F)) (by exact ⟨by decide, rfl⟩) (by exact ⟨by decide, rfl⟩) rfl (nd (j := 11) rfl (by decide)) (nd (j := 17) rfl (by decide))

theorem eq_main_v16 (V : Valuation τ sig (Elt F)) :
    R V main_v16 = (ori : (⟨S4x13x512x512, .i1⟩ : BufTy).Contents (Elt F) → (⟨S4x13x512x512, .i1⟩ : BufTy).Contents (Elt F) → (⟨S4x13x512x512, .i1⟩ : BufTy).Contents (Elt F)) (R V main_v14) (R V main_v15) :=
  eq_binary writesIn V 18 (lt_len (by decide : 18 < 184)) (a := main_v14) (b := main_v15) (y := main_v16) (ori : (⟨S4x13x512x512, .i1⟩ : BufTy).Contents (Elt F) → (⟨S4x13x512x512, .i1⟩ : BufTy).Contents (Elt F) → (⟨S4x13x512x512, .i1⟩ : BufTy).Contents (Elt F)) (by exact ⟨by decide, rfl⟩) (by exact ⟨by decide, rfl⟩) (by exact ⟨by decide, rfl⟩) rfl (nd (j := 16) rfl (by decide)) (nd (j := 17) rfl (by decide)) (nd (j := 18) rfl (by decide))

theorem eq_main_v17 (V : Valuation τ sig (Elt F)) :
    R V main_v17 = ((extractStridedSlice S4x13x512x512 ![0, 0, 1, 2] · slices_S4x13x514x514_S4x13x512x512_0_0_1_2) : (⟨S4x13x514x514, .i1⟩ : BufTy).Contents (Elt F) → (⟨S4x13x512x512, .i1⟩ : BufTy).Contents (Elt F)) (R V main_v9) :=
  eq_unary writesIn V 19 (lt_len (by decide : 19 < 184)) (x := main_v9) (y := main_v17) ((extractStridedSlice S4x13x512x512 ![0, 0, 1, 2] · slices_S4x13x514x514_S4x13x512x512_0_0_1_2) : (⟨S4x13x514x514, .i1⟩ : BufTy).Contents (Elt F) → (⟨S4x13x512x512, .i1⟩ : BufTy).Contents (Elt F)) (by exact ⟨by decide, rfl⟩) (by exact ⟨by decide, rfl⟩) rfl (nd (j := 11) rfl (by decide)) (nd (j := 19) rfl (by decide))

theorem eq_main_v18 (V : Valuation τ sig (Elt F)) :
    R V main_v18 = (ori : (⟨S4x13x512x512, .i1⟩ : BufTy).Contents (Elt F) → (⟨S4x13x512x512, .i1⟩ : BufTy).Contents (Elt F) → (⟨S4x13x512x512, .i1⟩ : BufTy).Contents (Elt F)) (R V main_v16) (R V main_v17) :=
  eq_binary writesIn V 20 (lt_len (by decide : 20 < 184)) (a := main_v16) (b := main_v17) (y := main_v18) (ori : (⟨S4x13x512x512, .i1⟩ : BufTy).Contents (Elt F) → (⟨S4x13x512x512, .i1⟩ : BufTy).Contents (Elt F) → (⟨S4x13x512x512, .i1⟩ : BufTy).Contents (Elt F)) (by exact ⟨by decide, rfl⟩) (by exact ⟨by decide, rfl⟩) (by exact ⟨by decide, rfl⟩) rfl (nd (j := 18) rfl (by decide)) (nd (j := 19) rfl (by decide)) (nd (j := 20) rfl (by decide))

theorem eq_main_c_1 (V : Valuation τ sig (Elt F)) :
    R V main_c_1 = (constantI S_ 1 0#1) :=
  eq_nullary writesIn V 21 (lt_len (by decide : 21 < 184)) (y := main_c_1) (constantI S_ 1 0#1) (by exact ⟨by decide, rfl⟩) rfl (nd (j := 21) rfl (by decide))

theorem eq_main_v19 (V : Valuation τ sig (Elt F)) :
    R V main_v19 = ((fun x v => pad S4x13x514x514 ![0, 0, 1, 1] ![0, 0, 1, 1] ![0, 0, 0, 0] x v pads_S4x13x512x512_S4x13x514x514_000_000_110_110 h_S_) : (⟨S4x13x512x512, .i1⟩ : BufTy).Contents (Elt F) → (⟨S_, .i1⟩ : BufTy).Contents (Elt F) → (⟨S4x13x514x514, .i1⟩ : BufTy).Contents (Elt F)) (R V main_v8) (R V main_c_1) :=
  eq_binary writesIn V 22 (lt_len (by decide : 22 < 184)) (a := main_v8) (b := main_c_1) (y := main_v19) ((fun x v => pad S4x13x514x514 ![0, 0, 1, 1] ![0, 0, 1, 1] ![0, 0, 0, 0] x v pads_S4x13x512x512_S4x13x514x514_000_000_110_110 h_S_) : (⟨S4x13x512x512, .i1⟩ : BufTy).Contents (Elt F) → (⟨S_, .i1⟩ : BufTy).Contents (Elt F) → (⟨S4x13x514x514, .i1⟩ : BufTy).Contents (Elt F)) (by exact ⟨by decide, rfl⟩) (by exact ⟨by decide, rfl⟩) (by exact ⟨by decide, rfl⟩) rfl (nd (j := 9) rfl (by decide)) (nd (j := 21) rfl (by decide)) (nd (j := 22) rfl (by decide))

theorem eq_main_v20 (V : Valuation τ sig (Elt F)) :
    R V main_v20 = ((extractStridedSlice S4x13x512x512 ![0, 0, 1, 1] · slices_S4x13x514x514_S4x13x512x512_0_0_1_1) : (⟨S4x13x514x514, .i1⟩ : BufTy).Contents (Elt F) → (⟨S4x13x512x512, .i1⟩ : BufTy).Contents (Elt F)) (R V main_v19) :=
  eq_unary writesIn V 23 (lt_len (by decide : 23 < 184)) (x := main_v19) (y := main_v20) ((extractStridedSlice S4x13x512x512 ![0, 0, 1, 1] · slices_S4x13x514x514_S4x13x512x512_0_0_1_1) : (⟨S4x13x514x514, .i1⟩ : BufTy).Contents (Elt F) → (⟨S4x13x512x512, .i1⟩ : BufTy).Contents (Elt F)) (by exact ⟨by decide, rfl⟩) (by exact ⟨by decide, rfl⟩) rfl (nd (j := 22) rfl (by decide)) (nd (j := 23) rfl (by decide))

theorem eq_main_v21 (V : Valuation τ sig (Elt F)) :
    R V main_v21 = ((extractStridedSlice S4x13x512x512 ![0, 0, 0, 1] · slices_S4x13x514x514_S4x13x512x512_0_0_0_1) : (⟨S4x13x514x514, .i1⟩ : BufTy).Contents (Elt F) → (⟨S4x13x512x512, .i1⟩ : BufTy).Contents (Elt F)) (R V main_v19) :=
  eq_unary writesIn V 24 (lt_len (by decide : 24 < 184)) (x := main_v19) (y := main_v21) ((extractStridedSlice S4x13x512x512 ![0, 0, 0, 1] · slices_S4x13x514x514_S4x13x512x512_0_0_0_1) : (⟨S4x13x514x514, .i1⟩ : BufTy).Contents (Elt F) → (⟨S4x13x512x512, .i1⟩ : BufTy).Contents (Elt F)) (by exact ⟨by decide, rfl⟩) (by exact ⟨by decide, rfl⟩) rfl (nd (j := 22) rfl (by decide)) (nd (j := 24) rfl (by decide))

theorem eq_main_v22 (V : Valuation τ sig (Elt F)) :
    R V main_v22 = (andi : (⟨S4x13x512x512, .i1⟩ : BufTy).Contents (Elt F) → (⟨S4x13x512x512, .i1⟩ : BufTy).Contents (Elt F) → (⟨S4x13x512x512, .i1⟩ : BufTy).Contents (Elt F)) (R V main_v20) (R V main_v21) :=
  eq_binary writesIn V 25 (lt_len (by decide : 25 < 184)) (a := main_v20) (b := main_v21) (y := main_v22) (andi : (⟨S4x13x512x512, .i1⟩ : BufTy).Contents (Elt F) → (⟨S4x13x512x512, .i1⟩ : BufTy).Contents (Elt F) → (⟨S4x13x512x512, .i1⟩ : BufTy).Contents (Elt F)) (by exact ⟨by decide, rfl⟩) (by exact ⟨by decide, rfl⟩) (by exact ⟨by decide, rfl⟩) rfl (nd (j := 23) rfl (by decide)) (nd (j := 24) rfl (by decide)) (nd (j := 25) rfl (by decide))

theorem eq_main_v23 (V : Valuation τ sig (Elt F)) :
    R V main_v23 = ((extractStridedSlice S4x13x512x512 ![0, 0, 2, 1] · slices_S4x13x514x514_S4x13x512x512_0_0_2_1) : (⟨S4x13x514x514, .i1⟩ : BufTy).Contents (Elt F) → (⟨S4x13x512x512, .i1⟩ : BufTy).Contents (Elt F)) (R V main_v19) :=
  eq_unary writesIn V 26 (lt_len (by decide : 26 < 184)) (x := main_v19) (y := main_v23) ((extractStridedSlice S4x13x512x512 ![0, 0, 2, 1] · slices_S4x13x514x514_S4x13x512x512_0_0_2_1) : (⟨S4x13x514x514, .i1⟩ : BufTy).Contents (Elt F) → (⟨S4x13x512x512, .i1⟩ : BufTy).Contents (Elt F)) (by exact ⟨by decide, rfl⟩) (by exact ⟨by decide, rfl⟩) rfl (nd (j := 22) rfl (by decide)) (nd (j := 26) rfl (by decide))

theorem eq_main_v24 (V : Valuation τ sig (Elt F)) :
    R V main_v24 = (andi : (⟨S4x13x512x512, .i1⟩ : BufTy).Contents (Elt F) → (⟨S4x13x512x512, .i1⟩ : BufTy).Contents (Elt F) → (⟨S4x13x512x512, .i1⟩ : BufTy).Contents (Elt F)) (R V main_v22) (R V main_v23) :=
  eq_binary writesIn V 27 (lt_len (by decide : 27 < 184)) (a := main_v22) (b := main_v23) (y := main_v24) (andi : (⟨S4x13x512x512, .i1⟩ : BufTy).Contents (Elt F) → (⟨S4x13x512x512, .i1⟩ : BufTy).Contents (Elt F) → (⟨S4x13x512x512, .i1⟩ : BufTy).Contents (Elt F)) (by exact ⟨by decide, rfl⟩) (by exact ⟨by decide, rfl⟩) (by exact ⟨by decide, rfl⟩) rfl (nd (j := 25) rfl (by decide)) (nd (j := 26) rfl (by decide)) (nd (j := 27) rfl (by decide))

theorem eq_main_v25 (V : Valuation τ sig (Elt F)) :
    R V main_v25 = ((extractStridedSlice S4x13x512x512 ![0, 0, 1, 0] · slices_S4x13x514x514_S4x13x512x512_0_0_1_0) : (⟨S4x13x514x514, .i1⟩ : BufTy).Contents (Elt F) → (⟨S4x13x512x512, .i1⟩ : BufTy).Contents (Elt F)) (R V main_v19) :=
  eq_unary writesIn V 28 (lt_len (by decide : 28 < 184)) (x := main_v19) (y := main_v25) ((extractStridedSlice S4x13x512x512 ![0, 0, 1, 0] · slices_S4x13x514x514_S4x13x512x512_0_0_1_0) : (⟨S4x13x514x514, .i1⟩ : BufTy).Contents (Elt F) → (⟨S4x13x512x512, .i1⟩ : BufTy).Contents (Elt F)) (by exact ⟨by decide, rfl⟩) (by exact ⟨by decide, rfl⟩) rfl (nd (j := 22) rfl (by decide)) (nd (j := 28) rfl (by decide))

theorem eq_main_v26 (V : Valuation τ sig (Elt F)) :
    R V main_v26 = (andi : (⟨S4x13x512x512, .i1⟩ : BufTy).Contents (Elt F) → (⟨S4x13x512x512, .i1⟩ : BufTy).Contents (Elt F) → (⟨S4x13x512x512, .i1⟩ : BufTy).Contents (Elt F)) (R V main_v24) (R V main_v25) :=
  eq_binary writesIn V 29 (lt_len (by decide : 29 < 184)) (a := main_v24) (b := main_v25) (y := main_v26) (andi : (⟨S4x13x512x512, .i1⟩ : BufTy).Contents (Elt F) → (⟨S4x13x512x512, .i1⟩ : BufTy).Contents (Elt F) → (⟨S4x13x512x512, .i1⟩ : BufTy).Contents (Elt F)) (by exact ⟨by decide, rfl⟩) (by exact ⟨by decide, rfl⟩) (by exact ⟨by decide, rfl⟩) rfl (nd (j := 27) rfl (by decide)) (nd (j := 28) rfl (by decide)) (nd (j := 29) rfl (by decide))

theorem eq_main_v27 (V : Valuation τ sig (Elt F)) :
    R V main_v27 = ((extractStridedSlice S4x13x512x512 ![0, 0, 1, 2] · slices_S4x13x514x514_S4x13x512x512_0_0_1_2) : (⟨S4x13x514x514, .i1⟩ : BufTy).Contents (Elt F) → (⟨S4x13x512x512, .i1⟩ : BufTy).Contents (Elt F)) (R V main_v19) :=
  eq_unary writesIn V 30 (lt_len (by decide : 30 < 184)) (x := main_v19) (y := main_v27) ((extractStridedSlice S4x13x512x512 ![0, 0, 1, 2] · slices_S4x13x514x514_S4x13x512x512_0_0_1_2) : (⟨S4x13x514x514, .i1⟩ : BufTy).Contents (Elt F) → (⟨S4x13x512x512, .i1⟩ : BufTy).Contents (Elt F)) (by exact ⟨by decide, rfl⟩) (by exact ⟨by decide, rfl⟩) rfl (nd (j := 22) rfl (by decide)) (nd (j := 30) rfl (by decide))

theorem eq_main_v28 (V : Valuation τ sig (Elt F)) :
    R V main_v28 = (andi : (⟨S4x13x512x512, .i1⟩ : BufTy).Contents (Elt F) → (⟨S4x13x512x512, .i1⟩ : BufTy).Contents (Elt F) → (⟨S4x13x512x512, .i1⟩ : BufTy).Contents (Elt F)) (R V main_v26) (R V main_v27) :=
  eq_binary writesIn V 31 (lt_len (by decide : 31 < 184)) (a := main_v26) (b := main_v27) (y := main_v28) (andi : (⟨S4x13x512x512, .i1⟩ : BufTy).Contents (Elt F) → (⟨S4x13x512x512, .i1⟩ : BufTy).Contents (Elt F) → (⟨S4x13x512x512, .i1⟩ : BufTy).Contents (Elt F)) (by exact ⟨by decide, rfl⟩) (by exact ⟨by decide, rfl⟩) (by exact ⟨by decide, rfl⟩) rfl (nd (j := 29) rfl (by decide)) (nd (j := 30) rfl (by decide)) (nd (j := 31) rfl (by decide))

theorem eq_main_v29 (V : Valuation τ sig (Elt F)) :
    R V main_v29 = (xori : (⟨S4x13x512x512, .i1⟩ : BufTy).Contents (Elt F) → (⟨S4x13x512x512, .i1⟩ : BufTy).Contents (Elt F) → (⟨S4x13x512x512, .i1⟩ : BufTy).Contents (Elt F)) (R V main_v18) (R V main_v28) :=
  eq_binary writesIn V 32 (lt_len (by decide : 32 < 184)) (a := main_v18) (b := main_v28) (y := main_v29) (xori : (⟨S4x13x512x512, .i1⟩ : BufTy).Contents (Elt F) → (⟨S4x13x512x512, .i1⟩ : BufTy).Contents (Elt F) → (⟨S4x13x512x512, .i1⟩ : BufTy).Contents (Elt F)) (by exact ⟨by decide, rfl⟩) (by exact ⟨by decide, rfl⟩) (by exact ⟨by decide, rfl⟩) rfl (nd (j := 20) rfl (by decide)) (nd (j := 31) rfl (by decide)) (nd (j := 32) rfl (by decide))

theorem eq_main_v30 (V : Valuation τ sig (Elt F)) :
    R V main_v30 = (noti : (⟨S4x13x512x512, .i1⟩ : BufTy).Contents (Elt F) → (⟨S4x13x512x512, .i1⟩ : BufTy).Contents (Elt F)) (R V main_v29) :=
  eq_unary writesIn V 33 (lt_len (by decide : 33 < 184)) (x := main_v29) (y := main_v30) (noti : (⟨S4x13x512x512, .i1⟩ : BufTy).Contents (Elt F) → (⟨S4x13x512x512, .i1⟩ : BufTy).Contents (Elt F)) (by exact ⟨by decide, rfl⟩) (by exact ⟨by decide, rfl⟩) rfl (nd (j := 32) rfl (by decide)) (nd (j := 33) rfl (by decide))

theorem eq_main_v31 (V : Valuation τ sig (Elt F)) :
    R V main_v31 = (andi : (⟨S4x13x512x512, .i1⟩ : BufTy).Contents (Elt F) → (⟨S4x13x512x512, .i1⟩ : BufTy).Contents (Elt F) → (⟨S4x13x512x512, .i1⟩ : BufTy).Contents (Elt F)) (R V main_v30) (R V main_v8) :=
  eq_binary writesIn V 34 (lt_len (by decide : 34 < 184)) (a := main_v30) (b := main_v8) (y := main_v31) (andi : (⟨S4x13x512x512, .i1⟩ : BufTy).Contents (Elt F) → (⟨S4x13x512x512, .i1⟩ : BufTy).Contents (Elt F) → (⟨S4x13x512x512, .i1⟩ : BufTy).Contents (Elt F)) (by exact ⟨by decide, rfl⟩) (by exact ⟨by decide, rfl⟩) (by exact ⟨by decide, rfl⟩) rfl (nd (j := 33) rfl (by decide)) (nd (j := 9) rfl (by decide)) (nd (j := 34) rfl (by decide))

theorem eq_main_v32 (V : Valuation τ sig (Elt F)) :
    R V main_v32 = ((extui 32 · natLt_1_32) : (⟨S4x13x512x512, .i1⟩ : BufTy).Contents (Elt F) → (⟨S4x13x512x512, .i32⟩ : BufTy).Contents (Elt F)) (R V main_v29) :=
  eq_unary writesIn V 35 (lt_len (by decide : 35 < 184)) (x := main_v29) (y := main_v32) ((extui 32 · natLt_1_32) : (⟨S4x13x512x512, .i1⟩ : BufTy).Contents (Elt F) → (⟨S4x13x512x512, .i32⟩ : BufTy).Contents (Elt F)) (by exact ⟨by decide, rfl⟩) (by exact ⟨by decide, rfl⟩) rfl (nd (j := 32) rfl (by decide)) (nd (j := 35) rfl (by decide))

theorem eq_main_c_2 (V : Valuation τ sig (Elt F)) :
    R V main_c_2 = (constantI S_ 32 0#32) :=
  eq_nullary writesIn V 36 (lt_len (by decide : 36 < 184)) (y := main_c_2) (constantI S_ 32 0#32) (by exact ⟨by decide, rfl⟩) rfl (nd (j := 36) rfl (by decide))

theorem eq_main_v33 (V : Valuation τ sig (Elt F)) :
    R V main_v33 = ((fun x v => Host.reduce IntOp.addi x v reducesTo_S4x13x512x512_S4x13_d2_3 h_S_) : (⟨S4x13x512x512, .i32⟩ : BufTy).Contents (Elt F) → (⟨S_, .i32⟩ : BufTy).Contents (Elt F) → (⟨S4x13, .i32⟩ : BufTy).Contents (Elt F)) (R V main_v32) (R V main_c_2) :=
  eq_binary writesIn V 37 (lt_len (by decide : 37 < 184)) (a := main_v32) (b := main_c_2) (y := main_v33) ((fun x v => Host.reduce IntOp.addi x v reducesTo_S4x13x512x512_S4x13_d2_3 h_S_) : (⟨S4x13x512x512, .i32⟩ : BufTy).Contents (Elt F) → (⟨S_, .i32⟩ : BufTy).Contents (Elt F) → (⟨S4x13, .i32⟩ : BufTy).Contents (Elt F)) (by exact ⟨by decide, rfl⟩) (by exact ⟨by decide, rfl⟩) (by exact ⟨by decide, rfl⟩) rfl (nd (j := 35) rfl (by decide)) (nd (j := 36) rfl (by decide)) (nd (j := 37) rfl (by decide))

theorem eq_main_c_3 (V : Valuation τ sig (Elt F)) :
    R V main_c_3 = (constantI S_ 32 0#32) :=
  eq_nullary writesIn V 38 (lt_len (by decide : 38 < 184)) (y := main_c_3) (constantI S_ 32 0#32) (by exact ⟨by decide, rfl⟩) rfl (nd (j := 38) rfl (by decide))

theorem eq_main_v34 (V : Valuation τ sig (Elt F)) :
    R V main_v34 = (broadcastInDim S4x13 ![] bcast_S_S4x13 : (⟨S_, .i32⟩ : BufTy).Contents (Elt F) → (⟨S4x13, .i32⟩ : BufTy).Contents (Elt F)) (R V main_c_3) :=
  eq_unary writesIn V 39 (lt_len (by decide : 39 < 184)) (x := main_c_3) (y := main_v34) (broadcastInDim S4x13 ![] bcast_S_S4x13 : (⟨S_, .i32⟩ : BufTy).Contents (Elt F) → (⟨S4x13, .i32⟩ : BufTy).Contents (Elt F)) (by exact ⟨by decide, rfl⟩) (by exact ⟨by decide, rfl⟩) rfl (nd (j := 38) rfl (by decide)) (nd (j := 39) rfl (by decide))

theorem eq_main_v35 (V : Valuation τ sig (Elt F)) :
    R V main_v35 = (cmpi .sgt : (⟨S4x13, .i32⟩ : BufTy).Contents (Elt F) → (⟨S4x13, .i32⟩ : BufTy).Contents (Elt F) → (⟨S4x13, .i1⟩ : BufTy).Contents (Elt F)) (R V main_v33) (R V main_v34) :=
  eq_binary writesIn V 40 (lt_len (by decide : 40 < 184)) (a := main_v33) (b := main_v34) (y := main_v35) (cmpi .sgt : (⟨S4x13, .i32⟩ : BufTy).Contents (Elt F) → (⟨S4x13, .i32⟩ : BufTy).Contents (Elt F) → (⟨S4x13, .i1⟩ : BufTy).Contents (Elt F)) (by exact ⟨by decide, rfl⟩) (by exact ⟨by decide, rfl⟩) (by exact ⟨by decide, rfl⟩) rfl (nd (j := 37) rfl (by decide)) (nd (j := 39) rfl (by decide)) (nd (j := 40) rfl (by decide))

theorem eq_main_c_11 (V : Valuation τ sig (Elt F)) :
    R V main_c_11 = (constantI S_ 32 0#32) :=
  eq_nullary writesIn V 141 (lt_len (by decide : 141 < 184)) (y := main_c_11) (constantI S_ 32 0#32) (by exact ⟨by decide, rfl⟩) rfl (nd (j := 141) rfl (by decide))

theorem eq_main_call6_v0 (V : Valuation τ sig (Elt F)) :
    R V main_call6_v0 = (id : (⟨S_, .i32⟩ : BufTy).Contents (Elt F) → (⟨S_, .i32⟩ : BufTy).Contents (Elt F)) (R V main_c_11) :=
  eq_unary writesIn V 142 (lt_len (by decide : 142 < 184)) (x := main_c_11) (y := main_call6_v0) (id : (⟨S_, .i32⟩ : BufTy).Contents (Elt F) → (⟨S_, .i32⟩ : BufTy).Contents (Elt F)) (by exact ⟨by decide, rfl⟩) (by exact ⟨by decide, rfl⟩) rfl (nd (j := 141) rfl (by decide)) (nd (j := 142) rfl (by decide))

theorem eq_main_call6_v1 (V : Valuation τ sig (Elt F)) :
    R V main_call6_v1 = ((broadcastInDim S4x13 ![] bcast_S_S4x13) : (⟨S_, .i32⟩ : BufTy).Contents (Elt F) → (⟨S4x13, .i32⟩ : BufTy).Contents (Elt F)) (R V main_call6_v0) :=
  eq_unary writesIn V 143 (lt_len (by decide : 143 < 184)) (x := main_call6_v0) (y := main_call6_v1) ((broadcastInDim S4x13 ![] bcast_S_S4x13) : (⟨S_, .i32⟩ : BufTy).Contents (Elt F) → (⟨S4x13, .i32⟩ : BufTy).Contents (Elt F)) (by exact ⟨by decide, rfl⟩) (by exact ⟨by decide, rfl⟩) rfl (nd (j := 142) rfl (by decide)) (nd (j := 143) rfl (by decide))

theorem eq_main_v72 (V : Valuation τ sig (Elt F)) :
    R V main_v72 = (select : (⟨S4x13, .i1⟩ : BufTy).Contents (Elt F) → (⟨S4x13, .i32⟩ : BufTy).Contents (Elt F) → (⟨S4x13, .i32⟩ : BufTy).Contents (Elt F) → (⟨S4x13, .i32⟩ : BufTy).Contents (Elt F)) (R V main_v35) (R V main_v33) (R V main_call6_v1) :=
  eq_ternary writesIn V 144 (lt_len (by decide : 144 < 184)) (c := main_v35) (a := main_v33) (b := main_call6_v1) (y := main_v72) (select : (⟨S4x13, .i1⟩ : BufTy).Contents (Elt F) → (⟨S4x13, .i32⟩ : BufTy).Contents (Elt F) → (⟨S4x13, .i32⟩ : BufTy).Contents (Elt F) → (⟨S4x13, .i32⟩ : BufTy).Contents (Elt F)) (by exact ⟨by decide, rfl⟩) (by exact ⟨by decide, rfl⟩) (by exact ⟨by decide, rfl⟩) (by exact ⟨by decide, rfl⟩) rfl (nd (j := 40) rfl (by decide)) (nd (j := 37) rfl (by decide)) (nd (j := 143) rfl (by decide)) (nd (j := 144) rfl (by decide))

theorem eq_main_c_12 (V : Valuation τ sig (Elt F)) :
    R V main_c_12 = (constantI S_ 32 0#32) :=
  eq_nullary writesIn V 145 (lt_len (by decide : 145 < 184)) (y := main_c_12) (constantI S_ 32 0#32) (by exact ⟨by decide, rfl⟩) rfl (nd (j := 145) rfl (by decide))

theorem eq_main_v73 (V : Valuation τ sig (Elt F)) :
    R V main_v73 = ((fun x v => Host.reduce IntOp.addi x v reducesTo_S4x13_S4_d1 h_S_) : (⟨S4x13, .i32⟩ : BufTy).Contents (Elt F) → (⟨S_, .i32⟩ : BufTy).Contents (Elt F) → (⟨S4, .i32⟩ : BufTy).Contents (Elt F)) (R V main_v72) (R V main_c_12) :=
  eq_binary writesIn V 146 (lt_len (by decide : 146 < 184)) (a := main_v72) (b := main_c_12) (y := main_v73) ((fun x v => Host.reduce IntOp.addi x v reducesTo_S4x13_S4_d1 h_S_) : (⟨S4x13, .i32⟩ : BufTy).Contents (Elt F) → (⟨S_, .i32⟩ : BufTy).Contents (Elt F) → (⟨S4, .i32⟩ : BufTy).Contents (Elt F)) (by exact ⟨by decide, rfl⟩) (by exact ⟨by decide, rfl⟩) (by exact ⟨by decide, rfl⟩) rfl (nd (j := 144) rfl (by decide)) (nd (j := 145) rfl (by decide)) (nd (j := 146) rfl (by decide))

theorem eq_main_v74 (V : Valuation τ sig (Elt F)) :
    R V main_v74 = (sitofp .f32 : (⟨S4, .i32⟩ : BufTy).Contents (Elt F) → (⟨S4, .f32⟩ : BufTy).Contents (Elt F)) (R V main_v73) :=
  eq_unary writesIn V 147 (lt_len (by decide : 147 < 184)) (x := main_v73) (y := main_v74) (sitofp .f32 : (⟨S4, .i32⟩ : BufTy).Contents (Elt F) → (⟨S4, .f32⟩ : BufTy).Contents (Elt F)) (by exact ⟨by decide, rfl⟩) (by exact ⟨by decide, rfl⟩) rfl (nd (j := 146) rfl (by decide)) (nd (j := 147) rfl (by decide))

end Cert.RRun

end
-- ==== Proof.RRunEqB1.lean ====
/-
  The reference program's float part, first half, one equation per operation: positions 41 … 108 of the line —
  the two masks converted to floats (%36, %37), the two inputs' channel slices (%38, %39), their products with the
  first mask, reshaped and divided by one (%40 … %45, %47, %48), the log-softmax bodies of calls 2 and 3 (%46, %49),
  the per-row sum of exp(%49)·(%49 − %46), times one (%50 … %55), the products with the second mask (%56 … %61) and
  the first nine operations of call 4's body.

  The final contents `R V b` (the whole line folded over the launch contents `V`, read at buffer `b`) satisfy each
  operation's own equation: for operation `k`, writing `y` from operands written at earlier positions or never,
  `R V y = f (R V a) (R V b)`. Each is an instance of the single-assignment reading of a line: an operand written at
  position `j < k` does not occur in the write list from `k` on because the list has no repetition, and the result,
  written at `k`, does not occur from `k + 1` on.
-/
import proofs.«165479_j24979529793863_2_alg».proof.Proof.RRun

noncomputable section

namespace Cert.RRun

open Cert.ReferenceIdeal Cert.ReferenceIdeal.Gen Idealize.ShloMosaic Idealize.ShloMosaic.TcCoe Idealize.SL.Sem Idealize.ShloMosaic.StableHlo

variable {F : FTy → Type} [FloatOps F]

private theorem nd {j k : Nat} {x : Ref sig .tc} (e : W[j]? = some x) (hjk : j < k) : x ∉ W.drop k :=
  not_mem_drop_of_pos W_nodup e hjk

private theorem lt_len {k : Nat} (h : k < 184) : k < (ops : List (HloOp τ sig (Elt F))).length :=
  Nat.lt_of_lt_of_eq h ops_length.symm

-- The reductions and the pad are folds over their operand's elements; the equations below do not depend on their values.
attribute [local irreducible] Host.reduce Host.reduceAdd pad

theorem eq_main_v36 (V : Valuation τ sig (Elt F)) :
    R V main_v36 = (uitofp .f32 : (⟨S4x13x512x512, .i1⟩ : BufTy).Contents (Elt F) → (⟨S4x13x512x512, .f32⟩ : BufTy).Contents (Elt F)) (R V main_v29) :=
  eq_unary writesIn V 41 (lt_len (by decide : 41 < 184)) (x := main_v29) (y := main_v36) (uitofp .f32 : (⟨S4x13x512x512, .i1⟩ : BufTy).Contents (Elt F) → (⟨S4x13x512x512, .f32⟩ : BufTy).Contents (Elt F)) (by exact ⟨by decide, rfl⟩) (by exact ⟨by decide, rfl⟩) rfl (nd (j := 32) rfl (by decide)) (nd (j := 41) rfl (by decide))

theorem eq_main_v37 (V : Valuation τ sig (Elt F)) :
    R V main_v37 = (uitofp .f32 : (⟨S4x13x512x512, .i1⟩ : BufTy).Contents (Elt F) → (⟨S4x13x512x512, .f32⟩ : BufTy).Contents (Elt F)) (R V main_v31) :=
  eq_unary writesIn V 42 (lt_len (by decide : 42 < 184)) (x := main_v31) (y := main_v37) (uitofp .f32 : (⟨S4x13x512x512, .i1⟩ : BufTy).Contents (Elt F) → (⟨S4x13x512x512, .f32⟩ : BufTy).Contents (Elt F)) (by exact ⟨by decide, rfl⟩) (by exact ⟨by decide, rfl⟩) rfl (nd (j := 34) rfl (by decide)) (nd (j := 42) rfl (by decide))

theorem eq_main_v38 (V : Valuation τ sig (Elt F)) :
    R V main_v38 = ((extractStridedSlice S4x13x512x512 ![0, 1, 0, 0] · slices_S4x14x512x512_S4x13x512x512_0_1_0_0) : (⟨S4x14x512x512, .f32⟩ : BufTy).Contents (Elt F) → (⟨S4x13x512x512, .f32⟩ : BufTy).Contents (Elt F)) (R V main_arg0) :=
  eq_unary writesIn V 43 (lt_len (by decide : 43 < 184)) (x := main_arg0) (y := main_v38) ((extractStridedSlice S4x13x512x512 ![0, 1, 0, 0] · slices_S4x14x512x512_S4x13x512x512_0_1_0_0) : (⟨S4x14x512x512, .f32⟩ : BufTy).Contents (Elt F) → (⟨S4x13x512x512, .f32⟩ : BufTy).Contents (Elt F)) (by exact ⟨by decide, rfl⟩) (by exact ⟨by decide, rfl⟩) rfl (not_mem_drop_of_not_mem arg0_not_mem 43) (nd (j := 43) rfl (by decide))

theorem eq_main_v39 (V : Valuation τ sig (Elt F)) :
    R V main_v39 = ((extractStridedSlice S4x13x512x512 ![0, 1, 0, 0] · slices_S4x14x512x512_S4x13x512x512_0_1_0_0) : (⟨S4x14x512x512, .f32⟩ : BufTy).Contents (Elt F) → (⟨S4x13x512x512, .f32⟩ : BufTy).Contents (Elt F)) (R V main_arg1) :=
  eq_unary writesIn V 44 (lt_len (by decide : 44 < 184)) (x := main_arg1) (y := main_v39) ((extractStridedSlice S4x13x512x512 ![0, 1, 0, 0] · slices_S4x14x512x512_S4x13x512x512_0_1_0_0) : (⟨S4x14x512x512, .f32⟩ : BufTy).Contents (Elt F) → (⟨S4x13x512x512, .f32⟩ : BufTy).Contents (Elt F)) (by exact ⟨by decide, rfl⟩) (by exact ⟨by decide, rfl⟩) rfl (not_mem_drop_of_not_mem arg1_not_mem 44) (nd (j := 44) rfl (by decide))

theorem eq_main_v40 (V : Valuation τ sig (Elt F)) :
    R V main_v40 = (mulf : (⟨S4x13x512x512, .f32⟩ : BufTy).Contents (Elt F) → (⟨S4x13x512x512, .f32⟩ : BufTy).Contents (Elt F) → (⟨S4x13x512x512, .f32⟩ : BufTy).Contents (Elt F)) (R V main_v38) (R V main_v36) :=
  eq_binary writesIn V 45 (lt_len (by decide : 45 < 184)) (a := main_v38) (b := main_v36) (y := main_v40) (mulf : (⟨S4x13x512x512, .f32⟩ : BufTy).Contents (Elt F) → (⟨S4x13x512x512, .f32⟩ : BufTy).Contents (Elt F) → (⟨S4x13x512x512, .f32⟩ : BufTy).Contents (Elt F)) (by exact ⟨by decide, rfl⟩) (by exact ⟨by decide, rfl⟩) (by exact ⟨by decide, rfl⟩) rfl (nd (j := 43) rfl (by decide)) (nd (j := 41) rfl (by decide)) (nd (j := 45) rfl (by decide))

theorem eq_main_v41 (V : Valuation τ sig (Elt F)) :
    R V main_v41 = shapeCast S4x13x262144 (R V main_v40) shapeCasts_S4x13x512x512_S4x13x262144 :=
  eq_reshape writesIn V 46 (lt_len (by decide : 46 < 184)) (x := main_v40) (y := main_v41) rfl shapeCasts_S4x13x512x512_S4x13x262144 (by exact ⟨by decide, rfl⟩) (by exact ⟨by decide, rfl⟩) rfl (nd (j := 45) rfl (by decide)) (nd (j := 46) rfl (by decide))

theorem eq_main_v42 (V : Valuation τ sig (Elt F)) :
    R V main_v42 = (mulf : (⟨S4x13x512x512, .f32⟩ : BufTy).Contents (Elt F) → (⟨S4x13x512x512, .f32⟩ : BufTy).Contents (Elt F) → (⟨S4x13x512x512, .f32⟩ : BufTy).Contents (Elt F)) (R V main_v39) (R V main_v36) :=
  eq_binary writesIn V 47 (lt_len (by decide : 47 < 184)) (a := main_v39) (b := main_v36) (y := main_v42) (mulf : (⟨S4x13x512x512, .f32⟩ : BufTy).Contents (Elt F) → (⟨S4x13x512x512, .f32⟩ : BufTy).Contents (Elt F) → (⟨S4x13x512x512, .f32⟩ : BufTy).Contents (Elt F)) (by exact ⟨by decide, rfl⟩) (by exact ⟨by decide, rfl⟩) (by exact ⟨by decide, rfl⟩) rfl (nd (j := 44) rfl (by decide)) (nd (j := 41) rfl (by decide)) (nd (j := 47) rfl (by decide))

theorem eq_main_v43 (V : Valuation τ sig (Elt F)) :
    R V main_v43 = shapeCast S4x13x262144 (R V main_v42) shapeCasts_S4x13x512x512_S4x13x262144 :=
  eq_reshape writesIn V 48 (lt_len (by decide : 48 < 184)) (x := main_v42) (y := main_v43) rfl shapeCasts_S4x13x512x512_S4x13x262144 (by exact ⟨by decide, rfl⟩) (by exact ⟨by decide, rfl⟩) rfl (nd (j := 47) rfl (by decide)) (nd (j := 48) rfl (by decide))

theorem eq_main_cst (V : Valuation τ sig (Elt F)) :
    R V main_cst = (constant S_ .f32 0x3F800000#32) :=
  eq_nullary writesIn V 49 (lt_len (by decide : 49 < 184)) (y := main_cst) (constant S_ .f32 0x3F800000#32) (by exact ⟨by decide, rfl⟩) rfl (nd (j := 49) rfl (by decide))

theorem eq_main_v44 (V : Valuation τ sig (Elt F)) :
    R V main_v44 = (broadcastInDim S4x13x262144 ![] bcast_S_S4x13x262144 : (⟨S_, .f32⟩ : BufTy).Contents (Elt F) → (⟨S4x13x262144, .f32⟩ : BufTy).Contents (Elt F)) (R V main_cst) :=
  eq_unary writesIn V 50 (lt_len (by decide : 50 < 184)) (x := main_cst) (y := main_v44) (broadcastInDim S4x13x262144 ![] bcast_S_S4x13x262144 : (⟨S_, .f32⟩ : BufTy).Contents (Elt F) → (⟨S4x13x262144, .f32⟩ : BufTy).Contents (Elt F)) (by exact ⟨by decide, rfl⟩) (by exact ⟨by decide, rfl⟩) rfl (nd (j := 49) rfl (by decide)) (nd (j := 50) rfl (by decide))

theorem eq_main_v45 (V : Valuation τ sig (Elt F)) :
    R V main_v45 = (Host.divf : (⟨S4x13x262144, .f32⟩ : BufTy).Contents (Elt F) → (⟨S4x13x262144, .f32⟩ : BufTy).Contents (Elt F) → (⟨S4x13x262144, .f32⟩ : BufTy).Contents (Elt F)) (R V main_v41) (R V main_v44) :=
  eq_binary writesIn V 51 (lt_len (by decide : 51 < 184)) (a := main_v41) (b := main_v44) (y := main_v45) (Host.divf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 46) rfl (by decide)) (nd (j := 50) rfl (by decide)) (nd (j := 51) rfl (by decide))

theorem eq_main_call2_cst (V : Valuation τ sig (Elt F)) :
    R V main_call2_cst = ((constant S_ .f32 0xFF800000#32) : (⟨S_, .f32⟩ : BufTy).Contents (Elt F)) :=
  eq_nullary writesIn V 52 (lt_len (by decide : 52 < 184)) (y := main_call2_cst) ((constant S_ .f32 0xFF800000#32) : (⟨S_, .f32⟩ : BufTy).Contents (Elt F)) (by exact ⟨by decide, rfl⟩) rfl (nd (j := 52) rfl (by decide))

theorem eq_main_call2_v0 (V : Valuation τ sig (Elt F)) :
    R V main_call2_v0 = ((fun x v => Host.reduce FloatOps.maximumf x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (R V main_v45) (R V main_call2_cst) :=
  eq_binary writesIn V 53 (lt_len (by decide : 53 < 184)) (a := main_v45) (b := main_call2_cst) (y := main_call2_v0) ((fun x v => Host.reduce FloatOps.maximumf x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (by exact ⟨by decide, rfl⟩) (by exact ⟨by decide, rfl⟩) (by exact ⟨by decide, rfl⟩) rfl (nd (j := 51) rfl (by decide)) (nd (j := 52) rfl (by decide)) (nd (j := 53) rfl (by decide))

theorem eq_main_call2_cst_0 (V : Valuation τ sig (Elt F)) :
    R V main_call2_cst_0 = ((constant S_ .f32 0xFF800000#32) : (⟨S_, .f32⟩ : BufTy).Contents (Elt F)) :=
  eq_nullary writesIn V 54 (lt_len (by decide : 54 < 184)) (y := main_call2_cst_0) ((constant S_ .f32 0xFF800000#32) : (⟨S_, .f32⟩ : BufTy).Contents (Elt F)) (by exact ⟨by decide, rfl⟩) rfl (nd (j := 54) rfl (by decide))

theorem eq_main_call2_v1 (V : Valuation τ sig (Elt F)) :
    R V main_call2_v1 = ((broadcastInDim S4x13 ![] bcast_S_S4x13) : (⟨S_, .f32⟩ : BufTy).Contents (Elt F) → (⟨S4x13, .f32⟩ : BufTy).Contents (Elt F)) (R V main_call2_cst_0) :=
  eq_unary writesIn V 55 (lt_len (by decide : 55 < 184)) (x := main_call2_cst_0) (y := main_call2_v1) ((broadcastInDim S4x13 ![] bcast_S_S4x13) : (⟨S_, .f32⟩ : BufTy).Contents (Elt F) → (⟨S4x13, .f32⟩ : BufTy).Contents (Elt F)) (by exact ⟨by decide, rfl⟩) (by exact ⟨by decide, rfl⟩) rfl (nd (j := 54) rfl (by decide)) (nd (j := 55) rfl (by decide))

theorem eq_main_call2_v2 (V : Valuation τ sig (Elt F)) :
    R V main_call2_v2 = (maximumf : (⟨S4x13, .f32⟩ : BufTy).Contents (Elt F) → (⟨S4x13, .f32⟩ : BufTy).Contents (Elt F) → (⟨S4x13, .f32⟩ : BufTy).Contents (Elt F)) (R V main_call2_v1) (R V main_call2_v0) :=
  eq_binary writesIn V 56 (lt_len (by decide : 56 < 184)) (a := main_call2_v1) (b := main_call2_v0) (y := main_call2_v2) (maximumf : (⟨S4x13, .f32⟩ : BufTy).Contents (Elt F) → (⟨S4x13, .f32⟩ : BufTy).Contents (Elt F) → (⟨S4x13, .f32⟩ : BufTy).Contents (Elt F)) (by exact ⟨by decide, rfl⟩) (by exact ⟨by decide, rfl⟩) (by exact ⟨by decide, rfl⟩) rfl (nd (j := 55) rfl (by decide)) (nd (j := 53) rfl (by decide)) (nd (j := 56) rfl (by decide))

theorem eq_main_call2_v3 (V : Valuation τ sig (Elt F)) :
    R V main_call2_v3 = ((broadcastInDim S4x13x1 ![0, 1] bcast_S4x13_S4x13x1_0_1) : (⟨S4x13, .f32⟩ : BufTy).Contents (Elt F) → (⟨S4x13x1, .f32⟩ : BufTy).Contents (Elt F)) (R V main_call2_v2) :=
  eq_unary writesIn V 57 (lt_len (by decide : 57 < 184)) (x := main_call2_v2) (y := main_call2_v3) ((broadcastInDim S4x13x1 ![0, 1] bcast_S4x13_S4x13x1_0_1) : (⟨S4x13, .f32⟩ : BufTy).Contents (Elt F) → (⟨S4x13x1, .f32⟩ : BufTy).Contents (Elt F)) (by exact ⟨by decide, rfl⟩) (by exact ⟨by decide, rfl⟩) rfl (nd (j := 56) rfl (by decide)) (nd (j := 57) rfl (by decide))

theorem eq_main_call2_v4 (V : Valuation τ sig (Elt F)) :
    R V main_call2_v4 = ((broadcastInDim S4x13x262144 ![0, 1, 2] bcast_S4x13x1_S4x13x262144_0_1_2) : (⟨S4x13x1, .f32⟩ : BufTy).Contents (Elt F) → (⟨S4x13x262144, .f32⟩ : BufTy).Contents (Elt F)) (R V main_call2_v3) :=
  eq_unary writesIn V 58 (lt_len (by decide : 58 < 184)) (x := main_call2_v3) (y := main_call2_v4) ((broadcastInDim S4x13x262144 ![0, 1, 2] bcast_S4x13x1_S4x13x262144_0_1_2) : (⟨S4x13x1, .f32⟩ : BufTy).Contents (Elt F) → (⟨S4x13x262144, .f32⟩ : BufTy).Contents (Elt F)) (by exact ⟨by decide, rfl⟩) (by exact ⟨by decide, rfl⟩) rfl (nd (j := 57) rfl (by decide)) (nd (j := 58) rfl (by decide))

theorem eq_main_call2_v5 (V : Valuation τ sig (Elt F)) :
    R V main_call2_v5 = (subf : (⟨S4x13x262144, .f32⟩ : BufTy).Contents (Elt F) → (⟨S4x13x262144, .f32⟩ : BufTy).Contents (Elt F) → (⟨S4x13x262144, .f32⟩ : BufTy).Contents (Elt F)) (R V main_v45) (R V main_call2_v4) :=
  eq_binary writesIn V 59 (lt_len (by decide : 59 < 184)) (a := main_v45) (b := main_call2_v4) (y := main_call2_v5) (subf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 51) rfl (by decide)) (nd (j := 58) rfl (by decide)) (nd (j := 59) rfl (by decide))

theorem eq_main_call2_v6 (V : Valuation τ sig (Elt F)) :
    R V main_call2_v6 = (Host.exp : (⟨S4x13x262144, .f32⟩ : BufTy).Contents (Elt F) → (⟨S4x13x262144, .f32⟩ : BufTy).Contents (Elt F)) (R V main_call2_v5) :=
  eq_unary writesIn V 60 (lt_len (by decide : 60 < 184)) (x := main_call2_v5) (y := main_call2_v6) (Host.exp : (⟨S4x13x262144, .f32⟩ : BufTy).Contents (Elt F) → (⟨S4x13x262144, .f32⟩ : BufTy).Contents (Elt F)) (by exact ⟨by decide, rfl⟩) (by exact ⟨by decide, rfl⟩) rfl (nd (j := 59) rfl (by decide)) (nd (j := 60) rfl (by decide))

theorem eq_main_call2_cst_1 (V : Valuation τ sig (Elt F)) :
    R V main_call2_cst_1 = ((constant S_ .f32 0x00000000#32) : (⟨S_, .f32⟩ : BufTy).Contents (Elt F)) :=
  eq_nullary writesIn V 61 (lt_len (by decide : 61 < 184)) (y := main_call2_cst_1) ((constant S_ .f32 0x00000000#32) : (⟨S_, .f32⟩ : BufTy).Contents (Elt F)) (by exact ⟨by decide, rfl⟩) rfl (nd (j := 61) rfl (by decide))

theorem eq_main_call2_v7 (V : Valuation τ sig (Elt F)) :
    R V main_call2_v7 = ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (R V main_call2_v6) (R V main_call2_cst_1) :=
  eq_binary writesIn V 62 (lt_len (by decide : 62 < 184)) (a := main_call2_v6) (b := main_call2_cst_1) (y := main_call2_v7) ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (by exact ⟨by decide, rfl⟩) (by exact ⟨by decide, rfl⟩) (by exact ⟨by decide, rfl⟩) rfl (nd (j := 60) rfl (by decide)) (nd (j := 61) rfl (by decide)) (nd (j := 62) rfl (by decide))

theorem eq_main_call2_v8 (V : Valuation τ sig (Elt F)) :
    R V main_call2_v8 = ((broadcastInDim S4x13x1 ![0, 1] bcast_S4x13_S4x13x1_0_1) : (⟨S4x13, .f32⟩ : BufTy).Contents (Elt F) → (⟨S4x13x1, .f32⟩ : BufTy).Contents (Elt F)) (R V main_call2_v7) :=
  eq_unary writesIn V 63 (lt_len (by decide : 63 < 184)) (x := main_call2_v7) (y := main_call2_v8) ((broadcastInDim S4x13x1 ![0, 1] bcast_S4x13_S4x13x1_0_1) : (⟨S4x13, .f32⟩ : BufTy).Contents (Elt F) → (⟨S4x13x1, .f32⟩ : BufTy).Contents (Elt F)) (by exact ⟨by decide, rfl⟩) (by exact ⟨by decide, rfl⟩) rfl (nd (j := 62) rfl (by decide)) (nd (j := 63) rfl (by decide))

theorem eq_main_call2_v9 (V : Valuation τ sig (Elt F)) :
    R V main_call2_v9 = (Host.log : (⟨S4x13x1, .f32⟩ : BufTy).Contents (Elt F) → (⟨S4x13x1, .f32⟩ : BufTy).Contents (Elt F)) (R V main_call2_v8) :=
  eq_unary writesIn V 64 (lt_len (by decide : 64 < 184)) (x := main_call2_v8) (y := main_call2_v9) (Host.log : (⟨S4x13x1, .f32⟩ : BufTy).Contents (Elt F) → (⟨S4x13x1, .f32⟩ : BufTy).Contents (Elt F)) (by exact ⟨by decide, rfl⟩) (by exact ⟨by decide, rfl⟩) rfl (nd (j := 63) rfl (by decide)) (nd (j := 64) rfl (by decide))

theorem eq_main_call2_v10 (V : Valuation τ sig (Elt F)) :
    R V main_call2_v10 = ((broadcastInDim S4x13x262144 ![0, 1, 2] bcast_S4x13x1_S4x13x262144_0_1_2) : (⟨S4x13x1, .f32⟩ : BufTy).Contents (Elt F) → (⟨S4x13x262144, .f32⟩ : BufTy).Contents (Elt F)) (R V main_call2_v9) :=
  eq_unary writesIn V 65 (lt_len (by decide : 65 < 184)) (x := main_call2_v9) (y := main_call2_v10) ((broadcastInDim S4x13x262144 ![0, 1, 2] bcast_S4x13x1_S4x13x262144_0_1_2) : (⟨S4x13x1, .f32⟩ : BufTy).Contents (Elt F) → (⟨S4x13x262144, .f32⟩ : BufTy).Contents (Elt F)) (by exact ⟨by decide, rfl⟩) (by exact ⟨by decide, rfl⟩) rfl (nd (j := 64) rfl (by decide)) (nd (j := 65) rfl (by decide))

theorem eq_main_v46 (V : Valuation τ sig (Elt F)) :
    R V main_v46 = (subf : (⟨S4x13x262144, .f32⟩ : BufTy).Contents (Elt F) → (⟨S4x13x262144, .f32⟩ : BufTy).Contents (Elt F) → (⟨S4x13x262144, .f32⟩ : BufTy).Contents (Elt F)) (R V main_call2_v5) (R V main_call2_v10) :=
  eq_binary writesIn V 66 (lt_len (by decide : 66 < 184)) (a := main_call2_v5) (b := main_call2_v10) (y := main_v46) (subf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 59) rfl (by decide)) (nd (j := 65) rfl (by decide)) (nd (j := 66) rfl (by decide))

theorem eq_main_cst_4 (V : Valuation τ sig (Elt F)) :
    R V main_cst_4 = (constant S_ .f32 0x3F800000#32) :=
  eq_nullary writesIn V 67 (lt_len (by decide : 67 < 184)) (y := main_cst_4) (constant S_ .f32 0x3F800000#32) (by exact ⟨by decide, rfl⟩) rfl (nd (j := 67) rfl (by decide))

theorem eq_main_v47 (V : Valuation τ sig (Elt F)) :
    R V main_v47 = (broadcastInDim S4x13x262144 ![] bcast_S_S4x13x262144 : (⟨S_, .f32⟩ : BufTy).Contents (Elt F) → (⟨S4x13x262144, .f32⟩ : BufTy).Contents (Elt F)) (R V main_cst_4) :=
  eq_unary writesIn V 68 (lt_len (by decide : 68 < 184)) (x := main_cst_4) (y := main_v47) (broadcastInDim S4x13x262144 ![] bcast_S_S4x13x262144 : (⟨S_, .f32⟩ : BufTy).Contents (Elt F) → (⟨S4x13x262144, .f32⟩ : BufTy).Contents (Elt F)) (by exact ⟨by decide, rfl⟩) (by exact ⟨by decide, rfl⟩) rfl (nd (j := 67) rfl (by decide)) (nd (j := 68) rfl (by decide))

theorem eq_main_v48 (V : Valuation τ sig (Elt F)) :
    R V main_v48 = (Host.divf : (⟨S4x13x262144, .f32⟩ : BufTy).Contents (Elt F) → (⟨S4x13x262144, .f32⟩ : BufTy).Contents (Elt F) → (⟨S4x13x262144, .f32⟩ : BufTy).Contents (Elt F)) (R V main_v43) (R V main_v47) :=
  eq_binary writesIn V 69 (lt_len (by decide : 69 < 184)) (a := main_v43) (b := main_v47) (y := main_v48) (Host.divf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 48) rfl (by decide)) (nd (j := 68) rfl (by decide)) (nd (j := 69) rfl (by decide))

theorem eq_main_call3_cst (V : Valuation τ sig (Elt F)) :
    R V main_call3_cst = ((constant S_ .f32 0xFF800000#32) : (⟨S_, .f32⟩ : BufTy).Contents (Elt F)) :=
  eq_nullary writesIn V 70 (lt_len (by decide : 70 < 184)) (y := main_call3_cst) ((constant S_ .f32 0xFF800000#32) : (⟨S_, .f32⟩ : BufTy).Contents (Elt F)) (by exact ⟨by decide, rfl⟩) rfl (nd (j := 70) rfl (by decide))

theorem eq_main_call3_v0 (V : Valuation τ sig (Elt F)) :
    R V main_call3_v0 = ((fun x v => Host.reduce FloatOps.maximumf x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (R V main_v48) (R V main_call3_cst) :=
  eq_binary writesIn V 71 (lt_len (by decide : 71 < 184)) (a := main_v48) (b := main_call3_cst) (y := main_call3_v0) ((fun x v => Host.reduce FloatOps.maximumf x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (by exact ⟨by decide, rfl⟩) (by exact ⟨by decide, rfl⟩) (by exact ⟨by decide, rfl⟩) rfl (nd (j := 69) rfl (by decide)) (nd (j := 70) rfl (by decide)) (nd (j := 71) rfl (by decide))

theorem eq_main_call3_cst_0 (V : Valuation τ sig (Elt F)) :
    R V main_call3_cst_0 = ((constant S_ .f32 0xFF800000#32) : (⟨S_, .f32⟩ : BufTy).Contents (Elt F)) :=
  eq_nullary writesIn V 72 (lt_len (by decide : 72 < 184)) (y := main_call3_cst_0) ((constant S_ .f32 0xFF800000#32) : (⟨S_, .f32⟩ : BufTy).Contents (Elt F)) (by exact ⟨by decide, rfl⟩) rfl (nd (j := 72) rfl (by decide))

theorem eq_main_call3_v1 (V : Valuation τ sig (Elt F)) :
    R V main_call3_v1 = ((broadcastInDim S4x13 ![] bcast_S_S4x13) : (⟨S_, .f32⟩ : BufTy).Contents (Elt F) → (⟨S4x13, .f32⟩ : BufTy).Contents (Elt F)) (R V main_call3_cst_0) :=
  eq_unary writesIn V 73 (lt_len (by decide : 73 < 184)) (x := main_call3_cst_0) (y := main_call3_v1) ((broadcastInDim S4x13 ![] bcast_S_S4x13) : (⟨S_, .f32⟩ : BufTy).Contents (Elt F) → (⟨S4x13, .f32⟩ : BufTy).Contents (Elt F)) (by exact ⟨by decide, rfl⟩) (by exact ⟨by decide, rfl⟩) rfl (nd (j := 72) rfl (by decide)) (nd (j := 73) rfl (by decide))

theorem eq_main_call3_v2 (V : Valuation τ sig (Elt F)) :
    R V main_call3_v2 = (maximumf : (⟨S4x13, .f32⟩ : BufTy).Contents (Elt F) → (⟨S4x13, .f32⟩ : BufTy).Contents (Elt F) → (⟨S4x13, .f32⟩ : BufTy).Contents (Elt F)) (R V main_call3_v1) (R V main_call3_v0) :=
  eq_binary writesIn V 74 (lt_len (by decide : 74 < 184)) (a := main_call3_v1) (b := main_call3_v0) (y := main_call3_v2) (maximumf : (⟨S4x13, .f32⟩ : BufTy).Contents (Elt F) → (⟨S4x13, .f32⟩ : BufTy).Contents (Elt F) → (⟨S4x13, .f32⟩ : BufTy).Contents (Elt F)) (by exact ⟨by decide, rfl⟩) (by exact ⟨by decide, rfl⟩) (by exact ⟨by decide, rfl⟩) rfl (nd (j := 73) rfl (by decide)) (nd (j := 71) rfl (by decide)) (nd (j := 74) rfl (by decide))

theorem eq_main_call3_v3 (V : Valuation τ sig (Elt F)) :
    R V main_call3_v3 = ((broadcastInDim S4x13x1 ![0, 1] bcast_S4x13_S4x13x1_0_1) : (⟨S4x13, .f32⟩ : BufTy).Contents (Elt F) → (⟨S4x13x1, .f32⟩ : BufTy).Contents (Elt F)) (R V main_call3_v2) :=
  eq_unary writesIn V 75 (lt_len (by decide : 75 < 184)) (x := main_call3_v2) (y := main_call3_v3) ((broadcastInDim S4x13x1 ![0, 1] bcast_S4x13_S4x13x1_0_1) : (⟨S4x13, .f32⟩ : BufTy).Contents (Elt F) → (⟨S4x13x1, .f32⟩ : BufTy).Contents (Elt F)) (by exact ⟨by decide, rfl⟩) (by exact ⟨by decide, rfl⟩) rfl (nd (j := 74) rfl (by decide)) (nd (j := 75) rfl (by decide))

theorem eq_main_call3_v4 (V : Valuation τ sig (Elt F)) :
    R V main_call3_v4 = ((broadcastInDim S4x13x262144 ![0, 1, 2] bcast_S4x13x1_S4x13x262144_0_1_2) : (⟨S4x13x1, .f32⟩ : BufTy).Contents (Elt F) → (⟨S4x13x262144, .f32⟩ : BufTy).Contents (Elt F)) (R V main_call3_v3) :=
  eq_unary writesIn V 76 (lt_len (by decide : 76 < 184)) (x := main_call3_v3) (y := main_call3_v4) ((broadcastInDim S4x13x262144 ![0, 1, 2] bcast_S4x13x1_S4x13x262144_0_1_2) : (⟨S4x13x1, .f32⟩ : BufTy).Contents (Elt F) → (⟨S4x13x262144, .f32⟩ : BufTy).Contents (Elt F)) (by exact ⟨by decide, rfl⟩) (by exact ⟨by decide, rfl⟩) rfl (nd (j := 75) rfl (by decide)) (nd (j := 76) rfl (by decide))

theorem eq_main_call3_v5 (V : Valuation τ sig (Elt F)) :
    R V main_call3_v5 = (subf : (⟨S4x13x262144, .f32⟩ : BufTy).Contents (Elt F) → (⟨S4x13x262144, .f32⟩ : BufTy).Contents (Elt F) → (⟨S4x13x262144, .f32⟩ : BufTy).Contents (Elt F)) (R V main_v48) (R V main_call3_v4) :=
  eq_binary writesIn V 77 (lt_len (by decide : 77 < 184)) (a := main_v48) (b := main_call3_v4) (y := main_call3_v5) (subf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 69) rfl (by decide)) (nd (j := 76) rfl (by decide)) (nd (j := 77) rfl (by decide))

theorem eq_main_call3_v6 (V : Valuation τ sig (Elt F)) :
    R V main_call3_v6 = (Host.exp : (⟨S4x13x262144, .f32⟩ : BufTy).Contents (Elt F) → (⟨S4x13x262144, .f32⟩ : BufTy).Contents (Elt F)) (R V main_call3_v5) :=
  eq_unary writesIn V 78 (lt_len (by decide : 78 < 184)) (x := main_call3_v5) (y := main_call3_v6) (Host.exp : (⟨S4x13x262144, .f32⟩ : BufTy).Contents (Elt F) → (⟨S4x13x262144, .f32⟩ : BufTy).Contents (Elt F)) (by exact ⟨by decide, rfl⟩) (by exact ⟨by decide, rfl⟩) rfl (nd (j := 77) rfl (by decide)) (nd (j := 78) rfl (by decide))

theorem eq_main_call3_cst_1 (V : Valuation τ sig (Elt F)) :
    R V main_call3_cst_1 = ((constant S_ .f32 0x00000000#32) : (⟨S_, .f32⟩ : BufTy).Contents (Elt F)) :=
  eq_nullary writesIn V 79 (lt_len (by decide : 79 < 184)) (y := main_call3_cst_1) ((constant S_ .f32 0x00000000#32) : (⟨S_, .f32⟩ : BufTy).Contents (Elt F)) (by exact ⟨by decide, rfl⟩) rfl (nd (j := 79) rfl (by decide))

theorem eq_main_call3_v7 (V : Valuation τ sig (Elt F)) :
    R V main_call3_v7 = ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (R V main_call3_v6) (R V main_call3_cst_1) :=
  eq_binary writesIn V 80 (lt_len (by decide : 80 < 184)) (a := main_call3_v6) (b := main_call3_cst_1) (y := main_call3_v7) ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (by exact ⟨by decide, rfl⟩) (by exact ⟨by decide, rfl⟩) (by exact ⟨by decide, rfl⟩) rfl (nd (j := 78) rfl (by decide)) (nd (j := 79) rfl (by decide)) (nd (j := 80) rfl (by decide))

theorem eq_main_call3_v8 (V : Valuation τ sig (Elt F)) :
    R V main_call3_v8 = ((broadcastInDim S4x13x1 ![0, 1] bcast_S4x13_S4x13x1_0_1) : (⟨S4x13, .f32⟩ : BufTy).Contents (Elt F) → (⟨S4x13x1, .f32⟩ : BufTy).Contents (Elt F)) (R V main_call3_v7) :=
  eq_unary writesIn V 81 (lt_len (by decide : 81 < 184)) (x := main_call3_v7) (y := main_call3_v8) ((broadcastInDim S4x13x1 ![0, 1] bcast_S4x13_S4x13x1_0_1) : (⟨S4x13, .f32⟩ : BufTy).Contents (Elt F) → (⟨S4x13x1, .f32⟩ : BufTy).Contents (Elt F)) (by exact ⟨by decide, rfl⟩) (by exact ⟨by decide, rfl⟩) rfl (nd (j := 80) rfl (by decide)) (nd (j := 81) rfl (by decide))

theorem eq_main_call3_v9 (V : Valuation τ sig (Elt F)) :
    R V main_call3_v9 = (Host.log : (⟨S4x13x1, .f32⟩ : BufTy).Contents (Elt F) → (⟨S4x13x1, .f32⟩ : BufTy).Contents (Elt F)) (R V main_call3_v8) :=
  eq_unary writesIn V 82 (lt_len (by decide : 82 < 184)) (x := main_call3_v8) (y := main_call3_v9) (Host.log : (⟨S4x13x1, .f32⟩ : BufTy).Contents (Elt F) → (⟨S4x13x1, .f32⟩ : BufTy).Contents (Elt F)) (by exact ⟨by decide, rfl⟩) (by exact ⟨by decide, rfl⟩) rfl (nd (j := 81) rfl (by decide)) (nd (j := 82) rfl (by decide))

theorem eq_main_call3_v10 (V : Valuation τ sig (Elt F)) :
    R V main_call3_v10 = ((broadcastInDim S4x13x262144 ![0, 1, 2] bcast_S4x13x1_S4x13x262144_0_1_2) : (⟨S4x13x1, .f32⟩ : BufTy).Contents (Elt F) → (⟨S4x13x262144, .f32⟩ : BufTy).Contents (Elt F)) (R V main_call3_v9) :=
  eq_unary writesIn V 83 (lt_len (by decide : 83 < 184)) (x := main_call3_v9) (y := main_call3_v10) ((broadcastInDim S4x13x262144 ![0, 1, 2] bcast_S4x13x1_S4x13x262144_0_1_2) : (⟨S4x13x1, .f32⟩ : BufTy).Contents (Elt F) → (⟨S4x13x262144, .f32⟩ : BufTy).Contents (Elt F)) (by exact ⟨by decide, rfl⟩) (by exact ⟨by decide, rfl⟩) rfl (nd (j := 82) rfl (by decide)) (nd (j := 83) rfl (by decide))

theorem eq_main_v49 (V : Valuation τ sig (Elt F)) :
    R V main_v49 = (subf : (⟨S4x13x262144, .f32⟩ : BufTy).Contents (Elt F) → (⟨S4x13x262144, .f32⟩ : BufTy).Contents (Elt F) → (⟨S4x13x262144, .f32⟩ : BufTy).Contents (Elt F)) (R V main_call3_v5) (R V main_call3_v10) :=
  eq_binary writesIn V 84 (lt_len (by decide : 84 < 184)) (a := main_call3_v5) (b := main_call3_v10) (y := main_v49) (subf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 77) rfl (by decide)) (nd (j := 83) rfl (by decide)) (nd (j := 84) rfl (by decide))

theorem eq_main_v50 (V : Valuation τ sig (Elt F)) :
    R V main_v50 = (Host.exp : (⟨S4x13x262144, .f32⟩ : BufTy).Contents (Elt F) → (⟨S4x13x262144, .f32⟩ : BufTy).Contents (Elt F)) (R V main_v49) :=
  eq_unary writesIn V 85 (lt_len (by decide : 85 < 184)) (x := main_v49) (y := main_v50) (Host.exp : (⟨S4x13x262144, .f32⟩ : BufTy).Contents (Elt F) → (⟨S4x13x262144, .f32⟩ : BufTy).Contents (Elt F)) (by exact ⟨by decide, rfl⟩) (by exact ⟨by decide, rfl⟩) rfl (nd (j := 84) rfl (by decide)) (nd (j := 85) rfl (by decide))

theorem eq_main_v51 (V : Valuation τ sig (Elt F)) :
    R V main_v51 = (subf : (⟨S4x13x262144, .f32⟩ : BufTy).Contents (Elt F) → (⟨S4x13x262144, .f32⟩ : BufTy).Contents (Elt F) → (⟨S4x13x262144, .f32⟩ : BufTy).Contents (Elt F)) (R V main_v49) (R V main_v46) :=
  eq_binary writesIn V 86 (lt_len (by decide : 86 < 184)) (a := main_v49) (b := main_v46) (y := main_v51) (subf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 84) rfl (by decide)) (nd (j := 66) rfl (by decide)) (nd (j := 86) rfl (by decide))

theorem eq_main_v52 (V : Valuation τ sig (Elt F)) :
    R V main_v52 = (mulf : (⟨S4x13x262144, .f32⟩ : BufTy).Contents (Elt F) → (⟨S4x13x262144, .f32⟩ : BufTy).Contents (Elt F) → (⟨S4x13x262144, .f32⟩ : BufTy).Contents (Elt F)) (R V main_v50) (R V main_v51) :=
  eq_binary writesIn V 87 (lt_len (by decide : 87 < 184)) (a := main_v50) (b := main_v51) (y := main_v52) (mulf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 85) rfl (by decide)) (nd (j := 86) rfl (by decide)) (nd (j := 87) rfl (by decide))

theorem eq_main_cst_5 (V : Valuation τ sig (Elt F)) :
    R V main_cst_5 = (constant S_ .f32 0x00000000#32) :=
  eq_nullary writesIn V 88 (lt_len (by decide : 88 < 184)) (y := main_cst_5) (constant S_ .f32 0x00000000#32) (by exact ⟨by decide, rfl⟩) rfl (nd (j := 88) rfl (by decide))

theorem eq_main_v53 (V : Valuation τ sig (Elt F)) :
    R V main_v53 = ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (R V main_v52) (R V main_cst_5) :=
  eq_binary writesIn V 89 (lt_len (by decide : 89 < 184)) (a := main_v52) (b := main_cst_5) (y := main_v53) ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (by exact ⟨by decide, rfl⟩) (by exact ⟨by decide, rfl⟩) (by exact ⟨by decide, rfl⟩) rfl (nd (j := 87) rfl (by decide)) (nd (j := 88) rfl (by decide)) (nd (j := 89) rfl (by decide))

theorem eq_main_cst_6 (V : Valuation τ sig (Elt F)) :
    R V main_cst_6 = (constant S_ .f32 0x3F800000#32) :=
  eq_nullary writesIn V 90 (lt_len (by decide : 90 < 184)) (y := main_cst_6) (constant S_ .f32 0x3F800000#32) (by exact ⟨by decide, rfl⟩) rfl (nd (j := 90) rfl (by decide))

theorem eq_main_v54 (V : Valuation τ sig (Elt F)) :
    R V main_v54 = (broadcastInDim S4x13 ![] bcast_S_S4x13 : (⟨S_, .f32⟩ : BufTy).Contents (Elt F) → (⟨S4x13, .f32⟩ : BufTy).Contents (Elt F)) (R V main_cst_6) :=
  eq_unary writesIn V 91 (lt_len (by decide : 91 < 184)) (x := main_cst_6) (y := main_v54) (broadcastInDim S4x13 ![] bcast_S_S4x13 : (⟨S_, .f32⟩ : BufTy).Contents (Elt F) → (⟨S4x13, .f32⟩ : BufTy).Contents (Elt F)) (by exact ⟨by decide, rfl⟩) (by exact ⟨by decide, rfl⟩) rfl (nd (j := 90) rfl (by decide)) (nd (j := 91) rfl (by decide))

theorem eq_main_v55 (V : Valuation τ sig (Elt F)) :
    R V main_v55 = (mulf : (⟨S4x13, .f32⟩ : BufTy).Contents (Elt F) → (⟨S4x13, .f32⟩ : BufTy).Contents (Elt F) → (⟨S4x13, .f32⟩ : BufTy).Contents (Elt F)) (R V main_v53) (R V main_v54) :=
  eq_binary writesIn V 92 (lt_len (by decide : 92 < 184)) (a := main_v53) (b := main_v54) (y := main_v55) (mulf : (⟨S4x13, .f32⟩ : BufTy).Contents (Elt F) → (⟨S4x13, .f32⟩ : BufTy).Contents (Elt F) → (⟨S4x13, .f32⟩ : BufTy).Contents (Elt F)) (by exact ⟨by decide, rfl⟩) (by exact ⟨by decide, rfl⟩) (by exact ⟨by decide, rfl⟩) rfl (nd (j := 89) rfl (by decide)) (nd (j := 91) rfl (by decide)) (nd (j := 92) rfl (by decide))

theorem eq_main_v56 (V : Valuation τ sig (Elt F)) :
    R V main_v56 = (mulf : (⟨S4x13x512x512, .f32⟩ : BufTy).Contents (Elt F) → (⟨S4x13x512x512, .f32⟩ : BufTy).Contents (Elt F) → (⟨S4x13x512x512, .f32⟩ : BufTy).Contents (Elt F)) (R V main_v38) (R V main_v37) :=
  eq_binary writesIn V 93 (lt_len (by decide : 93 < 184)) (a := main_v38) (b := main_v37) (y := main_v56) (mulf : (⟨S4x13x512x512, .f32⟩ : BufTy).Contents (Elt F) → (⟨S4x13x512x512, .f32⟩ : BufTy).Contents (Elt F) → (⟨S4x13x512x512, .f32⟩ : BufTy).Contents (Elt F)) (by exact ⟨by decide, rfl⟩) (by exact ⟨by decide, rfl⟩) (by exact ⟨by decide, rfl⟩) rfl (nd (j := 43) rfl (by decide)) (nd (j := 42) rfl (by decide)) (nd (j := 93) rfl (by decide))

theorem eq_main_v57 (V : Valuation τ sig (Elt F)) :
    R V main_v57 = shapeCast S4x13x262144 (R V main_v56) shapeCasts_S4x13x512x512_S4x13x262144 :=
  eq_reshape writesIn V 94 (lt_len (by decide : 94 < 184)) (x := main_v56) (y := main_v57) rfl shapeCasts_S4x13x512x512_S4x13x262144 (by exact ⟨by decide, rfl⟩) (by exact ⟨by decide, rfl⟩) rfl (nd (j := 93) rfl (by decide)) (nd (j := 94) rfl (by decide))

theorem eq_main_v58 (V : Valuation τ sig (Elt F)) :
    R V main_v58 = (mulf : (⟨S4x13x512x512, .f32⟩ : BufTy).Contents (Elt F) → (⟨S4x13x512x512, .f32⟩ : BufTy).Contents (Elt F) → (⟨S4x13x512x512, .f32⟩ : BufTy).Contents (Elt F)) (R V main_v39) (R V main_v37) :=
  eq_binary writesIn V 95 (lt_len (by decide : 95 < 184)) (a := main_v39) (b := main_v37) (y := main_v58) (mulf : (⟨S4x13x512x512, .f32⟩ : BufTy).Contents (Elt F) → (⟨S4x13x512x512, .f32⟩ : BufTy).Contents (Elt F) → (⟨S4x13x512x512, .f32⟩ : BufTy).Contents (Elt F)) (by exact ⟨by decide, rfl⟩) (by exact ⟨by decide, rfl⟩) (by exact ⟨by decide, rfl⟩) rfl (nd (j := 44) rfl (by decide)) (nd (j := 42) rfl (by decide)) (nd (j := 95) rfl (by decide))

theorem eq_main_v59 (V : Valuation τ sig (Elt F)) :
    R V main_v59 = shapeCast S4x13x262144 (R V main_v58) shapeCasts_S4x13x512x512_S4x13x262144 :=
  eq_reshape writesIn V 96 (lt_len (by decide : 96 < 184)) (x := main_v58) (y := main_v59) rfl shapeCasts_S4x13x512x512_S4x13x262144 (by exact ⟨by decide, rfl⟩) (by exact ⟨by decide, rfl⟩) rfl (nd (j := 95) rfl (by decide)) (nd (j := 96) rfl (by decide))

theorem eq_main_cst_7 (V : Valuation τ sig (Elt F)) :
    R V main_cst_7 = (constant S_ .f32 0x3F800000#32) :=
  eq_nullary writesIn V 97 (lt_len (by decide : 97 < 184)) (y := main_cst_7) (constant S_ .f32 0x3F800000#32) (by exact ⟨by decide, rfl⟩) rfl (nd (j := 97) rfl (by decide))

theorem eq_main_v60 (V : Valuation τ sig (Elt F)) :
    R V main_v60 = (broadcastInDim S4x13x262144 ![] bcast_S_S4x13x262144 : (⟨S_, .f32⟩ : BufTy).Contents (Elt F) → (⟨S4x13x262144, .f32⟩ : BufTy).Contents (Elt F)) (R V main_cst_7) :=
  eq_unary writesIn V 98 (lt_len (by decide : 98 < 184)) (x := main_cst_7) (y := main_v60) (broadcastInDim S4x13x262144 ![] bcast_S_S4x13x262144 : (⟨S_, .f32⟩ : BufTy).Contents (Elt F) → (⟨S4x13x262144, .f32⟩ : BufTy).Contents (Elt F)) (by exact ⟨by decide, rfl⟩) (by exact ⟨by decide, rfl⟩) rfl (nd (j := 97) rfl (by decide)) (nd (j := 98) rfl (by decide))

theorem eq_main_v61 (V : Valuation τ sig (Elt F)) :
    R V main_v61 = (Host.divf : (⟨S4x13x262144, .f32⟩ : BufTy).Contents (Elt F) → (⟨S4x13x262144, .f32⟩ : BufTy).Contents (Elt F) → (⟨S4x13x262144, .f32⟩ : BufTy).Contents (Elt F)) (R V main_v57) (R V main_v60) :=
  eq_binary writesIn V 99 (lt_len (by decide : 99 < 184)) (a := main_v57) (b := main_v60) (y := main_v61) (Host.divf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 94) rfl (by decide)) (nd (j := 98) rfl (by decide)) (nd (j := 99) rfl (by decide))

theorem eq_main_call4_cst (V : Valuation τ sig (Elt F)) :
    R V main_call4_cst = ((constant S_ .f32 0xFF800000#32) : (⟨S_, .f32⟩ : BufTy).Contents (Elt F)) :=
  eq_nullary writesIn V 100 (lt_len (by decide : 100 < 184)) (y := main_call4_cst) ((constant S_ .f32 0xFF800000#32) : (⟨S_, .f32⟩ : BufTy).Contents (Elt F)) (by exact ⟨by decide, rfl⟩) rfl (nd (j := 100) rfl (by decide))

theorem eq_main_call4_v0 (V : Valuation τ sig (Elt F)) :
    R V main_call4_v0 = ((fun x v => Host.reduce FloatOps.maximumf x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (R V main_v61) (R V main_call4_cst) :=
  eq_binary writesIn V 101 (lt_len (by decide : 101 < 184)) (a := main_v61) (b := main_call4_cst) (y := main_call4_v0) ((fun x v => Host.reduce FloatOps.maximumf x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (by exact ⟨by decide, rfl⟩) (by exact ⟨by decide, rfl⟩) (by exact ⟨by decide, rfl⟩) rfl (nd (j := 99) rfl (by decide)) (nd (j := 100) rfl (by decide)) (nd (j := 101) rfl (by decide))

theorem eq_main_call4_cst_0 (V : Valuation τ sig (Elt F)) :
    R V main_call4_cst_0 = ((constant S_ .f32 0xFF800000#32) : (⟨S_, .f32⟩ : BufTy).Contents (Elt F)) :=
  eq_nullary writesIn V 102 (lt_len (by decide : 102 < 184)) (y := main_call4_cst_0) ((constant S_ .f32 0xFF800000#32) : (⟨S_, .f32⟩ : BufTy).Contents (Elt F)) (by exact ⟨by decide, rfl⟩) rfl (nd (j := 102) rfl (by decide))

theorem eq_main_call4_v1 (V : Valuation τ sig (Elt F)) :
    R V main_call4_v1 = ((broadcastInDim S4x13 ![] bcast_S_S4x13) : (⟨S_, .f32⟩ : BufTy).Contents (Elt F) → (⟨S4x13, .f32⟩ : BufTy).Contents (Elt F)) (R V main_call4_cst_0) :=
  eq_unary writesIn V 103 (lt_len (by decide : 103 < 184)) (x := main_call4_cst_0) (y := main_call4_v1) ((broadcastInDim S4x13 ![] bcast_S_S4x13) : (⟨S_, .f32⟩ : BufTy).Contents (Elt F) → (⟨S4x13, .f32⟩ : BufTy).Contents (Elt F)) (by exact ⟨by decide, rfl⟩) (by exact ⟨by decide, rfl⟩) rfl (nd (j := 102) rfl (by decide)) (nd (j := 103) rfl (by decide))

theorem eq_main_call4_v2 (V : Valuation τ sig (Elt F)) :
    R V main_call4_v2 = (maximumf : (⟨S4x13, .f32⟩ : BufTy).Contents (Elt F) → (⟨S4x13, .f32⟩ : BufTy).Contents (Elt F) → (⟨S4x13, .f32⟩ : BufTy).Contents (Elt F)) (R V main_call4_v1) (R V main_call4_v0) :=
  eq_binary writesIn V 104 (lt_len (by decide : 104 < 184)) (a := main_call4_v1) (b := main_call4_v0) (y := main_call4_v2) (maximumf : (⟨S4x13, .f32⟩ : BufTy).Contents (Elt F) → (⟨S4x13, .f32⟩ : BufTy).Contents (Elt F) → (⟨S4x13, .f32⟩ : BufTy).Contents (Elt F)) (by exact ⟨by decide, rfl⟩) (by exact ⟨by decide, rfl⟩) (by exact ⟨by decide, rfl⟩) rfl (nd (j := 103) rfl (by decide)) (nd (j := 101) rfl (by decide)) (nd (j := 104) rfl (by decide))

theorem eq_main_call4_v3 (V : Valuation τ sig (Elt F)) :
    R V main_call4_v3 = ((broadcastInDim S4x13x1 ![0, 1] bcast_S4x13_S4x13x1_0_1) : (⟨S4x13, .f32⟩ : BufTy).Contents (Elt F) → (⟨S4x13x1, .f32⟩ : BufTy).Contents (Elt F)) (R V main_call4_v2) :=
  eq_unary writesIn V 105 (lt_len (by decide : 105 < 184)) (x := main_call4_v2) (y := main_call4_v3) ((broadcastInDim S4x13x1 ![0, 1] bcast_S4x13_S4x13x1_0_1) : (⟨S4x13, .f32⟩ : BufTy).Contents (Elt F) → (⟨S4x13x1, .f32⟩ : BufTy).Contents (Elt F)) (by exact ⟨by decide, rfl⟩) (by exact ⟨by decide, rfl⟩) rfl (nd (j := 104) rfl (by decide)) (nd (j := 105) rfl (by decide))

theorem eq_main_call4_v4 (V : Valuation τ sig (Elt F)) :
    R V main_call4_v4 = ((broadcastInDim S4x13x262144 ![0, 1, 2] bcast_S4x13x1_S4x13x262144_0_1_2) : (⟨S4x13x1, .f32⟩ : BufTy).Contents (Elt F) → (⟨S4x13x262144, .f32⟩ : BufTy).Contents (Elt F)) (R V main_call4_v3) :=
  eq_unary writesIn V 106 (lt_len (by decide : 106 < 184)) (x := main_call4_v3) (y := main_call4_v4) ((broadcastInDim S4x13x262144 ![0, 1, 2] bcast_S4x13x1_S4x13x262144_0_1_2) : (⟨S4x13x1, .f32⟩ : BufTy).Contents (Elt F) → (⟨S4x13x262144, .f32⟩ : BufTy).Contents (Elt F)) (by exact ⟨by decide, rfl⟩) (by exact ⟨by decide, rfl⟩) rfl (nd (j := 105) rfl (by decide)) (nd (j := 106) rfl (by decide))

theorem eq_main_call4_v5 (V : Valuation τ sig (Elt F)) :
    R V main_call4_v5 = (subf : (⟨S4x13x262144, .f32⟩ : BufTy).Contents (Elt F) → (⟨S4x13x262144, .f32⟩ : BufTy).Contents (Elt F) → (⟨S4x13x262144, .f32⟩ : BufTy).Contents (Elt F)) (R V main_v61) (R V main_call4_v4) :=
  eq_binary writesIn V 107 (lt_len (by decide : 107 < 184)) (a := main_v61) (b := main_call4_v4) (y := main_call4_v5) (subf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 99) rfl (by decide)) (nd (j := 106) rfl (by decide)) (nd (j := 107) rfl (by decide))

theorem eq_main_call4_v6 (V : Valuation τ sig (Elt F)) :
    R V main_call4_v6 = (Host.exp : (⟨S4x13x262144, .f32⟩ : BufTy).Contents (Elt F) → (⟨S4x13x262144, .f32⟩ : BufTy).Contents (Elt F)) (R V main_call4_v5) :=
  eq_unary writesIn V 108 (lt_len (by decide : 108 < 184)) (x := main_call4_v5) (y := main_call4_v6) (Host.exp : (⟨S4x13x262144, .f32⟩ : BufTy).Contents (Elt F) → (⟨S4x13x262144, .f32⟩ : BufTy).Contents (Elt F)) (by exact ⟨by decide, rfl⟩) (by exact ⟨by decide, rfl⟩) rfl (nd (j := 107) rfl (by decide)) (nd (j := 108) rfl (by decide))

end Cert.RRun

end
-- ==== Proof.RRunEqB2.lean ====
/-
  The reference program's float part, second half, one equation per operation: positions 109 … 183 of the line
  less the integer select (141 … 147) — the rest of call 4's body (%62), the second quotient (%63, %64), call 5's
  body (%65), the per-row sum of exp(%65)·(%65 − %62), times one (%66 … %71), the float selects' bodies (calls 7, 8
  and 9: %75, %82, %84), the sums, the comparison and the quotient between them (%76 … %81, %83, %85), the two
  scalings (%86 … %89) and the result, their concatenation (%90 … %92).

  The final contents `R V b` (the whole line folded over the launch contents `V`, read at buffer `b`) satisfy each
  operation's own equation: for operation `k`, writing `y` from operands written at earlier positions or never,
  `R V y = f (R V a) (R V b)`. Each is an instance of the single-assignment reading of a line: an operand written at
  position `j < k` does not occur in the write list from `k` on because the list has no repetition, and the result,
  written at `k`, does not occur from `k + 1` on.
-/
import proofs.«165479_j24979529793863_2_alg».proof.Proof.RRun

noncomputable section

namespace Cert.RRun

open Cert.ReferenceIdeal Cert.ReferenceIdeal.Gen Idealize.ShloMosaic Idealize.ShloMosaic.TcCoe Idealize.SL.Sem Idealize.ShloMosaic.StableHlo

variable {F : FTy → Type} [FloatOps F]

private theorem nd {j k : Nat} {x : Ref sig .tc} (e : W[j]? = some x) (hjk : j < k) : x ∉ W.drop k :=
  not_mem_drop_of_pos W_nodup e hjk

private theorem lt_len {k : Nat} (h : k < 184) : k < (ops : List (HloOp τ sig (Elt F))).length :=
  Nat.lt_of_lt_of_eq h ops_length.symm

-- The reductions and the pad are folds over their operand's elements; the equations below do not depend on their values.
attribute [local irreducible] Host.reduce Host.reduceAdd pad

theorem eq_main_call4_cst_1 (V : Valuation τ sig (Elt F)) :
    R V main_call4_cst_1 = ((constant S_ .f32 0x00000000#32) : (⟨S_, .f32⟩ : BufTy).Contents (Elt F)) :=
  eq_nullary writesIn V 109 (lt_len (by decide : 109 < 184)) (y := main_call4_cst_1) ((constant S_ .f32 0x00000000#32) : (⟨S_, .f32⟩ : BufTy).Contents (Elt F)) (by exact ⟨by decide, rfl⟩) rfl (nd (j := 109) rfl (by decide))

theorem eq_main_call4_v7 (V : Valuation τ sig (Elt F)) :
    R V main_call4_v7 = ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (R V main_call4_v6) (R V main_call4_cst_1) :=
  eq_binary writesIn V 110 (lt_len (by decide : 110 < 184)) (a := main_call4_v6) (b := main_call4_cst_1) (y := main_call4_v7) ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (by exact ⟨by decide, rfl⟩) (by exact ⟨by decide, rfl⟩) (by exact ⟨by decide, rfl⟩) rfl (nd (j := 108) rfl (by decide)) (nd (j := 109) rfl (by decide)) (nd (j := 110) rfl (by decide))

theorem eq_main_call4_v8 (V : Valuation τ sig (Elt F)) :
    R V main_call4_v8 = ((broadcastInDim S4x13x1 ![0, 1] bcast_S4x13_S4x13x1_0_1) : (⟨S4x13, .f32⟩ : BufTy).Contents (Elt F) → (⟨S4x13x1, .f32⟩ : BufTy).Contents (Elt F)) (R V main_call4_v7) :=
  eq_unary writesIn V 111 (lt_len (by decide : 111 < 184)) (x := main_call4_v7) (y := main_call4_v8) ((broadcastInDim S4x13x1 ![0, 1] bcast_S4x13_S4x13x1_0_1) : (⟨S4x13, .f32⟩ : BufTy).Contents (Elt F) → (⟨S4x13x1, .f32⟩ : BufTy).Contents (Elt F)) (by exact ⟨by decide, rfl⟩) (by exact ⟨by decide, rfl⟩) rfl (nd (j := 110) rfl (by decide)) (nd (j := 111) rfl (by decide))

theorem eq_main_call4_v9 (V : Valuation τ sig (Elt F)) :
    R V main_call4_v9 = (Host.log : (⟨S4x13x1, .f32⟩ : BufTy).Contents (Elt F) → (⟨S4x13x1, .f32⟩ : BufTy).Contents (Elt F)) (R V main_call4_v8) :=
  eq_unary writesIn V 112 (lt_len (by decide : 112 < 184)) (x := main_call4_v8) (y := main_call4_v9) (Host.log : (⟨S4x13x1, .f32⟩ : BufTy).Contents (Elt F) → (⟨S4x13x1, .f32⟩ : BufTy).Contents (Elt F)) (by exact ⟨by decide, rfl⟩) (by exact ⟨by decide, rfl⟩) rfl (nd (j := 111) rfl (by decide)) (nd (j := 112) rfl (by decide))

theorem eq_main_call4_v10 (V : Valuation τ sig (Elt F)) :
    R V main_call4_v10 = ((broadcastInDim S4x13x262144 ![0, 1, 2] bcast_S4x13x1_S4x13x262144_0_1_2) : (⟨S4x13x1, .f32⟩ : BufTy).Contents (Elt F) → (⟨S4x13x262144, .f32⟩ : BufTy).Contents (Elt F)) (R V main_call4_v9) :=
  eq_unary writesIn V 113 (lt_len (by decide : 113 < 184)) (x := main_call4_v9) (y := main_call4_v10) ((broadcastInDim S4x13x262144 ![0, 1, 2] bcast_S4x13x1_S4x13x262144_0_1_2) : (⟨S4x13x1, .f32⟩ : BufTy).Contents (Elt F) → (⟨S4x13x262144, .f32⟩ : BufTy).Contents (Elt F)) (by exact ⟨by decide, rfl⟩) (by exact ⟨by decide, rfl⟩) rfl (nd (j := 112) rfl (by decide)) (nd (j := 113) rfl (by decide))

theorem eq_main_v62 (V : Valuation τ sig (Elt F)) :
    R V main_v62 = (subf : (⟨S4x13x262144, .f32⟩ : BufTy).Contents (Elt F) → (⟨S4x13x262144, .f32⟩ : BufTy).Contents (Elt F) → (⟨S4x13x262144, .f32⟩ : BufTy).Contents (Elt F)) (R V main_call4_v5) (R V main_call4_v10) :=
  eq_binary writesIn V 114 (lt_len (by decide : 114 < 184)) (a := main_call4_v5) (b := main_call4_v10) (y := main_v62) (subf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 107) rfl (by decide)) (nd (j := 113) rfl (by decide)) (nd (j := 114) rfl (by decide))

theorem eq_main_cst_8 (V : Valuation τ sig (Elt F)) :
    R V main_cst_8 = (constant S_ .f32 0x3F800000#32) :=
  eq_nullary writesIn V 115 (lt_len (by decide : 115 < 184)) (y := main_cst_8) (constant S_ .f32 0x3F800000#32) (by exact ⟨by decide, rfl⟩) rfl (nd (j := 115) rfl (by decide))

theorem eq_main_v63 (V : Valuation τ sig (Elt F)) :
    R V main_v63 = (broadcastInDim S4x13x262144 ![] bcast_S_S4x13x262144 : (⟨S_, .f32⟩ : BufTy).Contents (Elt F) → (⟨S4x13x262144, .f32⟩ : BufTy).Contents (Elt F)) (R V main_cst_8) :=
  eq_unary writesIn V 116 (lt_len (by decide : 116 < 184)) (x := main_cst_8) (y := main_v63) (broadcastInDim S4x13x262144 ![] bcast_S_S4x13x262144 : (⟨S_, .f32⟩ : BufTy).Contents (Elt F) → (⟨S4x13x262144, .f32⟩ : BufTy).Contents (Elt F)) (by exact ⟨by decide, rfl⟩) (by exact ⟨by decide, rfl⟩) rfl (nd (j := 115) rfl (by decide)) (nd (j := 116) rfl (by decide))

theorem eq_main_v64 (V : Valuation τ sig (Elt F)) :
    R V main_v64 = (Host.divf : (⟨S4x13x262144, .f32⟩ : BufTy).Contents (Elt F) → (⟨S4x13x262144, .f32⟩ : BufTy).Contents (Elt F) → (⟨S4x13x262144, .f32⟩ : BufTy).Contents (Elt F)) (R V main_v59) (R V main_v63) :=
  eq_binary writesIn V 117 (lt_len (by decide : 117 < 184)) (a := main_v59) (b := main_v63) (y := main_v64) (Host.divf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 96) rfl (by decide)) (nd (j := 116) rfl (by decide)) (nd (j := 117) rfl (by decide))

theorem eq_main_call5_cst (V : Valuation τ sig (Elt F)) :
    R V main_call5_cst = ((constant S_ .f32 0xFF800000#32) : (⟨S_, .f32⟩ : BufTy).Contents (Elt F)) :=
  eq_nullary writesIn V 118 (lt_len (by decide : 118 < 184)) (y := main_call5_cst) ((constant S_ .f32 0xFF800000#32) : (⟨S_, .f32⟩ : BufTy).Contents (Elt F)) (by exact ⟨by decide, rfl⟩) rfl (nd (j := 118) rfl (by decide))

theorem eq_main_call5_v0 (V : Valuation τ sig (Elt F)) :
    R V main_call5_v0 = ((fun x v => Host.reduce FloatOps.maximumf x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (R V main_v64) (R V main_call5_cst) :=
  eq_binary writesIn V 119 (lt_len (by decide : 119 < 184)) (a := main_v64) (b := main_call5_cst) (y := main_call5_v0) ((fun x v => Host.reduce FloatOps.maximumf x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (by exact ⟨by decide, rfl⟩) (by exact ⟨by decide, rfl⟩) (by exact ⟨by decide, rfl⟩) rfl (nd (j := 117) rfl (by decide)) (nd (j := 118) rfl (by decide)) (nd (j := 119) rfl (by decide))

theorem eq_main_call5_cst_0 (V : Valuation τ sig (Elt F)) :
    R V main_call5_cst_0 = ((constant S_ .f32 0xFF800000#32) : (⟨S_, .f32⟩ : BufTy).Contents (Elt F)) :=
  eq_nullary writesIn V 120 (lt_len (by decide : 120 < 184)) (y := main_call5_cst_0) ((constant S_ .f32 0xFF800000#32) : (⟨S_, .f32⟩ : BufTy).Contents (Elt F)) (by exact ⟨by decide, rfl⟩) rfl (nd (j := 120) rfl (by decide))

theorem eq_main_call5_v1 (V : Valuation τ sig (Elt F)) :
    R V main_call5_v1 = ((broadcastInDim S4x13 ![] bcast_S_S4x13) : (⟨S_, .f32⟩ : BufTy).Contents (Elt F) → (⟨S4x13, .f32⟩ : BufTy).Contents (Elt F)) (R V main_call5_cst_0) :=
  eq_unary writesIn V 121 (lt_len (by decide : 121 < 184)) (x := main_call5_cst_0) (y := main_call5_v1) ((broadcastInDim S4x13 ![] bcast_S_S4x13) : (⟨S_, .f32⟩ : BufTy).Contents (Elt F) → (⟨S4x13, .f32⟩ : BufTy).Contents (Elt F)) (by exact ⟨by decide, rfl⟩) (by exact ⟨by decide, rfl⟩) rfl (nd (j := 120) rfl (by decide)) (nd (j := 121) rfl (by decide))

theorem eq_main_call5_v2 (V : Valuation τ sig (Elt F)) :
    R V main_call5_v2 = (maximumf : (⟨S4x13, .f32⟩ : BufTy).Contents (Elt F) → (⟨S4x13, .f32⟩ : BufTy).Contents (Elt F) → (⟨S4x13, .f32⟩ : BufTy).Contents (Elt F)) (R V main_call5_v1) (R V main_call5_v0) :=
  eq_binary writesIn V 122 (lt_len (by decide : 122 < 184)) (a := main_call5_v1) (b := main_call5_v0) (y := main_call5_v2) (maximumf : (⟨S4x13, .f32⟩ : BufTy).Contents (Elt F) → (⟨S4x13, .f32⟩ : BufTy).Contents (Elt F) → (⟨S4x13, .f32⟩ : BufTy).Contents (Elt F)) (by exact ⟨by decide, rfl⟩) (by exact ⟨by decide, rfl⟩) (by exact ⟨by decide, rfl⟩) rfl (nd (j := 121) rfl (by decide)) (nd (j := 119) rfl (by decide)) (nd (j := 122) rfl (by decide))

theorem eq_main_call5_v3 (V : Valuation τ sig (Elt F)) :
    R V main_call5_v3 = ((broadcastInDim S4x13x1 ![0, 1] bcast_S4x13_S4x13x1_0_1) : (⟨S4x13, .f32⟩ : BufTy).Contents (Elt F) → (⟨S4x13x1, .f32⟩ : BufTy).Contents (Elt F)) (R V main_call5_v2) :=
  eq_unary writesIn V 123 (lt_len (by decide : 123 < 184)) (x := main_call5_v2) (y := main_call5_v3) ((broadcastInDim S4x13x1 ![0, 1] bcast_S4x13_S4x13x1_0_1) : (⟨S4x13, .f32⟩ : BufTy).Contents (Elt F) → (⟨S4x13x1, .f32⟩ : BufTy).Contents (Elt F)) (by exact ⟨by decide, rfl⟩) (by exact ⟨by decide, rfl⟩) rfl (nd (j := 122) rfl (by decide)) (nd (j := 123) rfl (by decide))

theorem eq_main_call5_v4 (V : Valuation τ sig (Elt F)) :
    R V main_call5_v4 = ((broadcastInDim S4x13x262144 ![0, 1, 2] bcast_S4x13x1_S4x13x262144_0_1_2) : (⟨S4x13x1, .f32⟩ : BufTy).Contents (Elt F) → (⟨S4x13x262144, .f32⟩ : BufTy).Contents (Elt F)) (R V main_call5_v3) :=
  eq_unary writesIn V 124 (lt_len (by decide : 124 < 184)) (x := main_call5_v3) (y := main_call5_v4) ((broadcastInDim S4x13x262144 ![0, 1, 2] bcast_S4x13x1_S4x13x262144_0_1_2) : (⟨S4x13x1, .f32⟩ : BufTy).Contents (Elt F) → (⟨S4x13x262144, .f32⟩ : BufTy).Contents (Elt F)) (by exact ⟨by decide, rfl⟩) (by exact ⟨by decide, rfl⟩) rfl (nd (j := 123) rfl (by decide)) (nd (j := 124) rfl (by decide))

theorem eq_main_call5_v5 (V : Valuation τ sig (Elt F)) :
    R V main_call5_v5 = (subf : (⟨S4x13x262144, .f32⟩ : BufTy).Contents (Elt F) → (⟨S4x13x262144, .f32⟩ : BufTy).Contents (Elt F) → (⟨S4x13x262144, .f32⟩ : BufTy).Contents (Elt F)) (R V main_v64) (R V main_call5_v4) :=
  eq_binary writesIn V 125 (lt_len (by decide : 125 < 184)) (a := main_v64) (b := main_call5_v4) (y := main_call5_v5) (subf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 117) rfl (by decide)) (nd (j := 124) rfl (by decide)) (nd (j := 125) rfl (by decide))

theorem eq_main_call5_v6 (V : Valuation τ sig (Elt F)) :
    R V main_call5_v6 = (Host.exp : (⟨S4x13x262144, .f32⟩ : BufTy).Contents (Elt F) → (⟨S4x13x262144, .f32⟩ : BufTy).Contents (Elt F)) (R V main_call5_v5) :=
  eq_unary writesIn V 126 (lt_len (by decide : 126 < 184)) (x := main_call5_v5) (y := main_call5_v6) (Host.exp : (⟨S4x13x262144, .f32⟩ : BufTy).Contents (Elt F) → (⟨S4x13x262144, .f32⟩ : BufTy).Contents (Elt F)) (by exact ⟨by decide, rfl⟩) (by exact ⟨by decide, rfl⟩) rfl (nd (j := 125) rfl (by decide)) (nd (j := 126) rfl (by decide))

theorem eq_main_call5_cst_1 (V : Valuation τ sig (Elt F)) :
    R V main_call5_cst_1 = ((constant S_ .f32 0x00000000#32) : (⟨S_, .f32⟩ : BufTy).Contents (Elt F)) :=
  eq_nullary writesIn V 127 (lt_len (by decide : 127 < 184)) (y := main_call5_cst_1) ((constant S_ .f32 0x00000000#32) : (⟨S_, .f32⟩ : BufTy).Contents (Elt F)) (by exact ⟨by decide, rfl⟩) rfl (nd (j := 127) rfl (by decide))

theorem eq_main_call5_v7 (V : Valuation τ sig (Elt F)) :
    R V main_call5_v7 = ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (R V main_call5_v6) (R V main_call5_cst_1) :=
  eq_binary writesIn V 128 (lt_len (by decide : 128 < 184)) (a := main_call5_v6) (b := main_call5_cst_1) (y := main_call5_v7) ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (by exact ⟨by decide, rfl⟩) (by exact ⟨by decide, rfl⟩) (by exact ⟨by decide, rfl⟩) rfl (nd (j := 126) rfl (by decide)) (nd (j := 127) rfl (by decide)) (nd (j := 128) rfl (by decide))

theorem eq_main_call5_v8 (V : Valuation τ sig (Elt F)) :
    R V main_call5_v8 = ((broadcastInDim S4x13x1 ![0, 1] bcast_S4x13_S4x13x1_0_1) : (⟨S4x13, .f32⟩ : BufTy).Contents (Elt F) → (⟨S4x13x1, .f32⟩ : BufTy).Contents (Elt F)) (R V main_call5_v7) :=
  eq_unary writesIn V 129 (lt_len (by decide : 129 < 184)) (x := main_call5_v7) (y := main_call5_v8) ((broadcastInDim S4x13x1 ![0, 1] bcast_S4x13_S4x13x1_0_1) : (⟨S4x13, .f32⟩ : BufTy).Contents (Elt F) → (⟨S4x13x1, .f32⟩ : BufTy).Contents (Elt F)) (by exact ⟨by decide, rfl⟩) (by exact ⟨by decide, rfl⟩) rfl (nd (j := 128) rfl (by decide)) (nd (j := 129) rfl (by decide))

theorem eq_main_call5_v9 (V : Valuation τ sig (Elt F)) :
    R V main_call5_v9 = (Host.log : (⟨S4x13x1, .f32⟩ : BufTy).Contents (Elt F) → (⟨S4x13x1, .f32⟩ : BufTy).Contents (Elt F)) (R V main_call5_v8) :=
  eq_unary writesIn V 130 (lt_len (by decide : 130 < 184)) (x := main_call5_v8) (y := main_call5_v9) (Host.log : (⟨S4x13x1, .f32⟩ : BufTy).Contents (Elt F) → (⟨S4x13x1, .f32⟩ : BufTy).Contents (Elt F)) (by exact ⟨by decide, rfl⟩) (by exact ⟨by decide, rfl⟩) rfl (nd (j := 129) rfl (by decide)) (nd (j := 130) rfl (by decide))

theorem eq_main_call5_v10 (V : Valuation τ sig (Elt F)) :
    R V main_call5_v10 = ((broadcastInDim S4x13x262144 ![0, 1, 2] bcast_S4x13x1_S4x13x262144_0_1_2) : (⟨S4x13x1, .f32⟩ : BufTy).Contents (Elt F) → (⟨S4x13x262144, .f32⟩ : BufTy).Contents (Elt F)) (R V main_call5_v9) :=
  eq_unary writesIn V 131 (lt_len (by decide : 131 < 184)) (x := main_call5_v9) (y := main_call5_v10) ((broadcastInDim S4x13x262144 ![0, 1, 2] bcast_S4x13x1_S4x13x262144_0_1_2) : (⟨S4x13x1, .f32⟩ : BufTy).Contents (Elt F) → (⟨S4x13x262144, .f32⟩ : BufTy).Contents (Elt F)) (by exact ⟨by decide, rfl⟩) (by exact ⟨by decide, rfl⟩) rfl (nd (j := 130) rfl (by decide)) (nd (j := 131) rfl (by decide))

theorem eq_main_v65 (V : Valuation τ sig (Elt F)) :
    R V main_v65 = (subf : (⟨S4x13x262144, .f32⟩ : BufTy).Contents (Elt F) → (⟨S4x13x262144, .f32⟩ : BufTy).Contents (Elt F) → (⟨S4x13x262144, .f32⟩ : BufTy).Contents (Elt F)) (R V main_call5_v5) (R V main_call5_v10) :=
  eq_binary writesIn V 132 (lt_len (by decide : 132 < 184)) (a := main_call5_v5) (b := main_call5_v10) (y := main_v65) (subf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 125) rfl (by decide)) (nd (j := 131) rfl (by decide)) (nd (j := 132) rfl (by decide))

theorem eq_main_v66 (V : Valuation τ sig (Elt F)) :
    R V main_v66 = (Host.exp : (⟨S4x13x262144, .f32⟩ : BufTy).Contents (Elt F) → (⟨S4x13x262144, .f32⟩ : BufTy).Contents (Elt F)) (R V main_v65) :=
  eq_unary writesIn V 133 (lt_len (by decide : 133 < 184)) (x := main_v65) (y := main_v66) (Host.exp : (⟨S4x13x262144, .f32⟩ : BufTy).Contents (Elt F) → (⟨S4x13x262144, .f32⟩ : BufTy).Contents (Elt F)) (by exact ⟨by decide, rfl⟩) (by exact ⟨by decide, rfl⟩) rfl (nd (j := 132) rfl (by decide)) (nd (j := 133) rfl (by decide))

theorem eq_main_v67 (V : Valuation τ sig (Elt F)) :
    R V main_v67 = (subf : (⟨S4x13x262144, .f32⟩ : BufTy).Contents (Elt F) → (⟨S4x13x262144, .f32⟩ : BufTy).Contents (Elt F) → (⟨S4x13x262144, .f32⟩ : BufTy).Contents (Elt F)) (R V main_v65) (R V main_v62) :=
  eq_binary writesIn V 134 (lt_len (by decide : 134 < 184)) (a := main_v65) (b := main_v62) (y := main_v67) (subf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 132) rfl (by decide)) (nd (j := 114) rfl (by decide)) (nd (j := 134) rfl (by decide))

theorem eq_main_v68 (V : Valuation τ sig (Elt F)) :
    R V main_v68 = (mulf : (⟨S4x13x262144, .f32⟩ : BufTy).Contents (Elt F) → (⟨S4x13x262144, .f32⟩ : BufTy).Contents (Elt F) → (⟨S4x13x262144, .f32⟩ : BufTy).Contents (Elt F)) (R V main_v66) (R V main_v67) :=
  eq_binary writesIn V 135 (lt_len (by decide : 135 < 184)) (a := main_v66) (b := main_v67) (y := main_v68) (mulf : (⟨S4x13x262144, .f32⟩ : BufTy).Contents (Elt F) → (⟨S4x13x262144, .f32⟩ : BufTy).Contents (Elt F) → (⟨S4x13x262144, .f32⟩ : BufTy).Contents (Elt F)) (by exact ⟨by decide, rfl⟩) (by exact ⟨by decide, rfl⟩) (by exact ⟨by decide, rfl⟩) rfl (nd (j := 133) rfl (by decide)) (nd (j := 134) rfl (by decide)) (nd (j := 135) rfl (by decide))

theorem eq_main_cst_9 (V : Valuation τ sig (Elt F)) :
    R V main_cst_9 = (constant S_ .f32 0x00000000#32) :=
  eq_nullary writesIn V 136 (lt_len (by decide : 136 < 184)) (y := main_cst_9) (constant S_ .f32 0x00000000#32) (by exact ⟨by decide, rfl⟩) rfl (nd (j := 136) rfl (by decide))

theorem eq_main_v69 (V : Valuation τ sig (Elt F)) :
    R V main_v69 = ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (R V main_v68) (R V main_cst_9) :=
  eq_binary writesIn V 137 (lt_len (by decide : 137 < 184)) (a := main_v68) (b := main_cst_9) (y := main_v69) ((fun x v => Host.reduceAdd x v reducesTo_S4x13x262144_S4x13_d2 h_S_) : (⟨S4x13x262144, .f32⟩ : BufTy).Contents (Elt F) → (⟨S_, .f32⟩ : BufTy).Contents (Elt F) → (⟨S4x13, .f32⟩ : BufTy).Contents (Elt F)) (by exact ⟨by decide, rfl⟩) (by exact ⟨by decide, rfl⟩) (by exact ⟨by decide, rfl⟩) rfl (nd (j := 135) rfl (by decide)) (nd (j := 136) rfl (by decide)) (nd (j := 137) rfl (by decide))

theorem eq_main_cst_10 (V : Valuation τ sig (Elt F)) :
    R V main_cst_10 = (constant S_ .f32 0x3F800000#32) :=
  eq_nullary writesIn V 138 (lt_len (by decide : 138 < 184)) (y := main_cst_10) (constant S_ .f32 0x3F800000#32) (by exact ⟨by decide, rfl⟩) rfl (nd (j := 138) rfl (by decide))

theorem eq_main_v70 (V : Valuation τ sig (Elt F)) :
    R V main_v70 = (broadcastInDim S4x13 ![] bcast_S_S4x13 : (⟨S_, .f32⟩ : BufTy).Contents (Elt F) → (⟨S4x13, .f32⟩ : BufTy).Contents (Elt F)) (R V main_cst_10) :=
  eq_unary writesIn V 139 (lt_len (by decide : 139 < 184)) (x := main_cst_10) (y := main_v70) (broadcastInDim S4x13 ![] bcast_S_S4x13 : (⟨S_, .f32⟩ : BufTy).Contents (Elt F) → (⟨S4x13, .f32⟩ : BufTy).Contents (Elt F)) (by exact ⟨by decide, rfl⟩) (by exact ⟨by decide, rfl⟩) rfl (nd (j := 138) rfl (by decide)) (nd (j := 139) rfl (by decide))

theorem eq_main_v71 (V : Valuation τ sig (Elt F)) :
    R V main_v71 = (mulf : (⟨S4x13, .f32⟩ : BufTy).Contents (Elt F) → (⟨S4x13, .f32⟩ : BufTy).Contents (Elt F) → (⟨S4x13, .f32⟩ : BufTy).Contents (Elt F)) (R V main_v69) (R V main_v70) :=
  eq_binary writesIn V 140 (lt_len (by decide : 140 < 184)) (a := main_v69) (b := main_v70) (y := main_v71) (mulf : (⟨S4x13, .f32⟩ : BufTy).Contents (Elt F) → (⟨S4x13, .f32⟩ : BufTy).Contents (Elt F) → (⟨S4x13, .f32⟩ : BufTy).Contents (Elt F)) (by exact ⟨by decide, rfl⟩) (by exact ⟨by decide, rfl⟩) (by exact ⟨by decide, rfl⟩) rfl (nd (j := 137) rfl (by decide)) (nd (j := 139) rfl (by decide)) (nd (j := 140) rfl (by decide))

theorem eq_main_cst_13 (V : Valuation τ sig (Elt F)) :
    R V main_cst_13 = (constant S_ .f32 0x00000000#32) :=
  eq_nullary writesIn V 148 (lt_len (by decide : 148 < 184)) (y := main_cst_13) (constant S_ .f32 0x00000000#32) (by exact ⟨by decide, rfl⟩) rfl (nd (j := 148) rfl (by decide))

theorem eq_main_call7_v0 (V : Valuation τ sig (Elt F)) :
    R V main_call7_v0 = (id : (⟨S_, .f32⟩ : BufTy).Contents (Elt F) → (⟨S_, .f32⟩ : BufTy).Contents (Elt F)) (R V main_cst_13) :=
  eq_unary writesIn V 149 (lt_len (by decide : 149 < 184)) (x := main_cst_13) (y := main_call7_v0) (id : (⟨S_, .f32⟩ : BufTy).Contents (Elt F) → (⟨S_, .f32⟩ : BufTy).Contents (Elt F)) (by exact ⟨by decide, rfl⟩) (by exact ⟨by decide, rfl⟩) rfl (nd (j := 148) rfl (by decide)) (nd (j := 149) rfl (by decide))

theorem eq_main_call7_v1 (V : Valuation τ sig (Elt F)) :
    R V main_call7_v1 = ((broadcastInDim S4x13 ![] bcast_S_S4x13) : (⟨S_, .f32⟩ : BufTy).Contents (Elt F) → (⟨S4x13, .f32⟩ : BufTy).Contents (Elt F)) (R V main_call7_v0) :=
  eq_unary writesIn V 150 (lt_len (by decide : 150 < 184)) (x := main_call7_v0) (y := main_call7_v1) ((broadcastInDim S4x13 ![] bcast_S_S4x13) : (⟨S_, .f32⟩ : BufTy).Contents (Elt F) → (⟨S4x13, .f32⟩ : BufTy).Contents (Elt F)) (by exact ⟨by decide, rfl⟩) (by exact ⟨by decide, rfl⟩) rfl (nd (j := 149) rfl (by decide)) (nd (j := 150) rfl (by decide))

theorem eq_main_v75 (V : Valuation τ sig (Elt F)) :
    R V main_v75 = (select : (⟨S4x13, .i1⟩ : BufTy).Contents (Elt F) → (⟨S4x13, .f32⟩ : BufTy).Contents (Elt F) → (⟨S4x13, .f32⟩ : BufTy).Contents (Elt F) → (⟨S4x13, .f32⟩ : BufTy).Contents (Elt F)) (R V main_v35) (R V main_v55) (R V main_call7_v1) :=
  eq_ternary writesIn V 151 (lt_len (by decide : 151 < 184)) (c := main_v35) (a := main_v55) (b := main_call7_v1) (y := main_v75) (select : (⟨S4x13, .i1⟩ : BufTy).Contents (Elt F) → (⟨S4x13, .f32⟩ : BufTy).Contents (Elt F) → (⟨S4x13, .f32⟩ : BufTy).Contents (Elt F) → (⟨S4x13, .f32⟩ : BufTy).Contents (Elt F)) (by exact ⟨by decide, rfl⟩) (by exact ⟨by decide, rfl⟩) (by exact ⟨by decide, rfl⟩) (by exact ⟨by decide, rfl⟩) rfl (nd (j := 40) rfl (by decide)) (nd (j := 92) rfl (by decide)) (nd (j := 150) rfl (by decide)) (nd (j := 151) rfl (by decide))

theorem eq_main_cst_14 (V : Valuation τ sig (Elt F)) :
    R V main_cst_14 = (constant S_ .f32 0x00000000#32) :=
  eq_nullary writesIn V 152 (lt_len (by decide : 152 < 184)) (y := main_cst_14) (constant S_ .f32 0x00000000#32) (by exact ⟨by decide, rfl⟩) rfl (nd (j := 152) rfl (by decide))

theorem eq_main_v76 (V : Valuation τ sig (Elt F)) :
    R V main_v76 = ((fun x v => Host.reduceAdd x v reducesTo_S4x13_S4_d1 h_S_) : (⟨S4x13, .f32⟩ : BufTy).Contents (Elt F) → (⟨S_, .f32⟩ : BufTy).Contents (Elt F) → (⟨S4, .f32⟩ : BufTy).Contents (Elt F)) (R V main_v75) (R V main_cst_14) :=
  eq_binary writesIn V 153 (lt_len (by decide : 153 < 184)) (a := main_v75) (b := main_cst_14) (y := main_v76) ((fun x v => Host.reduceAdd x v reducesTo_S4x13_S4_d1 h_S_) : (⟨S4x13, .f32⟩ : BufTy).Contents (Elt F) → (⟨S_, .f32⟩ : BufTy).Contents (Elt F) → (⟨S4, .f32⟩ : BufTy).Contents (Elt F)) (by exact ⟨by decide, rfl⟩) (by exact ⟨by decide, rfl⟩) (by exact ⟨by decide, rfl⟩) rfl (nd (j := 151) rfl (by decide)) (nd (j := 152) rfl (by decide)) (nd (j := 153) rfl (by decide))

theorem eq_main_cst_15 (V : Valuation τ sig (Elt F)) :
    R V main_cst_15 = (constant S_ .f32 0x00000000#32) :=
  eq_nullary writesIn V 154 (lt_len (by decide : 154 < 184)) (y := main_cst_15) (constant S_ .f32 0x00000000#32) (by exact ⟨by decide, rfl⟩) rfl (nd (j := 154) rfl (by decide))

theorem eq_main_v77 (V : Valuation τ sig (Elt F)) :
    R V main_v77 = (broadcastInDim S4 ![] bcast_S_S4 : (⟨S_, .f32⟩ : BufTy).Contents (Elt F) → (⟨S4, .f32⟩ : BufTy).Contents (Elt F)) (R V main_cst_15) :=
  eq_unary writesIn V 155 (lt_len (by decide : 155 < 184)) (x := main_cst_15) (y := main_v77) (broadcastInDim S4 ![] bcast_S_S4 : (⟨S_, .f32⟩ : BufTy).Contents (Elt F) → (⟨S4, .f32⟩ : BufTy).Contents (Elt F)) (by exact ⟨by decide, rfl⟩) (by exact ⟨by decide, rfl⟩) rfl (nd (j := 154) rfl (by decide)) (nd (j := 155) rfl (by decide))

theorem eq_main_v78 (V : Valuation τ sig (Elt F)) :
    R V main_v78 = (cmpf .ogt : (⟨S4, .f32⟩ : BufTy).Contents (Elt F) → (⟨S4, .f32⟩ : BufTy).Contents (Elt F) → (⟨S4, .i1⟩ : BufTy).Contents (Elt F)) (R V main_v76) (R V main_v77) :=
  eq_binary writesIn V 156 (lt_len (by decide : 156 < 184)) (a := main_v76) (b := main_v77) (y := main_v78) (cmpf .ogt : (⟨S4, .f32⟩ : BufTy).Contents (Elt F) → (⟨S4, .f32⟩ : BufTy).Contents (Elt F) → (⟨S4, .i1⟩ : BufTy).Contents (Elt F)) (by exact ⟨by decide, rfl⟩) (by exact ⟨by decide, rfl⟩) (by exact ⟨by decide, rfl⟩) rfl (nd (j := 153) rfl (by decide)) (nd (j := 155) rfl (by decide)) (nd (j := 156) rfl (by decide))

theorem eq_main_cst_16 (V : Valuation τ sig (Elt F)) :
    R V main_cst_16 = (constant S_ .f32 0x3F800000#32) :=
  eq_nullary writesIn V 157 (lt_len (by decide : 157 < 184)) (y := main_cst_16) (constant S_ .f32 0x3F800000#32) (by exact ⟨by decide, rfl⟩) rfl (nd (j := 157) rfl (by decide))

theorem eq_main_v79 (V : Valuation τ sig (Elt F)) :
    R V main_v79 = (broadcastInDim S4 ![] bcast_S_S4 : (⟨S_, .f32⟩ : BufTy).Contents (Elt F) → (⟨S4, .f32⟩ : BufTy).Contents (Elt F)) (R V main_cst_16) :=
  eq_unary writesIn V 158 (lt_len (by decide : 158 < 184)) (x := main_cst_16) (y := main_v79) (broadcastInDim S4 ![] bcast_S_S4 : (⟨S_, .f32⟩ : BufTy).Contents (Elt F) → (⟨S4, .f32⟩ : BufTy).Contents (Elt F)) (by exact ⟨by decide, rfl⟩) (by exact ⟨by decide, rfl⟩) rfl (nd (j := 157) rfl (by decide)) (nd (j := 158) rfl (by decide))

theorem eq_main_v80 (V : Valuation τ sig (Elt F)) :
    R V main_v80 = (maximumf : (⟨S4, .f32⟩ : BufTy).Contents (Elt F) → (⟨S4, .f32⟩ : BufTy).Contents (Elt F) → (⟨S4, .f32⟩ : BufTy).Contents (Elt F)) (R V main_v74) (R V main_v79) :=
  eq_binary writesIn V 159 (lt_len (by decide : 159 < 184)) (a := main_v74) (b := main_v79) (y := main_v80) (maximumf : (⟨S4, .f32⟩ : BufTy).Contents (Elt F) → (⟨S4, .f32⟩ : BufTy).Contents (Elt F) → (⟨S4, .f32⟩ : BufTy).Contents (Elt F)) (by exact ⟨by decide, rfl⟩) (by exact ⟨by decide, rfl⟩) (by exact ⟨by decide, rfl⟩) rfl (nd (j := 147) rfl (by decide)) (nd (j := 158) rfl (by decide)) (nd (j := 159) rfl (by decide))

theorem eq_main_v81 (V : Valuation τ sig (Elt F)) :
    R V main_v81 = (Host.divf : (⟨S4, .f32⟩ : BufTy).Contents (Elt F) → (⟨S4, .f32⟩ : BufTy).Contents (Elt F) → (⟨S4, .f32⟩ : BufTy).Contents (Elt F)) (R V main_v76) (R V main_v80) :=
  eq_binary writesIn V 160 (lt_len (by decide : 160 < 184)) (a := main_v76) (b := main_v80) (y := main_v81) (Host.divf : (⟨S4, .f32⟩ : BufTy).Contents (Elt F) → (⟨S4, .f32⟩ : BufTy).Contents (Elt F) → (⟨S4, .f32⟩ : BufTy).Contents (Elt F)) (by exact ⟨by decide, rfl⟩) (by exact ⟨by decide, rfl⟩) (by exact ⟨by decide, rfl⟩) rfl (nd (j := 153) rfl (by decide)) (nd (j := 159) rfl (by decide)) (nd (j := 160) rfl (by decide))

theorem eq_main_cst_17 (V : Valuation τ sig (Elt F)) :
    R V main_cst_17 = (constant S_ .f32 0x00000000#32) :=
  eq_nullary writesIn V 161 (lt_len (by decide : 161 < 184)) (y := main_cst_17) (constant S_ .f32 0x00000000#32) (by exact ⟨by decide, rfl⟩) rfl (nd (j := 161) rfl (by decide))

theorem eq_main_call8_v0 (V : Valuation τ sig (Elt F)) :
    R V main_call8_v0 = (id : (⟨S_, .f32⟩ : BufTy).Contents (Elt F) → (⟨S_, .f32⟩ : BufTy).Contents (Elt F)) (R V main_cst_17) :=
  eq_unary writesIn V 162 (lt_len (by decide : 162 < 184)) (x := main_cst_17) (y := main_call8_v0) (id : (⟨S_, .f32⟩ : BufTy).Contents (Elt F) → (⟨S_, .f32⟩ : BufTy).Contents (Elt F)) (by exact ⟨by decide, rfl⟩) (by exact ⟨by decide, rfl⟩) rfl (nd (j := 161) rfl (by decide)) (nd (j := 162) rfl (by decide))

theorem eq_main_call8_v1 (V : Valuation τ sig (Elt F)) :
    R V main_call8_v1 = ((broadcastInDim S4 ![] bcast_S_S4) : (⟨S_, .f32⟩ : BufTy).Contents (Elt F) → (⟨S4, .f32⟩ : BufTy).Contents (Elt F)) (R V main_call8_v0) :=
  eq_unary writesIn V 163 (lt_len (by decide : 163 < 184)) (x := main_call8_v0) (y := main_call8_v1) ((broadcastInDim S4 ![] bcast_S_S4) : (⟨S_, .f32⟩ : BufTy).Contents (Elt F) → (⟨S4, .f32⟩ : BufTy).Contents (Elt F)) (by exact ⟨by decide, rfl⟩) (by exact ⟨by decide, rfl⟩) rfl (nd (j := 162) rfl (by decide)) (nd (j := 163) rfl (by decide))

theorem eq_main_v82 (V : Valuation τ sig (Elt F)) :
    R V main_v82 = (select : (⟨S4, .i1⟩ : BufTy).Contents (Elt F) → (⟨S4, .f32⟩ : BufTy).Contents (Elt F) → (⟨S4, .f32⟩ : BufTy).Contents (Elt F) → (⟨S4, .f32⟩ : BufTy).Contents (Elt F)) (R V main_v78) (R V main_v81) (R V main_call8_v1) :=
  eq_ternary writesIn V 164 (lt_len (by decide : 164 < 184)) (c := main_v78) (a := main_v81) (b := main_call8_v1) (y := main_v82) (select : (⟨S4, .i1⟩ : BufTy).Contents (Elt F) → (⟨S4, .f32⟩ : BufTy).Contents (Elt F) → (⟨S4, .f32⟩ : BufTy).Contents (Elt F) → (⟨S4, .f32⟩ : BufTy).Contents (Elt F)) (by exact ⟨by decide, rfl⟩) (by exact ⟨by decide, rfl⟩) (by exact ⟨by decide, rfl⟩) (by exact ⟨by decide, rfl⟩) rfl (nd (j := 156) rfl (by decide)) (nd (j := 160) rfl (by decide)) (nd (j := 163) rfl (by decide)) (nd (j := 164) rfl (by decide))

theorem eq_main_cst_18 (V : Valuation τ sig (Elt F)) :
    R V main_cst_18 = (constant S_ .f32 0x00000000#32) :=
  eq_nullary writesIn V 165 (lt_len (by decide : 165 < 184)) (y := main_cst_18) (constant S_ .f32 0x00000000#32) (by exact ⟨by decide, rfl⟩) rfl (nd (j := 165) rfl (by decide))

theorem eq_main_v83 (V : Valuation τ sig (Elt F)) :
    R V main_v83 = ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)) (R V main_v82) (R V main_cst_18) :=
  eq_binary writesIn V 166 (lt_len (by decide : 166 < 184)) (a := main_v82) (b := main_cst_18) (y := main_v83) ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)) (by exact ⟨by decide, rfl⟩) (by exact ⟨by decide, rfl⟩) (by exact ⟨by decide, rfl⟩) rfl (nd (j := 164) rfl (by decide)) (nd (j := 165) rfl (by decide)) (nd (j := 166) rfl (by decide))

theorem eq_main_cst_19 (V : Valuation τ sig (Elt F)) :
    R V main_cst_19 = (constant S_ .f32 0x00000000#32) :=
  eq_nullary writesIn V 167 (lt_len (by decide : 167 < 184)) (y := main_cst_19) (constant S_ .f32 0x00000000#32) (by exact ⟨by decide, rfl⟩) rfl (nd (j := 167) rfl (by decide))

theorem eq_main_call9_v0 (V : Valuation τ sig (Elt F)) :
    R V main_call9_v0 = (id : (⟨S_, .f32⟩ : BufTy).Contents (Elt F) → (⟨S_, .f32⟩ : BufTy).Contents (Elt F)) (R V main_cst_19) :=
  eq_unary writesIn V 168 (lt_len (by decide : 168 < 184)) (x := main_cst_19) (y := main_call9_v0) (id : (⟨S_, .f32⟩ : BufTy).Contents (Elt F) → (⟨S_, .f32⟩ : BufTy).Contents (Elt F)) (by exact ⟨by decide, rfl⟩) (by exact ⟨by decide, rfl⟩) rfl (nd (j := 167) rfl (by decide)) (nd (j := 168) rfl (by decide))

theorem eq_main_call9_v1 (V : Valuation τ sig (Elt F)) :
    R V main_call9_v1 = ((broadcastInDim S4x13 ![] bcast_S_S4x13) : (⟨S_, .f32⟩ : BufTy).Contents (Elt F) → (⟨S4x13, .f32⟩ : BufTy).Contents (Elt F)) (R V main_call9_v0) :=
  eq_unary writesIn V 169 (lt_len (by decide : 169 < 184)) (x := main_call9_v0) (y := main_call9_v1) ((broadcastInDim S4x13 ![] bcast_S_S4x13) : (⟨S_, .f32⟩ : BufTy).Contents (Elt F) → (⟨S4x13, .f32⟩ : BufTy).Contents (Elt F)) (by exact ⟨by decide, rfl⟩) (by exact ⟨by decide, rfl⟩) rfl (nd (j := 168) rfl (by decide)) (nd (j := 169) rfl (by decide))

theorem eq_main_v84 (V : Valuation τ sig (Elt F)) :
    R V main_v84 = (select : (⟨S4x13, .i1⟩ : BufTy).Contents (Elt F) → (⟨S4x13, .f32⟩ : BufTy).Contents (Elt F) → (⟨S4x13, .f32⟩ : BufTy).Contents (Elt F) → (⟨S4x13, .f32⟩ : BufTy).Contents (Elt F)) (R V main_v35) (R V main_v71) (R V main_call9_v1) :=
  eq_ternary writesIn V 170 (lt_len (by decide : 170 < 184)) (c := main_v35) (a := main_v71) (b := main_call9_v1) (y := main_v84) (select : (⟨S4x13, .i1⟩ : BufTy).Contents (Elt F) → (⟨S4x13, .f32⟩ : BufTy).Contents (Elt F) → (⟨S4x13, .f32⟩ : BufTy).Contents (Elt F) → (⟨S4x13, .f32⟩ : BufTy).Contents (Elt F)) (by exact ⟨by decide, rfl⟩) (by exact ⟨by decide, rfl⟩) (by exact ⟨by decide, rfl⟩) (by exact ⟨by decide, rfl⟩) rfl (nd (j := 40) rfl (by decide)) (nd (j := 140) rfl (by decide)) (nd (j := 169) rfl (by decide)) (nd (j := 170) rfl (by decide))

theorem eq_main_cst_20 (V : Valuation τ sig (Elt F)) :
    R V main_cst_20 = (constant S_ .f32 0x00000000#32) :=
  eq_nullary writesIn V 171 (lt_len (by decide : 171 < 184)) (y := main_cst_20) (constant S_ .f32 0x00000000#32) (by exact ⟨by decide, rfl⟩) rfl (nd (j := 171) rfl (by decide))

theorem eq_main_v85 (V : Valuation τ sig (Elt F)) :
    R V main_v85 = ((fun x v => Host.reduceAdd x v reducesTo_S4x13_S_d0_1 h_S_) : (⟨S4x13, .f32⟩ : BufTy).Contents (Elt F) → (⟨S_, .f32⟩ : BufTy).Contents (Elt F) → (⟨S_, .f32⟩ : BufTy).Contents (Elt F)) (R V main_v84) (R V main_cst_20) :=
  eq_binary writesIn V 172 (lt_len (by decide : 172 < 184)) (a := main_v84) (b := main_cst_20) (y := main_v85) ((fun x v => Host.reduceAdd x v reducesTo_S4x13_S_d0_1 h_S_) : (⟨S4x13, .f32⟩ : BufTy).Contents (Elt F) → (⟨S_, .f32⟩ : BufTy).Contents (Elt F) → (⟨S_, .f32⟩ : BufTy).Contents (Elt F)) (by exact ⟨by decide, rfl⟩) (by exact ⟨by decide, rfl⟩) (by exact ⟨by decide, rfl⟩) rfl (nd (j := 170) rfl (by decide)) (nd (j := 171) rfl (by decide)) (nd (j := 172) rfl (by decide))

theorem eq_main_cst_21 (V : Valuation τ sig (Elt F)) :
    R V main_cst_21 = (constant S_ .f32 0x42480000#32) :=
  eq_nullary writesIn V 173 (lt_len (by decide : 173 < 184)) (y := main_cst_21) (constant S_ .f32 0x42480000#32) (by exact ⟨by decide, rfl⟩) rfl (nd (j := 173) rfl (by decide))

theorem eq_main_v86 (V : Valuation τ sig (Elt F)) :
    R V main_v86 = (mulf : (⟨S_, .f32⟩ : BufTy).Contents (Elt F) → (⟨S_, .f32⟩ : BufTy).Contents (Elt F) → (⟨S_, .f32⟩ : BufTy).Contents (Elt F)) (R V main_cst_21) (R V main_v83) :=
  eq_binary writesIn V 174 (lt_len (by decide : 174 < 184)) (a := main_cst_21) (b := main_v83) (y := main_v86) (mulf : (⟨S_, .f32⟩ : BufTy).Contents (Elt F) → (⟨S_, .f32⟩ : BufTy).Contents (Elt F) → (⟨S_, .f32⟩ : BufTy).Contents (Elt F)) (by exact ⟨by decide, rfl⟩) (by exact ⟨by decide, rfl⟩) (by exact ⟨by decide, rfl⟩) rfl (nd (j := 173) rfl (by decide)) (nd (j := 166) rfl (by decide)) (nd (j := 174) rfl (by decide))

theorem eq_main_cst_22 (V : Valuation τ sig (Elt F)) :
    R V main_cst_22 = (constant S_ .f32 0x40800000#32) :=
  eq_nullary writesIn V 175 (lt_len (by decide : 175 < 184)) (y := main_cst_22) (constant S_ .f32 0x40800000#32) (by exact ⟨by decide, rfl⟩) rfl (nd (j := 175) rfl (by decide))

theorem eq_main_v87 (V : Valuation τ sig (Elt F)) :
    R V main_v87 = (Host.divf : (⟨S_, .f32⟩ : BufTy).Contents (Elt F) → (⟨S_, .f32⟩ : BufTy).Contents (Elt F) → (⟨S_, .f32⟩ : BufTy).Contents (Elt F)) (R V main_v86) (R V main_cst_22) :=
  eq_binary writesIn V 176 (lt_len (by decide : 176 < 184)) (a := main_v86) (b := main_cst_22) (y := main_v87) (Host.divf : (⟨S_, .f32⟩ : BufTy).Contents (Elt F) → (⟨S_, .f32⟩ : BufTy).Contents (Elt F) → (⟨S_, .f32⟩ : BufTy).Contents (Elt F)) (by exact ⟨by decide, rfl⟩) (by exact ⟨by decide, rfl⟩) (by exact ⟨by decide, rfl⟩) rfl (nd (j := 174) rfl (by decide)) (nd (j := 175) rfl (by decide)) (nd (j := 176) rfl (by decide))

theorem eq_main_cst_23 (V : Valuation τ sig (Elt F)) :
    R V main_cst_23 = (constant S_ .f32 0x41A00000#32) :=
  eq_nullary writesIn V 177 (lt_len (by decide : 177 < 184)) (y := main_cst_23) (constant S_ .f32 0x41A00000#32) (by exact ⟨by decide, rfl⟩) rfl (nd (j := 177) rfl (by decide))

theorem eq_main_v88 (V : Valuation τ sig (Elt F)) :
    R V main_v88 = (mulf : (⟨S_, .f32⟩ : BufTy).Contents (Elt F) → (⟨S_, .f32⟩ : BufTy).Contents (Elt F) → (⟨S_, .f32⟩ : BufTy).Contents (Elt F)) (R V main_cst_23) (R V main_v85) :=
  eq_binary writesIn V 178 (lt_len (by decide : 178 < 184)) (a := main_cst_23) (b := main_v85) (y := main_v88) (mulf : (⟨S_, .f32⟩ : BufTy).Contents (Elt F) → (⟨S_, .f32⟩ : BufTy).Contents (Elt F) → (⟨S_, .f32⟩ : BufTy).Contents (Elt F)) (by exact ⟨by decide, rfl⟩) (by exact ⟨by decide, rfl⟩) (by exact ⟨by decide, rfl⟩) rfl (nd (j := 177) rfl (by decide)) (nd (j := 172) rfl (by decide)) (nd (j := 178) rfl (by decide))

theorem eq_main_cst_24 (V : Valuation τ sig (Elt F)) :
    R V main_cst_24 = (constant S_ .f32 0x42600000#32) :=
  eq_nullary writesIn V 179 (lt_len (by decide : 179 < 184)) (y := main_cst_24) (constant S_ .f32 0x42600000#32) (by exact ⟨by decide, rfl⟩) rfl (nd (j := 179) rfl (by decide))

theorem eq_main_v89 (V : Valuation τ sig (Elt F)) :
    R V main_v89 = (Host.divf : (⟨S_, .f32⟩ : BufTy).Contents (Elt F) → (⟨S_, .f32⟩ : BufTy).Contents (Elt F) → (⟨S_, .f32⟩ : BufTy).Contents (Elt F)) (R V main_v88) (R V main_cst_24) :=
  eq_binary writesIn V 180 (lt_len (by decide : 180 < 184)) (a := main_v88) (b := main_cst_24) (y := main_v89) (Host.divf : (⟨S_, .f32⟩ : BufTy).Contents (Elt F) → (⟨S_, .f32⟩ : BufTy).Contents (Elt F) → (⟨S_, .f32⟩ : BufTy).Contents (Elt F)) (by exact ⟨by decide, rfl⟩) (by exact ⟨by decide, rfl⟩) (by exact ⟨by decide, rfl⟩) rfl (nd (j := 178) rfl (by decide)) (nd (j := 179) rfl (by decide)) (nd (j := 180) rfl (by decide))

theorem eq_main_v90 (V : Valuation τ sig (Elt F)) :
    R V main_v90 = (broadcastInDim S1 ![] bcast_S_S1 : (⟨S_, .f32⟩ : BufTy).Contents (Elt F) → (⟨S1, .f32⟩ : BufTy).Contents (Elt F)) (R V main_v87) :=
  eq_unary writesIn V 181 (lt_len (by decide : 181 < 184)) (x := main_v87) (y := main_v90) (broadcastInDim S1 ![] bcast_S_S1 : (⟨S_, .f32⟩ : BufTy).Contents (Elt F) → (⟨S1, .f32⟩ : BufTy).Contents (Elt F)) (by exact ⟨by decide, rfl⟩) (by exact ⟨by decide, rfl⟩) rfl (nd (j := 176) rfl (by decide)) (nd (j := 181) rfl (by decide))

theorem eq_main_v91 (V : Valuation τ sig (Elt F)) :
    R V main_v91 = (broadcastInDim S1 ![] bcast_S_S1 : (⟨S_, .f32⟩ : BufTy).Contents (Elt F) → (⟨S1, .f32⟩ : BufTy).Contents (Elt F)) (R V main_v89) :=
  eq_unary writesIn V 182 (lt_len (by decide : 182 < 184)) (x := main_v89) (y := main_v91) (broadcastInDim S1 ![] bcast_S_S1 : (⟨S_, .f32⟩ : BufTy).Contents (Elt F) → (⟨S1, .f32⟩ : BufTy).Contents (Elt F)) (by exact ⟨by decide, rfl⟩) (by exact ⟨by decide, rfl⟩) rfl (nd (j := 180) rfl (by decide)) (nd (j := 182) rfl (by decide))

theorem eq_main_v92 (V : Valuation τ sig (Elt F)) :
    R V main_v92 = ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) (R V main_v90) (R V main_v91) :=
  eq_binary writesIn V 183 (lt_len (by decide : 183 < 184)) (a := main_v90) (b := main_v91) (y := main_v92) ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) (by exact ⟨by decide, rfl⟩) (by exact ⟨by decide, rfl⟩) (by exact ⟨by decide, rfl⟩) rfl (nd (j := 181) rfl (by decide)) (nd (j := 182) rfl (by decide)) (nd (j := 183) rfl (by decide))

end Cert.RRun

end
-- ==== Proof.SpecMask.lean ====
/-
  The edge and body masks of one class region in one 512 by 512 plane, pixel by pixel.

  A REGION is a set of pixels of the plane, given as a predicate on row and column that is false outside the plane
  (the border value of the morphology). Its dilation by the 3x3 cross holds a pixel when the pixel or one of its four
  neighbours is in the region, its erosion when the pixel and all four neighbours are; the EDGE is where the two
  differ, the BODY the region without its edge. The edge count is the number of edge pixels.
  The region of class c + 1 in plane b of a label array is where the label is that class number.
-/
import Idealize.ShloMosaic.PureOps.Ideal
import Idealize.ShloMosaic.Lib.ValueIdx

noncomputable section

namespace Cert.Spec

open Idealize.ShloMosaic Idealize.ShloMosaic.ValueIdx

/-- The label array: four planes (one per batch entry), one channel, 512 by 512 class numbers. -/
abbrev SLbl : Shape := ⟨4, ![4, 1, 512, 512]⟩
/-- A prediction array: four batch entries, fourteen class channels (channel 0 the background), 512 by 512 logits. -/
abbrev SPred : Shape := ⟨4, ![4, 14, 512, 512]⟩

/-- The neighbour above (row h - 1); none above row 0. -/
def nUp (R : Nat → Nat → Bool) (h w : Nat) : Bool := h ≠ 0 && R (h - 1) w
/-- The neighbour below (row h + 1); below row 511 the region is empty by itself. -/
def nDown (R : Nat → Nat → Bool) (h w : Nat) : Bool := R (h + 1) w
/-- The neighbour to the left (column w - 1); none left of column 0. -/
def nLeft (R : Nat → Nat → Bool) (h w : Nat) : Bool := w ≠ 0 && R h (w - 1)
/-- The neighbour to the right (column w + 1). -/
def nRight (R : Nat → Nat → Bool) (h w : Nat) : Bool := R h (w + 1)

/-- Dilation by the 3x3 cross. -/
def dil (R : Nat → Nat → Bool) (h w : Nat) : Bool := R h w || nUp R h w || nDown R h w || nLeft R h w || nRight R h w
/-- Erosion by the 3x3 cross. -/
def ero (R : Nat → Nat → Bool) (h w : Nat) : Bool := R h w && nUp R h w && nDown R h w && nLeft R h w && nRight R h w
/-- The edge: dilation and erosion differ. -/
def edge (R : Nat → Nat → Bool) (h w : Nat) : Bool := xor (dil R h w) (ero R h w)
/-- The body: in the region and not on its edge. -/
def body (R : Nat → Nat → Bool) (h w : Nat) : Bool := !edge R h w && R h w

/-- A mask value as a number: 1 on the mask, 0 off it. -/
def ind (m : Bool) : ℝ := if m then 1 else 0

/-- The number of edge pixels of a region: at most 512 * 512. -/
def edgeCount (R : Nat → Nat → Bool) : Nat :=
  (Finset.univ.filter fun p : Fin 512 × Fin 512 => edge R p.1.val p.2.val = true).card

theorem edgeCount_le (R : Nat → Nat → Bool) : edgeCount R ≤ 262144 := by
  unfold edgeCount
  refine (Finset.card_filter_le _ _).trans ?_
  simp

/-- The region of class c + 1 (the classes 1 … 13; class 0 is the background) in plane b of a label array: pixel
    (h, w) carries that class number. Outside the plane: false. -/
def isCls (L : SLbl.Idx → BitVec 32) (b : Fin 4) (c : Fin 13) (h w : Nat) : Bool :=
  if hw : h < 512 ∧ w < 512 then
    decide (L (ix4 b (0 : Fin 1) (⟨h, hw.1⟩ : Fin 512) (⟨w, hw.2⟩ : Fin 512)) = BitVec.ofNat 32 (c.val + 1))
  else false

end Cert.Spec

end
-- ==== Proof.RMask.lean ====
/-
  The reference's mask stage, read at one pixel.

  From the label array the reference builds, for every plane b and class c + 1, the one-bit array "the label is this
  class", pads it with a frame of zeros of width one, takes the five shifted windows (the pixel and its four
  neighbours), and combines them: their disjunction is the dilation by the 3x3 cross, their conjunction the erosion,
  the exclusive or of the two the edge, the region without its edge the body. The edge is then counted (a sum of
  32-bit words that are 0 or 1) and both masks are converted to numbers.

  This file defines those arrays as functions of the label array, operation by operation as the reference lists
  them, and reads each at an index: the bit at pixel (h, w) is the bit of the specification's predicate there, the
  count is the number of edge pixels, and the converted masks are 1 and 0 as extended reals.
-/
import proofs.«165479_j24979529793863_2_alg».proof.Defs
import proofs.«165479_j24979529793863_2_alg».proof.Proof.SpecMask
import Idealize.ShloMosaic.Lib.ValueIdx
import Idealize.ShloMosaic.Lib.Pipeline.Value
import Idealize.ShloMosaic.PureOps.Reduce
import Mathlib

noncomputable section

namespace Cert.RMask

open Idealize.ShloMosaic Idealize.ShloMosaic.ValueIdx Idealize.ShloMosaic.TcCoe Idealize.SL.Sem
open Cert.ReferenceIdeal Cert.Spec

/-! ## Bits -/

/-- A mask value as a bit. -/
def bit (m : Bool) : BitVec 1 := if m then 1#1 else 0#1

theorem ori_bit (a b : Bool) : IntOp.ori (bit a) (bit b) = bit (a || b) := by cases a <;> cases b <;> rfl
theorem andi_bit (a b : Bool) : IntOp.andi (bit a) (bit b) = bit (a && b) := by cases a <;> cases b <;> rfl
theorem xori_bit (a b : Bool) : IntOp.xori (bit a) (bit b) = bit (xor a b) := by cases a <;> cases b <;> rfl
theorem not_bit (a : Bool) : ~~~(bit a) = bit (!a) := by cases a <;> rfl
/-- The equality comparison of two words is the bit of their equality. -/
theorem cmpi_eq_bit (x y : BitVec 32) : IntOp.cmpi .eq x y = bit (decide (x = y)) := by
  by_cases h : x = y
  · subst h; simp [IntOp.cmpi, bit]
  · have hb : (x == y) = false := beq_eq_false_iff_ne.mpr h
    show BitVec.ofBool (x == y) = bit (decide (x = y))
    rw [hb, decide_eq_false h]
    rfl
/-- One plus the word of c is the word of c + 1. -/
theorem addi_one_ofNat (c : Nat) : IntOp.addi 1#32 (BitVec.ofNat 32 c) = BitVec.ofNat 32 (c + 1) := by
  show BitVec.ofNat 32 1 + BitVec.ofNat 32 c = BitVec.ofNat 32 (c + 1)
  rw [← BitVec.ofNat_add, Nat.add_comm]

/-! ## A padded array at an index -/

/-- A padded array read at an index: inside the frame of width one it is the operand one step up and
    to the left, on the frame it is the padding value. -/
theorem pad_apply {α : Type} (x : S4x13x512x512.Idx → α) (v : S_.Idx → α)
    (hp : S4x13x512x512.Pads (![0, 0, 1, 1] : Fin 4 → Nat) ![0, 0, 1, 1] ![0, 0, 0, 0] S4x13x514x514)
    (hu : 0 < S_.numel) (b : Fin 4) (c : Fin 13) (h' w' : Fin 514) :
    pad S4x13x514x514 ![0, 0, 1, 1] ![0, 0, 1, 1] ![0, 0, 0, 0] x v hp hu (ix4 b c h' w') =
      if hw : (1 ≤ h'.val ∧ h'.val ≤ 512) ∧ (1 ≤ w'.val ∧ w'.val ≤ 512) then
        x (ix4 b c ⟨h'.val - 1, by omega⟩ ⟨w'.val - 1, by omega⟩)
      else v (Shape.Idx.first hu) := by
  unfold pad
  split
  · rename_i hin
    have p2 : 2 < 4 := by decide
    have p3 : 3 < 4 := by decide
    have h2 : 1 ≤ h'.val ∧ (h'.val - 1) % 1 = 0 ∧ (h'.val - 1) / 1 < 512 := hin ⟨2, p2⟩
    have h3 : 1 ≤ w'.val ∧ (w'.val - 1) % 1 = 0 ∧ (w'.val - 1) / 1 < 512 := hin ⟨3, p3⟩
    rw [Nat.div_one] at h2 h3
    have hw : (1 ≤ h'.val ∧ h'.val ≤ 512) ∧ (1 ≤ w'.val ∧ w'.val ≤ 512) := by omega
    rw [dif_pos hw]
    congr 1
    funext a
    match a with
    | ⟨0, _⟩ => exact Fin.ext (by show (b.val - 0) / 1 = b.val; rw [Nat.div_one]; omega)
    | ⟨1, _⟩ => exact Fin.ext (by show (c.val - 0) / 1 = c.val; rw [Nat.div_one]; omega)
    | ⟨2, _⟩ => exact Fin.ext (by show (h'.val - 1) / 1 = h'.val - 1; rw [Nat.div_one])
    | ⟨3, _⟩ => exact Fin.ext (by show (w'.val - 1) / 1 = w'.val - 1; rw [Nat.div_one])
  · rename_i hin
    rw [dif_neg]
    intro hw
    apply hin
    intro a
    match a with
    | ⟨0, _⟩ =>
      exact ⟨Nat.zero_le _, Nat.mod_one _, by show (b.val - 0) / 1 < 4; have := b.isLt; rw [Nat.div_one]; omega⟩
    | ⟨1, _⟩ =>
      exact ⟨Nat.zero_le _, Nat.mod_one _, by show (c.val - 0) / 1 < 13; have := c.isLt; rw [Nat.div_one]; omega⟩
    | ⟨2, _⟩ =>
      exact ⟨hw.1.1, Nat.mod_one _, by show (h'.val - 1) / 1 < 512; have := hw.1.2; rw [Nat.div_one]; omega⟩
    | ⟨3, _⟩ =>
      exact ⟨hw.2.1, Nat.mod_one _, by show (w'.val - 1) / 1 < 512; have := hw.2.2; rw [Nat.div_one]; omega⟩

/-! ## The reference's arrays, operation by operation -/

section Arrays

variable [Cert.ReferenceIdeal.Facts]
open Cert.ReferenceIdeal.Facts₀ Cert.ReferenceIdeal.Facts

variable {F : FTy → Type} [FloatOps F]

/-- The class numbers 0 … 12 along one axis. -/
def refV0 : (⟨S13, .i32⟩ : BufTy).Contents (Elt F) := iotaInDim S13 32 0
/-- The constant one. -/
def refC : (⟨S_, .i32⟩ : BufTy).Contents (Elt F) := constantI S_ 32 1#32
def refV1 : (⟨S13, .i32⟩ : BufTy).Contents (Elt F) := broadcastInDim S13 ![] bcast_S_S13 (refC (F := F))
/-- The class numbers 1 … 13. -/
def refV2 : (⟨S13, .i32⟩ : BufTy).Contents (Elt F) := addi (refV1 (F := F)) (refV0 (F := F))
/-- The labels without their unit channel axis … -/
def refV3 (x2 : (⟨S4x1x512x512, .i32⟩ : BufTy).Contents (Elt F)) : (⟨S4x512x512, .i32⟩ : BufTy).Contents (Elt F) :=
  shapeCast S4x512x512 x2 shapeCasts_S4x1x512x512_S4x512x512
/-- … with it again … -/
def refV4 (x2 : (⟨S4x1x512x512, .i32⟩ : BufTy).Contents (Elt F)) : (⟨S4x1x512x512, .i32⟩ : BufTy).Contents (Elt F) :=
  broadcastInDim S4x1x512x512 ![0, 2, 3] bcast_S4x512x512_S4x1x512x512_0_2_3 (refV3 (F := F) x2)
def refV5 : (⟨S1x13x1x1, .i32⟩ : BufTy).Contents (Elt F) :=
  broadcastInDim S1x13x1x1 ![1] bcast_S13_S1x13x1x1_1 (refV2 (F := F))
/-- … and repeated over the thirteen classes. -/
def refV6 (x2 : (⟨S4x1x512x512, .i32⟩ : BufTy).Contents (Elt F)) : (⟨S4x13x512x512, .i32⟩ : BufTy).Contents (Elt F) :=
  broadcastInDim S4x13x512x512 ![0, 1, 2, 3] bcast_S4x1x512x512_S4x13x512x512_0_1_2_3 (refV4 (F := F) x2)
/-- The class numbers repeated over planes and pixels. -/
def refV7 : (⟨S4x13x512x512, .i32⟩ : BufTy).Contents (Elt F) :=
  broadcastInDim S4x13x512x512 ![0, 1, 2, 3] bcast_S1x13x1x1_S4x13x512x512_0_1_2_3 (refV5 (F := F))
/-- The class regions: "the label is this class", one bit per plane, class and pixel. -/
def refLbl (x2 : (⟨S4x1x512x512, .i32⟩ : BufTy).Contents (Elt F)) : (⟨S4x13x512x512, .i1⟩ : BufTy).Contents (Elt F) :=
  cmpi .eq (refV6 (F := F) x2) (refV7 (F := F))
/-- The padding value: the zero bit. -/
def refC0 : (⟨S_, .i1⟩ : BufTy).Contents (Elt F) := constantI S_ 1 0#1
/-- The class regions inside a frame of zeros of width one. -/
def refPadded (x2 : (⟨S4x1x512x512, .i32⟩ : BufTy).Contents (Elt F)) : (⟨S4x13x514x514, .i1⟩ : BufTy).Contents (Elt F) :=
  pad S4x13x514x514 ![0, 0, 1, 1] ![0, 0, 1, 1] ![0, 0, 0, 0] (refLbl (F := F) x2) (refC0 (F := F))
    pads_S4x13x512x512_S4x13x514x514_000_000_110_110 h_S_
/-- The five windows of the padded array: the pixel, and the pixel above, below, to the left, to the right. -/
def refWinC (x2 : (⟨S4x1x512x512, .i32⟩ : BufTy).Contents (Elt F)) : (⟨S4x13x512x512, .i1⟩ : BufTy).Contents (Elt F) :=
  extractStridedSlice S4x13x512x512 ![0, 0, 1, 1] (refPadded (F := F) x2) slices_S4x13x514x514_S4x13x512x512_0_0_1_1
def refWinU (x2 : (⟨S4x1x512x512, .i32⟩ : BufTy).Contents (Elt F)) : (⟨S4x13x512x512, .i1⟩ : BufTy).Contents (Elt F) :=
  extractStridedSlice S4x13x512x512 ![0, 0, 0, 1] (refPadded (F := F) x2) slices_S4x13x514x514_S4x13x512x512_0_0_0_1
def refWinD (x2 : (⟨S4x1x512x512, .i32⟩ : BufTy).Contents (Elt F)) : (⟨S4x13x512x512, .i1⟩ : BufTy).Contents (Elt F) :=
  extractStridedSlice S4x13x512x512 ![0, 0, 2, 1] (refPadded (F := F) x2) slices_S4x13x514x514_S4x13x512x512_0_0_2_1
def refWinL (x2 : (⟨S4x1x512x512, .i32⟩ : BufTy).Contents (Elt F)) : (⟨S4x13x512x512, .i1⟩ : BufTy).Contents (Elt F) :=
  extractStridedSlice S4x13x512x512 ![0, 0, 1, 0] (refPadded (F := F) x2) slices_S4x13x514x514_S4x13x512x512_0_0_1_0
def refWinR (x2 : (⟨S4x1x512x512, .i32⟩ : BufTy).Contents (Elt F)) : (⟨S4x13x512x512, .i1⟩ : BufTy).Contents (Elt F) :=
  extractStridedSlice S4x13x512x512 ![0, 0, 1, 2] (refPadded (F := F) x2) slices_S4x13x514x514_S4x13x512x512_0_0_1_2
/-- The dilation: the disjunction of the five windows, in the reference's order. -/
def refDil (x2 : (⟨S4x1x512x512, .i32⟩ : BufTy).Contents (Elt F)) : (⟨S4x13x512x512, .i1⟩ : BufTy).Contents (Elt F) :=
  ori (ori (ori (ori (refWinC (F := F) x2) (refWinU (F := F) x2)) (refWinD (F := F) x2)) (refWinL (F := F) x2)) (refWinR (F := F) x2)
/-- The erosion: their conjunction. -/
def refEro (x2 : (⟨S4x1x512x512, .i32⟩ : BufTy).Contents (Elt F)) : (⟨S4x13x512x512, .i1⟩ : BufTy).Contents (Elt F) :=
  andi (andi (andi (andi (refWinC (F := F) x2) (refWinU (F := F) x2)) (refWinD (F := F) x2)) (refWinL (F := F) x2)) (refWinR (F := F) x2)
/-- The edge: dilation and erosion differ. -/
def refEdge (x2 : (⟨S4x1x512x512, .i32⟩ : BufTy).Contents (Elt F)) : (⟨S4x13x512x512, .i1⟩ : BufTy).Contents (Elt F) :=
  xori (refDil (F := F) x2) (refEro (F := F) x2)
/-- The body: not on the edge and in the region. -/
def refBody (x2 : (⟨S4x1x512x512, .i32⟩ : BufTy).Contents (Elt F)) : (⟨S4x13x512x512, .i1⟩ : BufTy).Contents (Elt F) :=
  andi (noti (refEdge (F := F) x2)) (refLbl (F := F) x2)
/-- The edge as 32-bit words. -/
def refEdgeI (x2 : (⟨S4x1x512x512, .i32⟩ : BufTy).Contents (Elt F)) : (⟨S4x13x512x512, .i32⟩ : BufTy).Contents (Elt F) :=
  extui 32 (refEdge (F := F) x2) natLt_1_32
/-- The constant zero word. -/
def refC2 : (⟨S_, .i32⟩ : BufTy).Contents (Elt F) := constantI S_ 32 0#32
/-- The number of edge pixels of every plane and class, as a 32-bit word. -/
def refCntI (x2 : (⟨S4x1x512x512, .i32⟩ : BufTy).Contents (Elt F)) : (⟨S4x13, .i32⟩ : BufTy).Contents (Elt F) :=
  Host.reduce IntOp.addi (refEdgeI (F := F) x2) (refC2 (F := F)) reducesTo_S4x13x512x512_S4x13_d2_3 h_S_
/-- The edge as numbers. -/
def refEdgeF (x2 : (⟨S4x1x512x512, .i32⟩ : BufTy).Contents (Elt F)) : (⟨S4x13x512x512, .f32⟩ : BufTy).Contents (Elt F) :=
  uitofp .f32 (refEdge (F := F) x2)
/-- The body as numbers. -/
def refBodyF (x2 : (⟨S4x1x512x512, .i32⟩ : BufTy).Contents (Elt F)) : (⟨S4x13x512x512, .f32⟩ : BufTy).Contents (Elt F) :=
  uitofp .f32 (refBody (F := F) x2)

/-! ## The class regions at a pixel -/

/-- The label array repeated over the classes, at an index: the label of the pixel. -/
theorem refV6_apply (x2 : (⟨S4x1x512x512, .i32⟩ : BufTy).Contents (Elt F)) (b : Fin 4) (c : Fin 13) (h w : Fin 512) :
    refV6 (F := F) x2 (ix4 b c h w) = x2 (ix4 b (0 : Fin 1) h w) := by
  have e6 : refV6 (F := F) x2 (ix4 b c h w) = refV4 (F := F) x2 (ix4 b (0 : Fin 1) h w) := by
    unfold refV6
    generalize refV4 (F := F) x2 = y
    exact broadcastInDim_apply _ bcast_S4x1x512x512_S4x13x512x512_0_1_2_3 y (ix4 b c h w) (ix4 b (0 : Fin 1) h w) (fun a => match a with
      | ⟨0, _⟩ => by show b.val = if (4 : Nat) = 1 then 0 else b.val; rw [if_neg (by decide)]
      | ⟨1, _⟩ => by show 0 = if (1 : Nat) = 1 then 0 else c.val; rw [if_pos rfl]
      | ⟨2, _⟩ => by show h.val = if (512 : Nat) = 1 then 0 else h.val; rw [if_neg (by decide)]
      | ⟨3, _⟩ => by show w.val = if (512 : Nat) = 1 then 0 else w.val; rw [if_neg (by decide)])
  have e4 : refV4 (F := F) x2 (ix4 b (0 : Fin 1) h w) = refV3 (F := F) x2 (ix3 b h w) := by
    unfold refV4
    generalize refV3 (F := F) x2 = y
    exact broadcastInDim_apply _ bcast_S4x512x512_S4x1x512x512_0_2_3 y (ix4 b (0 : Fin 1) h w) (ix3 b h w) (fun a => match a with
      | ⟨0, _⟩ => by show b.val = if (4 : Nat) = 1 then 0 else b.val; rw [if_neg (by decide)]
      | ⟨1, _⟩ => by show h.val = if (512 : Nat) = 1 then 0 else h.val; rw [if_neg (by decide)]
      | ⟨2, _⟩ => by show w.val = if (512 : Nat) = 1 then 0 else w.val; rw [if_neg (by decide)])
  have e3 : refV3 (F := F) x2 (ix3 b h w) = x2 (ix4 b (0 : Fin 1) h w) := by
    unfold refV3
    exact shapeCast_apply x2 shapeCasts_S4x1x512x512_S4x512x512 (ix3 b h w) (ix4 b (0 : Fin 1) h w)
      (by rewrite [Shape.rowMajor_val_four, Shape.rowMajor_val_three]
          show ((b.val * 1 + 0) * 512 + h.val) * 512 + w.val = (b.val * 512 + h.val) * 512 + w.val
          omega)
  rw [e6, e4, e3]

/-- The class numbers repeated over planes and pixels, at an index: the word of c + 1. -/
theorem refV7_apply (b : Fin 4) (c : Fin 13) (h w : Fin 512) :
    refV7 (F := F) (ix4 b c h w) = BitVec.ofNat 32 (c.val + 1) := by
  have e7 : refV7 (F := F) (ix4 b c h w) = refV5 (F := F) (ix4 (0 : Fin 1) c (0 : Fin 1) (0 : Fin 1)) := by
    unfold refV7
    generalize refV5 (F := F) = y
    exact broadcastInDim_apply _ bcast_S1x13x1x1_S4x13x512x512_0_1_2_3 y (ix4 b c h w) (ix4 (0 : Fin 1) c (0 : Fin 1) (0 : Fin 1)) (fun a => match a with
      | ⟨0, _⟩ => by show 0 = if (1 : Nat) = 1 then 0 else b.val; rw [if_pos rfl]
      | ⟨1, _⟩ => by show c.val = if (13 : Nat) = 1 then 0 else c.val; rw [if_neg (by decide)]
      | ⟨2, _⟩ => by show 0 = if (1 : Nat) = 1 then 0 else h.val; rw [if_pos rfl]
      | ⟨3, _⟩ => by show 0 = if (1 : Nat) = 1 then 0 else w.val; rw [if_pos rfl])
  have e5 : refV5 (F := F) (ix4 (0 : Fin 1) c (0 : Fin 1) (0 : Fin 1)) = refV2 (F := F) (ix1 c) := by
    unfold refV5
    generalize refV2 (F := F) = y
    exact broadcastInDim_apply _ bcast_S13_S1x13x1x1_1 y (ix4 (0 : Fin 1) c (0 : Fin 1) (0 : Fin 1)) (ix1 c) (fun a => match a with
      | ⟨0, _⟩ => by show c.val = if (13 : Nat) = 1 then 0 else c.val; rw [if_neg (by decide)])
  have e2 : refV2 (F := F) (ix1 c) = IntOp.addi 1#32 (BitVec.ofNat 32 c.val) := rfl
  rw [e7, e5, e2, addi_one_ofNat]

/-- The class-region bit at a pixel is the bit of "the label there is class c + 1". -/
theorem refLbl_apply (x2 : (⟨S4x1x512x512, .i32⟩ : BufTy).Contents (Elt F)) (b : Fin 4) (c : Fin 13) (h w : Fin 512) :
    refLbl (F := F) x2 (ix4 b c h w) = bit (isCls x2 b c h.val w.val) := by
  have e8 : refLbl (F := F) x2 (ix4 b c h w)
      = IntOp.cmpi .eq (refV6 (F := F) x2 (ix4 b c h w)) (refV7 (F := F) (ix4 b c h w)) := rfl
  rw [e8, refV6_apply, refV7_apply, cmpi_eq_bit]
  unfold isCls
  rw [dif_pos ⟨h.isLt, w.isLt⟩]

/-- The same with the bit written out. -/
theorem refLbl_apply' (x2 : (⟨S4x1x512x512, .i32⟩ : BufTy).Contents (Elt F)) (b : Fin 4) (c : Fin 13) (h w : Fin 512) :
    refLbl (F := F) x2 (ix4 b c h w) = if isCls x2 b c h.val w.val then 1#1 else 0#1 :=
  refLbl_apply x2 b c h w

/-! ## The padded array and its five windows at a pixel -/

/-- Outside the plane the region is empty. -/
theorem isCls_out (L : SLbl.Idx → BitVec 32) (b : Fin 4) (c : Fin 13) (h w : Nat) (hw : ¬(h < 512 ∧ w < 512)) :
    isCls L b c h w = false := by
  unfold isCls
  rw [dif_neg hw]

/-- The padded array at (h', w') of the 514 by 514 frame is the region's bit one step up and to the left; on the
    frame's first row and column it is zero, and on its last row and column too because the region is empty there. -/
theorem refPadded_apply (x2 : (⟨S4x1x512x512, .i32⟩ : BufTy).Contents (Elt F)) (b : Fin 4) (c : Fin 13) (h' w' : Fin 514) :
    refPadded (F := F) x2 (ix4 b c h' w')
      = bit (decide (1 ≤ h'.val) && decide (1 ≤ w'.val) && isCls x2 b c (h'.val - 1) (w'.val - 1)) := by
  unfold refPadded
  rw [pad_apply]
  by_cases hw : (1 ≤ h'.val ∧ h'.val ≤ 512) ∧ (1 ≤ w'.val ∧ w'.val ≤ 512)
  · rw [dif_pos hw, refLbl_apply, decide_eq_true hw.1.1, decide_eq_true hw.2.1]
    rfl
  · rw [dif_neg hw]
    show (0#1 : BitVec 1) = _
    by_cases h1 : 1 ≤ h'.val
    · by_cases w1 : 1 ≤ w'.val
      · rw [isCls_out x2 b c _ _ (by omega), Bool.and_false]; rfl
      · rw [decide_eq_false w1, Bool.and_false, Bool.false_and]; rfl
    · rw [decide_eq_false h1, Bool.false_and, Bool.false_and]; rfl

/-- A window of the padded array at offset (oh, ow), read at a pixel: the padded array at the shifted pixel. -/
theorem win_apply {α : Type} (y : S4x13x514x514.Idx → α) (oh ow : Nat) (hoh : oh ≤ 2) (how : ow ≤ 2)
    (hs : S4x13x514x514.Slices (![0, 0, oh, ow] : Fin 4 → Nat) S4x13x512x512) (b : Fin 4) (c : Fin 13) (h w : Fin 512) :
    extractStridedSlice S4x13x512x512 ![0, 0, oh, ow] y hs (ix4 b c h w)
      = y (ix4 b c ⟨oh + h.val, by omega⟩ ⟨ow + w.val, by omega⟩) :=
  extractStridedSlice_apply ![0, 0, oh, ow] y hs (ix4 b c h w) (ix4 b c ⟨oh + h.val, by omega⟩ ⟨ow + w.val, by omega⟩)
    (fun a => match a with
      | ⟨0, _⟩ => by show b.val = 0 + b.val; omega
      | ⟨1, _⟩ => by show c.val = 0 + c.val; omega
      | ⟨2, _⟩ => by show oh + h.val = oh + h.val; rfl
      | ⟨3, _⟩ => by show ow + w.val = ow + w.val; rfl)

/-- A window at offset (oh, ow) of the padded array at pixel (h, w): the region's bit at
    (h + oh - 1, w + ow - 1) when that is a pixel of the plane not before its first row or column, else zero. -/
theorem refWin_apply (x2 : (⟨S4x1x512x512, .i32⟩ : BufTy).Contents (Elt F)) (oh ow : Nat) (hoh : oh ≤ 2) (how : ow ≤ 2)
    (hs : S4x13x514x514.Slices (![0, 0, oh, ow] : Fin 4 → Nat) S4x13x512x512) (b : Fin 4) (c : Fin 13) (h w : Fin 512) :
    extractStridedSlice S4x13x512x512 ![0, 0, oh, ow] (refPadded (F := F) x2) hs (ix4 b c h w)
      = bit (decide (1 ≤ oh + h.val) && decide (1 ≤ ow + w.val) && isCls x2 b c (oh + h.val - 1) (ow + w.val - 1)) := by
  rw [win_apply _ oh ow hoh how, refPadded_apply]

theorem refWinC_apply (x2 : (⟨S4x1x512x512, .i32⟩ : BufTy).Contents (Elt F)) (b : Fin 4) (c : Fin 13) (h w : Fin 512) :
    refWinC (F := F) x2 (ix4 b c h w) = bit (isCls x2 b c h.val w.val) := by
  unfold refWinC
  rw [refWin_apply x2 1 1 (by omega) (by omega)]
  have e1 : 1 + h.val - 1 = h.val := by omega
  have e2 : 1 + w.val - 1 = w.val := by omega
  rw [e1, e2, decide_eq_true (by omega : 1 ≤ 1 + h.val), decide_eq_true (by omega : 1 ≤ 1 + w.val)]
  rfl

theorem refWinU_apply (x2 : (⟨S4x1x512x512, .i32⟩ : BufTy).Contents (Elt F)) (b : Fin 4) (c : Fin 13) (h w : Fin 512) :
    refWinU (F := F) x2 (ix4 b c h w) = bit (nUp (isCls x2 b c) h.val w.val) := by
  unfold refWinU nUp
  rw [refWin_apply x2 0 1 (by omega) (by omega)]
  have e1 : 0 + h.val - 1 = h.val - 1 := by omega
  have e2 : 1 + w.val - 1 = w.val := by omega
  have e3 : decide (1 ≤ 0 + h.val) = decide (h.val ≠ 0) := decide_eq_decide.mpr (by omega)
  rw [e1, e2, e3, decide_eq_true (by omega : 1 ≤ 1 + w.val), Bool.and_true]

theorem refWinD_apply (x2 : (⟨S4x1x512x512, .i32⟩ : BufTy).Contents (Elt F)) (b : Fin 4) (c : Fin 13) (h w : Fin 512) :
    refWinD (F := F) x2 (ix4 b c h w) = bit (nDown (isCls x2 b c) h.val w.val) := by
  unfold refWinD nDown
  rw [refWin_apply x2 2 1 (by omega) (by omega)]
  have e1 : 2 + h.val - 1 = h.val + 1 := by omega
  have e2 : 1 + w.val - 1 = w.val := by omega
  rw [e1, e2, decide_eq_true (by omega : 1 ≤ 2 + h.val), decide_eq_true (by omega : 1 ≤ 1 + w.val)]
  rfl

theorem refWinL_apply (x2 : (⟨S4x1x512x512, .i32⟩ : BufTy).Contents (Elt F)) (b : Fin 4) (c : Fin 13) (h w : Fin 512) :
    refWinL (F := F) x2 (ix4 b c h w) = bit (nLeft (isCls x2 b c) h.val w.val) := by
  unfold refWinL nLeft
  rw [refWin_apply x2 1 0 (by omega) (by omega)]
  have e1 : 1 + h.val - 1 = h.val := by omega
  have e2 : 0 + w.val - 1 = w.val - 1 := by omega
  have e3 : decide (1 ≤ 0 + w.val) = decide (w.val ≠ 0) := decide_eq_decide.mpr (by omega)
  rw [e1, e2, e3, decide_eq_true (by omega : 1 ≤ 1 + h.val), Bool.true_and]

theorem refWinR_apply (x2 : (⟨S4x1x512x512, .i32⟩ : BufTy).Contents (Elt F)) (b : Fin 4) (c : Fin 13) (h w : Fin 512) :
    refWinR (F := F) x2 (ix4 b c h w) = bit (nRight (isCls x2 b c) h.val w.val) := by
  unfold refWinR nRight
  rw [refWin_apply x2 1 2 (by omega) (by omega)]
  have e1 : 1 + h.val - 1 = h.val := by omega
  have e2 : 2 + w.val - 1 = w.val + 1 := by omega
  rw [e1, e2, decide_eq_true (by omega : 1 ≤ 1 + h.val), decide_eq_true (by omega : 1 ≤ 2 + w.val)]
  rfl

/-! ## Dilation, erosion, edge and body at a pixel -/

theorem refDil_apply (x2 : (⟨S4x1x512x512, .i32⟩ : BufTy).Contents (Elt F)) (b : Fin 4) (c : Fin 13) (h w : Fin 512) :
    refDil (F := F) x2 (ix4 b c h w) = bit (dil (isCls x2 b c) h.val w.val) := by
  show IntOp.ori (IntOp.ori (IntOp.ori (IntOp.ori (refWinC (F := F) x2 (ix4 b c h w)) (refWinU (F := F) x2 (ix4 b c h w)))
    (refWinD (F := F) x2 (ix4 b c h w))) (refWinL (F := F) x2 (ix4 b c h w))) (refWinR (F := F) x2 (ix4 b c h w)) = _
  rw [refWinC_apply, refWinU_apply, refWinD_apply, refWinL_apply, refWinR_apply, ori_bit, ori_bit, ori_bit, ori_bit]
  rfl

theorem refEro_apply (x2 : (⟨S4x1x512x512, .i32⟩ : BufTy).Contents (Elt F)) (b : Fin 4) (c : Fin 13) (h w : Fin 512) :
    refEro (F := F) x2 (ix4 b c h w) = bit (ero (isCls x2 b c) h.val w.val) := by
  show IntOp.andi (IntOp.andi (IntOp.andi (IntOp.andi (refWinC (F := F) x2 (ix4 b c h w)) (refWinU (F := F) x2 (ix4 b c h w)))
    (refWinD (F := F) x2 (ix4 b c h w))) (refWinL (F := F) x2 (ix4 b c h w))) (refWinR (F := F) x2 (ix4 b c h w)) = _
  rw [refWinC_apply, refWinU_apply, refWinD_apply, refWinL_apply, refWinR_apply, andi_bit, andi_bit, andi_bit, andi_bit]
  rfl

/-- The edge bit at a pixel is the bit of the specification's edge. -/
theorem refEdge_apply (x2 : (⟨S4x1x512x512, .i32⟩ : BufTy).Contents (Elt F)) (b : Fin 4) (c : Fin 13) (h w : Fin 512) :
    refEdge (F := F) x2 (ix4 b c h w) = bit (edge (isCls x2 b c) h.val w.val) := by
  show IntOp.xori (refDil (F := F) x2 (ix4 b c h w)) (refEro (F := F) x2 (ix4 b c h w)) = _
  rw [refDil_apply, refEro_apply, xori_bit]
  rfl

/-- The body bit at a pixel is the bit of the specification's body. -/
theorem refBody_apply (x2 : (⟨S4x1x512x512, .i32⟩ : BufTy).Contents (Elt F)) (b : Fin 4) (c : Fin 13) (h w : Fin 512) :
    refBody (F := F) x2 (ix4 b c h w) = bit (body (isCls x2 b c) h.val w.val) := by
  show IntOp.andi (~~~(refEdge (F := F) x2 (ix4 b c h w))) (refLbl (F := F) x2 (ix4 b c h w)) = _
  rw [refEdge_apply, refLbl_apply, not_bit, andi_bit]
  rfl

theorem refEdge_apply' (x2 : (⟨S4x1x512x512, .i32⟩ : BufTy).Contents (Elt F)) (b : Fin 4) (c : Fin 13) (h w : Fin 512) :
    refEdge (F := F) x2 (ix4 b c h w) = if edge (isCls x2 b c) h.val w.val then 1#1 else 0#1 :=
  refEdge_apply x2 b c h w

theorem refBody_apply' (x2 : (⟨S4x1x512x512, .i32⟩ : BufTy).Contents (Elt F)) (b : Fin 4) (c : Fin 13) (h w : Fin 512) :
    refBody (F := F) x2 (ix4 b c h w) = if body (isCls x2 b c) h.val w.val then 1#1 else 0#1 :=
  refBody_apply x2 b c h w

/-! ## The masks as numbers -/

/-- A bit read as an unsigned number, in the extended reals: 1 on the mask, 0 off it. -/
theorem uitofp_bit (m : Bool) : (FloatOps.uitofp (F := Ideal) .f32 (bit m) : EReal) = ((ind m : ℝ) : EReal) := by
  cases m
  · show (((0#1 : BitVec 1).toNat : ℝ) : EReal) = ((ind false : ℝ) : EReal)
    simp [ind]
  · show (((1#1 : BitVec 1).toNat : ℝ) : EReal) = ((ind true : ℝ) : EReal)
    simp [ind]

/-- The edge as a number at a pixel: 1 on the edge, 0 off it. -/
theorem refEdgeF_apply (x2 : (⟨S4x1x512x512, .i32⟩ : BufTy).Contents (Elt Ideal)) (b : Fin 4) (c : Fin 13) (h w : Fin 512) :
    (refEdgeF (F := Ideal) x2 (ix4 b c h w) : EReal) = ((ind (edge (isCls x2 b c) h.val w.val) : ℝ) : EReal) := by
  show (FloatOps.uitofp (F := Ideal) .f32 (refEdge (F := Ideal) x2 (ix4 b c h w)) : EReal) = _
  rw [refEdge_apply, uitofp_bit]

/-- The body as a number at a pixel: 1 on the body, 0 off it. -/
theorem refBodyF_apply (x2 : (⟨S4x1x512x512, .i32⟩ : BufTy).Contents (Elt Ideal)) (b : Fin 4) (c : Fin 13) (h w : Fin 512) :
    (refBodyF (F := Ideal) x2 (ix4 b c h w) : EReal) = ((ind (body (isCls x2 b c) h.val w.val) : ℝ) : EReal) := by
  show (FloatOps.uitofp (F := Ideal) .f32 (refBody (F := Ideal) x2 (ix4 b c h w)) : EReal) = _
  rw [refBody_apply, uitofp_bit]

/-! ## The edge count -/

/-- A bit widened to a 32-bit word is the word 1 or 0. -/
theorem setWidth_bit (m : Bool) : (bit m).setWidth 32 = if m then 1#32 else 0#32 := by cases m <;> rfl

/-- A sum of 32-bit words that are each 1 or 0, from 0, is the word of the number of ones (addition of words is
    addition of numbers modulo 2 ^ 32). -/
theorem fold_addi_ind {ι : Type} [DecidableEq ι] (S : Finset ι) (p : ι → Bool) :
    S.fold IntOp.addi 0#32 (fun i => if p i then 1#32 else 0#32)
      = BitVec.ofNat 32 (S.filter fun i => p i = true).card := by
  refine Finset.induction_on S ?_ ?_
  · rfl
  · intro a S ha ih
    rw [Finset.fold_insert ha, ih]
    simp only [Finset.filter_insert]
    by_cases hp : p a = true
    · rw [if_pos hp, if_pos hp, Finset.card_insert_of_notMem (by simp [ha]), addi_one_ofNat]
    · rw [if_neg hp, if_neg hp]
      show (0#32 : BitVec 32) + _ = _
      rw [BitVec.zero_add]

/-- Summing over the two pixel axes keeps the plane and the class: an index reduces to (b, c) exactly when its
    first two coordinates are b and c. -/
theorem drop_eq_iff (hr : S4x13x512x512.ReducesTo [2, 3] S4x13) (i : S4x13x512x512.Idx) (b : Fin 4) (c : Fin 13) :
    hr.drop i = ix2 b c ↔ i 0 = b ∧ i 1 = c := by
  have d0 : (hr.drop i ⟨0, by decide⟩ : Nat) = i 0 := Shape.ReducesTo.drop_apply_val_of_eq hr i ⟨0, by decide⟩ 0
  have d1 : (hr.drop i ⟨1, by decide⟩ : Nat) = i 1 := Shape.ReducesTo.drop_apply_val_of_eq hr i ⟨1, by decide⟩ 1
  constructor
  · intro hd
    rw [hd] at d0 d1
    exact ⟨Fin.ext d0.symm, Fin.ext d1.symm⟩
  · rintro ⟨h0, h1⟩
    funext a
    match a with
    | ⟨0, _⟩ => exact Fin.ext (d0.trans (congrArg Fin.val h0))
    | ⟨1, _⟩ => exact Fin.ext (d1.trans (congrArg Fin.val h1))

/-- The indices that reduce to (b, c) are the pixels of plane b and class c. -/
theorem filter_drop_eq_image (hr : S4x13x512x512.ReducesTo [2, 3] S4x13) (b : Fin 4) (c : Fin 13) :
    (Finset.univ.filter fun i : S4x13x512x512.Idx => hr.drop i = ix2 b c)
      = (Finset.univ : Finset (Fin 512 × Fin 512)).image (fun p => (ix4 b c p.1 p.2 : S4x13x512x512.Idx)) := by
  ext i
  rw [Finset.mem_filter, Finset.mem_image]
  constructor
  · rintro ⟨-, hd⟩
    obtain ⟨h0, h1⟩ := (drop_eq_iff hr i b c).mp hd
    refine ⟨(i 2, i 3), Finset.mem_univ _, ?_⟩
    subst h0 h1
    exact (eq_ix4 i).symm
  · rintro ⟨p, -, rfl⟩
    exact ⟨Finset.mem_univ _, (drop_eq_iff hr _ b c).mpr ⟨rfl, rfl⟩⟩

/-- The edge count of plane b and class c + 1, as the reference computes it: the 32-bit word of the number of edge
    pixels. -/
theorem refCntI_apply (x2 : (⟨S4x1x512x512, .i32⟩ : BufTy).Contents (Elt F)) (b : Fin 4) (c : Fin 13) :
    refCntI (F := F) x2 (ix2 b c) = BitVec.ofNat 32 (edgeCount (isCls x2 b c)) := by
  unfold refCntI
  rw [Host.reduce_eq_fold, filter_drop_eq_image,
    Finset.fold_image (fun p _ q _ e => Prod.ext (congrFun e (2 : Fin 4)) (congrFun e (3 : Fin 4)))]
  have hf : ((refEdgeI (F := F) x2) ∘ fun p : Fin 512 × Fin 512 => (ix4 b c p.1 p.2 : S4x13x512x512.Idx))
      = fun p => if edge (isCls x2 b c) p.1.val p.2.val then 1#32 else 0#32 := by
    funext p
    show (refEdge (F := F) x2 (ix4 b c p.1 p.2)).setWidth 32 = _
    rw [refEdge_apply, setWidth_bit]
  rw [hf]
  show Finset.fold IntOp.addi 0#32 _ _ = _
  rw [fold_addi_ind]
  rfl

/-! ## Small counts as signed words -/

/-- A number below 2 ^ 31, as a 32-bit word read signed, is itself. -/
theorem toInt_ofNat32 (n : Nat) (hn : n < 2147483648) : (BitVec.ofNat 32 n).toInt = (n : Int) := by
  have h1 : (BitVec.ofNat 32 n).toNat = n := by
    rw [BitVec.toNat_ofNat]
    exact Nat.mod_eq_of_lt (by norm_num; omega)
  rw [BitVec.toInt_eq_toNat_of_lt (by rw [h1]; norm_num; omega), h1]

/-- The signed comparison "greater than zero" of the word of a number below 2 ^ 31 is the bit of "the number is
    positive". -/
theorem cmpi_sgt_ofNat32 (n : Nat) (hn : n < 2147483648) :
    IntOp.cmpi .sgt (BitVec.ofNat 32 n) 0#32 = bit (decide (0 < n)) := by
  show BitVec.ofBool (decide ((0#32 : BitVec 32).toInt < (BitVec.ofNat 32 n).toInt)) = _
  rw [toInt_ofNat32 n hn]
  have z : (0#32 : BitVec 32).toInt = 0 := by decide
  rw [z]
  by_cases h0 : 0 < n
  · rw [decide_eq_true h0, decide_eq_true (by exact_mod_cast h0)]; rfl
  · rw [decide_eq_false h0, decide_eq_false (by exact_mod_cast h0)]; rfl

/-- An edge count is below 2 ^ 31, and so is a sum of thirteen of them. -/
theorem edgeCount_lt (R : Nat → Nat → Bool) : edgeCount R < 2147483648 :=
  lt_of_le_of_lt (edgeCount_le R) (by norm_num)

end Arrays

end Cert.RMask

end
-- ==== Proof.RStage.lean ====
/-
  The reference between its masks and its last stage, read at an index.

  From the edge counts the reference forms, per plane and class, the bit "the class has an edge in the plane" (the count
  is positive), and per plane the number of edge pixels of all classes as a number (the counts where the bit is set,
  summed: a count that is not positive is zero, so the selection changes nothing). From the two prediction arrays it
  forms the four masked logit arrays: channel c + 1 of a prediction array times the edge mask, or the body mask, of
  class c + 1, with the two pixel axes flattened into one of 512 * 512 positions (position k is pixel (k / 512, k % 512)).
-/
import proofs.«165479_j24979529793863_2_alg».proof.Defs
import proofs.«165479_j24979529793863_2_alg».proof.Proof.SpecMask
import proofs.«165479_j24979529793863_2_alg».proof.Proof.RMask
import Idealize.ShloMosaic.Lib.ValueIdx
import Idealize.ShloMosaic.Lib.Pipeline.Value
import Idealize.ShloMosaic.PureOps.Reduce
import Mathlib

noncomputable section

namespace Cert.RStage

open Idealize.ShloMosaic Idealize.ShloMosaic.ValueIdx Idealize.ShloMosaic.TcCoe Idealize.SL.Sem
open Cert.ReferenceIdeal Cert.Spec Cert.RMask

variable [Cert.ReferenceIdeal.Facts]
open Cert.ReferenceIdeal.Facts₀ Cert.ReferenceIdeal.Facts

/-! ## "The class has an edge in the plane" -/

section Valid

variable {F : FTy → Type} [FloatOps F]

/-- The constant zero word. -/
def refC3 : (⟨S_, .i32⟩ : BufTy).Contents (Elt F) := constantI S_ 32 0#32
/-- Zero for every plane and class. -/
def refV34 : (⟨S4x13, .i32⟩ : BufTy).Contents (Elt F) := broadcastInDim S4x13 ![] bcast_S_S4x13 (refC3 (F := F))
/-- The bit "the edge count is positive" (a signed comparison of 32-bit words). -/
def refValid (x2 : (⟨S4x1x512x512, .i32⟩ : BufTy).Contents (Elt F)) : (⟨S4x13, .i1⟩ : BufTy).Contents (Elt F) :=
  cmpi .sgt (refCntI (F := F) x2) (refV34 (F := F))

/-- At a plane and class the bit is "the number of edge pixels is positive". -/
theorem refValid_apply (x2 : (⟨S4x1x512x512, .i32⟩ : BufTy).Contents (Elt F)) (b : Fin 4) (c : Fin 13) :
    refValid (F := F) x2 (ix2 b c) = bit (decide (0 < edgeCount (isCls x2 b c))) := by
  show IntOp.cmpi .sgt (refCntI (F := F) x2 (ix2 b c)) 0#32 = _
  rw [refCntI_apply, cmpi_sgt_ofNat32 _ (edgeCount_lt _)]

theorem refValid_apply' (x2 : (⟨S4x1x512x512, .i32⟩ : BufTy).Contents (Elt F)) (b : Fin 4) (c : Fin 13) :
    refValid (F := F) x2 (ix2 b c) = if 0 < edgeCount (isCls x2 b c) then 1#1 else 0#1 := by
  rw [refValid_apply]
  unfold bit
  by_cases h0 : 0 < edgeCount (isCls x2 b c)
  · rw [decide_eq_true h0, if_pos rfl, if_pos h0]
  · rw [decide_eq_false h0, if_neg (by decide), if_neg h0]

/-! ## The number of edge pixels of a plane -/

/-- The constant zero word the selection falls back to. -/
def refC11 : (⟨S_, .i32⟩ : BufTy).Contents (Elt F) := constantI S_ 32 0#32
/-- The edge counts where the class has an edge, else zero. -/
def refV72 (x2 : (⟨S4x1x512x512, .i32⟩ : BufTy).Contents (Elt F)) : (⟨S4x13, .i32⟩ : BufTy).Contents (Elt F) :=
  select (refValid (F := F) x2) (refCntI (F := F) x2) (broadcastInDim S4x13 ![] bcast_S_S4x13 (id (refC11 (F := F))))
/-- The constant zero word the sum starts from. -/
def refC12 : (⟨S_, .i32⟩ : BufTy).Contents (Elt F) := constantI S_ 32 0#32
/-- Their sum over the classes, as a 32-bit word per plane. -/
def refV73 (x2 : (⟨S4x1x512x512, .i32⟩ : BufTy).Contents (Elt F)) : (⟨S4, .i32⟩ : BufTy).Contents (Elt F) :=
  Host.reduce IntOp.addi (refV72 (F := F) x2) (refC12 (F := F)) reducesTo_S4x13_S4_d1 h_S_
/-- The same as a number. -/
def refNEdge (x2 : (⟨S4x1x512x512, .i32⟩ : BufTy).Contents (Elt F)) : (⟨S4, .f32⟩ : BufTy).Contents (Elt F) :=
  sitofp .f32 (refV73 (F := F) x2)

/-- Selecting the count where it is positive, else zero, is the count. -/
theorem refV72_apply (x2 : (⟨S4x1x512x512, .i32⟩ : BufTy).Contents (Elt F)) (b : Fin 4) (c : Fin 13) :
    refV72 (F := F) x2 (ix2 b c) = BitVec.ofNat 32 (edgeCount (isCls x2 b c)) := by
  show Scalar.select (refValid (F := F) x2 (ix2 b c)) (refCntI (F := F) x2 (ix2 b c)) 0#32 = _
  rw [refValid_apply, refCntI_apply]
  by_cases h0 : 0 < edgeCount (isCls x2 b c)
  · rw [decide_eq_true h0]
    exact select_one _ _
  · rw [decide_eq_false h0, show edgeCount (isCls x2 b c) = 0 by omega]
    exact select_zero _ _

/-- A sum of 32-bit words of numbers, from 0, is the word of the sum of the numbers. -/
theorem fold_addi_ofNat {ι : Type} [DecidableEq ι] (S : Finset ι) (n : ι → Nat) :
    S.fold IntOp.addi 0#32 (fun i => BitVec.ofNat 32 (n i)) = BitVec.ofNat 32 (∑ i ∈ S, n i) := by
  refine Finset.induction_on S ?_ ?_
  · rfl
  · intro a S ha ih
    rw [Finset.fold_insert ha, ih, Finset.sum_insert ha]
    show BitVec.ofNat 32 (n a) + BitVec.ofNat 32 _ = _
    rw [← BitVec.ofNat_add]

/-- Summing over the class axis keeps the plane. -/
theorem drop1_eq_iff (hr : S4x13.ReducesTo [1] S4) (i : S4x13.Idx) (b : Fin 4) : hr.drop i = ix1 b ↔ i 0 = b := by
  have d0 : (hr.drop i ⟨0, by decide⟩ : Nat) = i 0 := Shape.ReducesTo.drop_apply_val_of_eq hr i ⟨0, by decide⟩ 0
  constructor
  · intro hd
    rw [hd] at d0
    exact Fin.ext d0.symm
  · intro h0
    funext a
    match a with
    | ⟨0, _⟩ => exact Fin.ext (d0.trans (congrArg Fin.val h0))

/-- The indices that reduce to plane b are its thirteen classes. -/
theorem filter_drop1_eq_image (hr : S4x13.ReducesTo [1] S4) (b : Fin 4) :
    (Finset.univ.filter fun i : S4x13.Idx => hr.drop i = ix1 b)
      = (Finset.univ : Finset (Fin 13)).image (fun c => (ix2 b c : S4x13.Idx)) := by
  ext i
  rw [Finset.mem_filter, Finset.mem_image]
  constructor
  · rintro ⟨-, hd⟩
    have h0 := (drop1_eq_iff hr i b).mp hd
    refine ⟨i 1, Finset.mem_univ _, ?_⟩
    subst h0
    exact (eq_ix2 i).symm
  · rintro ⟨c, -, rfl⟩
    exact ⟨Finset.mem_univ _, (drop1_eq_iff hr _ b).mpr rfl⟩

/-- The per-plane word is the word of the plane's number of edge pixels over all classes. -/
theorem refV73_apply (x2 : (⟨S4x1x512x512, .i32⟩ : BufTy).Contents (Elt F)) (b : Fin 4) :
    refV73 (F := F) x2 (ix1 b) = BitVec.ofNat 32 (∑ c : Fin 13, edgeCount (isCls x2 b c)) := by
  unfold refV73
  rw [Host.reduce_eq_fold, filter_drop1_eq_image,
    Finset.fold_image (fun p _ q _ e => congrFun e (1 : Fin 2))]
  have hf : ((refV72 (F := F) x2) ∘ fun c : Fin 13 => (ix2 b c : S4x13.Idx))
      = fun c => BitVec.ofNat 32 (edgeCount (isCls x2 b c)) := by
    funext c
    rw [Function.comp_apply, refV72_apply]
  rw [hf]
  show Finset.fold IntOp.addi 0#32 _ _ = _
  rw [fold_addi_ofNat]

/-- A plane's number of edge pixels over all classes is below 2 ^ 31. -/
theorem sum_edgeCount_lt (R : Fin 13 → Nat → Nat → Bool) : (∑ c : Fin 13, edgeCount (R c)) < 2147483648 := by
  have h : (∑ c : Fin 13, edgeCount (R c)) ≤ (Finset.univ : Finset (Fin 13)).card • 262144 :=
    Finset.sum_le_card_nsmul _ _ _ fun c _ => edgeCount_le (R c)
  rw [Finset.card_univ, Fintype.card_fin, smul_eq_mul] at h
  omega

end Valid

/-- The plane's number of edge pixels over all classes, as a number. -/
theorem refNEdge_apply (x2 : (⟨S4x1x512x512, .i32⟩ : BufTy).Contents (Elt Ideal)) (b : Fin 4) :
    (refNEdge (F := Ideal) x2 (ix1 b) : EReal) = (((∑ c : Fin 13, edgeCount (isCls x2 b c) : ℕ) : ℝ) : EReal) := by
  show (((refV73 (F := Ideal) x2 (ix1 b)).toInt : ℝ) : EReal) = _
  rw [refV73_apply, toInt_ofNat32 _ (sum_edgeCount_lt fun c => isCls x2 b c), Int.cast_natCast]

/-! ## The masked logits -/

/-- The class channels 1 … 13 of a prediction array. -/
def refCh (x : (⟨S4x14x512x512, .f32⟩ : BufTy).Contents (Elt Ideal)) : (⟨S4x13x512x512, .f32⟩ : BufTy).Contents (Elt Ideal) :=
  extractStridedSlice S4x13x512x512 ![0, 1, 0, 0] x slices_S4x14x512x512_S4x13x512x512_0_1_0_0

/-- The logits times the edge mask, the pixel axes flattened. -/
def refSE (x0 : (⟨S4x14x512x512, .f32⟩ : BufTy).Contents (Elt Ideal)) (x2 : (⟨S4x1x512x512, .i32⟩ : BufTy).Contents (Elt Ideal)) :
    (⟨S4x13x262144, .f32⟩ : BufTy).Contents (Elt Ideal) :=
  shapeCast S4x13x262144 (mulf (F := Ideal) (s := S4x13x512x512) (φ := .f32) (refCh x0) (refEdgeF (F := Ideal) x2)) shapeCasts_S4x13x512x512_S4x13x262144
/-- The second prediction array's logits times the edge mask. -/
def refTE (x1 : (⟨S4x14x512x512, .f32⟩ : BufTy).Contents (Elt Ideal)) (x2 : (⟨S4x1x512x512, .i32⟩ : BufTy).Contents (Elt Ideal)) :
    (⟨S4x13x262144, .f32⟩ : BufTy).Contents (Elt Ideal) :=
  shapeCast S4x13x262144 (mulf (F := Ideal) (s := S4x13x512x512) (φ := .f32) (refCh x1) (refEdgeF (F := Ideal) x2)) shapeCasts_S4x13x512x512_S4x13x262144
/-- The logits times the body mask. -/
def refSB (x0 : (⟨S4x14x512x512, .f32⟩ : BufTy).Contents (Elt Ideal)) (x2 : (⟨S4x1x512x512, .i32⟩ : BufTy).Contents (Elt Ideal)) :
    (⟨S4x13x262144, .f32⟩ : BufTy).Contents (Elt Ideal) :=
  shapeCast S4x13x262144 (mulf (F := Ideal) (s := S4x13x512x512) (φ := .f32) (refCh x0) (refBodyF (F := Ideal) x2)) shapeCasts_S4x13x512x512_S4x13x262144
/-- The second prediction array's logits times the body mask. -/
def refTB (x1 : (⟨S4x14x512x512, .f32⟩ : BufTy).Contents (Elt Ideal)) (x2 : (⟨S4x1x512x512, .i32⟩ : BufTy).Contents (Elt Ideal)) :
    (⟨S4x13x262144, .f32⟩ : BufTy).Contents (Elt Ideal) :=
  shapeCast S4x13x262144 (mulf (F := Ideal) (s := S4x13x512x512) (φ := .f32) (refCh x1) (refBodyF (F := Ideal) x2)) shapeCasts_S4x13x512x512_S4x13x262144

/-- Channel c + 1 of a prediction array at a pixel. -/
theorem refCh_apply (x : (⟨S4x14x512x512, .f32⟩ : BufTy).Contents (Elt Ideal)) (b : Fin 4) (c : Fin 13) (h w : Fin 512) :
    refCh x (ix4 b c h w) = x (ix4 b (⟨c.val + 1, by omega⟩ : Fin 14) h w) :=
  extractStridedSlice_apply ![0, 1, 0, 0] x slices_S4x14x512x512_S4x13x512x512_0_1_0_0 (ix4 b c h w)
    (ix4 b (⟨c.val + 1, by omega⟩ : Fin 14) h w) (fun a => match a with
      | ⟨0, _⟩ => by show b.val = 0 + b.val; omega
      | ⟨1, _⟩ => by show c.val + 1 = 1 + c.val; omega
      | ⟨2, _⟩ => by show h.val = 0 + h.val; omega
      | ⟨3, _⟩ => by show w.val = 0 + w.val; omega)

/-- A flattened array at position k of plane b and class c is the array at pixel (k / 512, k % 512). -/
theorem flat_apply {α : Type} (y : S4x13x512x512.Idx → α) (hc : S4x13x512x512.ShapeCasts S4x13x262144)
    (b : Fin 4) (c : Fin 13) (k : Fin 262144) :
    shapeCast S4x13x262144 y hc (ix3 b c k)
      = y (ix4 b c (⟨k.val / 512, by omega⟩ : Fin 512) (⟨k.val % 512, by omega⟩ : Fin 512)) :=
  shapeCast_apply y hc (ix3 b c k) (ix4 b c (⟨k.val / 512, by omega⟩ : Fin 512) (⟨k.val % 512, by omega⟩ : Fin 512))
    (by rewrite [Shape.rowMajor_val_four, Shape.rowMajor_val_three]
        show ((b.val * 13 + c.val) * 512 + k.val / 512) * 512 + k.val % 512 = (b.val * 13 + c.val) * 262144 + k.val
        omega)

theorem refSE_apply (x0 : (⟨S4x14x512x512, .f32⟩ : BufTy).Contents (Elt Ideal)) (x2 : (⟨S4x1x512x512, .i32⟩ : BufTy).Contents (Elt Ideal))
    (b : Fin 4) (c : Fin 13) (k : Fin 262144) :
    (refSE x0 x2 (ix3 b c k) : EReal)
      = x0 (ix4 b (⟨c.val + 1, by omega⟩ : Fin 14) (⟨k.val / 512, by omega⟩ : Fin 512) (⟨k.val % 512, by omega⟩ : Fin 512))
        * ((ind (edge (isCls x2 b c) (k.val / 512) (k.val % 512)) : ℝ) : EReal) := by
  unfold refSE
  rw [flat_apply, mulf_apply, refCh_apply, refEdgeF_apply]

theorem refTE_apply (x1 : (⟨S4x14x512x512, .f32⟩ : BufTy).Contents (Elt Ideal)) (x2 : (⟨S4x1x512x512, .i32⟩ : BufTy).Contents (Elt Ideal))
    (b : Fin 4) (c : Fin 13) (k : Fin 262144) :
    (refTE x1 x2 (ix3 b c k) : EReal)
      = x1 (ix4 b (⟨c.val + 1, by omega⟩ : Fin 14) (⟨k.val / 512, by omega⟩ : Fin 512) (⟨k.val % 512, by omega⟩ : Fin 512))
        * ((ind (edge (isCls x2 b c) (k.val / 512) (k.val % 512)) : ℝ) : EReal) := by
  unfold refTE
  rw [flat_apply, mulf_apply, refCh_apply, refEdgeF_apply]

theorem refSB_apply (x0 : (⟨S4x14x512x512, .f32⟩ : BufTy).Contents (Elt Ideal)) (x2 : (⟨S4x1x512x512, .i32⟩ : BufTy).Contents (Elt Ideal))
    (b : Fin 4) (c : Fin 13) (k : Fin 262144) :
    (refSB x0 x2 (ix3 b c k) : EReal)
      = x0 (ix4 b (⟨c.val + 1, by omega⟩ : Fin 14) (⟨k.val / 512, by omega⟩ : Fin 512) (⟨k.val % 512, by omega⟩ : Fin 512))
        * ((ind (body (isCls x2 b c) (k.val / 512) (k.val % 512)) : ℝ) : EReal) := by
  unfold refSB
  rw [flat_apply, mulf_apply, refCh_apply, refBodyF_apply]

theorem refTB_apply (x1 : (⟨S4x14x512x512, .f32⟩ : BufTy).Contents (Elt Ideal)) (x2 : (⟨S4x1x512x512, .i32⟩ : BufTy).Contents (Elt Ideal))
    (b : Fin 4) (c : Fin 13) (k : Fin 262144) :
    (refTB x1 x2 (ix3 b c k) : EReal)
      = x1 (ix4 b (⟨c.val + 1, by omega⟩ : Fin 14) (⟨k.val / 512, by omega⟩ : Fin 512) (⟨k.val % 512, by omega⟩ : Fin 512))
        * ((ind (body (isCls x2 b c) (k.val / 512) (k.val % 512)) : ℝ) : EReal) := by
  unfold refTB
  rw [flat_apply, mulf_apply, refCh_apply, refBodyF_apply]

end Cert.RStage

end
-- ==== Proof.LibKL.lean ====
/-
  Two arrangements of the Kullback-Leibler divergence between two softmax distributions.

  For finite real logits x (student) and y (teacher) over a finite nonempty index type, write
  Zx = ∑ exp (x j), Zy = ∑ exp (y j), q i = exp (y i) / Zy.  The divergence is
      klSpec x y = ∑ i, q i * ((y i - log Zy) - (x i - log Zx)).
  Two ways to evaluate it with shifted exponents (shifts Mx, My, ANY real numbers):
  * the "expectation" arrangement: (∑ q·y - ∑ q·x) + ((Mx + log Zx') - (My + log Zy')), where
    Zx' = ∑ exp (x j - Mx), Zy' = ∑ exp (y j - My) and q i = exp (y i - My) / Zy';
  * the "log-softmax" arrangement: ∑ exp (lsy i) * (lsy i - lsx i), where
    lsx i = (x i - Mx) - log Zx', lsy i = (y i - My) - log Zy'.
  Both equal klSpec x y.  The identities are first proved over the reals and then lifted to the
  extended reals: every subterm is the coercion of a real (the partition sums are positive, so the
  logarithm is the real logarithm, and the division is by a nonzero real), so no infinity arises.

  Also: the running maximum of finitely many reals, started from -∞, is a real; and the values of
  a few bit patterns and trivial identities with the constants 0 and 1.
-/
import Mathlib
import Idealize.ShloMosaic.PureOps.Ideal
import Idealize.ShloMosaic.PureOps.Ideal.Laws

noncomputable section

open scoped BigOperators
open Idealize.ShloMosaic

namespace KLForms

/-! ### The maximum of finitely many reals is a real -/

/-- The fold of `max` from `⊥` over a nonempty finite set of (coerced) reals is a real. -/
theorem fold_max_coe_of_nonempty {ι : Type*} (s : Finset ι) (hs : s.Nonempty) (x : ι → ℝ) :
    ∃ M : ℝ, s.fold max (⊥ : EReal) (fun i => ((x i : ℝ) : EReal)) = (M : EReal) := by
  classical
  induction s using Finset.induction_on with
  | empty => exact absurd hs Finset.not_nonempty_empty
  | insert a s ha ih =>
    rw [Finset.fold_insert ha]
    rcases s.eq_empty_or_nonempty with h | h
    · subst h
      exact ⟨x a, by rw [Finset.fold_empty, max_eq_left bot_le]⟩
    · obtain ⟨M, hM⟩ := ih h
      exact ⟨max (x a) M, by rw [hM]; exact (EReal.coe_strictMono.monotone.map_max).symm⟩

/-- (M) The fold of `max` from `⊥` over a nonempty finite index type of reals is a real. -/
theorem fold_max_coe {ι : Type*} [Fintype ι] [Nonempty ι] (x : ι → ℝ) :
    ∃ M : ℝ, (Finset.univ : Finset ι).fold max (⊥ : EReal) (fun i => ((x i : ℝ) : EReal)) = (M : EReal) :=
  fold_max_coe_of_nonempty Finset.univ Finset.univ_nonempty x

/-- (M) The same with one more `max ⊥` in front. -/
theorem max_bot_fold_max_coe {ι : Type*} [Fintype ι] [Nonempty ι] (x : ι → ℝ) :
    ∃ M : ℝ, max (⊥ : EReal) ((Finset.univ : Finset ι).fold max (⊥ : EReal) (fun i => ((x i : ℝ) : EReal)))
      = (M : EReal) := by
  obtain ⟨M, hM⟩ := fold_max_coe x
  exact ⟨M, by rw [hM, max_eq_right bot_le]⟩

/-- (M) Hypothesis form: the entries are given as extended reals that are coercions of reals. -/
theorem fold_max_of_coe {ι : Type*} [Fintype ι] [Nonempty ι] (X : ι → EReal) (x : ι → ℝ)
    (hX : ∀ i, X i = ((x i : ℝ) : EReal)) :
    ∃ M : ℝ, (Finset.univ : Finset ι).fold max (⊥ : EReal) X = (M : EReal) := by
  have : X = fun i => ((x i : ℝ) : EReal) := funext hX
  rw [this]; exact fold_max_coe x

/-- (M) Hypothesis form with one more `max ⊥` in front. -/
theorem max_bot_fold_max_of_coe {ι : Type*} [Fintype ι] [Nonempty ι] (X : ι → EReal) (x : ι → ℝ)
    (hX : ∀ i, X i = ((x i : ℝ) : EReal)) :
    ∃ M : ℝ, max (⊥ : EReal) ((Finset.univ : Finset ι).fold max (⊥ : EReal) X) = (M : EReal) := by
  have : X = fun i => ((x i : ℝ) : EReal) := funext hX
  rw [this]; exact max_bot_fold_max_coe x

/-! ### Constants -/

/-- The single-precision pattern of `1`. -/
theorem ofBits_one_f32 : Ideal.ofBits .f32 0x3F800000#32 = 1 := by
  simp [Ideal.ofBits, Ideal.ieee, -EReal.coe_mul]; norm_num

/-- The single-precision pattern of `-∞`. -/
theorem ofBits_neg_inf_f32 : Ideal.ofBits .f32 0xFF800000#32 = ⊥ := by
  simp [Ideal.ofBits, Ideal.ieee]

/-- The single-precision pattern of `+0`. -/
theorem ofBits_zero_f32 : Ideal.ofBits .f32 0x00000000#32 = 0 := Ideal.ofBits_zero_f32

/-- Division by one. -/
theorem div_one (a : EReal) : Ideal.div a 1 = a := by
  rw [Ideal.div, if_neg one_ne_zero, ← EReal.coe_one, ← EReal.coe_inv, inv_one, EReal.coe_one, mul_one]

/-- Multiplication by one. -/
theorem mul_one' (a : EReal) : a * 1 = a := mul_one a

/-- The product of two coerced reals is the coercion of the product. -/
theorem coe_mul_coe (r b : ℝ) : ((r : ℝ) : EReal) * ((b : ℝ) : EReal) = ((r * b : ℝ) : EReal) :=
  (EReal.coe_mul r b).symm

/-- A coerced real times the extended-real `1`. -/
theorem coe_mul_one (r : ℝ) : ((r : ℝ) : EReal) * 1 = ((r : ℝ) : EReal) := mul_one _

/-- A coerced real times the extended-real `0`. -/
theorem coe_mul_zero (r : ℝ) : ((r : ℝ) : EReal) * 0 = 0 := mul_zero _

/-! ### The identities over the reals -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The Kullback-Leibler divergence of the softmax of `x` from the softmax of `y`. -/
def klSpec {ι : Type*} [Fintype ι] (x y : ι → ℝ) : ℝ :=
  ∑ i, (Real.exp (y i) / ∑ j, Real.exp (y j))
    * ((y i - Real.log (∑ j, Real.exp (y j))) - (x i - Real.log (∑ j, Real.exp (x j))))

section Real

variable {ι : Type*} [Fintype ι] [Nonempty ι]

/-- A partition sum is positive. -/
theorem sum_exp_pos (f : ι → ℝ) : 0 < ∑ i, Real.exp (f i) :=
  Finset.sum_pos (fun i _ => Real.exp_pos (f i)) Finset.univ_nonempty

/-- The partition sum at shift `M` is `exp (-M)` times the unshifted one. -/
theorem sum_exp_shift (f : ι → ℝ) (M : ℝ) :
    ∑ i, Real.exp (f i - M) = Real.exp (-M) * ∑ i, Real.exp (f i) := by
  rw [Finset.mul_sum]
  refine Finset.sum_congr rfl fun i _ => ?_
  rw [← Real.exp_add]; congr 1; ring

/-- The shift plus the logarithm of the shifted partition sum is the logarithm of the unshifted one. -/
theorem shift_add_log (f : ι → ℝ) (M : ℝ) :
    M + Real.log (∑ i, Real.exp (f i - M)) = Real.log (∑ i, Real.exp (f i)) := by
  rw [sum_exp_shift, Real.log_mul (Real.exp_pos _).ne' (sum_exp_pos f).ne', Real.log_exp]; ring

/-- The shifted log-softmax is the unshifted one. -/
theorem logsoftmax_shift (f : ι → ℝ) (M : ℝ) (i : ι) :
    (f i - M) - Real.log (∑ j, Real.exp (f j - M)) = f i - Real.log (∑ j, Real.exp (f j)) := by
  have h := shift_add_log f M
  linarith

/-- The softmax weights do not depend on the shift. -/
theorem weight_shift (f : ι → ℝ) (M : ℝ) (i : ι) :
    Real.exp (f i - M) / ∑ j, Real.exp (f j - M) = Real.exp (f i) / ∑ j, Real.exp (f j) := by
  rw [sum_exp_shift, show f i - M = -M + f i by ring, Real.exp_add,
    mul_div_mul_left _ _ (Real.exp_pos (-M)).ne']

/-- The softmax weights sum to one. -/
theorem sum_weight (f : ι → ℝ) : ∑ i, Real.exp (f i) / ∑ j, Real.exp (f j) = 1 := by
  rw [← Finset.sum_div, div_self (sum_exp_pos f).ne']

/-- The exponential of the log-softmax is the softmax weight. -/
theorem exp_logsoftmax (f : ι → ℝ) (i : ι) :
    Real.exp (f i - Real.log (∑ j, Real.exp (f j))) = Real.exp (f i) / ∑ j, Real.exp (f j) := by
  rw [Real.exp_sub, Real.exp_log (sum_exp_pos f)]

/-- The "log-softmax" arrangement over the reals. -/
theorem real_R (x y : ι → ℝ) (Mx My : ℝ) :
    ∑ i, Real.exp ((y i - My) - Real.log (∑ j, Real.exp (y j - My)))
        * (((y i - My) - Real.log (∑ j, Real.exp (y j - My)))
            - ((x i - Mx) - Real.log (∑ j, Real.exp (x j - Mx))))
      = klSpec x y := by
  unfold klSpec
  refine Finset.sum_congr rfl fun i _ => ?_
  rw [logsoftmax_shift y My i, logsoftmax_shift x Mx i, exp_logsoftmax]

/-- The "expectation" arrangement over the reals. -/
theorem real_K (x y : ι → ℝ) (Mx My : ℝ) :
    ((∑ i, (Real.exp (y i - My) / ∑ j, Real.exp (y j - My)) * y i)
        - (∑ i, (Real.exp (y i - My) / ∑ j, Real.exp (y j - My)) * x i))
      + ((Mx + Real.log (∑ j, Real.exp (x j - Mx))) - (My + Real.log (∑ j, Real.exp (y j - My))))
      = klSpec x y := by
  unfold klSpec
  simp only [weight_shift, shift_add_log]
  have e : ∀ i, (Real.exp (y i) / ∑ j, Real.exp (y j))
        * ((y i - Real.log (∑ j, Real.exp (y j))) - (x i - Real.log (∑ j, Real.exp (x j))))
      = (Real.exp (y i) / ∑ j, Real.exp (y j)) * y i - (Real.exp (y i) / ∑ j, Real.exp (y j)) * x i
        + (Real.exp (y i) / ∑ j, Real.exp (y j))
          * (Real.log (∑ j, Real.exp (x j)) - Real.log (∑ j, Real.exp (y j))) := fun i => by ring
  simp only [e, Finset.sum_add_distrib, Finset.sum_sub_distrib, ← Finset.sum_mul, sum_weight, one_mul]

end Real

/-! ### Lifting to the extended reals -/

section Lift

variable {ι : Type*} [Fintype ι] [Nonempty ι]

/-- The shifted partition sum of coerced reals is the coercion of the real one. -/
theorem Z_coe (f : ι → ℝ) (M : ℝ) :
    ∑ i, Ideal.exp (((f i : ℝ) : EReal) - ((M : ℝ) : EReal)) = ((∑ i, Real.exp (f i - M) : ℝ) : EReal) := by
  rw [coe_sum]
  refine Finset.sum_congr rfl fun i _ => ?_
  rw [← EReal.coe_sub, Ideal.exp_coe]

/-- Its logarithm is the coercion of the real logarithm: the sum is positive. -/
theorem logZ_coe (f : ι → ℝ) (M : ℝ) :
    Ideal.log (∑ i, Ideal.exp (((f i : ℝ) : EReal) - ((M : ℝ) : EReal)))
      = ((Real.log (∑ i, Real.exp (f i - M)) : ℝ) : EReal) := by
  rw [Z_coe, Ideal.log_coe, if_neg (not_le.mpr (sum_exp_pos _))]

/-- The shifted log-softmax of coerced reals is the coercion of the real one. -/
theorem ls_coe (f : ι → ℝ) (M : ℝ) (i : ι) :
    (((f i : ℝ) : EReal) - ((M : ℝ) : EReal)) - Ideal.log (∑ j, Ideal.exp (((f j : ℝ) : EReal) - ((M : ℝ) : EReal)))
      = (((f i - M) - Real.log (∑ j, Real.exp (f j - M)) : ℝ) : EReal) := by
  rw [logZ_coe, ← EReal.coe_sub, ← EReal.coe_sub]

/-- The shifted softmax weight of coerced reals is the coercion of the real one: the division is by a
    nonzero real. -/
theorem P_coe (f : ι → ℝ) (M : ℝ) (i : ι) :
    Ideal.div (Ideal.exp (((f i : ℝ) : EReal) - ((M : ℝ) : EReal)))
        (∑ j, Ideal.exp (((f j : ℝ) : EReal) - ((M : ℝ) : EReal)))
      = ((Real.exp (f i - M) / ∑ j, Real.exp (f j - M) : ℝ) : EReal) := by
  rw [Z_coe, Ideal.div_coe (sum_exp_pos _).ne', ← EReal.coe_sub, Ideal.exp_coe, ← EReal.coe_mul, mul_one_div]

/-- (R) The "log-softmax" arrangement on the extended reals, for coerced real logits and any real shifts. -/
theorem kl_R_coe (x y : ι → ℝ) (Mx My : ℝ) :
    ∑ i, Ideal.exp ((((y i : ℝ) : EReal) - ((My : ℝ) : EReal))
            - Ideal.log (∑ j, Ideal.exp (((y j : ℝ) : EReal) - ((My : ℝ) : EReal))))
        * (((((y i : ℝ) : EReal) - ((My : ℝ) : EReal))
              - Ideal.log (∑ j, Ideal.exp (((y j : ℝ) : EReal) - ((My : ℝ) : EReal))))
            - ((((x i : ℝ) : EReal) - ((Mx : ℝ) : EReal))
              - Ideal.log (∑ j, Ideal.exp (((x j : ℝ) : EReal) - ((Mx : ℝ) : EReal)))))
      = ((klSpec x y : ℝ) : EReal) := by
  rw [← real_R x y Mx My, coe_sum]
  refine Finset.sum_congr rfl fun i _ => ?_
  rw [ls_coe y My i, ls_coe x Mx i, Ideal.exp_coe, ← EReal.coe_sub, ← EReal.coe_mul]

/-- (R) Hypothesis form: logits and shifts are extended reals known to be coercions of reals. -/
theorem kl_R (X Y : ι → EReal) (MX MY : EReal) (x y : ι → ℝ) (Mx My : ℝ)
    (hX : ∀ i, X i = ((x i : ℝ) : EReal)) (hY : ∀ i, Y i = ((y i : ℝ) : EReal))
    (hMX : MX = ((Mx : ℝ) : EReal)) (hMY : MY = ((My : ℝ) : EReal)) :
    ∑ i, Ideal.exp ((Y i - MY) - Ideal.log (∑ j, Ideal.exp (Y j - MY)))
        * (((Y i - MY) - Ideal.log (∑ j, Ideal.exp (Y j - MY)))
            - ((X i - MX) - Ideal.log (∑ j, Ideal.exp (X j - MX))))
      = ((klSpec x y : ℝ) : EReal) := by
  obtain rfl : X = fun i => ((x i : ℝ) : EReal) := funext hX
  obtain rfl : Y = fun i => ((y i : ℝ) : EReal) := funext hY
  subst hMX hMY
  exact kl_R_coe x y Mx My

/-- (K) The "expectation" arrangement on the extended reals, for coerced real logits and any real shifts. -/
theorem kl_K_coe (x y : ι → ℝ) (Mx My : ℝ) :
    ((∑ i, Ideal.div (Ideal.exp (((y i : ℝ) : EReal) - ((My : ℝ) : EReal)))
              (∑ j, Ideal.exp (((y j : ℝ) : EReal) - ((My : ℝ) : EReal))) * ((y i : ℝ) : EReal))
        - (∑ i, Ideal.div (Ideal.exp (((y i : ℝ) : EReal) - ((My : ℝ) : EReal)))
              (∑ j, Ideal.exp (((y j : ℝ) : EReal) - ((My : ℝ) : EReal))) * ((x i : ℝ) : EReal)))
      + ((((Mx : ℝ) : EReal) + Ideal.log (∑ j, Ideal.exp (((x j : ℝ) : EReal) - ((Mx : ℝ) : EReal))))
          - (((My : ℝ) : EReal) + Ideal.log (∑ j, Ideal.exp (((y j : ℝ) : EReal) - ((My : ℝ) : EReal)))))
      = ((klSpec x y : ℝ) : EReal) := by
  have h1 : ∑ i, Ideal.div (Ideal.exp (((y i : ℝ) : EReal) - ((My : ℝ) : EReal)))
              (∑ j, Ideal.exp (((y j : ℝ) : EReal) - ((My : ℝ) : EReal))) * ((y i : ℝ) : EReal)
      = ((∑ i, (Real.exp (y i - My) / ∑ j, Real.exp (y j - My)) * y i : ℝ) : EReal) := by
    rw [coe_sum]
    refine Finset.sum_congr rfl fun i _ => ?_
    rw [P_coe y My i, ← EReal.coe_mul]
  have h2 : ∑ i, Ideal.div (Ideal.exp (((y i : ℝ) : EReal) - ((My : ℝ) : EReal)))
              (∑ j, Ideal.exp (((y j : ℝ) : EReal) - ((My : ℝ) : EReal))) * ((x i : ℝ) : EReal)
      = ((∑ i, (Real.exp (y i - My) / ∑ j, Real.exp (y j - My)) * x i : ℝ) : EReal) := by
    rw [coe_sum]
    refine Finset.sum_congr rfl fun i _ => ?_
    rw [P_coe y My i, ← EReal.coe_mul]
  rw [h1, h2, logZ_coe x Mx, logZ_coe y My, ← EReal.coe_sub, ← EReal.coe_add, ← EReal.coe_add,
    ← EReal.coe_sub, ← EReal.coe_add, real_K x y Mx My]

/-- (K) Hypothesis form: logits and shifts are extended reals known to be coercions of reals. -/
theorem kl_K (X Y : ι → EReal) (MX MY : EReal) (x y : ι → ℝ) (Mx My : ℝ)
    (hX : ∀ i, X i = ((x i : ℝ) : EReal)) (hY : ∀ i, Y i = ((y i : ℝ) : EReal))
    (hMX : MX = ((Mx : ℝ) : EReal)) (hMY : MY = ((My : ℝ) : EReal)) :
    ((∑ i, Ideal.div (Ideal.exp (Y i - MY)) (∑ j, Ideal.exp (Y j - MY)) * Y i)
        - (∑ i, Ideal.div (Ideal.exp (Y i - MY)) (∑ j, Ideal.exp (Y j - MY)) * X i))
      + ((MX + Ideal.log (∑ j, Ideal.exp (X j - MX))) - (MY + Ideal.log (∑ j, Ideal.exp (Y j - MY))))
      = ((klSpec x y : ℝ) : EReal) := by
  obtain rfl : X = fun i => ((x i : ℝ) : EReal) := funext hX
  obtain rfl : Y = fun i => ((y i : ℝ) : EReal) := funext hY
  subst hMX hMY
  exact kl_K_coe x y Mx My

/-- The two arrangements agree. -/
theorem kl_K_eq_kl_R (X Y : ι → EReal) (MX MY MX' MY' : EReal) (x y : ι → ℝ) (Mx My Mx' My' : ℝ)
    (hX : ∀ i, X i = ((x i : ℝ) : EReal)) (hY : ∀ i, Y i = ((y i : ℝ) : EReal))
    (hMX : MX = ((Mx : ℝ) : EReal)) (hMY : MY = ((My : ℝ) : EReal))
    (hMX' : MX' = ((Mx' : ℝ) : EReal)) (hMY' : MY' = ((My' : ℝ) : EReal)) :
    ((∑ i, Ideal.div (Ideal.exp (Y i - MY)) (∑ j, Ideal.exp (Y j - MY)) * Y i)
        - (∑ i, Ideal.div (Ideal.exp (Y i - MY)) (∑ j, Ideal.exp (Y j - MY)) * X i))
      + ((MX + Ideal.log (∑ j, Ideal.exp (X j - MX))) - (MY + Ideal.log (∑ j, Ideal.exp (Y j - MY))))
      = ∑ i, Ideal.exp ((Y i - MY') - Ideal.log (∑ j, Ideal.exp (Y j - MY')))
          * (((Y i - MY') - Ideal.log (∑ j, Ideal.exp (Y j - MY')))
              - ((X i - MX') - Ideal.log (∑ j, Ideal.exp (X j - MX')))) := by
  rw [kl_K X Y MX MY x y Mx My hX hY hMX hMY, kl_R X Y MX' MY' x y Mx' My' hX hY hMX' hMY']

end Lift

end KLForms

end
-- ==== Proof.RKL.lean ====
/-
  The reference's Kullback-Leibler stage read at an index.

  The stage takes two arrays of logits of shape [4, 13, 262144] (student s, teacher t), divides each by
  the temperature 1, takes the log-softmax of each along the last axis (subtract the running maximum,
  subtract the logarithm of the sum of exponentials), and returns, per (b, c), the sum over the last axis of
  exp (lsm t) * (lsm t - lsm s), times the squared temperature 1.

  When the logits are finite reals, the value at (b, c) is the Kullback-Leibler divergence of the softmax
  of the student's row from the softmax of the teacher's row: the maximum of a nonempty finite family of
  reals is a real, so the "log-softmax" arrangement of the divergence applies with that shift.
-/
import Mathlib
import Idealize.ShloMosaic.Lib.ValueIdx
import Idealize.ShloMosaic.Lib.Pipeline.Value
import Idealize.ShloMosaic.Lib.IdealHost
import Idealize.ShloMosaic.PureOps.Ideal.Laws
import proofs.«165479_j24979529793863_2_alg».proof.Defs
import proofs.«165479_j24979529793863_2_alg».proof.Proof.LibKL

noncomputable section

open scoped BigOperators

namespace Cert.RKL

open Idealize.ShloMosaic Idealize.ShloMosaic.ValueIdx Cert.ReferenceIdeal

variable [Cert.ReferenceIdeal.Facts]
open Cert.ReferenceIdeal.Facts₀ Cert.ReferenceIdeal.Facts

/-! ### The operations, composed as the reference composes them -/

/-- The running maximum along the last axis, guarded by one more maximum with -∞. -/
def lsmMax (x : FVec Ideal S4x13x262144 .f32) : FVec Ideal S4x13 .f32 :=
  maximumf (broadcastInDim S4x13 ![] bcast_S_S4x13 (constant (F := Ideal) S_ .f32 0xFF800000#32))
    (Host.reduce (FloatOps.maximumf (F := Ideal) (φ := .f32)) x (constant (F := Ideal) S_ .f32 0xFF800000#32)
      reducesTo_S4x13x262144_S4x13_d2 h_S_)

/-- The logits minus their running maximum. -/
def lsmShift (x : FVec Ideal S4x13x262144 .f32) : FVec Ideal S4x13x262144 .f32 :=
  subf x (broadcastInDim S4x13x262144 ![0, 1, 2] bcast_S4x13x1_S4x13x262144_0_1_2
    (broadcastInDim S4x13x1 ![0, 1] bcast_S4x13_S4x13x1_0_1 (lsmMax x)))

/-- The logarithm of the sum of the exponentials of the shifted logits. -/
def lsmLogSum (x : FVec Ideal S4x13x262144 .f32) : FVec Ideal S4x13x1 .f32 :=
  Host.log (broadcastInDim S4x13x1 ![0, 1] bcast_S4x13_S4x13x1_0_1
    (Host.reduceAdd (Host.exp (lsmShift x)) (constant (F := Ideal) S_ .f32 0x00000000#32)
      reducesTo_S4x13x262144_S4x13_d2 h_S_))

/-- The log-softmax along the last axis. -/
def lsm (x : FVec Ideal S4x13x262144 .f32) : FVec Ideal S4x13x262144 .f32 :=
  subf (lsmShift x) (broadcastInDim S4x13x262144 ![0, 1, 2] bcast_S4x13x1_S4x13x262144_0_1_2 (lsmLogSum x))

/-- The array of ones the logits are divided by (the temperature). -/
def ones3 : FVec Ideal S4x13x262144 .f32 :=
  broadcastInDim S4x13x262144 ![] bcast_S_S4x13x262144 (constant (F := Ideal) S_ .f32 0x3F800000#32)

/-- The Kullback-Leibler stage: student logits `s`, teacher logits `t`. -/
def refKL (s t : FVec Ideal S4x13x262144 .f32) : FVec Ideal S4x13 .f32 :=
  mulf
    (Host.reduceAdd
      (mulf (Host.exp (lsm (Host.divf t ones3))) (subf (lsm (Host.divf t ones3)) (lsm (Host.divf s ones3))))
      (constant (F := Ideal) S_ .f32 0x00000000#32) reducesTo_S4x13x262144_S4x13_d2 h_S_)
    (broadcastInDim S4x13 ![] bcast_S_S4x13 (constant (F := Ideal) S_ .f32 0x3F800000#32))

/-! ### Reading the reductions and broadcasts at an index -/

/-- The shape fact naming the inserted coordinate. -/
theorem hR : S4x13x262144.Reduces [2] S4x13 := by decide

/-- The index over (b, c) with last coordinate k. -/
theorem lift_eq (b : Fin 4) (c : Fin 13) (k : Fin 262144) : hR.lift (ix2 b c) k = ix3 b c k := by
  funext d
  match d with
  | ⟨0, _⟩ => rfl
  | ⟨1, _⟩ => rfl
  | ⟨2, _⟩ => rfl

/-- A sum along the last axis from the zero constant, at (b, c). -/
theorem reduceAdd_apply (v : FVec Ideal S4x13x262144 .f32) (b : Fin 4) (c : Fin 13) :
    Host.reduceAdd v (constant (F := Ideal) S_ .f32 0x00000000#32) reducesTo_S4x13x262144_S4x13_d2 h_S_ (ix2 b c)
      = ∑ k : Fin 262144, v (ix3 b c k) := by
  rw [hostReduceAdd_apply, Ideal.hostReduceAdd_single reducesTo_S4x13x262144_S4x13_d2 hR, constant_apply,
    KLForms.ofBits_zero_f32, zero_add]
  exact Finset.sum_congr rfl fun k _ => congrArg v (lift_eq b c k)

/-- A maximum along the last axis from the -∞ constant, at (b, c). -/
theorem reduceMax_apply (v : FVec Ideal S4x13x262144 .f32) (b : Fin 4) (c : Fin 13) :
    Host.reduce (FloatOps.maximumf (F := Ideal) (φ := .f32)) v (constant (F := Ideal) S_ .f32 0xFF800000#32)
        reducesTo_S4x13x262144_S4x13_d2 h_S_ (ix2 b c)
      = (Finset.univ : Finset (Fin 262144)).fold max (⊥ : EReal) (fun k => v (ix3 b c k)) := by
  rw [Host.reduce_eq_fold_single _ v _ reducesTo_S4x13x262144_S4x13_d2 hR h_S_ (ix2 b c), constant_apply,
    KLForms.ofBits_neg_inf_f32]
  have e : v ∘ hR.lift (ix2 b c) = fun k : Fin 262144 => v (ix3 b c k) :=
    funext fun k => congrArg v (lift_eq b c k)
  rw [e]
  rfl

/-- [4, 13] broadcast to [4, 13, 1]. -/
theorem bc1_apply (v : FVec Ideal S4x13 .f32) (b : Fin 4) (c : Fin 13) (k : Fin 1) :
    broadcastInDim S4x13x1 ![0, 1] bcast_S4x13_S4x13x1_0_1 v (ix3 b c k) = v (ix2 b c) :=
  broadcastInDim_apply _ _ v _ (ix2 b c) fun a => by
    match a with
    | ⟨0, _⟩ => rfl
    | ⟨1, _⟩ => rfl

/-- [4, 13, 1] broadcast to [4, 13, 262144]. -/
theorem bc2_apply (v : FVec Ideal S4x13x1 .f32) (b : Fin 4) (c : Fin 13) (k : Fin 262144) :
    broadcastInDim S4x13x262144 ![0, 1, 2] bcast_S4x13x1_S4x13x262144_0_1_2 v (ix3 b c k) = v (ix3 b c 0) :=
  broadcastInDim_apply _ _ v _ (ix3 b c 0) fun a => by
    match a with
    | ⟨0, _⟩ => rfl
    | ⟨1, _⟩ => rfl
    | ⟨2, _⟩ => rfl

/-- The host's exponential at an index. -/
theorem hostExp_apply {s : Shape} (v : FVec Ideal s .f32) (i : s.Idx) : Host.exp v i = Ideal.exp (v i) := rfl

/-- The host's logarithm at an index. -/
theorem hostLog_apply {s : Shape} (v : FVec Ideal s .f32) (i : s.Idx) : Host.log v i = Ideal.log (v i) := rfl

/-- The array of ones reads one everywhere. -/
theorem ones3_apply (i : S4x13x262144.Idx) : ones3 i = 1 := by
  unfold ones3
  rw [broadcastInDim_scalar_apply, constant_apply, KLForms.ofBits_one_f32]

/-- Division by the temperature 1 changes nothing. -/
theorem divf_ones3 (x : FVec Ideal S4x13x262144 .f32) : Host.divf x ones3 = x := by
  funext i
  rw [hostDivf_apply, ones3_apply, KLForms.div_one]

/-! ### The log-softmax at an index -/

/-- The shift: the guarded running maximum of row (b, c). -/
def rowMax (x : FVec Ideal S4x13x262144 .f32) (b : Fin 4) (c : Fin 13) : EReal :=
  max (⊥ : EReal) ((Finset.univ : Finset (Fin 262144)).fold max (⊥ : EReal) (fun k => x (ix3 b c k)))

theorem lsmMax_apply (x : FVec Ideal S4x13x262144 .f32) (b : Fin 4) (c : Fin 13) :
    lsmMax x (ix2 b c) = rowMax x b c := by
  unfold lsmMax rowMax
  rw [maximumf_apply, broadcastInDim_scalar_apply, constant_apply, KLForms.ofBits_neg_inf_f32, reduceMax_apply]

theorem lsmShift_apply (x : FVec Ideal S4x13x262144 .f32) (b : Fin 4) (c : Fin 13) (k : Fin 262144) :
    lsmShift x (ix3 b c k) = x (ix3 b c k) - rowMax x b c := by
  unfold lsmShift
  rw [subf_apply, bc2_apply, bc1_apply, lsmMax_apply]

theorem lsmLogSum_apply (x : FVec Ideal S4x13x262144 .f32) (b : Fin 4) (c : Fin 13) :
    lsmLogSum x (ix3 b c 0) = Ideal.log (∑ k : Fin 262144, Ideal.exp (x (ix3 b c k) - rowMax x b c)) := by
  unfold lsmLogSum
  rw [hostLog_apply, bc1_apply, reduceAdd_apply]
  refine congrArg Ideal.log (Finset.sum_congr rfl fun k _ => ?_)
  rw [hostExp_apply, lsmShift_apply]

/-- The log-softmax at (b, c, k): shifted logit minus the logarithm of the shifted partition sum. -/
theorem lsm_apply (x : FVec Ideal S4x13x262144 .f32) (b : Fin 4) (c : Fin 13) (k : Fin 262144) :
    lsm x (ix3 b c k)
      = (x (ix3 b c k) - rowMax x b c)
        - Ideal.log (∑ k' : Fin 262144, Ideal.exp (x (ix3 b c k') - rowMax x b c)) := by
  unfold lsm
  rw [subf_apply, bc2_apply, lsmShift_apply, lsmLogSum_apply]

/-! ### The stage at an index -/

/-- The stage at (b, c), for any logits: the "log-softmax" arrangement with the row maxima as shifts. -/
theorem refKL_apply (s t : FVec Ideal S4x13x262144 .f32) (b : Fin 4) (c : Fin 13) :
    refKL s t (ix2 b c)
      = ∑ k : Fin 262144, Ideal.exp (lsm t (ix3 b c k)) * (lsm t (ix3 b c k) - lsm s (ix3 b c k)) := by
  unfold refKL
  rw [divf_ones3, divf_ones3, mulf_apply, broadcastInDim_scalar_apply, constant_apply, KLForms.ofBits_one_f32,
    mul_one, reduceAdd_apply]
  refine Finset.sum_congr rfl fun k _ => ?_
  rw [mulf_apply, hostExp_apply, subf_apply]

/-- The stage at (b, c) for finite real logits is the Kullback-Leibler divergence of the rows' softmaxes. -/
theorem refKL_eq_klSpec (s t : FVec Ideal S4x13x262144 .f32) (sr tr : S4x13x262144.Idx → ℝ)
    (hs : ∀ i, s i = ((sr i : ℝ) : EReal)) (ht : ∀ i, t i = ((tr i : ℝ) : EReal)) (b : Fin 4) (c : Fin 13) :
    refKL s t (ix2 b c)
      = ((KLForms.klSpec (fun k : Fin 262144 => sr (ix3 b c k)) (fun k : Fin 262144 => tr (ix3 b c k)) : ℝ) : EReal) := by
  haveI : Nonempty (Fin 262144) := ⟨⟨0, by norm_num⟩⟩
  obtain ⟨Ms, hMs⟩ := KLForms.max_bot_fold_max_of_coe (fun k : Fin 262144 => s (ix3 b c k))
    (fun k => sr (ix3 b c k)) (fun k => hs _)
  obtain ⟨Mt, hMt⟩ := KLForms.max_bot_fold_max_of_coe (fun k : Fin 262144 => t (ix3 b c k))
    (fun k => tr (ix3 b c k)) (fun k => ht _)
  rw [refKL_apply]
  simp only [lsm_apply]
  exact KLForms.kl_R (fun k : Fin 262144 => s (ix3 b c k)) (fun k : Fin 262144 => t (ix3 b c k))
    (rowMax s b c) (rowMax t b c) (fun k => sr (ix3 b c k)) (fun k => tr (ix3 b c k)) Ms Mt
    (fun k => hs _) (fun k => ht _) hMs hMt

end Cert.RKL

end
-- ==== Proof.RFinal.lean ====
/-
  The reference, assembled.

  The reference is one line of operations in single-assignment form, and each operation gives one equation between
  the final contents of the buffers. Chained in order, they say that each buffer ends holding the array the
  corresponding definition names: the class regions, their edges and bodies, the edge counts and the bits "the class
  has an edge", the four masked logit arrays, the four log-softmaxes and the two divergence arrays, and at the end
  the two numbers of the last stage. The run of the reference therefore leaves its result buffer at the last stage
  applied to those arrays of the three arguments, and the arguments as they were.
-/
import proofs.«165479_j24979529793863_2_alg».proof.Proof.RRunEqA
import proofs.«165479_j24979529793863_2_alg».proof.Proof.RRunEqB1
import proofs.«165479_j24979529793863_2_alg».proof.Proof.RRunEqB2
import proofs.«165479_j24979529793863_2_alg».proof.Proof.RMask
import proofs.«165479_j24979529793863_2_alg».proof.Proof.RStage
import proofs.«165479_j24979529793863_2_alg».proof.Proof.RKL
import proofs.«165479_j24979529793863_2_alg».proof.Proof.TailSpec

noncomputable section

namespace Cert.RFinal

open Cert.ReferenceIdeal Cert.ReferenceIdeal.Gen Idealize.ShloMosaic Idealize.ShloMosaic.TcCoe Idealize.SL.Sem Idealize.ShloMosaic.StableHlo
open Cert.RRun Cert.RMask Cert.RStage Cert.RKL

/-- The first prediction array as launched. -/
abbrev X0 (V : Valuation τ sig (Elt Ideal)) : (⟨S4x14x512x512, .f32⟩ : BufTy).Contents (Elt Ideal) := R V main_arg0
/-- The second prediction array as launched. -/
abbrev X1 (V : Valuation τ sig (Elt Ideal)) : (⟨S4x14x512x512, .f32⟩ : BufTy).Contents (Elt Ideal) := R V main_arg1
/-- The label array as launched. -/
abbrev X2 (V : Valuation τ sig (Elt Ideal)) : (⟨S4x1x512x512, .i32⟩ : BufTy).Contents (Elt Ideal) := R V main_arg2

/-- The reference's result as a function of its three arguments: the last stage applied to the bits "the class has an
    edge", the per-plane numbers of edge pixels, and the two divergence arrays of the masked logits. -/
def resultV (x0 x1 : (⟨S4x14x512x512, .f32⟩ : BufTy).Contents (Elt Ideal)) (x2 : (⟨S4x1x512x512, .i32⟩ : BufTy).Contents (Elt Ideal)) : FVec Ideal Cert.TailSpec.S2 .f32 :=
  Cert.TailSpec.tailR (refValid (F := Ideal) x2) (refNEdge (F := Ideal) x2)
    (refKL (refSE x0 x2) (refTE x1 x2)) (refKL (refSB x0 x2) (refTB x1 x2))

/-! ## The class regions -/

theorem st_v0 (V : Valuation τ sig (Elt Ideal)) : R V main_v0 = refV0 (F := Ideal) := eq_main_v0 V
theorem st_c (V : Valuation τ sig (Elt Ideal)) : R V main_c = refC (F := Ideal) := eq_main_c V
theorem st_v1 (V : Valuation τ sig (Elt Ideal)) : R V main_v1 = refV1 (F := Ideal) := by
  rw [eq_main_v1, st_c]; rfl
theorem st_v2 (V : Valuation τ sig (Elt Ideal)) : R V main_v2 = refV2 (F := Ideal) := by
  rw [eq_main_v2, st_v1, st_v0]; rfl
theorem st_v3 (V : Valuation τ sig (Elt Ideal)) : R V main_v3 = refV3 (F := Ideal) (X2 V) := by
  rw [eq_main_v3]; rfl
theorem st_v4 (V : Valuation τ sig (Elt Ideal)) : R V main_v4 = refV4 (F := Ideal) (X2 V) := by
  rw [eq_main_v4, st_v3]; rfl
theorem st_v5 (V : Valuation τ sig (Elt Ideal)) : R V main_v5 = refV5 (F := Ideal) := by
  rw [eq_main_v5, st_v2]; rfl
theorem st_v6 (V : Valuation τ sig (Elt Ideal)) : R V main_v6 = refV6 (F := Ideal) (X2 V) := by
  rw [eq_main_v6, st_v4]; rfl
theorem st_v7 (V : Valuation τ sig (Elt Ideal)) : R V main_v7 = refV7 (F := Ideal) := by
  rw [eq_main_v7, st_v5]; rfl
/-- The class regions. -/
theorem st_v8 (V : Valuation τ sig (Elt Ideal)) : R V main_v8 = refLbl (F := Ideal) (X2 V) := by
  rw [eq_main_v8, st_v6, st_v7]; rfl

/-! ## Dilation, erosion, edge and body -/

theorem st_c_0 (V : Valuation τ sig (Elt Ideal)) : R V main_c_0 = refC0 (F := Ideal) := eq_main_c_0 V
theorem st_c_1 (V : Valuation τ sig (Elt Ideal)) : R V main_c_1 = refC0 (F := Ideal) := eq_main_c_1 V
/-- The padded regions the dilation reads … -/
theorem st_v9 (V : Valuation τ sig (Elt Ideal)) : R V main_v9 = refPadded (F := Ideal) (X2 V) := by
  rw [eq_main_v9, st_v8, st_c_0]; rfl
/-- … and the ones the erosion reads: the same array. -/
theorem st_v19 (V : Valuation τ sig (Elt Ideal)) : R V main_v19 = refPadded (F := Ideal) (X2 V) := by
  rw [eq_main_v19, st_v8, st_c_1]; rfl
theorem st_v10 (V : Valuation τ sig (Elt Ideal)) : R V main_v10 = refWinC (F := Ideal) (X2 V) := by
  rw [eq_main_v10, st_v9]; rfl
theorem st_v11 (V : Valuation τ sig (Elt Ideal)) : R V main_v11 = refWinU (F := Ideal) (X2 V) := by
  rw [eq_main_v11, st_v9]; rfl
theorem st_v13 (V : Valuation τ sig (Elt Ideal)) : R V main_v13 = refWinD (F := Ideal) (X2 V) := by
  rw [eq_main_v13, st_v9]; rfl
theorem st_v15 (V : Valuation τ sig (Elt Ideal)) : R V main_v15 = refWinL (F := Ideal) (X2 V) := by
  rw [eq_main_v15, st_v9]; rfl
theorem st_v17 (V : Valuation τ sig (Elt Ideal)) : R V main_v17 = refWinR (F := Ideal) (X2 V) := by
  rw [eq_main_v17, st_v9]; rfl
theorem st_v20 (V : Valuation τ sig (Elt Ideal)) : R V main_v20 = refWinC (F := Ideal) (X2 V) := by
  rw [eq_main_v20, st_v19]; rfl
theorem st_v21 (V : Valuation τ sig (Elt Ideal)) : R V main_v21 = refWinU (F := Ideal) (X2 V) := by
  rw [eq_main_v21, st_v19]; rfl
theorem st_v23 (V : Valuation τ sig (Elt Ideal)) : R V main_v23 = refWinD (F := Ideal) (X2 V) := by
  rw [eq_main_v23, st_v19]; rfl
theorem st_v25 (V : Valuation τ sig (Elt Ideal)) : R V main_v25 = refWinL (F := Ideal) (X2 V) := by
  rw [eq_main_v25, st_v19]; rfl
theorem st_v27 (V : Valuation τ sig (Elt Ideal)) : R V main_v27 = refWinR (F := Ideal) (X2 V) := by
  rw [eq_main_v27, st_v19]; rfl
/-- The dilation. -/
theorem st_v18 (V : Valuation τ sig (Elt Ideal)) : R V main_v18 = refDil (F := Ideal) (X2 V) := by
  rw [eq_main_v18, eq_main_v16, eq_main_v14, eq_main_v12, st_v10, st_v11, st_v13, st_v15, st_v17]; rfl
/-- The erosion. -/
theorem st_v28 (V : Valuation τ sig (Elt Ideal)) : R V main_v28 = refEro (F := Ideal) (X2 V) := by
  rw [eq_main_v28, eq_main_v26, eq_main_v24, eq_main_v22, st_v20, st_v21, st_v23, st_v25, st_v27]; rfl
/-- The edge. -/
theorem st_v29 (V : Valuation τ sig (Elt Ideal)) : R V main_v29 = refEdge (F := Ideal) (X2 V) := by
  rw [eq_main_v29, st_v18, st_v28]; rfl
/-- The body. -/
theorem st_v31 (V : Valuation τ sig (Elt Ideal)) : R V main_v31 = refBody (F := Ideal) (X2 V) := by
  rw [eq_main_v31, eq_main_v30, st_v29, st_v8]; rfl

/-! ## The edge counts and the per-plane number of edge pixels -/

theorem st_v33 (V : Valuation τ sig (Elt Ideal)) : R V main_v33 = refCntI (F := Ideal) (X2 V) := by
  rw [eq_main_v33, eq_main_v32, eq_main_c_2, st_v29]; rfl
/-- "The class has an edge in the plane". -/
theorem st_v35 (V : Valuation τ sig (Elt Ideal)) : R V main_v35 = refValid (F := Ideal) (X2 V) := by
  rw [eq_main_v35, eq_main_v34, eq_main_c_3, st_v33]; rfl
theorem st_v72 (V : Valuation τ sig (Elt Ideal)) : R V main_v72 = refV72 (F := Ideal) (X2 V) := by
  rw [eq_main_v72, eq_main_call6_v1, eq_main_call6_v0, eq_main_c_11, st_v35, st_v33]; rfl
/-- The per-plane number of edge pixels, as a number. -/
theorem st_v74 (V : Valuation τ sig (Elt Ideal)) : R V main_v74 = refNEdge (F := Ideal) (X2 V) := by
  rw [eq_main_v74, eq_main_v73, eq_main_c_12, st_v72]; rfl

/-! ## The masked logits -/

theorem st_v36 (V : Valuation τ sig (Elt Ideal)) : R V main_v36 = refEdgeF (F := Ideal) (X2 V) := by
  rw [eq_main_v36, st_v29]; rfl
theorem st_v37 (V : Valuation τ sig (Elt Ideal)) : R V main_v37 = refBodyF (F := Ideal) (X2 V) := by
  rw [eq_main_v37, st_v31]; rfl
theorem st_v38 (V : Valuation τ sig (Elt Ideal)) : R V main_v38 = refCh (X0 V) := by
  rw [eq_main_v38]; rfl
theorem st_v39 (V : Valuation τ sig (Elt Ideal)) : R V main_v39 = refCh (X1 V) := by
  rw [eq_main_v39]; rfl
theorem st_v41 (V : Valuation τ sig (Elt Ideal)) : R V main_v41 = refSE (X0 V) (X2 V) := by
  rw [eq_main_v41, eq_main_v40, st_v38, st_v36]; rfl
theorem st_v43 (V : Valuation τ sig (Elt Ideal)) : R V main_v43 = refTE (X1 V) (X2 V) := by
  rw [eq_main_v43, eq_main_v42, st_v39, st_v36]; rfl
theorem st_v57 (V : Valuation τ sig (Elt Ideal)) : R V main_v57 = refSB (X0 V) (X2 V) := by
  rw [eq_main_v57, eq_main_v56, st_v38, st_v37]; rfl
theorem st_v59 (V : Valuation τ sig (Elt Ideal)) : R V main_v59 = refTB (X1 V) (X2 V) := by
  rw [eq_main_v59, eq_main_v58, st_v39, st_v37]; rfl

/-! ## The four log-softmaxes and the two divergence arrays -/

theorem st_v45 (V : Valuation τ sig (Elt Ideal)) : R V main_v45 = Host.divf (refSE (X0 V) (X2 V)) ones3 := by
  rw [eq_main_v45, eq_main_v44, eq_main_cst, st_v41]; rfl
theorem st_v48 (V : Valuation τ sig (Elt Ideal)) : R V main_v48 = Host.divf (refTE (X1 V) (X2 V)) ones3 := by
  rw [eq_main_v48, eq_main_v47, eq_main_cst_4, st_v43]; rfl
theorem st_v61 (V : Valuation τ sig (Elt Ideal)) : R V main_v61 = Host.divf (refSB (X0 V) (X2 V)) ones3 := by
  rw [eq_main_v61, eq_main_v60, eq_main_cst_7, st_v57]; rfl
theorem st_v64 (V : Valuation τ sig (Elt Ideal)) : R V main_v64 = Host.divf (refTB (X1 V) (X2 V)) ones3 := by
  rw [eq_main_v64, eq_main_v63, eq_main_cst_8, st_v59]; rfl

/-- The log-softmax the reference calls, read off its fifteen operations. -/
theorem st_main_v46 (V : Valuation τ sig (Elt Ideal)) : R V main_v46 = lsm (Host.divf (refSE (X0 V) (X2 V)) ones3) := by
  rw [eq_main_v46, eq_main_call2_v10, eq_main_call2_v9, eq_main_call2_v8, eq_main_call2_v7, eq_main_call2_cst_1,
    eq_main_call2_v6, eq_main_call2_v5, eq_main_call2_v4, eq_main_call2_v3, eq_main_call2_v2, eq_main_call2_v1,
    eq_main_call2_cst_0, eq_main_call2_v0, eq_main_call2_cst, st_v45]
  rfl

/-- The log-softmax the reference calls, read off its fifteen operations. -/
theorem st_main_v49 (V : Valuation τ sig (Elt Ideal)) : R V main_v49 = lsm (Host.divf (refTE (X1 V) (X2 V)) ones3) := by
  rw [eq_main_v49, eq_main_call3_v10, eq_main_call3_v9, eq_main_call3_v8, eq_main_call3_v7, eq_main_call3_cst_1,
    eq_main_call3_v6, eq_main_call3_v5, eq_main_call3_v4, eq_main_call3_v3, eq_main_call3_v2, eq_main_call3_v1,
    eq_main_call3_cst_0, eq_main_call3_v0, eq_main_call3_cst, st_v48]
  rfl

/-- The log-softmax the reference calls, read off its fifteen operations. -/
theorem st_main_v62 (V : Valuation τ sig (Elt Ideal)) : R V main_v62 = lsm (Host.divf (refSB (X0 V) (X2 V)) ones3) := by
  rw [eq_main_v62, eq_main_call4_v10, eq_main_call4_v9, eq_main_call4_v8, eq_main_call4_v7, eq_main_call4_cst_1,
    eq_main_call4_v6, eq_main_call4_v5, eq_main_call4_v4, eq_main_call4_v3, eq_main_call4_v2, eq_main_call4_v1,
    eq_main_call4_cst_0, eq_main_call4_v0, eq_main_call4_cst, st_v61]
  rfl

/-- The log-softmax the reference calls, read off its fifteen operations. -/
theorem st_main_v65 (V : Valuation τ sig (Elt Ideal)) : R V main_v65 = lsm (Host.divf (refTB (X1 V) (X2 V)) ones3) := by
  rw [eq_main_v65, eq_main_call5_v10, eq_main_call5_v9, eq_main_call5_v8, eq_main_call5_v7, eq_main_call5_cst_1,
    eq_main_call5_v6, eq_main_call5_v5, eq_main_call5_v4, eq_main_call5_v3, eq_main_call5_v2, eq_main_call5_v1,
    eq_main_call5_cst_0, eq_main_call5_v0, eq_main_call5_cst, st_v64]
  rfl

/-- The divergence array of the edge logits. -/
theorem st_v55 (V : Valuation τ sig (Elt Ideal)) : R V main_v55 = refKL (refSE (X0 V) (X2 V)) (refTE (X1 V) (X2 V)) := by
  rw [eq_main_v55, eq_main_v54, eq_main_cst_6, eq_main_v53, eq_main_cst_5, eq_main_v52, eq_main_v51, eq_main_v50,
    st_main_v49, st_main_v46]
  rfl
/-- The divergence array of the body logits. -/
theorem st_v71 (V : Valuation τ sig (Elt Ideal)) : R V main_v71 = refKL (refSB (X0 V) (X2 V)) (refTB (X1 V) (X2 V)) := by
  rw [eq_main_v71, eq_main_v70, eq_main_cst_10, eq_main_v69, eq_main_cst_9, eq_main_v68, eq_main_v67, eq_main_v66,
    st_main_v65, st_main_v62]
  rfl

/-! ## The last stage -/

/-- The edge divergences where the class has an edge, summed per plane. -/
theorem st_v76 (V : Valuation τ sig (Elt Ideal)) : R V main_v76
    = Cert.TailSpec.sumE (refValid (F := Ideal) (X2 V)) (refKL (refSE (X0 V) (X2 V)) (refTE (X1 V) (X2 V))) := by
  rw [eq_main_v76, eq_main_cst_14, eq_main_v75, eq_main_call7_v1, eq_main_call7_v0, eq_main_cst_13, st_v35, st_v55]
  rfl
/-- The first number before its scaling. -/
theorem st_v83 (V : Valuation τ sig (Elt Ideal)) : R V main_v83
    = Cert.TailSpec.totalE (refValid (F := Ideal) (X2 V)) (refNEdge (F := Ideal) (X2 V))
        (refKL (refSE (X0 V) (X2 V)) (refTE (X1 V) (X2 V))) := by
  rw [eq_main_v83, eq_main_cst_18, eq_main_v82, eq_main_call8_v1, eq_main_call8_v0, eq_main_cst_17, eq_main_v81,
    eq_main_v80, eq_main_v79, eq_main_cst_16, eq_main_v78, eq_main_v77, eq_main_cst_15, st_v76, st_v74]
  rfl
/-- The second number before its scaling. -/
theorem st_v85 (V : Valuation τ sig (Elt Ideal)) : R V main_v85
    = Cert.TailSpec.totalB (refValid (F := Ideal) (X2 V)) (refKL (refSB (X0 V) (X2 V)) (refTB (X1 V) (X2 V))) := by
  rw [eq_main_v85, eq_main_cst_20, eq_main_v84, eq_main_call9_v1, eq_main_call9_v0, eq_main_cst_19, st_v35, st_v71]
  rfl

/-- The reference's result buffer ends at the last stage applied to the arrays of the three arguments. -/
theorem st_v92 (V : Valuation τ sig (Elt Ideal)) : R V main_v92 = resultV (R V main_arg0) (R V main_arg1) (R V main_arg2) := by
  rw [eq_main_v92, eq_main_v91, eq_main_v90, eq_main_v89, eq_main_cst_24, eq_main_v88, eq_main_cst_23, eq_main_v87,
    eq_main_cst_22, eq_main_v86, eq_main_cst_21, st_v83, st_v85]
  rfl

/-! ## The run -/

/-- The result of the reference from launch memory `m` on device `c`: the last stage applied to the arrays of the
    three arguments as launched. -/
def result (m : (ℓ : Loc nD τ sig) → Buf (Elt Ideal) ℓ) (c : Dev nD) : Buf (Elt Ideal) ((c.tc : Thread nD τ).loc main_v92) :=
  resultV (m ((c.tc : Thread nD τ).loc main_arg0)) (m ((c.tc : Thread nD τ).loc main_arg1))
    (m ((c.tc : Thread nD τ).loc main_arg2))

/-- From any memory with zero counters every weakly fair execution of the reference terminates, with the result buffer
    at the last stage of the launched arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ c : Dev nD,
        r.2.mem ((c.tc : Thread nD τ).loc main_v92) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c =>
    ⟨(h c main_v92).trans ((st_v92 _).trans (by rw [R_arg0, R_arg1, R_arg2]; rfl)),
      (h c main_arg0).trans (R_arg0 _), (h c main_arg1).trans (R_arg1 _), (h c main_arg2).trans (R_arg2 _)⟩)
    (run_after m ρ)

end Cert.RFinal

end
-- ==== Proof.KMask.lean ====
/-
  The mask arithmetic of one class region in one 512 by 512 plane, read pixel by pixel.

  The staged label plane is compared with the class number, giving a word that is 1 on the region and 0 off it.
  Four copies shifted by one pixel (a zero row or column coming in at the border) give the four neighbours; the
  running maximum of the five words is the dilation, their running product the erosion, the difference the edge.
-/
import proofs.«165479_j24979529793863_2_alg».proof.Proof.Gen.KernelIdeal.Skeleton
import proofs.«165479_j24979529793863_2_alg».proof.Proof.SpecMask
import proofs.«165479_j24979529793863_2_alg».proof.Proof.LibERealSum
import Idealize.ShloMosaic.Lib.ValueIdx
import Idealize.ShloMosaic.Lib.Pipeline.Value
import Idealize.ShloMosaic.PureOps.Ideal.Laws

noncomputable section

namespace Cert.KMask

open Idealize.ShloMosaic Idealize.ShloMosaic.ValueIdx Cert.KernelIdeal Cert.KernelIdeal.Gen Cert.Spec

variable {F : FTy → Type} [FloatOps F]

/-- The region of the grid point's class in the staged label plane: pixel (h, w) carries the class number
    (the grid's second coordinate plus one). Outside the plane: false. -/
def planeRegion (i : grid0.Coords) (v6 : Vec F S1x1x512x512 .i32) : Nat → Nat → Bool := fun h w =>
  if hw : h < 512 ∧ w < 512 then
    decide (v6 (ix4 (0 : Fin 1) (0 : Fin 1) (⟨h, hw.1⟩ : Fin 512) (⟨w, hw.2⟩ : Fin 512)) = BitVec.ofNat 32 ((i 1).val + 1))
  else false

/-- The class number as a word: adding the word 1 to the word of c is the word of c + 1. -/
theorem addi_ofNat_one (c : Nat) : Scalar.addi (BitVec.ofNat 32 c) 1#32 = BitVec.ofNat 32 (c + 1) := by
  show BitVec.ofNat 32 c + BitVec.ofNat 32 1 = BitVec.ofNat 32 (c + 1)
  rw [← BitVec.ofNat_add]

/-- A one-bit truth value widened to 32 bits is the word 1 or 0. -/
theorem setWidth_ofBool (b : Bool) : (BitVec.ofBool b).setWidth 32 = if b then 1#32 else 0#32 := by
  cases b <;> decide

/-- The label plane as a 512 by 512 array is the staged block at the same pixel. -/
theorem plane_apply (v6 : Vec F S1x1x512x512 .i32) (h w : Fin 512) :
    shapeCast S512x512 v6 shapeCasts_S1x1x512x512_S512x512 (ix2 h w) = v6 (ix4 (0 : Fin 1) (0 : Fin 1) h w) :=
  shapeCast_apply v6 shapeCasts_S1x1x512x512_S512x512 (ix2 h w) (ix4 (0 : Fin 1) (0 : Fin 1) h w) (by
    rw [Shape.rowMajor_val_four, Shape.rowMajor_val_two]
    show ((0 * 1 + 0) * 512 + h.val) * 512 + w.val = h.val * 512 + w.val
    omega)

/-- The region word: 1 on the class region, 0 off it. -/
theorem pay5_apply (i : grid0.Coords) (v6 : Vec F S1x1x512x512 .i32) (h w : Fin 512) :
    k0_pay5 i v6 (ix2 h w) = if planeRegion i v6 h.val w.val then 1#32 else 0#32 := by
  have e1 : k0_pay5 i v6 (ix2 h w)
      = (BitVec.ofBool (shapeCast S512x512 v6 shapeCasts_S1x1x512x512_S512x512 (ix2 h w)
            == Scalar.addi (BitVec.ofNat 32 (i 1).val) 1#32)).setWidth 32 := rfl
  rw [e1, plane_apply, addi_ofNat_one, setWidth_ofBool]
  have e2 : planeRegion i v6 h.val w.val
      = decide (v6 (ix4 (0 : Fin 1) (0 : Fin 1) h w) = BitVec.ofNat 32 ((i 1).val + 1)) := by
    unfold planeRegion
    rw [dif_pos ⟨h.isLt, w.isLt⟩]
  rw [e2]
  by_cases hq : v6 (ix4 (0 : Fin 1) (0 : Fin 1) h w) = BitVec.ofNat 32 ((i 1).val + 1)
  · simp [hq]
  · simp [hq]

/-! ## The four shifted copies of a plane, read at a pixel -/

section Shift
variable {α : Type}

/-- Shifted down by one row (a row of z coming in on top): pixel (h, w) holds the pixel above, z in row 0. -/
theorem shiftUp_apply (x : S512x512.Idx → α) (z : α) (h w : Fin 512) :
    concatenate S512x512 0 [⟨S1x512, broadcast S1x512 z⟩,
        ⟨S511x512, extractStridedSlice S511x512 ![0, 0] x slices_S512x512_o0_0_S511x512⟩]
      concatenates_S1x512_S511x512_S512x512_d0 (ix2 h w)
      = if h0 : h.val = 0 then z else x (ix2 (⟨h.val - 1, by omega⟩ : Fin 512) w) := by
  by_cases h0 : h.val = 0
  · rw [dif_pos h0]
    exact concatenate_pair_apply_left (0 : Fin S512x512.rank) _ _ concatenates_S1x512_S511x512_S512x512_d0 (ix2 h w) rfl
      (ix2 (0 : Fin 1) w)
      (fun b => match b with
        | ⟨0, _⟩ => by show 0 = h.val; omega
        | ⟨1, _⟩ => rfl)
  · rw [dif_neg h0]
    refine (concatenate_pair_apply_right (0 : Fin S512x512.rank) _ _ concatenates_S1x512_S511x512_S512x512_d0 (ix2 h w) rfl rfl
      (ix2 (⟨h.val - 1, by omega⟩ : Fin 511) w)
      (fun b => match b with
        | ⟨0, _⟩ => fun hb => absurd rfl hb
        | ⟨1, _⟩ => fun _ => rfl)
      (by show h.val - 1 + 1 = h.val; omega)).trans ?_
    exact extractStridedSlice_apply _ x _ _ (ix2 (⟨h.val - 1, by omega⟩ : Fin 512) w)
      (fun a => match a with
        | ⟨0, _⟩ => by show h.val - 1 = 0 + (h.val - 1); omega
        | ⟨1, _⟩ => by show w.val = 0 + w.val; omega)

/-- Shifted up by one row (a row of z coming in at the bottom): pixel (h, w) holds the pixel below, z in row 511. -/
theorem shiftDown_apply (x : S512x512.Idx → α) (z : α) (h w : Fin 512) :
    concatenate S512x512 0 [⟨S511x512, extractStridedSlice S511x512 ![1, 0] x slices_S512x512_o1_0_S511x512⟩,
        ⟨S1x512, broadcast S1x512 z⟩]
      concatenates_S511x512_S1x512_S512x512_d0 (ix2 h w)
      = if h1 : h.val < 511 then x (ix2 (⟨h.val + 1, by omega⟩ : Fin 512) w) else z := by
  by_cases h1 : h.val < 511
  · rw [dif_pos h1]
    refine (concatenate_pair_apply_left (0 : Fin S512x512.rank) _ _ concatenates_S511x512_S1x512_S512x512_d0 (ix2 h w) rfl
      (ix2 (⟨h.val, h1⟩ : Fin 511) w)
      (fun b => match b with
        | ⟨0, _⟩ => rfl
        | ⟨1, _⟩ => rfl)).trans ?_
    exact extractStridedSlice_apply _ x _ _ (ix2 (⟨h.val + 1, by omega⟩ : Fin 512) w)
      (fun a => match a with
        | ⟨0, _⟩ => by show h.val + 1 = 1 + h.val; omega
        | ⟨1, _⟩ => by show w.val = 0 + w.val; omega)
  · rw [dif_neg h1]
    exact concatenate_pair_apply_right (0 : Fin S512x512.rank) _ _ concatenates_S511x512_S1x512_S512x512_d0 (ix2 h w) rfl rfl
      (ix2 (0 : Fin 1) w)
      (fun b => match b with
        | ⟨0, _⟩ => fun hb => absurd rfl hb
        | ⟨1, _⟩ => fun _ => rfl)
      (by show 0 + 511 = h.val; have := h.isLt; omega)

/-- Shifted right by one column (a column of z coming in on the left): pixel (h, w) holds the pixel to its left. -/
theorem shiftLeft_apply (x : S512x512.Idx → α) (z : α) (h w : Fin 512) :
    concatenate S512x512 1 [⟨S512x1, broadcast S512x1 z⟩,
        ⟨S512x511, extractStridedSlice S512x511 ![0, 0] x slices_S512x512_o0_0_S512x511⟩]
      concatenates_S512x1_S512x511_S512x512_d1 (ix2 h w)
      = if w0 : w.val = 0 then z else x (ix2 h (⟨w.val - 1, by omega⟩ : Fin 512)) := by
  by_cases w0 : w.val = 0
  · rw [dif_pos w0]
    exact concatenate_pair_apply_left (1 : Fin S512x512.rank) _ _ concatenates_S512x1_S512x511_S512x512_d1 (ix2 h w) rfl
      (ix2 h (0 : Fin 1))
      (fun b => match b with
        | ⟨0, _⟩ => rfl
        | ⟨1, _⟩ => by show 0 = w.val; omega)
  · rw [dif_neg w0]
    refine (concatenate_pair_apply_right (1 : Fin S512x512.rank) _ _ concatenates_S512x1_S512x511_S512x512_d1 (ix2 h w) rfl rfl
      (ix2 h (⟨w.val - 1, by omega⟩ : Fin 511))
      (fun b => match b with
        | ⟨0, _⟩ => fun _ => rfl
        | ⟨1, _⟩ => fun hb => absurd rfl hb)
      (by show w.val - 1 + 1 = w.val; omega)).trans ?_
    exact extractStridedSlice_apply _ x _ _ (ix2 h (⟨w.val - 1, by omega⟩ : Fin 512))
      (fun a => match a with
        | ⟨0, _⟩ => by show h.val = 0 + h.val; omega
        | ⟨1, _⟩ => by show w.val - 1 = 0 + (w.val - 1); omega)

/-- Shifted left by one column (a column of z coming in on the right): pixel (h, w) holds the pixel to its right. -/
theorem shiftRight_apply (x : S512x512.Idx → α) (z : α) (h w : Fin 512) :
    concatenate S512x512 1 [⟨S512x511, extractStridedSlice S512x511 ![0, 1] x slices_S512x512_o0_1_S512x511⟩,
        ⟨S512x1, broadcast S512x1 z⟩]
      concatenates_S512x511_S512x1_S512x512_d1 (ix2 h w)
      = if w1 : w.val < 511 then x (ix2 h (⟨w.val + 1, by omega⟩ : Fin 512)) else z := by
  by_cases w1 : w.val < 511
  · rw [dif_pos w1]
    refine (concatenate_pair_apply_left (1 : Fin S512x512.rank) _ _ concatenates_S512x511_S512x1_S512x512_d1 (ix2 h w) rfl
      (ix2 h (⟨w.val, w1⟩ : Fin 511))
      (fun b => match b with
        | ⟨0, _⟩ => rfl
        | ⟨1, _⟩ => rfl)).trans ?_
    exact extractStridedSlice_apply _ x _ _ (ix2 h (⟨w.val + 1, by omega⟩ : Fin 512))
      (fun a => match a with
        | ⟨0, _⟩ => by show h.val = 0 + h.val; omega
        | ⟨1, _⟩ => by show w.val + 1 = 1 + w.val; omega)
  · rw [dif_neg w1]
    exact concatenate_pair_apply_right (1 : Fin S512x512.rank) _ _ concatenates_S512x511_S512x1_S512x512_d1 (ix2 h w) rfl rfl
      (ix2 h (0 : Fin 1))
      (fun b => match b with
        | ⟨0, _⟩ => fun _ => rfl
        | ⟨1, _⟩ => fun hb => absurd rfl hb)
      (by show 0 + 511 = w.val; have := w.isLt; omega)

end Shift

/-! ## The edge word -/

/-- A truth value as a 32-bit word: 1 or 0. -/
abbrev bw (b : Bool) : BitVec 32 := if b then 1#32 else 0#32

/-- On words that are 0 or 1: the running maximum of five less their running product is the word of the exclusive
    or of their disjunction and their conjunction. -/
theorem cross_words (a b c d e : Bool) :
    IntOp.subi (IntOp.maxsi (IntOp.maxsi (IntOp.maxsi (IntOp.maxsi (bw a) (bw b)) (bw c)) (bw d)) (bw e))
        (IntOp.muli (IntOp.muli (IntOp.muli (IntOp.muli (bw a) (bw b)) (bw c)) (bw d)) (bw e))
      = bw (xor (a || b || c || d || e) (a && b && c && d && e)) := by
  cases a <;> cases b <;> cases c <;> cases d <;> cases e <;> decide

/-- On words that are 0 or 1: a less a times e is the word of "a and not e". -/
theorem body_words (a e : Bool) : IntOp.subi (bw a) (IntOp.muli (bw a) (bw e)) = bw (!e && a) := by
  cases a <;> cases e <;> decide

section Region
variable (i : grid0.Coords) (v6 : Vec F S1x1x512x512 .i32)

/-- Below the last row the region is empty. -/
theorem planeRegion_row_out (h w : Nat) (hh : ¬ h < 512) : planeRegion i v6 h w = false := by
  unfold planeRegion
  rw [dif_neg (fun hw => hh hw.1)]

/-- Right of the last column the region is empty. -/
theorem planeRegion_col_out (h w : Nat) (hh : ¬ w < 512) : planeRegion i v6 h w = false := by
  unfold planeRegion
  rw [dif_neg (fun hw => hh hw.2)]

theorem pay5_apply' (h w : Fin 512) : k0_pay5 i v6 (ix2 h w) = bw (planeRegion i v6 h.val w.val) :=
  pay5_apply i v6 h w

/-- The word of the neighbour above. -/
theorem up_word (h w : Fin 512) (z : h.val - 1 < 512) :
    (if h0 : h.val = 0 then 0#32 else k0_pay5 i v6 (ix2 (⟨h.val - 1, z⟩ : Fin 512) w))
      = bw (nUp (planeRegion i v6) h.val w.val) := by
  unfold nUp
  by_cases h0 : h.val = 0
  · rw [dif_pos h0]; simp [h0]
  · rw [dif_neg h0, pay5_apply']; simp [h0]

/-- The word of the neighbour below. -/
theorem down_word (h w : Fin 512) :
    (if h1 : h.val < 511 then k0_pay5 i v6 (ix2 (⟨h.val + 1, by omega⟩ : Fin 512) w) else 0#32)
      = bw (nDown (planeRegion i v6) h.val w.val) := by
  unfold nDown
  by_cases h1 : h.val < 511
  · rw [dif_pos h1, pay5_apply']
  · rw [dif_neg h1, planeRegion_row_out i v6 (h.val + 1) w.val (by omega)]; rfl

/-- The word of the neighbour to the left. -/
theorem left_word (h w : Fin 512) (z : w.val - 1 < 512) :
    (if w0 : w.val = 0 then 0#32 else k0_pay5 i v6 (ix2 h (⟨w.val - 1, z⟩ : Fin 512)))
      = bw (nLeft (planeRegion i v6) h.val w.val) := by
  unfold nLeft
  by_cases w0 : w.val = 0
  · rw [dif_pos w0]; simp [w0]
  · rw [dif_neg w0, pay5_apply']; simp [w0]

/-- The word of the neighbour to the right. -/
theorem right_word (h w : Fin 512) :
    (if w1 : w.val < 511 then k0_pay5 i v6 (ix2 h (⟨w.val + 1, by omega⟩ : Fin 512)) else 0#32)
      = bw (nRight (planeRegion i v6) h.val w.val) := by
  unfold nRight
  by_cases w1 : w.val < 511
  · rw [dif_pos w1, pay5_apply']
  · rw [dif_neg w1, planeRegion_col_out i v6 h.val (w.val + 1) (by omega)]; rfl

/-- The edge word: 1 on the edge of the class region, 0 off it. -/
theorem pay6_apply (h w : Fin 512) :
    k0_pay6 i v6 (ix2 h w) = if edge (planeRegion i v6) h.val w.val then 1#32 else 0#32 := by
  have e : k0_pay6 i v6 (ix2 h w) =
      IntOp.subi
        (IntOp.maxsi (IntOp.maxsi (IntOp.maxsi (IntOp.maxsi (k0_pay5 i v6 (ix2 h w))
          (concatenate S512x512 0 [⟨S1x512, broadcast S1x512 0#32⟩,
              ⟨S511x512, extractStridedSlice S511x512 ![0, 0] (k0_pay5 i v6) slices_S512x512_o0_0_S511x512⟩]
            concatenates_S1x512_S511x512_S512x512_d0 (ix2 h w)))
          (concatenate S512x512 0 [⟨S511x512, extractStridedSlice S511x512 ![1, 0] (k0_pay5 i v6) slices_S512x512_o1_0_S511x512⟩,
              ⟨S1x512, broadcast S1x512 0#32⟩]
            concatenates_S511x512_S1x512_S512x512_d0 (ix2 h w)))
          (concatenate S512x512 1 [⟨S512x1, broadcast S512x1 0#32⟩,
              ⟨S512x511, extractStridedSlice S512x511 ![0, 0] (k0_pay5 i v6) slices_S512x512_o0_0_S512x511⟩]
            concatenates_S512x1_S512x511_S512x512_d1 (ix2 h w)))
          (concatenate S512x512 1 [⟨S512x511, extractStridedSlice S512x511 ![0, 1] (k0_pay5 i v6) slices_S512x512_o0_1_S512x511⟩,
              ⟨S512x1, broadcast S512x1 0#32⟩]
            concatenates_S512x511_S512x1_S512x512_d1 (ix2 h w)))
        (IntOp.muli (IntOp.muli (IntOp.muli (IntOp.muli (k0_pay5 i v6 (ix2 h w))
          (concatenate S512x512 0 [⟨S1x512, broadcast S1x512 0#32⟩,
              ⟨S511x512, extractStridedSlice S511x512 ![0, 0] (k0_pay5 i v6) slices_S512x512_o0_0_S511x512⟩]
            concatenates_S1x512_S511x512_S512x512_d0 (ix2 h w)))
          (concatenate S512x512 0 [⟨S511x512, extractStridedSlice S511x512 ![1, 0] (k0_pay5 i v6) slices_S512x512_o1_0_S511x512⟩,
              ⟨S1x512, broadcast S1x512 0#32⟩]
            concatenates_S511x512_S1x512_S512x512_d0 (ix2 h w)))
          (concatenate S512x512 1 [⟨S512x1, broadcast S512x1 0#32⟩,
              ⟨S512x511, extractStridedSlice S512x511 ![0, 0] (k0_pay5 i v6) slices_S512x512_o0_0_S512x511⟩]
            concatenates_S512x1_S512x511_S512x512_d1 (ix2 h w)))
          (concatenate S512x512 1 [⟨S512x511, extractStridedSlice S512x511 ![0, 1] (k0_pay5 i v6) slices_S512x512_o0_1_S512x511⟩,
              ⟨S512x1, broadcast S512x1 0#32⟩]
            concatenates_S512x511_S512x1_S512x512_d1 (ix2 h w))) := rfl
  rw [e, shiftUp_apply, shiftDown_apply, shiftLeft_apply, shiftRight_apply,
    up_word, down_word, left_word, right_word, pay5_apply']
  exact cross_words _ _ _ _ _

end Region

/-! ## The edge and body masks as numbers -/

/-- The signed value of a 0/1 word. -/
theorem toInt_bw (b : Bool) : (bw b).toInt = if b then 1 else 0 := by
  cases b <;> decide

/-- The signed value of a 0/1 word, as a real number, is the mask value. -/
theorem toInt_bw_real (b : Bool) : (((bw b).toInt : ℤ) : ℝ) = ind b := by
  rw [toInt_bw]
  cases b <;> simp [ind]

section RegionIdeal
variable (i : grid0.Coords) (v6 : Vec Ideal S1x1x512x512 .i32)

/-- The edge mask as a number. -/
theorem pay7_apply (h w : Fin 512) :
    k0_pay7 i v6 (ix2 h w) = ((ind (edge (planeRegion i v6) h.val w.val) : ℝ) : EReal) := by
  have e : k0_pay7 i v6 (ix2 h w) = ((((k0_pay6 i v6 (ix2 h w)).toInt : ℤ) : ℝ) : EReal) := rfl
  rw [e, pay6_apply]
  exact congrArg (fun r : ℝ => (r : EReal)) (toInt_bw_real _)

/-- The body mask as a number. -/
theorem pay8_apply (h w : Fin 512) :
    k0_pay8 i v6 (ix2 h w) = ((ind (body (planeRegion i v6) h.val w.val) : ℝ) : EReal) := by
  have e : k0_pay8 i v6 (ix2 h w)
      = ((((IntOp.subi (k0_pay5 i v6 (ix2 h w)) (IntOp.muli (k0_pay5 i v6 (ix2 h w)) (k0_pay6 i v6 (ix2 h w)))).toInt : ℤ) : ℝ) : EReal) := rfl
  rw [e, pay5_apply', pay6_apply]
  refine (congrArg (fun z : BitVec 32 => (((z.toInt : ℤ) : ℝ) : EReal)) (body_words _ _)).trans ?_
  exact congrArg (fun r : ℝ => (r : EReal)) (toInt_bw_real _)

end RegionIdeal

/-! ## Sums and maxima over the pixels of a plane -/

/-- The pixels of a one-plane block are the pairs of a row and a column. -/
def planeEquiv : S1x512x512.Idx ≃ Fin 512 × Fin 512 where
  toFun j := (j 1, j 2)
  invFun p := ix3 (0 : Fin 1) p.1 p.2
  left_inv j := by
    funext a
    match a with
    | ⟨0, _⟩ => exact Subsingleton.elim (α := Fin 1) _ _
    | ⟨1, _⟩ => rfl
    | ⟨2, _⟩ => rfl
  right_inv _ := rfl

/-- A sum over the pixels of a one-plane block is the sum over rows and columns. -/
theorem sum_plane {M : Type*} [AddCommMonoid M] (f : S1x512x512.Idx → M) :
    ∑ j, f j = ∑ p : Fin 512 × Fin 512, f (ix3 (0 : Fin 1) p.1 p.2) :=
  (Equiv.sum_comp planeEquiv.symm f).symm

/-- A fold of a commutative associative operation over the pixels of a one-plane block is the fold over rows and
    columns. -/
theorem fold_plane {β : Type*} (op : β → β → β) [Std.Commutative op] [Std.Associative op] (b : β) (f : S1x512x512.Idx → β) :
    (Finset.univ : Finset S1x512x512.Idx).fold op b f
      = (Finset.univ : Finset (Fin 512 × Fin 512)).fold op b (fun p => f (ix3 (0 : Fin 1) p.1 p.2)) := by
  rw [← Finset.map_univ_equiv planeEquiv.symm, Finset.fold_map]
  rfl

/-- The maximum over the pixels of a one-plane block is the maximum over rows and columns. -/
theorem fold_max_plane (f : S1x512x512.Idx → EReal) :
    (Finset.univ : Finset S1x512x512.Idx).fold max ⊥ f
      = (Finset.univ : Finset (Fin 512 × Fin 512)).fold max ⊥ (fun p => f (ix3 (0 : Fin 1) p.1 p.2)) :=
  fold_plane max ⊥ f

/-- A 512 by 512 array as a one-plane block is the array at the same pixel. -/
theorem plane3_apply {α : Type} (x : S512x512.Idx → α) (h w : Fin 512) :
    shapeCast S1x512x512 x shapeCasts_S512x512_S1x512x512 (ix3 (0 : Fin 1) h w) = x (ix2 h w) :=
  shapeCast_apply x shapeCasts_S512x512_S1x512x512 (ix3 (0 : Fin 1) h w) (ix2 h w) (by
    rw [Shape.rowMajor_val_three, Shape.rowMajor_val_two]
    show h.val * 512 + w.val = (0 * 512 + h.val) * 512 + w.val
    omega)

/-- The sum of the edge mask over the plane is the number of edge pixels. -/
theorem edge_count (i : grid0.Coords) (v6 : Vec Ideal S1x1x512x512 .i32) :
    multiReduction (F := Ideal) .add [1, 2] S1 (shapeCast S1x512x512 (k0_pay7 i v6) shapeCasts_S512x512_S1x512x512)
        0x00000000#32 reduces_S1x512x512_S1 (.inl rfl) rfl (ix1 (0 : Fin 1))
      = ((edgeCount (planeRegion i v6) : ℝ) : EReal) := by
  refine (Ideal.multiReduction_add_total _ _ reduces_S1x512x512_S1 (fun b => match b with | ⟨0, _⟩ => rfl) (.inl rfl) rfl _).trans ?_
  rw [sum_plane]
  refine (ERealSum.sum_eq_coe Finset.univ _
    (fun p : Fin 512 × Fin 512 => ind (edge (planeRegion i v6) p.1.val p.2.val)) (fun p _ => ?_)).trans ?_
  · exact (plane3_apply _ p.1 p.2).trans (pay7_apply i v6 p.1 p.2)
  · refine congrArg (fun r : ℝ => (r : EReal)) ?_
    unfold edgeCount ind
    rw [Finset.sum_boole]

end Cert.KMask

end
-- ==== Proof.KKL.lean ====
/-
  The accumulation of one grid point's numbers into the 4 by 13 tables, and the Kullback-Leibler numbers of the
  masked planes.

  A table entry (b', c') receives the grid point's number exactly when (b', c') is the grid point (b, c): the two
  coordinate arrays are compared with the grid point's coordinates, and the number is selected against zero
  before the addition.
-/
import proofs.«165479_j24979529793863_2_alg».proof.Proof.KMask
import proofs.«165479_j24979529793863_2_alg».proof.Proof.LibKL
import proofs.«165479_j24979529793863_2_alg».proof.Proof.Gen.KernelIdeal.Skeleton

noncomputable section

namespace Cert.KKL

open Idealize.ShloMosaic Idealize.ShloMosaic.ValueIdx Cert.KernelIdeal Cert.KernelIdeal.Gen Cert.Spec Cert.KMask

/-! ## The selection of the grid point's table entry -/

/-- Two numbers below 2^32 are equal as 32-bit words exactly when they are equal. -/
theorem ofNat_beq (x y : Nat) (hx : x < 4294967296) (hy : y < 4294967296) :
    (BitVec.ofNat 32 x == BitVec.ofNat 32 y) = decide (x = y) := by
  by_cases h : x = y
  · subst h; simp
  · have hne : BitVec.ofNat 32 x ≠ BitVec.ofNat 32 y := fun he => h (by
      have := congrArg BitVec.toNat he
      rw [BitVec.toNat_ofNat, BitVec.toNat_ofNat, Nat.mod_eq_of_lt (by omega), Nat.mod_eq_of_lt (by omega)] at this
      exact this)
    simp [h, hne]

/-- The conjunction of two one-bit truth values. -/
theorem andi_ofBool (p q : Bool) : IntOp.andi (BitVec.ofBool p) (BitVec.ofBool q) = BitVec.ofBool (p && q) := by
  cases p <;> cases q <;> decide

/-- A selection on a one-bit truth value. -/
theorem select_ofBool {α : Type} (p : Bool) (A B : α) : Scalar.select (BitVec.ofBool p) A B = if p then A else B := by
  cases p
  · exact if_neg (by decide)
  · exact if_pos rfl

/-- The mask of the table entry of the grid point (m, n): one bit, set at entry (m, n) only. -/
theorem pay33_apply (m n : Nat) (hm : m < 4294967296) (hn : n < 4294967296) (b' : Fin 4) (c' : Fin 13) :
    k0_pay33 (BitVec.ofNat 32 m) (BitVec.ofNat 32 n) (ix2 b' c')
      = BitVec.ofBool (decide (b'.val = m) && decide (c'.val = n)) := by
  have e : k0_pay33 (BitVec.ofNat 32 m) (BitVec.ofNat 32 n) (ix2 b' c')
      = IntOp.andi (BitVec.ofBool (iota .tc S4x13 32 [0] iota_S4x13_d0_w32 (ix2 b' c') == BitVec.ofNat 32 m))
          (BitVec.ofBool (iota .tc S4x13 32 [1] iota_S4x13_d1_w32 (ix2 b' c') == BitVec.ofNat 32 n)) := rfl
  rw [e, iota_single_apply, iota_single_apply, andi_ofBool]
  have e0 : (BitVec.ofNat 32 ((ix2 b' c' : S4x13.Idx) 0).val == BitVec.ofNat 32 m) = decide (b'.val = m) :=
    ofNat_beq b'.val m (by have := b'.isLt; omega) hm
  have e1 : (BitVec.ofNat 32 ((ix2 b' c' : S4x13.Idx) 1).val == BitVec.ofNat 32 n) = decide (c'.val = n) :=
    ofNat_beq c'.val n (by have := c'.isLt; omega) hn
  rw [e0, e1]

/-- The one entry of a one-entry vector, extracted through a 1 by 1 by 1 view. -/
theorem extract_scalar {α : Type} (v : S1.Idx → α) :
    extractAt ![0, 0, 0] (shapeCast S1x1x1 v shapeCasts_S1_S1x1x1) inpos_S1x1x1_p0_0_0 = v (ix1 (0 : Fin 1)) := by
  show shapeCast S1x1x1 v shapeCasts_S1_S1x1x1 (fun a => ⟨(![0, 0, 0] : Fin 3 → Nat) a, inpos_S1x1x1_p0_0_0 a⟩) = _
  refine shapeCast_apply v shapeCasts_S1_S1x1x1 _ (ix1 (0 : Fin 1)) ?_
  rw [Shape.rowMajor_val_one, Shape.rowMajor_val_three]
  rfl

/-- The selected number added to a table entry. -/
theorem accumulate_apply (m n : Nat) (hm : m < 4294967296) (hn : n < 4294967296) (v : EReal)
    (xs : Vec Ideal S4x13 .f32) (b' : Fin 4) (c' : Fin 13) :
    xs (ix2 b' c') + Scalar.select (k0_pay33 (BitVec.ofNat 32 m) (BitVec.ofNat 32 n) (ix2 b' c')) v
        (Scalar.ofBits (F := Ideal) .f32 0x00000000#32)
      = xs (ix2 b' c') + (if b'.val = m ∧ c'.val = n then v else 0) := by
  rw [pay33_apply m n hm hn, select_ofBool]
  have z : Scalar.ofBits (F := Ideal) .f32 0x00000000#32 = 0 := Ideal.ofBits_zero_f32
  rw [z]
  by_cases h0 : b'.val = m <;> by_cases h1 : c'.val = n <;> simp [h0, h1]

/-- The table update of the edge count, before the count is evaluated: the entry plus the selected total of the plane. -/
theorem pay34_struct (a0 a1 : BitVec 32) (v32 : FVec Ideal S512x512 .f32) (xs : Vec Ideal S4x13 .f32) (j : S4x13.Idx) :
    k0_pay34 a0 a1 v32 xs j
      = xs j + Scalar.select (k0_pay33 a0 a1 j)
          (extractAt ![0, 0, 0] (shapeCast S1x1x1
            (multiReduction (F := Ideal) .add [1, 2] S1 (shapeCast S1x512x512 v32 shapeCasts_S512x512_S1x512x512)
              0x00000000#32 reduces_S1x512x512_S1 (.inl rfl) rfl) shapeCasts_S1_S1x1x1) inpos_S1x1x1_p0_0_0)
          (Scalar.ofBits (F := Ideal) .f32 0x00000000#32) := by
  unfold k0_pay34
  dsimp only
  generalize multiReduction (F := Ideal) .add [1, 2] S1 (shapeCast S1x512x512 v32 shapeCasts_S512x512_S1x512x512)
      0x00000000#32 reduces_S1x512x512_S1 (.inl rfl) rfl = red
  exact congrFun (shapeCast_self _ shapeCasts_S4x13_S4x13) j

/-- The edge count added to its table: entry (b', c') grows by the number of edge pixels at the grid point's entry,
    by nothing elsewhere. -/
theorem pay34_apply (i : grid0.Coords) (x2 : Vec Ideal S1x1x512x512 .i32) (xs : Vec Ideal S4x13 .f32)
    (b' : Fin 4) (c' : Fin 13) :
    k0_pay34 (BitVec.ofNat 32 (i 0).val) (BitVec.ofNat 32 (i 1).val) (k0_pay7 i x2) xs (ix2 b' c')
      = xs (ix2 b' c')
        + (if b'.val = (i 0).val ∧ c'.val = (i 1).val then ((edgeCount (planeRegion i x2) : ℝ) : EReal) else 0) := by
  refine (pay34_struct _ _ _ _ _).trans ?_
  rw [extract_scalar, edge_count]
  exact accumulate_apply _ _ (by have h : (i 0).val < 4 := (i 0).isLt; omega) (by have h : (i 1).val < 13 := (i 1).isLt; omega) _ xs b' c'

/-! ## Table updates by a one-entry number -/

/-- A one-entry array spread over the table reads its one entry at every table entry. -/
theorem bcast11' {α : Type} (f : S1x1.Idx → α) (j : S4x13.Idx) :
    broadcastTo S4x13 f broadcasts_S1x1_S4x13 j = f (ix2 (0 : Fin 1) (0 : Fin 1)) :=
  broadcastTo_apply f broadcasts_S1x1_S4x13 j (ix2 (0 : Fin 1) (0 : Fin 1))
    (fun a => match a with | ⟨0, _⟩ => rfl | ⟨1, _⟩ => rfl)

/-- A table entry plus a selected one-entry number. -/
theorem sel_pt (m : IVec S4x13 1) (xs : FVec Ideal S4x13 .f32) (v : FVec Ideal S1x1 .f32) (z : EReal) (j : S4x13.Idx) :
    addf xs (select m (broadcastTo S4x13 (shapeCast S1x1 v shapeCasts_S1x1_S1x1) broadcasts_S1x1_S4x13) (broadcast S4x13 z)) j
      = xs j + Scalar.select (m j) (v (ix2 (0 : Fin 1) (0 : Fin 1))) z := by
  have e : broadcastTo S4x13 (shapeCast S1x1 v shapeCasts_S1x1_S1x1) broadcasts_S1x1_S4x13 j
      = v (ix2 (0 : Fin 1) (0 : Fin 1)) :=
    (bcast11' _ j).trans (congrFun (shapeCast_self v shapeCasts_S1x1_S1x1) _)
  exact congrArg (fun w => xs j + Scalar.select (m j) w z) e

/-- The table update of a one-entry number: the entry plus the number selected at the grid point's entry. -/
theorem pay35_struct (a0 a1 : BitVec 32) (v94 : FVec Ideal S1x1 .f32) (xs : Vec Ideal S4x13 .f32) (j : S4x13.Idx) :
    k0_pay35 a0 a1 v94 xs j
      = xs j + Scalar.select (k0_pay33 a0 a1 j) (v94 (ix2 (0 : Fin 1) (0 : Fin 1)))
          (Scalar.ofBits (F := Ideal) .f32 0x00000000#32) := by
  unfold k0_pay35
  try dsimp only
  refine (congrFun (shapeCast_self _ shapeCasts_S4x13_S4x13) j).trans ?_
  exact sel_pt (k0_pay33 a0 a1) xs v94 _ j

/-- The combination of four one-entry numbers, times a constant. -/
theorem comb_pt (v113 v128 v136 : FVec Ideal S1x1 .f32) (v141 c : EReal) (j : S1x1.Idx) :
    mulf (addf (subf v136 (broadcast S1x1 v141)) (subf v113 v128)) (broadcast S1x1 c) j
      = ((v136 j - v141) + (v113 j - v128 j)) * c := rfl

/-- The table update of the second number: the entry plus the combination selected at the grid point's entry. -/
theorem pay36_struct (a0 a1 : BitVec 32) (v113 v128 v136 : FVec Ideal S1x1 .f32) (v141 : EReal)
    (xs : Vec Ideal S4x13 .f32) (j : S4x13.Idx) :
    k0_pay1 (k0_pay36 a0 a1 v113 v128 v136 v141 xs) j
      = xs j + Scalar.select (k0_pay33 a0 a1 j)
          (((v136 (ix2 (0 : Fin 1) (0 : Fin 1)) - v141)
              + (v113 (ix2 (0 : Fin 1) (0 : Fin 1)) - v128 (ix2 (0 : Fin 1) (0 : Fin 1))))
            * Ideal.ofBits .f32 0x3F800000#32)
          (Scalar.ofBits (F := Ideal) .f32 0x00000000#32) := by
  unfold k0_pay1 k0_pay36
  try dsimp only
  refine (congrFun (shapeCast_self _ shapeCasts_S4x13_S4x13) j).trans ?_
  refine (sel_pt (k0_pay33 a0 a1) xs _ _ j).trans ?_
  exact congrArg (fun w => xs j + Scalar.select (k0_pay33 a0 a1 j) w (Scalar.ofBits (F := Ideal) .f32 0x00000000#32))
    (comb_pt v113 v128 v136 v141 _ _)

/-! ## The two Kullback-Leibler table updates, their numbers left as they are -/

/-- The update of a table by a one-entry number at the grid point's entry. -/
theorem kle_struct_gen (i : grid0.Coords) (V : FVec Ideal S1x1 .f32) (xs : Vec Ideal S4x13 .f32) (b' : Fin 4) (c' : Fin 13) :
    k0_pay35 (BitVec.ofNat 32 (i 0).val) (BitVec.ofNat 32 (i 1).val) V xs (ix2 b' c')
      = xs (ix2 b' c')
        + (if b'.val = (i 0).val ∧ c'.val = (i 1).val then V (ix2 (0 : Fin 1) (0 : Fin 1)) else 0) :=
  (pay35_struct _ _ _ _ _).trans
    (accumulate_apply _ _ (by have h : (i 0).val < 4 := (i 0).isLt; omega) (by have h : (i 1).val < 13 := (i 1).isLt; omega)
      _ xs b' c')

/-- The update of a table by the combination of four numbers at the grid point's entry. -/
theorem klb_struct_gen (i : grid0.Coords) (v113 v128 v136 : FVec Ideal S1x1 .f32) (v141 : EReal)
    (xs : Vec Ideal S4x13 .f32) (b' : Fin 4) (c' : Fin 13) :
    k0_pay1 (k0_pay36 (BitVec.ofNat 32 (i 0).val) (BitVec.ofNat 32 (i 1).val) v113 v128 v136 v141 xs) (ix2 b' c')
      = xs (ix2 b' c')
        + (if b'.val = (i 0).val ∧ c'.val = (i 1).val then
            ((v136 (ix2 (0 : Fin 1) (0 : Fin 1)) - v141)
              + (v113 (ix2 (0 : Fin 1) (0 : Fin 1)) - v128 (ix2 (0 : Fin 1) (0 : Fin 1)))) * 1
          else 0) := by
  refine (pay36_struct _ _ _ _ _ _ _ _).trans ?_
  rw [KLForms.ofBits_one_f32]
  exact accumulate_apply _ _ (by have h : (i 0).val < 4 := (i 0).isLt; omega) (by have h : (i 1).val < 13 := (i 1).isLt; omega)
    _ xs b' c'

end Cert.KKL

end
-- ==== Proof.KBlocks.lean ====
/-
  The kernel's input blocks read at an index.

  The grid has 4 * 13 = 52 points; point t is (batch t / 13, class index t % 13).  At point t the first two windows
  hold the 512 by 512 plane of channel (t % 13) + 1 of batch t / 13 of the two prediction arrays, the third the
  plane of batch t / 13 of the label array: a block's entry at pixel (h, w) is the array's entry at that pixel of
  that plane.  Consequently the class region read off the staged label plane at point t is the region of class
  (t % 13) + 1 in plane t / 13 of the label array.
-/
import proofs.«165479_j24979529793863_2_alg».proof.Proof.Gen.KernelIdeal.Frame
import proofs.«165479_j24979529793863_2_alg».proof.Proof.KMask
import proofs.«165479_j24979529793863_2_alg».proof.Proof.SpecMask
import Idealize.ShloMosaic.Lib.Pipeline.Value
import Idealize.ShloMosaic.Lib.ValueIdx

set_option maxRecDepth 16384

noncomputable section

namespace Cert.KBlocks

open Idealize.ShloMosaic Idealize.ShloMosaic.TcCoe Idealize.SL.Sem Idealize.ShloMosaic.ValueIdx Cert.KernelIdeal Cert.KernelIdeal.Gen

variable {F : FTy → Type} [FloatOps F] (m : (ℓ : Loc nD τ sig) → Buf (Elt F) ℓ)

/-- A grid point's number is below 52. -/
theorem tlt (t : Fin cfg0.N) : t.val < 52 := lt_of_lt_of_eq t.isLt (show cfg0.N = 52 from N_0)

/-- (1) Point t is (t / 13, t % 13). -/
theorem coords : ∀ t : Fin cfg0.N, (grid0.coords t 0).val = t.val / 13 ∧ (grid0.coords t 1).val = t.val % 13 :=
  (by decide +kernel : ∀ t : Fin grid0.N, (grid0.coords t 0).val = t.val / 13 ∧ (grid0.coords t 1).val = t.val % 13)

/-- Where window 0's block sits in its array at point t. -/
theorem idx0 : ∀ t : Fin cfg0.N, win0_0.index t 0 = t.val / 13 ∧ win0_0.index t 1 = t.val % 13 + 1 ∧ win0_0.index t 2 = 0 ∧ win0_0.index t 3 = 0 :=
  (by decide +kernel : ∀ t : Fin grid0.N, win0_0.index t 0 = t.val / 13 ∧ win0_0.index t 1 = t.val % 13 + 1 ∧ win0_0.index t 2 = 0 ∧ win0_0.index t 3 = 0)

/-- Where window 1's block sits in its array at point t. -/
theorem idx1 : ∀ t : Fin cfg0.N, win0_1.index t 0 = t.val / 13 ∧ win0_1.index t 1 = t.val % 13 + 1 ∧ win0_1.index t 2 = 0 ∧ win0_1.index t 3 = 0 :=
  (by decide +kernel : ∀ t : Fin grid0.N, win0_1.index t 0 = t.val / 13 ∧ win0_1.index t 1 = t.val % 13 + 1 ∧ win0_1.index t 2 = 0 ∧ win0_1.index t 3 = 0)

/-- Where window 2's block sits in its array at point t. -/
theorem idx2 : ∀ t : Fin cfg0.N, win0_2.index t 0 = t.val / 13 ∧ win0_2.index t 1 = 0 ∧ win0_2.index t 2 = 0 ∧ win0_2.index t 3 = 0 :=
  (by decide +kernel : ∀ t : Fin grid0.N, win0_2.index t 0 = t.val / 13 ∧ win0_2.index t 1 = 0 ∧ win0_2.index t 2 = 0 ∧ win0_2.index t 3 = 0)

/-- (2) Window 0's block at pixel (h, w): the first prediction array at (t / 13, t % 13 + 1, h, w). -/
theorem iblk0_apply (c : Dev nD) (t : Fin cfg0.N) (h w : Fin 512) :
    (iblk m c 0 t : Vec F S1x1x512x512 .f32) (ix4 (0 : Fin 1) (0 : Fin 1) h w)
      = m ((c : Thread nD τ).loc main_arg0)
          (ix4 (⟨t.val / 13, by have := tlt t; omega⟩ : Fin 4) (⟨t.val % 13 + 1, by omega⟩ : Fin 14) h w) := by
  have hi := idx0 t
  unfold iblk
  rw [View.read_apply]
  show V m c main_arg0 _ = m (c.tc.loc main_arg0) _
  unfold V
  congr 1
  funext a
  apply Fin.ext
  match a with
  | ⟨0, _⟩ => show win0_0.index t 0 * 1 + 1 * ((0 : Fin 1) : ℕ) = t.val / 13; rw [hi.1]; simp
  | ⟨1, _⟩ => show win0_0.index t 1 * 1 + 1 * ((0 : Fin 1) : ℕ) = t.val % 13 + 1; rw [hi.2.1]; simp
  | ⟨2, _⟩ => show win0_0.index t 2 * 512 + 1 * h.val = h.val; rw [hi.2.2.1]; omega
  | ⟨3, _⟩ => show win0_0.index t 3 * 512 + 1 * w.val = w.val; rw [hi.2.2.2]; omega

/-- (2) Window 1's block at pixel (h, w): the second prediction array at (t / 13, t % 13 + 1, h, w). -/
theorem iblk1_apply (c : Dev nD) (t : Fin cfg0.N) (h w : Fin 512) :
    (iblk m c 1 t : Vec F S1x1x512x512 .f32) (ix4 (0 : Fin 1) (0 : Fin 1) h w)
      = m ((c : Thread nD τ).loc main_arg1)
          (ix4 (⟨t.val / 13, by have := tlt t; omega⟩ : Fin 4) (⟨t.val % 13 + 1, by omega⟩ : Fin 14) h w) := by
  have hi := idx1 t
  unfold iblk
  rw [View.read_apply]
  show V m c main_arg1 _ = m (c.tc.loc main_arg1) _
  unfold V
  congr 1
  funext a
  apply Fin.ext
  match a with
  | ⟨0, _⟩ => show win0_1.index t 0 * 1 + 1 * ((0 : Fin 1) : ℕ) = t.val / 13; rw [hi.1]; simp
  | ⟨1, _⟩ => show win0_1.index t 1 * 1 + 1 * ((0 : Fin 1) : ℕ) = t.val % 13 + 1; rw [hi.2.1]; simp
  | ⟨2, _⟩ => show win0_1.index t 2 * 512 + 1 * h.val = h.val; rw [hi.2.2.1]; omega
  | ⟨3, _⟩ => show win0_1.index t 3 * 512 + 1 * w.val = w.val; rw [hi.2.2.2]; omega

/-- (2) Window 2's block at pixel (h, w): the label array at (t / 13, 0, h, w). -/
theorem iblk2_apply (c : Dev nD) (t : Fin cfg0.N) (h w : Fin 512) :
    (iblk m c 2 t : Vec F S1x1x512x512 .i32) (ix4 (0 : Fin 1) (0 : Fin 1) h w)
      = m ((c : Thread nD τ).loc main_arg2)
          (ix4 (⟨t.val / 13, by have := tlt t; omega⟩ : Fin 4) (0 : Fin 1) h w) := by
  have hi := idx2 t
  unfold iblk
  rw [View.read_apply]
  show V m c main_arg2 _ = m (c.tc.loc main_arg2) _
  unfold V
  congr 1
  funext a
  apply Fin.ext
  match a with
  | ⟨0, _⟩ => show win0_2.index t 0 * 1 + 1 * ((0 : Fin 1) : ℕ) = t.val / 13; rw [hi.1]; simp
  | ⟨1, _⟩ => show win0_2.index t 1 * 1 + 1 * ((0 : Fin 1) : ℕ) = ((0 : Fin 1) : ℕ); rw [hi.2.1]; simp
  | ⟨2, _⟩ => show win0_2.index t 2 * 512 + 1 * h.val = h.val; rw [hi.2.2.1]; omega
  | ⟨3, _⟩ => show win0_2.index t 3 * 512 + 1 * w.val = w.val; rw [hi.2.2.2]; omega

/-- The class region read off a staged label plane is the region of a label array, when the plane is that array's
    plane b and the grid point's class index is c. -/
theorem planeRegion_eq_isCls (i : grid0.Coords) (v6 : Vec F S1x1x512x512 .i32) (L : Cert.Spec.SLbl.Idx → BitVec 32)
    (b : Fin 4) (c : Fin 13) (hc : (i 1).val = c.val)
    (hv : ∀ h w : Fin 512, v6 (ix4 (0 : Fin 1) (0 : Fin 1) h w) = L (ix4 b (0 : Fin 1) h w)) :
    Cert.KMask.planeRegion i v6 = Cert.Spec.isCls L b c := by
  funext h w
  unfold Cert.KMask.planeRegion Cert.Spec.isCls
  by_cases hw : h < 512 ∧ w < 512
  · rw [dif_pos hw, dif_pos hw, hv, hc]
  · rw [dif_neg hw, dif_neg hw]

/-- (3) At point t the class region of the staged label plane is the region of class (t % 13) + 1 in plane t / 13 of
    the label array. -/
theorem planeRegion_iblk (c : Dev nD) (t : Fin cfg0.N) :
    Cert.KMask.planeRegion (grid0.coords t) (iblk m c 2 t : Vec F S1x1x512x512 .i32)
      = Cert.Spec.isCls (m ((c : Thread nD τ).loc main_arg2))
          (⟨t.val / 13, by have := tlt t; omega⟩ : Fin 4) (⟨t.val % 13, by omega⟩ : Fin 13) :=
  planeRegion_eq_isCls (grid0.coords t) (iblk m c 2 t) (m ((c : Thread nD τ).loc main_arg2))
    (⟨t.val / 13, by have := tlt t; omega⟩ : Fin 4) (⟨t.val % 13, by omega⟩ : Fin 13) (coords t).2
    (fun h w => iblk2_apply m c t h w)

end Cert.KBlocks

end
-- ==== Proof.LibGridAcc.lean ====
/-
  An accumulator over a grid visited in row-major order, in closed form.

  A rows-by-cols table of extended reals starts at zero. Point number n of the visit (n = 0, 1, …, below a bound N) adds
  a value v n to the table's entry (n / cols, n % cols) and adds 0 to every other entry. Adding 0 is exact on the
  extended reals, so after point n the entry (b, c) holds v (cols * b + c) once its point has been visited, and 0
  before: no finiteness of the values is needed.
-/
import Mathlib.Data.EReal.Operations
import Mathlib.Tactic

namespace GridAcc

/-- The table after point `n`, given its recursion: entry (b, c) of `g n` is the entry before plus `v n` at the
    point's own entry and plus 0 elsewhere; `g 0` starts from the zero table. -/
theorem closed {rows cols : ℕ} (hcols : 0 < cols) (N : ℕ) (g : (n : ℕ) → n < N → Fin rows → Fin cols → EReal)
    (v : (k : ℕ) → k < N → EReal)
    (hz : ∀ (h : 0 < N) (b : Fin rows) (c : Fin cols),
      g 0 h b c = 0 + (if b.val = 0 / cols ∧ c.val = 0 % cols then v 0 h else 0))
    (hs : ∀ (n : ℕ) (h : n + 1 < N) (b : Fin rows) (c : Fin cols),
      g (n + 1) h b c = g n (Nat.lt_of_succ_lt h) b c
        + (if b.val = (n + 1) / cols ∧ c.val = (n + 1) % cols then v (n + 1) h else 0)) :
    ∀ (n : ℕ) (h : n < N) (b : Fin rows) (c : Fin cols),
      g n h b c = if hk : cols * b.val + c.val ≤ n then v (cols * b.val + c.val) (lt_of_le_of_lt hk h) else 0 := by
  intro n
  induction n with
  | zero =>
    intro h b c
    rw [hz h b c, zero_add]
    have hc : c.val < cols := c.isLt
    by_cases hb : b.val = 0 / cols ∧ c.val = 0 % cols
    · obtain ⟨hb0, hc0⟩ := hb
      rw [Nat.zero_div] at hb0
      rw [Nat.zero_mod] at hc0
      have hk : cols * b.val + c.val ≤ 0 := by rw [hb0, hc0]; simp
      rw [if_pos ⟨by rw [Nat.zero_div]; exact hb0, by rw [Nat.zero_mod]; exact hc0⟩, dif_pos hk]
      congr 1
      rw [hb0, hc0]; simp
    · rw [if_neg hb, dif_neg]
      intro hk
      apply hb
      have h1 : cols * b.val = 0 := by omega
      have h2 : c.val = 0 := by omega
      rcases Nat.mul_eq_zero.mp h1 with h3 | h3
      · omega
      · exact ⟨by rw [Nat.zero_div]; exact h3, by rw [Nat.zero_mod]; exact h2⟩
  | succ n ih =>
    intro h b c
    rw [hs n h b c, ih (Nat.lt_of_succ_lt h) b c]
    have hc : c.val < cols := c.isLt
    have hdm : cols * ((n + 1) / cols) + (n + 1) % cols = n + 1 := Nat.div_add_mod (n + 1) cols
    by_cases hp : b.val = (n + 1) / cols ∧ c.val = (n + 1) % cols
    · obtain ⟨hb1, hc1⟩ := hp
      have hk1 : cols * b.val + c.val = n + 1 := by rw [hb1, hc1]; exact hdm
      have hk0 : ¬ cols * b.val + c.val ≤ n := by omega
      have hk2 : cols * b.val + c.val ≤ n + 1 := by omega
      rw [dif_neg hk0, if_pos ⟨hb1, hc1⟩, dif_pos hk2, zero_add]
      congr 1
      exact hk1.symm
    · rw [if_neg hp, add_zero]
      by_cases hk0 : cols * b.val + c.val ≤ n
      · rw [dif_pos hk0, dif_pos (Nat.le_succ_of_le hk0)]
      · rw [dif_neg hk0, dif_neg]
        intro hk2
        apply hp
        have hk1 : cols * b.val + c.val = n + 1 := by omega
        have e1 : (n + 1) / cols = b.val := by
          rw [← hk1, Nat.mul_add_div hcols, Nat.div_eq_of_lt hc, Nat.add_zero]
        have e2 : (n + 1) % cols = c.val := by
          rw [← hk1, Nat.mul_add_mod, Nat.mod_eq_of_lt hc]
        exact ⟨e1.symm, e2.symm⟩

end GridAcc
-- ==== Proof.KAcc.lean ====
/-
  The three accumulators after the last grid point, entry by entry.

  Each of the three 4 by 13 tables starts at zero; grid point t = 13 * b + c adds its number to entry (b, c) and adds
  0 to every other entry.  Adding 0 is exact, so after the last point entry (b, c) holds exactly the number of point
  13 * b + c: the edge pixel count of the region of class c + 1 in plane b, and the two Kullback-Leibler sums of the
  masked planes.  One closed-form lemma covers the three tables; each table supplies its per-point update.
-/
import Mathlib
import proofs.«165479_j24979529793863_2_alg».proof.Proof.KFinal
import proofs.«165479_j24979529793863_2_alg».proof.Proof.KKL
import proofs.«165479_j24979529793863_2_alg».proof.Proof.KBlocks
import proofs.«165479_j24979529793863_2_alg».proof.Proof.LibGridAcc
import proofs.«165479_j24979529793863_2_alg».proof.Proof.LibKL
import proofs.«165479_j24979529793863_2_alg».proof.Proof.SpecMask

set_option maxRecDepth 16384

noncomputable section

namespace Cert.KAcc

open Idealize.ShloMosaic Idealize.ShloMosaic.TcCoe Idealize.SL.Sem Idealize.ShloMosaic.ValueIdx
open Cert.KernelIdeal Cert.KernelIdeal.Gen Cert.KernelIdeal.KVal Cert.Spec Cert.KMask

variable (m : (ℓ : Loc nD τ sig) → Buf (Elt Ideal) ℓ)

/-! ### One closed form for the three tables -/

/-- A table that starts at `z` (zero everywhere), is updated once per grid point in order, the update of point t adding
    `v t` at entry (t / 13, t % 13) and 0 elsewhere, holds `v (13 * b + cl)` at entry (b, cl) after the last point. -/
theorem acc_closed (upd : Fin cfg0.N → Vec Ideal S4x13 .f32 → Vec Ideal S4x13 .f32) (z : Vec Ideal S4x13 .f32)
    (v : Fin cfg0.N → EReal)
    (hz0 : ∀ (b' : Fin 4) (c' : Fin 13), z (ix2 b' c') = 0)
    (hupd : ∀ (t : Fin cfg0.N) (xs : Vec Ideal S4x13 .f32) (b' : Fin 4) (c' : Fin 13),
      upd t xs (ix2 b' c') = xs (ix2 b' c') + (if b'.val = t.val / 13 ∧ c'.val = t.val % 13 then v t else 0))
    (A : (n : ℕ) → n < cfg0.N → Vec Ideal S4x13 .f32)
    (hA0 : ∀ h : 0 < cfg0.N, A 0 h = upd ⟨0, h⟩ z)
    (hAs : ∀ (n : ℕ) (h : n + 1 < cfg0.N), A (n + 1) h = upd ⟨n + 1, h⟩ (A n (Nat.lt_of_succ_lt h)))
    (b : Fin 4) (cl : Fin 13) (h51 : 50 + 1 < cfg0.N) :
    A (50 + 1) h51 (ix2 b cl)
      = v ⟨13 * b.val + cl.val, lt_of_le_of_lt (by have := b.isLt; have := cl.isLt; omega) h51⟩ := by
  have key : A (50 + 1) h51 (ix2 b cl)
      = if hk : 13 * b.val + cl.val ≤ 50 + 1 then v ⟨13 * b.val + cl.val, lt_of_le_of_lt hk h51⟩ else 0 :=
    GridAcc.closed (rows := 4) (cols := 13) (by norm_num) cfg0.N (fun n h b' c' => A n h (ix2 b' c'))
      (fun k hk => v ⟨k, hk⟩)
      (fun h b' c' => by
        show A 0 h (ix2 b' c') = 0 + (if b'.val = 0 / 13 ∧ c'.val = 0 % 13 then v ⟨0, h⟩ else 0)
        rw [hA0, hupd, hz0])
      (fun n h b' c' => by
        show A (n + 1) h (ix2 b' c') = A n (Nat.lt_of_succ_lt h) (ix2 b' c')
          + (if b'.val = (n + 1) / 13 ∧ c'.val = (n + 1) % 13 then v ⟨n + 1, h⟩ else 0)
        rw [hAs, hupd])
      (50 + 1) h51 b cl
  rw [dif_pos (by have := b.isLt; have := cl.isLt; omega)] at key
  exact key

/-- The zero block: the splat of the zero constant. -/
theorem zero_apply (j : S4x13.Idx) :
    shapeCast S4x13 (broadcast S4x13 (Scalar.ofBits (F := Ideal) .f32 0x00000000#32)) shapeCasts_S4x13_S4x13 j = 0 := by
  rw [shapeCast_self]
  exact Ideal.ofBits_zero_f32

theorem pay2_apply (b' : Fin 4) (c' : Fin 13) : (k0_pay2 (F := Ideal)) (ix2 b' c') = 0 := zero_apply _
theorem pay3_apply (b' : Fin 4) (c' : Fin 13) : (k0_pay3 (F := Ideal)) (ix2 b' c') = 0 := zero_apply _
theorem pay4_apply (b' : Fin 4) (c' : Fin 13) : (k0_pay4 (F := Ideal)) (ix2 b' c') = 0 := zero_apply _

/-- The region of a class in a plane only depends on the plane's and the class's numbers. -/
theorem isCls_congr (L : SLbl.Idx → BitVec 32) (b b' : Fin 4) (c c' : Fin 13) (hb : b'.val = b.val)
    (hc : c'.val = c.val) : isCls L b' c' = isCls L b c := by
  obtain rfl : b' = b := Fin.ext hb
  obtain rfl : c' = c := Fin.ext hc
  rfl

/-- Point 13 * b + cl is (b, cl). -/
theorem point_div (b : Fin 4) (cl : Fin 13) : (13 * b.val + cl.val) / 13 = b.val := by have := cl.isLt; omega
theorem point_mod (b : Fin 4) (cl : Fin 13) : (13 * b.val + cl.val) % 13 = cl.val := by have := cl.isLt; omega

/-! ### (1) The edge counts -/

/-- The edge-count update of point t at a table entry. -/
theorem newCnt_apply (c : Dev nD) (t : Fin cfg0.N) (xs : Vec Ideal S4x13 .f32) (b' : Fin 4) (c' : Fin 13) :
    newCnt (grid0.coords t) (iblk m c 2 t) xs (ix2 b' c')
      = xs (ix2 b' c') + (if b'.val = t.val / 13 ∧ c'.val = t.val % 13
          then ((edgeCount (planeRegion (grid0.coords t) (iblk m c 2 t)) : ℝ) : EReal) else 0) :=
  (Cert.KKL.pay34_apply (grid0.coords t) (iblk m c 2 t) xs b' c').trans (by
    rw [(Cert.KBlocks.coords t).1, (Cert.KBlocks.coords t).2])

/-- (1) The edge-count table after the last point: entry (b, cl) is the number of edge pixels of the region of class
    cl + 1 in plane b of the label array. -/
theorem resCnt_apply (c : Dev nD) (b : Fin 4) (cl : Fin 13) :
    resCnt m c (ix2 b cl)
      = ((edgeCount (isCls (m ((c : Thread nD τ).loc main_arg2)) b cl) : ℝ) : EReal) := by
  have key := acc_closed (fun t xs => newCnt (grid0.coords t) (iblk m c 2 t) xs) (k0_pay2 (F := Ideal))
    (fun t => ((edgeCount (planeRegion (grid0.coords t) (iblk m c 2 t)) : ℝ) : EReal))
    pay2_apply (fun t xs b' c' => newCnt_apply m c t xs b' c') (fun n h => (chain m c n h).1)
    (fun h => by rw [chain]; rfl) (fun n h => by rw [chain_succ]; rfl) b cl tLast.isLt
  refine key.trans ?_
  refine congrArg (fun R : Nat → Nat → Bool => ((edgeCount R : ℝ) : EReal)) ?_
  exact (Cert.KBlocks.planeRegion_iblk m c _).trans
    (isCls_congr _ b _ cl _ (point_div b cl) (point_mod b cl))

/-! ### (2) The two Kullback-Leibler tables -/

/-- The shape of a per-point Kullback-Leibler update: for planes x0, x1 that are families of reals s, t over the
    pixels, the table entry of the grid point grows by the divergence of the masked planes, the others by nothing.
    `newK` is the update (edge or body) and `Mk` the mask built from the class region. -/
def StepLaw (newK : grid0.Coords → Vec Ideal S1x1x512x512 .f32 → Vec Ideal S1x1x512x512 .f32
      → Vec Ideal S1x1x512x512 .i32 → Vec Ideal S4x13 .f32 → Vec Ideal S4x13 .f32)
    (Mk : (Nat → Nat → Bool) → Nat → Nat → Bool) : Prop :=
  ∀ (i : grid0.Coords) (x0 x1 : Vec Ideal S1x1x512x512 .f32) (x2 : Vec Ideal S1x1x512x512 .i32)
    (s t : Fin 512 × Fin 512 → ℝ)
    (_hs : ∀ h w : Fin 512, x0 (ix4 (0 : Fin 1) (0 : Fin 1) h w) = ((s (h, w) : ℝ) : EReal))
    (_ht : ∀ h w : Fin 512, x1 (ix4 (0 : Fin 1) (0 : Fin 1) h w) = ((t (h, w) : ℝ) : EReal))
    (xs : Vec Ideal S4x13 .f32) (b' : Fin 4) (c' : Fin 13),
    newK i x0 x1 x2 xs (ix2 b' c')
      = xs (ix2 b' c') + (if b'.val = (i 0).val ∧ c'.val = (i 1).val
          then ((KLForms.klSpec (fun p : Fin 512 × Fin 512 => s p * ind (Mk (planeRegion i x2) p.1.val p.2.val))
                  (fun p : Fin 512 × Fin 512 => t p * ind (Mk (planeRegion i x2) p.1.val p.2.val)) : ℝ) : EReal)
          else 0)

/-- The number point t adds to a Kullback-Leibler table, for real prediction arrays r0, r1. -/
def pointKL (Mk : (Nat → Nat → Bool) → Nat → Nat → Bool) (L : SLbl.Idx → BitVec 32) (r0 r1 : SPred.Idx → ℝ)
    (b : Fin 4) (cl : Fin 13) : ℝ :=
  KLForms.klSpec
    (fun p : Fin 512 × Fin 512 => r0 (ix4 b (⟨cl.val + 1, by omega⟩ : Fin 14) p.1 p.2) * ind (Mk (isCls L b cl) p.1.val p.2.val))
    (fun p : Fin 512 × Fin 512 => r1 (ix4 b (⟨cl.val + 1, by omega⟩ : Fin 14) p.1 p.2) * ind (Mk (isCls L b cl) p.1.val p.2.val))

/-- A Kullback-Leibler update of point t at a table entry, from a step law and real prediction arrays. -/
theorem newK_apply {newK : grid0.Coords → Vec Ideal S1x1x512x512 .f32 → Vec Ideal S1x1x512x512 .f32
      → Vec Ideal S1x1x512x512 .i32 → Vec Ideal S4x13 .f32 → Vec Ideal S4x13 .f32}
    {Mk : (Nat → Nat → Bool) → Nat → Nat → Bool} (law : StepLaw newK Mk)
    (c : Dev nD) (r0 r1 : SPred.Idx → ℝ)
    (h0 : ∀ i, m ((c : Thread nD τ).loc main_arg0) i = ((r0 i : ℝ) : EReal))
    (h1 : ∀ i, m ((c : Thread nD τ).loc main_arg1) i = ((r1 i : ℝ) : EReal))
    (t : Fin cfg0.N) (xs : Vec Ideal S4x13 .f32) (b' : Fin 4) (c' : Fin 13) :
    newK (grid0.coords t) (iblk m c 0 t) (iblk m c 1 t) (iblk m c 2 t) xs (ix2 b' c')
      = xs (ix2 b' c') + (if b'.val = t.val / 13 ∧ c'.val = t.val % 13
          then ((pointKL Mk (m ((c : Thread nD τ).loc main_arg2)) r0 r1
                  (⟨t.val / 13, by have := Cert.KBlocks.tlt t; omega⟩ : Fin 4) (⟨t.val % 13, by omega⟩ : Fin 13) : ℝ) : EReal)
          else 0) := by
  have hl := law (grid0.coords t) (iblk m c 0 t) (iblk m c 1 t) (iblk m c 2 t)
    (fun p => r0 (ix4 (⟨t.val / 13, by have := Cert.KBlocks.tlt t; omega⟩ : Fin 4) (⟨t.val % 13 + 1, by omega⟩ : Fin 14) p.1 p.2))
    (fun p => r1 (ix4 (⟨t.val / 13, by have := Cert.KBlocks.tlt t; omega⟩ : Fin 4) (⟨t.val % 13 + 1, by omega⟩ : Fin 14) p.1 p.2))
    (fun h w => (Cert.KBlocks.iblk0_apply m c t h w).trans (h0 _))
    (fun h w => (Cert.KBlocks.iblk1_apply m c t h w).trans (h1 _))
    xs b' c'
  refine hl.trans ?_
  rw [(Cert.KBlocks.coords t).1, (Cert.KBlocks.coords t).2, Cert.KBlocks.planeRegion_iblk m c t]
  rfl

/-- (2) A Kullback-Leibler table after the last point, from its step law: entry (b, cl) is the divergence of the
    masked planes of channel cl + 1 of batch b. `A` is the table's component of the chain of accumulators. -/
theorem resK_apply {newK : grid0.Coords → Vec Ideal S1x1x512x512 .f32 → Vec Ideal S1x1x512x512 .f32
      → Vec Ideal S1x1x512x512 .i32 → Vec Ideal S4x13 .f32 → Vec Ideal S4x13 .f32}
    {Mk : (Nat → Nat → Bool) → Nat → Nat → Bool} (law : StepLaw newK Mk)
    (c : Dev nD) (r0 r1 : SPred.Idx → ℝ)
    (h0 : ∀ i, m ((c : Thread nD τ).loc main_arg0) i = ((r0 i : ℝ) : EReal))
    (h1 : ∀ i, m ((c : Thread nD τ).loc main_arg1) i = ((r1 i : ℝ) : EReal))
    (z : Vec Ideal S4x13 .f32) (hz0 : ∀ (b' : Fin 4) (c' : Fin 13), z (ix2 b' c') = 0)
    (A : (n : ℕ) → n < cfg0.N → Vec Ideal S4x13 .f32)
    (hA0 : ∀ h : 0 < cfg0.N, A 0 h = newK (grid0.coords ⟨0, h⟩) (iblk m c 0 ⟨0, h⟩) (iblk m c 1 ⟨0, h⟩) (iblk m c 2 ⟨0, h⟩) z)
    (hAs : ∀ (n : ℕ) (h : n + 1 < cfg0.N), A (n + 1) h
      = newK (grid0.coords ⟨n + 1, h⟩) (iblk m c 0 ⟨n + 1, h⟩) (iblk m c 1 ⟨n + 1, h⟩) (iblk m c 2 ⟨n + 1, h⟩)
          (A n (Nat.lt_of_succ_lt h)))
    (b : Fin 4) (cl : Fin 13) :
    A (50 + 1) tLast.isLt (ix2 b cl)
      = ((pointKL Mk (m ((c : Thread nD τ).loc main_arg2)) r0 r1 b cl : ℝ) : EReal) := by
  have key := acc_closed
    (fun t xs => newK (grid0.coords t) (iblk m c 0 t) (iblk m c 1 t) (iblk m c 2 t) xs) z
    (fun t => ((pointKL Mk (m ((c : Thread nD τ).loc main_arg2)) r0 r1
      (⟨t.val / 13, by have := Cert.KBlocks.tlt t; omega⟩ : Fin 4) (⟨t.val % 13, by omega⟩ : Fin 13) : ℝ) : EReal))
    hz0 (fun t xs b' c' => newK_apply m law c r0 r1 h0 h1 t xs b' c') A hA0 hAs b cl tLast.isLt
  refine key.trans ?_
  have eb : (⟨(13 * b.val + cl.val) / 13, by have := cl.isLt; have := b.isLt; omega⟩ : Fin 4) = b :=
    Fin.ext (point_div b cl)
  have ec : (⟨(13 * b.val + cl.val) % 13, by omega⟩ : Fin 13) = cl := Fin.ext (point_mod b cl)
  show ((pointKL Mk _ r0 r1 (⟨(13 * b.val + cl.val) / 13, _⟩ : Fin 4) (⟨(13 * b.val + cl.val) % 13, _⟩ : Fin 13) : ℝ) : EReal) = _
  rw [eb, ec]

end Cert.KAcc

end
-- ==== Proof.LibKL2.lean ====
/-
  Companions to the two arrangements of the Kullback-Leibler divergence between softmax distributions.

  * The divergence klSpec x y depends on the logits only pointwise and is invariant under a bijective
    renaming of the indices (so a sum over a flattened index and a sum over a product index agree).
  * For logits X and a shift MX given as extended reals that are coercions of reals x and M, the
    pieces every arrangement is built from are coercions of the UNSHIFTED real quantities:
      MX + log (∑ exp (X j - MX))                    = log (∑ exp (x j)),
      (X i - MX) - log (∑ exp (X j - MX))            = x i - log (∑ exp (x j)),
      exp ((X i - MX) - log (∑ exp (X j - MX)))      = exp (x i) / ∑ exp (x j),
      exp (X i - MX) / ∑ exp (X j - MX)              = exp (x i) / ∑ exp (x j).
    The shift cancels because exp (x - M) = exp (-M) * exp x and the partition sum is positive.
-/
import Mathlib
import Idealize.ShloMosaic.PureOps.Ideal
import proofs.«165479_j24979529793863_2_alg».proof.Proof.LibKL

noncomputable section

open scoped BigOperators
open Idealize.ShloMosaic

namespace KLForms

/-- The divergence only depends on the logits pointwise. -/
theorem klSpec_congr {ι : Type*} [Fintype ι] {x x' y y' : ι → ℝ}
    (hx : ∀ i, x i = x' i) (hy : ∀ i, y i = y' i) : klSpec x y = klSpec x' y' := by
  obtain rfl : x = x' := funext hx
  obtain rfl : y = y' := funext hy
  rfl

/-- The divergence is invariant under a bijective renaming of the indices. -/
theorem klSpec_equiv {ι κ : Type*} [Fintype ι] [Fintype κ] (e : ι ≃ κ) (x y : κ → ℝ) :
    klSpec (fun i => x (e i)) (fun i => y (e i)) = klSpec x y := by
  have hy : ∑ i, Real.exp (y (e i)) = ∑ j, Real.exp (y j) := Equiv.sum_comp e fun j => Real.exp (y j)
  have hx : ∑ i, Real.exp (x (e i)) = ∑ j, Real.exp (x j) := Equiv.sum_comp e fun j => Real.exp (x j)
  unfold klSpec
  rw [hy, hx]
  exact Equiv.sum_comp e fun j => (Real.exp (y j) / ∑ j', Real.exp (y j'))
    * ((y j - Real.log (∑ j', Real.exp (y j'))) - (x j - Real.log (∑ j', Real.exp (x j'))))

section Blocks

variable {ι : Type*} [Fintype ι] [Nonempty ι]
variable (X : ι → EReal) (MX : EReal) (x : ι → ℝ) (M : ℝ)

/-- The shifted partition sum is a positive real. -/
theorem Z_of_coe (hX : ∀ i, X i = ((x i : ℝ) : EReal)) (hM : MX = ((M : ℝ) : EReal)) :
    ∑ i, Ideal.exp (X i - MX) = ((∑ i, Real.exp (x i - M) : ℝ) : EReal) := by
  obtain rfl : X = fun i => ((x i : ℝ) : EReal) := funext hX
  subst hM; exact Z_coe x M

/-- The shift plus the logarithm of the shifted partition sum is the real log-partition function. -/
theorem logZ_of_coe (hX : ∀ i, X i = ((x i : ℝ) : EReal)) (hM : MX = ((M : ℝ) : EReal)) :
    MX + Ideal.log (∑ i, Ideal.exp (X i - MX)) = ((Real.log (∑ i, Real.exp (x i)) : ℝ) : EReal) := by
  obtain rfl : X = fun i => ((x i : ℝ) : EReal) := funext hX
  subst hM
  rw [logZ_coe, ← EReal.coe_add, shift_add_log]

/-- The shifted log-softmax is the real (unshifted) log-softmax. -/
theorem ls_of_coe (hX : ∀ i, X i = ((x i : ℝ) : EReal)) (hM : MX = ((M : ℝ) : EReal)) (i : ι) :
    (X i - MX) - Ideal.log (∑ j, Ideal.exp (X j - MX))
      = ((x i - Real.log (∑ j, Real.exp (x j)) : ℝ) : EReal) := by
  obtain rfl : X = fun i => ((x i : ℝ) : EReal) := funext hX
  subst hM
  rw [ls_coe, logsoftmax_shift]

/-- The exponential of the shifted log-softmax is the real softmax weight. -/
theorem exp_ls_of_coe (hX : ∀ i, X i = ((x i : ℝ) : EReal)) (hM : MX = ((M : ℝ) : EReal)) (i : ι) :
    Ideal.exp ((X i - MX) - Ideal.log (∑ j, Ideal.exp (X j - MX)))
      = ((Real.exp (x i) / ∑ j, Real.exp (x j) : ℝ) : EReal) := by
  rw [ls_of_coe X MX x M hX hM i, Ideal.exp_coe, exp_logsoftmax]

/-- The shifted softmax weight is the real (unshifted) softmax weight. -/
theorem P_of_coe (hX : ∀ i, X i = ((x i : ℝ) : EReal)) (hM : MX = ((M : ℝ) : EReal)) (i : ι) :
    Ideal.div (Ideal.exp (X i - MX)) (∑ j, Ideal.exp (X j - MX))
      = ((Real.exp (x i) / ∑ j, Real.exp (x j) : ℝ) : EReal) := by
  obtain rfl : X = fun i => ((x i : ℝ) : EReal) := funext hX
  subst hM
  rw [P_coe, weight_shift]

end Blocks

end KLForms

end
-- ==== Proof.RJoin.lean ====
/-
  The reference's Kullback-Leibler stage on masked logits, re-indexed to the plane.

  Row (b, c) of the stage's two operands holds, at flattened position k, the prediction at pixel
  (k / 512, k % 512) of channel c + 1 times the mask value (0 or 1) at that pixel.  Both factors are reals, so the
  row is a family of reals and the stage's value at (b, c) is the Kullback-Leibler divergence of the two rows'
  softmaxes.  The divergence does not change under the bijection k ↦ (k / 512, k % 512) between the flattened
  positions and the pixels of the plane, so it is the divergence of the masked logits indexed by pixels.
-/
import Mathlib
import Idealize.ShloMosaic.Lib.ValueIdx
import proofs.«165479_j24979529793863_2_alg».proof.Proof.RKL
import proofs.«165479_j24979529793863_2_alg».proof.Proof.LibKL2
import proofs.«165479_j24979529793863_2_alg».proof.Proof.SpecMask

noncomputable section

open scoped BigOperators

namespace Cert.RJoin

open Idealize.ShloMosaic Idealize.ShloMosaic.ValueIdx Cert.ReferenceIdeal Cert.RKL Cert.Spec

variable [Cert.ReferenceIdeal.Facts]

/-- Flattened positions of the plane against its pixels: k ↦ (k / 512, k % 512). -/
def planeEquiv : Fin 262144 ≃ Fin 512 × Fin 512 where
  toFun k := (⟨k.val / 512, by have := k.isLt; omega⟩, ⟨k.val % 512, by omega⟩)
  invFun p := ⟨p.1.val * 512 + p.2.val, by have := p.1.isLt; have := p.2.isLt; omega⟩
  left_inv k := Fin.ext (by
    show k.val / 512 * 512 + k.val % 512 = k.val
    omega)
  right_inv p := Prod.ext
    (Fin.ext (by
      have := p.2.isLt
      show (p.1.val * 512 + p.2.val) / 512 = p.1.val
      omega))
    (Fin.ext (by
      have := p.2.isLt
      show (p.1.val * 512 + p.2.val) % 512 = p.2.val
      omega))

theorem planeEquiv_fst (k : Fin 262144) : ((planeEquiv k).1 : ℕ) = k.val / 512 := rfl
theorem planeEquiv_snd (k : Fin 262144) : ((planeEquiv k).2 : ℕ) = k.val % 512 := rfl

/-- The stage at (b, c) needs only row (b, c) of its operands to be real. -/
theorem refKL_row (s t : FVec Ideal S4x13x262144 .f32) (b : Fin 4) (c : Fin 13) (sr tr : Fin 262144 → ℝ)
    (hs : ∀ k : Fin 262144, s (ix3 b c k) = ((sr k : ℝ) : EReal))
    (ht : ∀ k : Fin 262144, t (ix3 b c k) = ((tr k : ℝ) : EReal)) :
    refKL s t (ix2 b c) = ((KLForms.klSpec sr tr : ℝ) : EReal) := by
  haveI : Nonempty (Fin 262144) := ⟨⟨0, by norm_num⟩⟩
  obtain ⟨Ms, hMs⟩ := KLForms.max_bot_fold_max_of_coe (fun k : Fin 262144 => s (ix3 b c k)) sr hs
  obtain ⟨Mt, hMt⟩ := KLForms.max_bot_fold_max_of_coe (fun k : Fin 262144 => t (ix3 b c k)) tr ht
  rw [refKL_apply]
  simp only [lsm_apply]
  exact KLForms.kl_R (fun k : Fin 262144 => s (ix3 b c k)) (fun k : Fin 262144 => t (ix3 b c k))
    (rowMax s b c) (rowMax t b c) sr tr Ms Mt hs ht hMs hMt

/-- The stage on masked logits, for any mask `M` of the plane: its value at (b, c) is the divergence of the masked
    logits of channel c + 1 indexed by the pixels of the plane. -/
theorem refKL_masked (x0 x1 : SPred.Idx → EReal) (r0 r1 : SPred.Idx → ℝ)
    (h0 : ∀ i, x0 i = ((r0 i : ℝ) : EReal)) (h1 : ∀ i, x1 i = ((r1 i : ℝ) : EReal))
    (M : Nat → Nat → Bool) (b : Fin 4) (c : Fin 13) (S T : FVec Ideal S4x13x262144 .f32)
    (hS : ∀ k : Fin 262144, S (ix3 b c k)
      = x0 (ix4 b (⟨c.val + 1, by omega⟩ : Fin 14) (⟨k.val / 512, by omega⟩ : Fin 512) (⟨k.val % 512, by omega⟩ : Fin 512))
        * ((ind (M (k.val / 512) (k.val % 512)) : ℝ) : EReal))
    (hT : ∀ k : Fin 262144, T (ix3 b c k)
      = x1 (ix4 b (⟨c.val + 1, by omega⟩ : Fin 14) (⟨k.val / 512, by omega⟩ : Fin 512) (⟨k.val % 512, by omega⟩ : Fin 512))
        * ((ind (M (k.val / 512) (k.val % 512)) : ℝ) : EReal)) :
    refKL S T (ix2 b c)
      = ((KLForms.klSpec
            (fun p : Fin 512 × Fin 512 => r0 (ix4 b (⟨c.val + 1, by omega⟩ : Fin 14) p.1 p.2) * ind (M p.1.val p.2.val))
            (fun p : Fin 512 × Fin 512 => r1 (ix4 b (⟨c.val + 1, by omega⟩ : Fin 14) p.1 p.2) * ind (M p.1.val p.2.val)) : ℝ)
          : EReal) := by
  rw [← KLForms.klSpec_equiv planeEquiv]
  refine refKL_row S T b c _ _ (fun k => ?_) (fun k => ?_)
  · rw [hS k, h0, ← EReal.coe_mul]; rfl
  · rw [hT k, h1, ← EReal.coe_mul]; rfl

/-- The edge stage: the mask is the edge of the region of class c + 1 in plane b of the label array. -/
theorem refKL_edge (x0 x1 : SPred.Idx → EReal) (r0 r1 : SPred.Idx → ℝ)
    (h0 : ∀ i, x0 i = ((r0 i : ℝ) : EReal)) (h1 : ∀ i, x1 i = ((r1 i : ℝ) : EReal))
    (x2 : SLbl.Idx → BitVec 32) (b : Fin 4) (c : Fin 13) (S T : FVec Ideal S4x13x262144 .f32)
    (hS : ∀ k : Fin 262144, S (ix3 b c k)
      = x0 (ix4 b (⟨c.val + 1, by omega⟩ : Fin 14) (⟨k.val / 512, by omega⟩ : Fin 512) (⟨k.val % 512, by omega⟩ : Fin 512))
        * ((ind (edge (isCls x2 b c) (k.val / 512) (k.val % 512)) : ℝ) : EReal))
    (hT : ∀ k : Fin 262144, T (ix3 b c k)
      = x1 (ix4 b (⟨c.val + 1, by omega⟩ : Fin 14) (⟨k.val / 512, by omega⟩ : Fin 512) (⟨k.val % 512, by omega⟩ : Fin 512))
        * ((ind (edge (isCls x2 b c) (k.val / 512) (k.val % 512)) : ℝ) : EReal)) :
    refKL S T (ix2 b c)
      = ((KLForms.klSpec
            (fun p : Fin 512 × Fin 512 =>
              r0 (ix4 b (⟨c.val + 1, by omega⟩ : Fin 14) p.1 p.2) * ind (edge (isCls x2 b c) p.1.val p.2.val))
            (fun p : Fin 512 × Fin 512 =>
              r1 (ix4 b (⟨c.val + 1, by omega⟩ : Fin 14) p.1 p.2) * ind (edge (isCls x2 b c) p.1.val p.2.val)) : ℝ)
          : EReal) :=
  refKL_masked x0 x1 r0 r1 h0 h1 (edge (isCls x2 b c)) b c S T hS hT

/-- The body stage: the mask is the body of the region of class c + 1 in plane b of the label array. -/
theorem refKL_body (x0 x1 : SPred.Idx → EReal) (r0 r1 : SPred.Idx → ℝ)
    (h0 : ∀ i, x0 i = ((r0 i : ℝ) : EReal)) (h1 : ∀ i, x1 i = ((r1 i : ℝ) : EReal))
    (x2 : SLbl.Idx → BitVec 32) (b : Fin 4) (c : Fin 13) (S T : FVec Ideal S4x13x262144 .f32)
    (hS : ∀ k : Fin 262144, S (ix3 b c k)
      = x0 (ix4 b (⟨c.val + 1, by omega⟩ : Fin 14) (⟨k.val / 512, by omega⟩ : Fin 512) (⟨k.val % 512, by omega⟩ : Fin 512))
        * ((ind (body (isCls x2 b c) (k.val / 512) (k.val % 512)) : ℝ) : EReal))
    (hT : ∀ k : Fin 262144, T (ix3 b c k)
      = x1 (ix4 b (⟨c.val + 1, by omega⟩ : Fin 14) (⟨k.val / 512, by omega⟩ : Fin 512) (⟨k.val % 512, by omega⟩ : Fin 512))
        * ((ind (body (isCls x2 b c) (k.val / 512) (k.val % 512)) : ℝ) : EReal)) :
    refKL S T (ix2 b c)
      = ((KLForms.klSpec
            (fun p : Fin 512 × Fin 512 =>
              r0 (ix4 b (⟨c.val + 1, by omega⟩ : Fin 14) p.1 p.2) * ind (body (isCls x2 b c) p.1.val p.2.val))
            (fun p : Fin 512 × Fin 512 =>
              r1 (ix4 b (⟨c.val + 1, by omega⟩ : Fin 14) p.1 p.2) * ind (body (isCls x2 b c) p.1.val p.2.val)) : ℝ)
          : EReal) :=
  refKL_masked x0 x1 r0 r1 h0 h1 (body (isCls x2 b c)) b c S T hS hT

end Cert.RJoin

end
-- ==== Proof.RJoin2.lean ====
/-
  The reference's two Kullback-Leibler stages on its own masked, flattened logits.

  The masked logit arrays the reference forms hold, at flattened position k of row (b, c), the prediction at pixel
  (k / 512, k % 512) of channel c + 1 times the edge (or body) mask value there; so the stage's value at (b, c) is the
  divergence of the masked logits indexed by the pixels of the plane.
-/
import Mathlib
import proofs.«165479_j24979529793863_2_alg».proof.Proof.RJoin
import proofs.«165479_j24979529793863_2_alg».proof.Proof.RStage

noncomputable section

open scoped BigOperators

namespace Cert.RJoin

open Idealize.ShloMosaic Idealize.ShloMosaic.ValueIdx Idealize.ShloMosaic.TcCoe Idealize.SL.Sem
open Cert.ReferenceIdeal Cert.RKL Cert.Spec

variable [Cert.ReferenceIdeal.Facts]

/-- The reference's edge stage at (b, c), operands filled in: the divergence of the edge-masked logits of channel
    c + 1 of batch b, indexed by the pixels of the plane. -/
theorem refKL_edge' (x0 x1 : (⟨S4x14x512x512, .f32⟩ : BufTy).Contents (Elt Ideal))
    (x2 : (⟨S4x1x512x512, .i32⟩ : BufTy).Contents (Elt Ideal)) (r0 r1 : SPred.Idx → ℝ)
    (h0 : ∀ i, x0 i = ((r0 i : ℝ) : EReal)) (h1 : ∀ i, x1 i = ((r1 i : ℝ) : EReal)) (b : Fin 4) (c : Fin 13) :
    refKL (Cert.RStage.refSE x0 x2) (Cert.RStage.refTE x1 x2) (ix2 b c)
      = ((KLForms.klSpec
            (fun p : Fin 512 × Fin 512 =>
              r0 (ix4 b (⟨c.val + 1, by omega⟩ : Fin 14) p.1 p.2) * ind (edge (isCls x2 b c) p.1.val p.2.val))
            (fun p : Fin 512 × Fin 512 =>
              r1 (ix4 b (⟨c.val + 1, by omega⟩ : Fin 14) p.1 p.2) * ind (edge (isCls x2 b c) p.1.val p.2.val)) : ℝ)
          : EReal) :=
  refKL_edge x0 x1 r0 r1 h0 h1 x2 b c _ _ (fun k => Cert.RStage.refSE_apply x0 x2 b c k)
    (fun k => Cert.RStage.refTE_apply x1 x2 b c k)

/-- The reference's body stage at (b, c), operands filled in. -/
theorem refKL_body' (x0 x1 : (⟨S4x14x512x512, .f32⟩ : BufTy).Contents (Elt Ideal))
    (x2 : (⟨S4x1x512x512, .i32⟩ : BufTy).Contents (Elt Ideal)) (r0 r1 : SPred.Idx → ℝ)
    (h0 : ∀ i, x0 i = ((r0 i : ℝ) : EReal)) (h1 : ∀ i, x1 i = ((r1 i : ℝ) : EReal)) (b : Fin 4) (c : Fin 13) :
    refKL (Cert.RStage.refSB x0 x2) (Cert.RStage.refTB x1 x2) (ix2 b c)
      = ((KLForms.klSpec
            (fun p : Fin 512 × Fin 512 =>
              r0 (ix4 b (⟨c.val + 1, by omega⟩ : Fin 14) p.1 p.2) * ind (body (isCls x2 b c) p.1.val p.2.val))
            (fun p : Fin 512 × Fin 512 =>
              r1 (ix4 b (⟨c.val + 1, by omega⟩ : Fin 14) p.1 p.2) * ind (body (isCls x2 b c) p.1.val p.2.val)) : ℝ)
          : EReal) :=
  refKL_body x0 x1 r0 r1 h0 h1 x2 b c _ _ (fun k => Cert.RStage.refSB_apply x0 x2 b c k)
    (fun k => Cert.RStage.refTB_apply x1 x2 b c k)

end Cert.RJoin

end
-- ==== Proof.Finite.lean ====
/-
  Finiteness of the float inputs, from the stated precondition.

  The precondition says: every entry x of each of the two float arrays satisfies |x| < +∞ (the conjunction
  over all entries, and of the two arrays' conjunctions, is true).  On the extended reals |x| = max x (-x),
  which is +∞ at both infinities, so |x| < +∞ exactly when x is a real number.
-/
import Mathlib
import Idealize.ShloMosaic.Lib.ReduceAll
import Idealize.ShloMosaic.Lib.ValueIdx
import proofs.«165479_j24979529793863_2_alg».proof.Defs

noncomputable section

namespace Cert.Finite

open Idealize.ShloMosaic Cert.Pre_finite_inputs

variable [Cert.Pre_finite_inputs.Facts]
open Cert.Pre_finite_inputs.Facts

/-- The scalar shape has one index. -/
instance : Subsingleton S_.Idx := ⟨fun _ _ => funext fun d => d.elim0⟩

/-- An extended real whose absolute value is below +∞ is a real. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The single-precision pattern of +∞. -/
theorem ofBits_pos_inf_f32 : Ideal.ofBits .f32 0x7F800000#32 = ⊤ := by
  simp [Ideal.ofBits, Ideal.ieee]

/-- The element fact: the comparison |x| < +∞ being true makes x a real. -/
theorem real_of_cmp (x : EReal)
    (h : Ideal.cmp .olt (max x (-x)) (Ideal.ofBits .f32 0x7F800000#32) = 1#1) : ∃ r : ℝ, x = ((r : ℝ) : EReal) := by
  rw [ofBits_pos_inf_f32] at h
  refine real_of_abs_lt_top x ?_
  by_contra hn
  simp [Ideal.cmp, hn] at h

/-- Under the precondition every entry of both float arrays is a real. -/
theorem finite (x0 x1 : FVec Ideal S4x14x512x512 .f32) (x2 : IVec S4x1x512x512 32)
    (h : Cert.Pre_finite_inputs.fn (F := Ideal) x0 x1 x2 = fun _ => 1#1) :
    (∀ i, ∃ r : ℝ, x0 i = ((r : ℝ) : EReal)) ∧ (∀ i, ∃ r : ℝ, x1 i = ((r : ℝ) : EReal)) := by
  have h0 := congrFun h ValueIdx.ix0
  dsimp only [Cert.Pre_finite_inputs.fn] at h0
  obtain ⟨ha, hb⟩ := IntOp.andi_eq_one.mp h0
  refine ⟨fun i => ?_, fun i => ?_⟩
  · exact real_of_cmp (x0 i) (Host.reduce_andi_all _ _ _ _ _ ha i)
  · exact real_of_cmp (x1 i) (Host.reduce_andi_all _ _ _ _ _ hb i)

end Cert.Finite

end
-- ==== Proof.Bridge.lean ====
/-
  The bridge between the two programs before their common last stage.

  The kernel program ends with three 4 by 13 tables (edge counts, edge sums, body sums) from which it forms the four
  inputs of the last stage; the reference forms the same four inputs from its masks and its two Kullback-Leibler
  stages.  Entry by entry they agree: the edge count is the number of edge pixels of the class region, so the two
  "has an edge" bits and the two per-plane pixel numbers agree; and, the predictions being finite reals, each
  Kullback-Leibler entry is, on both sides, the divergence of the masked logits of the class's channel indexed by
  the pixels of the plane.  Equal inputs give equal results of the last stage.
-/
import Mathlib
import proofs.«165479_j24979529793863_2_alg».proof.Proof.KAcc
import proofs.«165479_j24979529793863_2_alg».proof.Proof.KTailIn
import proofs.«165479_j24979529793863_2_alg».proof.Proof.RStage
import proofs.«165479_j24979529793863_2_alg».proof.Proof.RJoin2
import proofs.«165479_j24979529793863_2_alg».proof.Proof.Finite
import proofs.«165479_j24979529793863_2_alg».proof.Proof.TailSpec

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.KVal Cert.Spec Cert.KAcc

variable [Cert.ReferenceIdeal.Facts] [Cert.Pre_finite_inputs.Facts]
variable (m : (ℓ : Loc nD τ sig) → Buf (Elt Ideal) ℓ)

/-- The first prediction array, typed as the reference types it. -/
abbrev X0 (c : Dev nD) : (⟨Cert.ReferenceIdeal.S4x14x512x512, .f32⟩ : BufTy).Contents (Elt Ideal) :=
  m ((c : Thread nD τ).loc main_arg0)
/-- The second prediction array. -/
abbrev X1 (c : Dev nD) : (⟨Cert.ReferenceIdeal.S4x14x512x512, .f32⟩ : BufTy).Contents (Elt Ideal) :=
  m ((c : Thread nD τ).loc main_arg1)
/-- The label array. -/
abbrev X2 (c : Dev nD) : (⟨Cert.ReferenceIdeal.S4x1x512x512, .i32⟩ : BufTy).Contents (Elt Ideal) :=
  m ((c : Thread nD τ).loc main_arg2)

/-- (V) The two "the class has an edge in the plane" bits agree. -/
theorem bridgeV (c : Dev nD) :
    Cert.KTailIn.kValid (resCnt m c) = Cert.RStage.refValid (F := Ideal) (X2 m c) := by
  funext j
  obtain ⟨b, cl, rfl⟩ : ∃ (b : Fin 4) (cl : Fin 13), j = ix2 b cl := ⟨j 0, j 1, eq_ix2 j⟩
  exact (Cert.KTailIn.kValid_apply (resCnt m c) (ix2 b cl) _ (resCnt_apply m c b cl)).trans
    (Cert.RStage.refValid_apply' (F := Ideal) (X2 m c) b cl).symm

/-- (N) The two per-plane numbers of edge pixels agree. -/
theorem bridgeN (c : Dev nD) :
    Cert.KTailIn.kNEdge (resCnt m c) = Cert.RStage.refNEdge (F := Ideal) (X2 m c) := by
  funext j
  obtain ⟨b, rfl⟩ : ∃ b : Fin 4, j = ix1 b := ⟨j 0, eq_ix1 j⟩
  exact (Cert.KTailIn.kNEdge_apply (resCnt m c) b (fun k => edgeCount (isCls (X2 m c) b k))
      (fun k => resCnt_apply m c b k)).trans
    (Cert.RStage.refNEdge_apply (X2 m c) b).symm

/-- (E) The edge sums agree, when the predictions are finite reals. -/
theorem bridgeE (lawE : StepLaw newKle edge) (c : Dev nD)
    (hpre : Cert.Pre_finite_inputs.fn (F := Ideal) (X0 m c) (X1 m c) (X2 m c) = fun _ => 1#1) :
    resKle m c = Cert.RKL.refKL (Cert.RStage.refSE (X0 m c) (X2 m c)) (Cert.RStage.refTE (X1 m c) (X2 m c)) := by
  obtain ⟨f0, f1⟩ := Cert.Finite.finite (X0 m c) (X1 m c) (X2 m c) hpre
  choose r0 h0 using f0
  choose r1 h1 using f1
  funext j
  obtain ⟨b, cl, rfl⟩ : ∃ (b : Fin 4) (cl : Fin 13), j = ix2 b cl := ⟨j 0, j 1, eq_ix2 j⟩
  exact (resK_apply m lawE c r0 r1 h0 h1 (k0_pay3 (F := Ideal)) pay3_apply (fun n h => (chain m c n h).2.1)
      (fun h => by rw [chain]; rfl) (fun n h => by rw [chain_succ]; rfl) b cl).trans
    (Cert.RJoin.refKL_edge' (X0 m c) (X1 m c) (X2 m c) r0 r1 h0 h1 b cl).symm

/-- (B) The body sums agree, when the predictions are finite reals. -/
theorem bridgeB (lawB : StepLaw newKlb body) (c : Dev nD)
    (hpre : Cert.Pre_finite_inputs.fn (F := Ideal) (X0 m c) (X1 m c) (X2 m c) = fun _ => 1#1) :
    resKlb m c = Cert.RKL.refKL (Cert.RStage.refSB (X0 m c) (X2 m c)) (Cert.RStage.refTB (X1 m c) (X2 m c)) := by
  obtain ⟨f0, f1⟩ := Cert.Finite.finite (X0 m c) (X1 m c) (X2 m c) hpre
  choose r0 h0 using f0
  choose r1 h1 using f1
  funext j
  obtain ⟨b, cl, rfl⟩ : ∃ (b : Fin 4) (cl : Fin 13), j = ix2 b cl := ⟨j 0, j 1, eq_ix2 j⟩
  exact (resK_apply m lawB c r0 r1 h0 h1 (k0_pay4 (F := Ideal)) pay4_apply (fun n h => (chain m c n h).2.2)
      (fun h => by rw [chain]; rfl) (fun n h => by rw [chain_succ]; rfl) b cl).trans
    (Cert.RJoin.refKL_body' (X0 m c) (X1 m c) (X2 m c) r0 r1 h0 h1 b cl).symm

/-- (T) The last stage gives the same result on the kernel program's four inputs and on the reference's. -/
theorem bridgeT (lawE : StepLaw newKle edge) (lawB : StepLaw newKlb body) (c : Dev nD)
    (hpre : Cert.Pre_finite_inputs.fn (F := Ideal) (X0 m c) (X1 m c) (X2 m c) = fun _ => 1#1) :
    Cert.TailSpec.tailR (Cert.KTailIn.kValid (resCnt m c)) (Cert.KTailIn.kNEdge (resCnt m c)) (resKle m c) (resKlb m c)
      = Cert.TailSpec.tailR (Cert.RStage.refValid (F := Ideal) (X2 m c)) (Cert.RStage.refNEdge (F := Ideal) (X2 m c))
          (Cert.RKL.refKL (Cert.RStage.refSE (X0 m c) (X2 m c)) (Cert.RStage.refTE (X1 m c) (X2 m c)))
          (Cert.RKL.refKL (Cert.RStage.refSB (X0 m c) (X2 m c)) (Cert.RStage.refTB (X1 m c) (X2 m c))) := by
  rw [bridgeV m c, bridgeN m c, bridgeE m lawE c hpre, bridgeB m lawB c hpre]

end Cert.Bridge

end
-- ==== Proof.KKLCells.lean ====
/-
  The kernel's reductions over a plane and the pieces of its two Kullback-Leibler numbers, each written as a
  composition of the total and the maximum of a plane.

  The total of a plane is the sum over its pixels and the maximum of a plane is the running maximum over its
  pixels started from -∞; a log-partition number is the maximum plus the logarithm of the total of the shifted
  exponentials; an expectation is the total of the softmax weights times the logits.
-/
import proofs.«165479_j24979529793863_2_alg».proof.Proof.KKL

noncomputable section

namespace Cert.KKL

open Idealize.ShloMosaic Idealize.ShloMosaic.ValueIdx Cert.KernelIdeal Cert.KernelIdeal.Gen Cert.Spec Cert.KMask

/-! ## Totals and maxima of a plane -/

/-- Every pixel of the one-plane block reduces to the one entry of the result. -/
theorem drop_all (q : S1x512x512.Idx) (j : S1.Idx) : reduces_S1x512x512_S1.drop q = j :=
  funext fun b => Fin.ext (by
    have h1 := (reduces_S1x512x512_S1.drop q b).isLt
    have h2 := (j b).isLt
    have h3 : S1.size b = 1 := match b with | ⟨0, _⟩ => rfl
    omega)

/-- The total of a plane, as the kernel computes it. -/
def totalOf (A : FVec Ideal S512x512 .f32) : EReal :=
  extractAt ![0, 0, 0] (shapeCast S1x1x1 (multiReduction (F := Ideal) .add [1, 2] S1 (shapeCast S1x512x512 A shapeCasts_S512x512_S1x512x512)
      0x00000000#32 reduces_S1x512x512_S1 (.inl rfl) rfl) shapeCasts_S1_S1x1x1) inpos_S1x1x1_p0_0_0

/-- The maximum of a plane, as the kernel computes it. -/
def maxOf (A : FVec Ideal S512x512 .f32) : EReal :=
  extractAt ![0, 0, 0] (shapeCast S1x1x1 (multiReduction (F := Ideal) .maximumf [1, 2] S1 (shapeCast S1x512x512 A shapeCasts_S512x512_S1x512x512)
      0xFF800000#32 reduces_S1x512x512_S1 (.inl rfl) rfl) shapeCasts_S1_S1x1x1) inpos_S1x1x1_p0_0_0

/-- The total of a plane is the sum over its pixels. -/
theorem totalOf_eq (A : FVec Ideal S512x512 .f32) : totalOf A = ∑ p : Fin 512 × Fin 512, A (ix2 p.1 p.2) := by
  unfold totalOf
  refine (extract_scalar _).trans ?_
  refine (Ideal.multiReduction_add_total _ _ reduces_S1x512x512_S1 (fun b => match b with | ⟨0, _⟩ => rfl) (.inl rfl) rfl _).trans ?_
  rw [sum_plane]
  exact Finset.sum_congr rfl fun p _ => plane3_apply A p.1 p.2

/-- The maximum of a plane is the running maximum over its pixels, started from -∞. -/
theorem maxOf_eq (A : FVec Ideal S512x512 .f32) :
    maxOf A = (Finset.univ : Finset (Fin 512 × Fin 512)).fold max ⊥ (fun p => A (ix2 p.1 p.2)) := by
  unfold maxOf
  refine (extract_scalar _).trans ?_
  refine (multiReduction_maximumf_eq_fold _ _ reduces_S1x512x512_S1 (.inl rfl) rfl _).trans ?_
  rw [Finset.filter_true_of_mem fun q _ => drop_all q _]
  have z : FloatOps.ofBits (F := Ideal) .f32 (FKind.maximumf.neutral .f32 (.inl rfl)) = (⊥ : EReal) :=
    KLForms.ofBits_neg_inf_f32
  rw [z]
  refine (fold_max_plane (shapeCast S1x512x512 A shapeCasts_S512x512_S1x512x512)).trans ?_
  exact congrArg (fun f => (Finset.univ : Finset (Fin 512 × Fin 512)).fold max ⊥ f) (funext fun p => plane3_apply A p.1 p.2)

/-! ## Small readings at one entry or one pixel -/

/-- A one-entry array spread over the plane reads its one entry at every pixel. -/
theorem bcast11 {α : Type} (f : S1x1.Idx → α) (q : S512x512.Idx) :
    broadcastTo S512x512 f broadcasts_S1x1_S512x512 q = f (ix2 (0 : Fin 1) (0 : Fin 1)) :=
  broadcastTo_apply f broadcasts_S1x1_S512x512 q (ix2 (0 : Fin 1) (0 : Fin 1))
    (fun a => match a with | ⟨0, _⟩ => rfl | ⟨1, _⟩ => rfl)

/-- A constant one-entry array at its entry. -/
theorem bc_pt (a : EReal) (j : S1x1.Idx) : broadcast (α := Ideal .f32) S1x1 a j = a := rfl

/-- Two constant one-entry arrays, the second through the logarithm, added. -/
theorem addf_log_pt (a b : EReal) (j : S1x1.Idx) :
    addf (F := Ideal) (φ := .f32) (broadcast S1x1 a) (log (broadcast S1x1 b)) j = a + Ideal.log b := rfl

/-- Two one-entry arrays, the second through the logarithm, added. -/
theorem addf_log_pt2 (m z : FVec Ideal S1x1 .f32) (j : S1x1.Idx) : addf m (log z) j = m j + Ideal.log (z j) := rfl

/-- The difference of two constant one-entry arrays. -/
theorem subf_bc_pt (a b : EReal) (j : S1x1.Idx) :
    subf (F := Ideal) (φ := .f32) (broadcast S1x1 a) (broadcast S1x1 b) j = a - b := rfl

/-- The exponential of a plane less a constant, at a pixel. -/
theorem exp_sub_pt (X : FVec Ideal S512x512 .f32) (c : EReal) (q : S512x512.Idx) :
    exp (subf X (broadcastTo S512x512 (broadcast S1x1 c) broadcasts_S1x1_S512x512)) q = Ideal.exp (X q - c) := rfl

/-- The exponential of a plane less a one-entry array, at a pixel. -/
theorem exp_sub_pt2 (Y : FVec Ideal S512x512 .f32) (m : FVec Ideal S1x1 .f32) (q : S512x512.Idx) :
    exp (subf Y (broadcastTo S512x512 m broadcasts_S1x1_S512x512)) q = Ideal.exp (Y q - m (ix2 (0 : Fin 1) (0 : Fin 1))) :=
  congrArg (fun z => Ideal.exp (Y q - z)) (bcast11 m q)

/-- A plane divided by a one-entry array, at a pixel. -/
theorem div_bc_pt (E : FVec Ideal S512x512 .f32) (Z : FVec Ideal S1x1 .f32) (q : S512x512.Idx) :
    divf E (broadcastTo S512x512 Z broadcasts_S1x1_S512x512) q = Ideal.div (E q) (Z (ix2 (0 : Fin 1) (0 : Fin 1))) :=
  congrArg (fun z => Ideal.div (E q) z) (bcast11 Z q)

/-- A plane divided by a one-entry array and multiplied by another plane, at a pixel. -/
theorem mul_div_pt (E Y : FVec Ideal S512x512 .f32) (Z : FVec Ideal S1x1 .f32) (q : S512x512.Idx) :
    mulf (divf E (broadcastTo S512x512 Z broadcasts_S1x1_S512x512)) Y q = Ideal.div (E q) (Z (ix2 (0 : Fin 1) (0 : Fin 1))) * Y q :=
  congrArg (fun z => z * Y q) (div_bc_pt E Z q)

/-- The product of two planes, at a pixel. -/
theorem mulf_pt (Q Y : FVec Ideal S512x512 .f32) (q : S512x512.Idx) : mulf Q Y q = Q q * Y q := rfl

/-! ## The pieces of the first Kullback-Leibler number, for any three planes -/

/-- Division by the constant one. -/
theorem pay14_apply (V : FVec Ideal S512x512 .f32) (q : S512x512.Idx) : k0_pay14 V q = V q := by
  have e : k0_pay14 V q = Ideal.div (V q) (Ideal.ofBits .f32 0x3F800000#32) := rfl
  rw [e, KLForms.ofBits_one_f32, KLForms.div_one]

/-- The product of two planes divided by the constant one. -/
theorem pay15_apply (V32 V37 : FVec Ideal S512x512 .f32) (q : S512x512.Idx) : k0_pay15 V32 V37 q = V37 q * V32 q := by
  have e : k0_pay15 V32 V37 q = Ideal.div (V37 q * V32 q) (Ideal.ofBits .f32 0x3F800000#32) := rfl
  rw [e, KLForms.ofBits_one_f32, KLForms.div_one]

/-- The first log-partition number: the maximum plus the logarithm of the total of the shifted exponentials. -/
theorem pay16_struct (V : FVec Ideal S512x512 .f32) (j : S1x1.Idx) :
    k0_pay16 V j = maxOf (k0_pay14 V)
      + Ideal.log (totalOf (exp (subf (k0_pay14 V) (broadcastTo S512x512 (broadcast S1x1 (maxOf (k0_pay14 V))) broadcasts_S1x1_S512x512)))) := by
  unfold k0_pay16 maxOf totalOf
  try dsimp only
  generalize k0_pay14 V = X
  with_reducible generalize multiReduction (F := Ideal) .maximumf [1, 2] S1 (shapeCast S1x512x512 X shapeCasts_S512x512_S1x512x512) 0xFF800000#32 reduces_S1x512x512_S1 (.inl rfl) rfl = r1
  with_reducible generalize multiReduction (F := Ideal) .add [1, 2] S1 (shapeCast S1x512x512 (exp (subf X (broadcastTo S512x512 (broadcast S1x1 (extractAt ![0, 0, 0] (shapeCast S1x1x1 r1 shapeCasts_S1_S1x1x1) inpos_S1x1x1_p0_0_0)) broadcasts_S1x1_S512x512))) shapeCasts_S512x512_S1x512x512) 0x00000000#32 reduces_S1x512x512_S1 (.inl rfl) rfl = r2
  exact addf_log_pt _ _ j

/-- The maximum of the second masked plane. -/
theorem pay17_struct (V32 V37 : FVec Ideal S512x512 .f32) (j : S1x1.Idx) :
    k0_pay17 V32 V37 j = maxOf (k0_pay15 V32 V37) := by
  unfold k0_pay17 maxOf
  try dsimp only
  with_reducible generalize multiReduction (F := Ideal) .maximumf [1, 2] S1 (shapeCast S1x512x512 (k0_pay15 V32 V37) shapeCasts_S512x512_S1x512x512) 0xFF800000#32 reduces_S1x512x512_S1 (.inl rfl) rfl = r1
  exact bc_pt _ j

/-- The shifted exponential of the second masked plane, at a pixel. -/
theorem pay18_apply (V32 V37 : FVec Ideal S512x512 .f32) (q : S512x512.Idx) :
    k0_pay18 V32 V37 q = Ideal.exp (k0_pay15 V32 V37 q - maxOf (k0_pay15 V32 V37)) := by
  rw [← pay17_struct V32 V37 (ix2 (0 : Fin 1) (0 : Fin 1))]
  unfold k0_pay18
  try dsimp only
  generalize k0_pay17 V32 V37 = m
  generalize k0_pay15 V32 V37 = Y
  exact exp_sub_pt2 Y m q

/-- The partition sum of the second masked plane. -/
theorem pay19_struct (V32 V37 : FVec Ideal S512x512 .f32) (j : S1x1.Idx) :
    k0_pay19 V32 V37 j = totalOf (k0_pay18 V32 V37) := by
  unfold k0_pay19 totalOf
  try dsimp only
  with_reducible generalize multiReduction (F := Ideal) .add [1, 2] S1 (shapeCast S1x512x512 (k0_pay18 V32 V37) shapeCasts_S512x512_S1x512x512) 0x00000000#32 reduces_S1x512x512_S1 (.inl rfl) rfl = r
  exact bc_pt _ j

/-- The second log-partition number. -/
theorem pay20_struct (V32 V37 : FVec Ideal S512x512 .f32) (j : S1x1.Idx) :
    k0_pay20 V32 V37 j = maxOf (k0_pay15 V32 V37) + Ideal.log (totalOf (k0_pay18 V32 V37)) := by
  rw [← pay17_struct V32 V37 j, ← pay19_struct V32 V37 j]
  unfold k0_pay20
  try dsimp only
  generalize k0_pay17 V32 V37 = m
  generalize k0_pay19 V32 V37 = z
  exact addf_log_pt2 m z j

/-- The difference of the two expectations. -/
theorem pay21_struct (V32 V37 V38 : FVec Ideal S512x512 .f32) (j : S1x1.Idx) :
    k0_pay21 V32 V37 V38 j
      = totalOf (mulf (divf (k0_pay18 V32 V37) (broadcastTo S512x512 (k0_pay19 V32 V37) broadcasts_S1x1_S512x512)) (k0_pay15 V32 V37))
        - totalOf (mulf (divf (k0_pay18 V32 V37) (broadcastTo S512x512 (k0_pay19 V32 V37) broadcasts_S1x1_S512x512)) (k0_pay14 V38)) := by
  unfold k0_pay21 totalOf
  try dsimp only
  generalize k0_pay18 V32 V37 = E
  generalize k0_pay19 V32 V37 = Z
  generalize k0_pay15 V32 V37 = Y
  generalize k0_pay14 V38 = X
  with_reducible generalize multiReduction (F := Ideal) .add [1, 2] S1 (shapeCast S1x512x512 (mulf (divf E (broadcastTo S512x512 Z broadcasts_S1x1_S512x512)) Y) shapeCasts_S512x512_S1x512x512) 0x00000000#32 reduces_S1x512x512_S1 (.inl rfl) rfl = r1
  with_reducible generalize multiReduction (F := Ideal) .add [1, 2] S1 (shapeCast S1x512x512 (mulf (divf E (broadcastTo S512x512 Z broadcasts_S1x1_S512x512)) X) shapeCasts_S512x512_S1x512x512) 0x00000000#32 reduces_S1x512x512_S1 (.inl rfl) rfl = r2
  exact subf_bc_pt _ _ j

/-- The final combination: the expectations' difference plus the log-partition numbers' difference, times one. -/
theorem pay22_apply (a b c : FVec Ideal S1x1 .f32) (j : S1x1.Idx) :
    k0_pay22 a b c j = (c j + (a j - b j)) * Ideal.ofBits .f32 0x3F800000#32 := rfl

/-! ## The pieces of the second Kullback-Leibler number, for any two planes -/

/-- Division by the constant one. -/
theorem pay23_apply (v40 : FVec Ideal S512x512 .f32) (q : S512x512.Idx) : k0_pay23 v40 q = v40 q := by
  have e : k0_pay23 v40 q = Ideal.div (v40 q) (Ideal.ofBits .f32 0x3F800000#32) := rfl
  rw [e, KLForms.ofBits_one_f32, KLForms.div_one]

/-- Division by the constant one. -/
theorem pay24_apply (v41 : FVec Ideal S512x512 .f32) (q : S512x512.Idx) : k0_pay24 v41 q = v41 q := by
  have e : k0_pay24 v41 q = Ideal.div (v41 q) (Ideal.ofBits .f32 0x3F800000#32) := rfl
  rw [e, KLForms.ofBits_one_f32, KLForms.div_one]

/-- The first log-partition number. -/
theorem pay25_struct (v40 : FVec Ideal S512x512 .f32) (j : S1x1.Idx) :
    k0_pay25 v40 j = maxOf (k0_pay23 v40)
      + Ideal.log (totalOf (exp (subf (k0_pay23 v40) (broadcastTo S512x512 (broadcast S1x1 (maxOf (k0_pay23 v40))) broadcasts_S1x1_S512x512)))) := by
  unfold k0_pay25 maxOf totalOf
  try dsimp only
  generalize k0_pay23 v40 = X
  with_reducible generalize multiReduction (F := Ideal) .maximumf [1, 2] S1 (shapeCast S1x512x512 X shapeCasts_S512x512_S1x512x512) 0xFF800000#32 reduces_S1x512x512_S1 (.inl rfl) rfl = r1
  with_reducible generalize multiReduction (F := Ideal) .add [1, 2] S1 (shapeCast S1x512x512 (exp (subf X (broadcastTo S512x512 (broadcast S1x1 (extractAt ![0, 0, 0] (shapeCast S1x1x1 r1 shapeCasts_S1_S1x1x1) inpos_S1x1x1_p0_0_0)) broadcasts_S1x1_S512x512))) shapeCasts_S512x512_S1x512x512) 0x00000000#32 reduces_S1x512x512_S1 (.inl rfl) rfl = r2
  exact addf_log_pt _ _ j

/-- The maximum of the second plane. -/
theorem pay26_struct (v41 : FVec Ideal S512x512 .f32) (j : S1x1.Idx) : k0_pay26 v41 j = maxOf (k0_pay24 v41) := by
  unfold k0_pay26 maxOf
  try dsimp only
  with_reducible generalize multiReduction (F := Ideal) .maximumf [1, 2] S1 (shapeCast S1x512x512 (k0_pay24 v41) shapeCasts_S512x512_S1x512x512) 0xFF800000#32 reduces_S1x512x512_S1 (.inl rfl) rfl = r1
  exact bc_pt _ j

/-- The shifted exponential of the second plane, at a pixel. -/
theorem pay27_apply (v41 : FVec Ideal S512x512 .f32) (q : S512x512.Idx) :
    k0_pay27 v41 q = Ideal.exp (k0_pay24 v41 q - maxOf (k0_pay24 v41)) := by
  rw [← pay26_struct v41 (ix2 (0 : Fin 1) (0 : Fin 1))]
  unfold k0_pay27
  try dsimp only
  generalize k0_pay26 v41 = m
  generalize k0_pay24 v41 = Y
  exact exp_sub_pt2 Y m q

/-- The partition sum of the second plane. -/
theorem pay28_struct (v41 : FVec Ideal S512x512 .f32) (j : S1x1.Idx) : k0_pay28 v41 j = totalOf (k0_pay27 v41) := by
  unfold k0_pay28 totalOf
  try dsimp only
  with_reducible generalize multiReduction (F := Ideal) .add [1, 2] S1 (shapeCast S1x512x512 (k0_pay27 v41) shapeCasts_S512x512_S1x512x512) 0x00000000#32 reduces_S1x512x512_S1 (.inl rfl) rfl = r
  exact bc_pt _ j

/-- The second log-partition number. -/
theorem pay29_struct (v41 : FVec Ideal S512x512 .f32) (j : S1x1.Idx) :
    k0_pay29 v41 j = maxOf (k0_pay24 v41) + Ideal.log (totalOf (k0_pay27 v41)) := by
  rw [← pay26_struct v41 j, ← pay28_struct v41 j]
  unfold k0_pay29
  try dsimp only
  generalize k0_pay26 v41 = m
  generalize k0_pay28 v41 = z
  exact addf_log_pt2 m z j

/-- The softmax weight of the second plane, at a pixel. -/
theorem pay30_apply (v41 : FVec Ideal S512x512 .f32) (q : S512x512.Idx) :
    k0_pay30 v41 q = Ideal.div (k0_pay27 v41 q) (k0_pay28 v41 (ix2 (0 : Fin 1) (0 : Fin 1))) := by
  unfold k0_pay30
  try dsimp only
  generalize k0_pay27 v41 = E
  generalize k0_pay28 v41 = Z
  exact div_bc_pt E Z q

/-- The expectation of the second plane. -/
theorem pay31_struct (v41 : FVec Ideal S512x512 .f32) (j : S1x1.Idx) :
    k0_pay31 v41 j = totalOf (mulf (k0_pay30 v41) (k0_pay24 v41)) := by
  unfold k0_pay31 totalOf
  try dsimp only
  generalize k0_pay30 v41 = Q
  generalize k0_pay24 v41 = Y
  with_reducible generalize multiReduction (F := Ideal) .add [1, 2] S1 (shapeCast S1x512x512 (mulf Q Y) shapeCasts_S512x512_S1x512x512) 0x00000000#32 reduces_S1x512x512_S1 (.inl rfl) rfl = r
  exact bc_pt _ j

/-- The expectation of the first plane. -/
theorem pay32_struct (v40 v41 : FVec Ideal S512x512 .f32) :
    k0_pay32 v40 v41 = totalOf (mulf (k0_pay30 v41) (k0_pay23 v40)) := by
  unfold k0_pay32 totalOf
  dsimp only

end Cert.KKL

end
-- ==== Proof.KKLEdge.lean ====
/-
  The first Kullback-Leibler number of a grid point: the combination of the two log-partition numbers and the two
  expectations of the edge-masked planes is the Kullback-Leibler divergence of their softmax distributions over the
  pixels of the plane.
-/
import proofs.«165479_j24979529793863_2_alg».proof.Proof.KKLCells

noncomputable section

namespace Cert.KKL

open Idealize.ShloMosaic Idealize.ShloMosaic.ValueIdx Cert.KernelIdeal Cert.KernelIdeal.Gen Cert.Spec Cert.KMask

/-! ## The Kullback-Leibler number of two masked planes -/

/-- With the first masked plane and the product of the other two given pixel by pixel as real numbers, the
    combination of the log-partition numbers and the expectations is the Kullback-Leibler divergence of the two
    softmax distributions over the pixels. -/
theorem kl_number (V32 V37 V38 : FVec Ideal S512x512 .f32) (xr yr : Fin 512 × Fin 512 → ℝ)
    (hX : ∀ p : Fin 512 × Fin 512, V38 (ix2 p.1 p.2) = ((xr p : ℝ) : EReal))
    (hY : ∀ p : Fin 512 × Fin 512, V37 (ix2 p.1 p.2) * V32 (ix2 p.1 p.2) = ((yr p : ℝ) : EReal)) (j : S1x1.Idx) :
    k0_pay22 (k0_pay16 V38) (k0_pay20 V32 V37) (k0_pay21 V32 V37 V38) j = ((KLForms.klSpec xr yr : ℝ) : EReal) := by
  have hX' : ∀ p : Fin 512 × Fin 512, k0_pay14 V38 (ix2 p.1 p.2) = ((xr p : ℝ) : EReal) :=
    fun p => (pay14_apply V38 _).trans (hX p)
  have hY' : ∀ p : Fin 512 × Fin 512, k0_pay15 V32 V37 (ix2 p.1 p.2) = ((yr p : ℝ) : EReal) :=
    fun p => (pay15_apply V32 V37 _).trans (hY p)
  obtain ⟨Mx, hMx⟩ := KLForms.fold_max_of_coe (fun p : Fin 512 × Fin 512 => k0_pay14 V38 (ix2 p.1 p.2)) xr hX'
  obtain ⟨My, hMy⟩ := KLForms.fold_max_of_coe (fun p : Fin 512 × Fin 512 => k0_pay15 V32 V37 (ix2 p.1 p.2)) yr hY'
  have eMX : maxOf (k0_pay14 V38) = ((Mx : ℝ) : EReal) := (maxOf_eq _).trans hMx
  have eMY : maxOf (k0_pay15 V32 V37) = ((My : ℝ) : EReal) := (maxOf_eq _).trans hMy
  have eA : k0_pay16 V38 j = ((Mx : ℝ) : EReal)
      + Ideal.log (∑ p : Fin 512 × Fin 512, Ideal.exp (k0_pay14 V38 (ix2 p.1 p.2) - ((Mx : ℝ) : EReal))) := by
    rw [pay16_struct, totalOf_eq, eMX]
    simp only [exp_sub_pt]
  have eZY : totalOf (k0_pay18 V32 V37)
      = ∑ p : Fin 512 × Fin 512, Ideal.exp (k0_pay15 V32 V37 (ix2 p.1 p.2) - ((My : ℝ) : EReal)) := by
    rw [totalOf_eq]
    refine Finset.sum_congr rfl fun p _ => ?_
    rw [pay18_apply, eMY]
  have eB : k0_pay20 V32 V37 j = ((My : ℝ) : EReal)
      + Ideal.log (∑ p : Fin 512 × Fin 512, Ideal.exp (k0_pay15 V32 V37 (ix2 p.1 p.2) - ((My : ℝ) : EReal))) := by
    rw [pay20_struct, eMY, eZY]
  have ePt : ∀ W : FVec Ideal S512x512 .f32,
      totalOf (mulf (divf (k0_pay18 V32 V37) (broadcastTo S512x512 (k0_pay19 V32 V37) broadcasts_S1x1_S512x512)) W)
        = ∑ p : Fin 512 × Fin 512, Ideal.div (Ideal.exp (k0_pay15 V32 V37 (ix2 p.1 p.2) - ((My : ℝ) : EReal)))
            (∑ q : Fin 512 × Fin 512, Ideal.exp (k0_pay15 V32 V37 (ix2 q.1 q.2) - ((My : ℝ) : EReal))) * W (ix2 p.1 p.2) := by
    intro W
    rw [totalOf_eq]
    refine Finset.sum_congr rfl fun p _ => ?_
    rw [mul_div_pt, pay19_struct, eZY, pay18_apply, eMY]
  have eC : k0_pay21 V32 V37 V38 j
      = (∑ p : Fin 512 × Fin 512, Ideal.div (Ideal.exp (k0_pay15 V32 V37 (ix2 p.1 p.2) - ((My : ℝ) : EReal)))
            (∑ q : Fin 512 × Fin 512, Ideal.exp (k0_pay15 V32 V37 (ix2 q.1 q.2) - ((My : ℝ) : EReal))) * k0_pay15 V32 V37 (ix2 p.1 p.2))
        - (∑ p : Fin 512 × Fin 512, Ideal.div (Ideal.exp (k0_pay15 V32 V37 (ix2 p.1 p.2) - ((My : ℝ) : EReal)))
            (∑ q : Fin 512 × Fin 512, Ideal.exp (k0_pay15 V32 V37 (ix2 q.1 q.2) - ((My : ℝ) : EReal))) * k0_pay14 V38 (ix2 p.1 p.2)) := by
    rw [pay21_struct, ePt, ePt]
  rw [pay22_apply, eA, eB, eC, KLForms.ofBits_one_f32, KLForms.mul_one']
  exact KLForms.kl_K (fun p : Fin 512 × Fin 512 => k0_pay14 V38 (ix2 p.1 p.2)) (fun p : Fin 512 × Fin 512 => k0_pay15 V32 V37 (ix2 p.1 p.2))
    ((Mx : ℝ) : EReal) ((My : ℝ) : EReal) xr yr Mx My hX' hY' rfl rfl

/-! ## The edge number -/

/-- A staged plane as a 512 by 512 array is the staged block at the same pixel. -/
theorem plane_apply' {α : Type} (v : S1x1x512x512.Idx → α) (h w : Fin 512) :
    shapeCast S512x512 v shapeCasts_S1x1x512x512_S512x512 (ix2 h w) = v (ix4 (0 : Fin 1) (0 : Fin 1) h w) :=
  shapeCast_apply v shapeCasts_S1x1x512x512_S512x512 (ix2 h w) (ix4 (0 : Fin 1) (0 : Fin 1) h w) (by
    rw [Shape.rowMajor_val_four, Shape.rowMajor_val_two]
    show ((0 * 1 + 0) * 512 + h.val) * 512 + w.val = h.val * 512 + w.val
    omega)

/-- The Kullback-Leibler number of the edge-masked planes: the divergence of the softmax distributions of the
    student and teacher logits, each multiplied by the edge mask. -/
theorem kl_edge (i : grid0.Coords) (x0 x1 : Vec Ideal S1x1x512x512 .f32) (x2 : Vec Ideal S1x1x512x512 .i32)
    (s t : Fin 512 × Fin 512 → ℝ)
    (hs : ∀ p : Fin 512 × Fin 512, x0 (ix4 (0 : Fin 1) (0 : Fin 1) p.1 p.2) = ((s p : ℝ) : EReal))
    (ht : ∀ p : Fin 512 × Fin 512, x1 (ix4 (0 : Fin 1) (0 : Fin 1) p.1 p.2) = ((t p : ℝ) : EReal)) (j : S1x1.Idx) :
    k0_pay22 (k0_pay16 (k0_pay11 i x2 x0)) (k0_pay20 (k0_pay7 i x2) (k0_pay10 x1))
        (k0_pay21 (k0_pay7 i x2) (k0_pay10 x1) (k0_pay11 i x2 x0)) j
      = ((KLForms.klSpec (fun p : Fin 512 × Fin 512 => s p * ind (edge (planeRegion i x2) p.1.val p.2.val))
          (fun p : Fin 512 × Fin 512 => t p * ind (edge (planeRegion i x2) p.1.val p.2.val)) : ℝ) : EReal) := by
  refine kl_number _ _ _ _ _ (fun p => ?_) (fun p => ?_) j
  · have e : k0_pay11 i x2 x0 (ix2 p.1 p.2)
        = shapeCast S512x512 x0 shapeCasts_S1x1x512x512_S512x512 (ix2 p.1 p.2) * k0_pay7 i x2 (ix2 p.1 p.2) := rfl
    rw [e, plane_apply', hs p, pay7_apply, EReal.coe_mul]
  · have e : k0_pay10 x1 (ix2 p.1 p.2) = shapeCast S512x512 x1 shapeCasts_S1x1x512x512_S512x512 (ix2 p.1 p.2) := rfl
    rw [e, plane_apply', ht p, pay7_apply, EReal.coe_mul]

end Cert.KKL

end
-- ==== Proof.KKLNew.lean ====
/-
  The two Kullback-Leibler tables after a grid point, read at an entry: the entry before plus the grid point's
  number at the grid point's own entry, plus nothing elsewhere; and the first table's law, its number being the
  Kullback-Leibler divergence of the edge-masked softmax distributions.
-/
import proofs.«165479_j24979529793863_2_alg».proof.Proof.KPieces
import proofs.«165479_j24979529793863_2_alg».proof.Proof.KKLEdge

noncomputable section

namespace Cert.KKL

open Idealize.ShloMosaic Idealize.ShloMosaic.ValueIdx Cert.KernelIdeal Cert.KernelIdeal.Gen Cert.Spec Cert.KMask

/-- The first Kullback-Leibler table after a grid point: entry (b', c') grows by the grid point's number at the grid
    point's entry, by nothing elsewhere. -/
theorem newKle_struct (i : grid0.Coords) (x0 x1 : Vec Ideal S1x1x512x512 .f32) (x2 : Vec Ideal S1x1x512x512 .i32)
    (xs : Vec Ideal S4x13 .f32) (b' : Fin 4) (c' : Fin 13) :
    Cert.KernelIdeal.KVal.newKle i x0 x1 x2 xs (ix2 b' c')
      = xs (ix2 b' c')
        + (if b'.val = (i 0).val ∧ c'.val = (i 1).val then
            (k0_pay22 (k0_pay16 (k0_pay11 i x2 x0)) (k0_pay20 (k0_pay7 i x2) (k0_pay10 x1))
              (k0_pay21 (k0_pay7 i x2) (k0_pay10 x1) (k0_pay11 i x2 x0))) (ix2 (0 : Fin 1) (0 : Fin 1))
          else 0) := by
  unfold Cert.KernelIdeal.KVal.newKle
  exact kle_struct_gen i _ xs b' c'

/-- The second Kullback-Leibler table after a grid point. -/
theorem newKlb_struct (i : grid0.Coords) (x0 x1 : Vec Ideal S1x1x512x512 .f32) (x2 : Vec Ideal S1x1x512x512 .i32)
    (xs : Vec Ideal S4x13 .f32) (b' : Fin 4) (c' : Fin 13) :
    Cert.KernelIdeal.KVal.newKlb i x0 x1 x2 xs (ix2 b' c')
      = xs (ix2 b' c')
        + (if b'.val = (i 0).val ∧ c'.val = (i 1).val then
            ((k0_pay31 (k0_pay13 (k0_pay8 i x2) (k0_pay10 x1)) (ix2 (0 : Fin 1) (0 : Fin 1))
                - k0_pay32 (k0_pay12 (k0_pay8 i x2) (k0_pay9 x0)) (k0_pay13 (k0_pay8 i x2) (k0_pay10 x1)))
              + (k0_pay25 (k0_pay12 (k0_pay8 i x2) (k0_pay9 x0)) (ix2 (0 : Fin 1) (0 : Fin 1))
                - k0_pay29 (k0_pay13 (k0_pay8 i x2) (k0_pay10 x1)) (ix2 (0 : Fin 1) (0 : Fin 1)))) * 1
          else 0) := by
  unfold Cert.KernelIdeal.KVal.newKlb
  exact klb_struct_gen i _ _ _ _ xs b' c'

/-- The first Kullback-Leibler table after a grid point: entry (b', c') grows by the divergence of the edge-masked
    softmax distributions at the grid point's entry, by nothing elsewhere. -/
theorem lawE : ∀ (i : grid0.Coords) (x0 x1 : Vec Ideal S1x1x512x512 .f32) (x2 : Vec Ideal S1x1x512x512 .i32)
    (s t : Fin 512 × Fin 512 → ℝ)
    (hs : ∀ h w : Fin 512, x0 (ix4 (0 : Fin 1) (0 : Fin 1) h w) = ((s (h, w) : ℝ) : EReal))
    (ht : ∀ h w : Fin 512, x1 (ix4 (0 : Fin 1) (0 : Fin 1) h w) = ((t (h, w) : ℝ) : EReal))
    (xs : Vec Ideal S4x13 .f32) (b' : Fin 4) (c' : Fin 13),
    Cert.KernelIdeal.KVal.newKle i x0 x1 x2 xs (ix2 b' c')
      = xs (ix2 b' c')
        + (if b'.val = (i 0).val ∧ c'.val = (i 1).val then
            ((KLForms.klSpec (fun p : Fin 512 × Fin 512 => s p * ind (edge (planeRegion i x2) p.1.val p.2.val))
              (fun p => t p * ind (edge (planeRegion i x2) p.1.val p.2.val)) : ℝ) : EReal)
          else 0) := by
  intro i x0 x1 x2 s t hs ht xs b' c'
  refine (newKle_struct i x0 x1 x2 xs b' c').trans ?_
  rw [kl_edge i x0 x1 x2 s t (fun p => hs p.1 p.2) (fun p => ht p.1 p.2) (ix2 (0 : Fin 1) (0 : Fin 1))]

end Cert.KKL

end
-- ==== Proof.KKLBody.lean ====
/-
  The second Kullback-Leibler number of a grid point: the combination of the two log-partition numbers and the two
  expectations of the body-masked planes is the Kullback-Leibler divergence of their softmax distributions over the
  pixels of the plane.
-/
import proofs.«165479_j24979529793863_2_alg».proof.Proof.KKLEdge

noncomputable section

namespace Cert.KKL

open Idealize.ShloMosaic Idealize.ShloMosaic.ValueIdx Cert.KernelIdeal Cert.KernelIdeal.Gen Cert.Spec Cert.KMask

/-! ## The second Kullback-Leibler number -/

/-- With the two masked planes given pixel by pixel as real numbers, the combination of the log-partition numbers
    and the expectations is the Kullback-Leibler divergence of the two softmax distributions over the pixels. -/
theorem kl_number_body (v40 v41 : FVec Ideal S512x512 .f32) (xr yr : Fin 512 × Fin 512 → ℝ)
    (hX : ∀ p : Fin 512 × Fin 512, v40 (ix2 p.1 p.2) = ((xr p : ℝ) : EReal))
    (hY : ∀ p : Fin 512 × Fin 512, v41 (ix2 p.1 p.2) = ((yr p : ℝ) : EReal)) :
    ((k0_pay31 v41 (ix2 (0 : Fin 1) (0 : Fin 1)) - k0_pay32 v40 v41)
        + (k0_pay25 v40 (ix2 (0 : Fin 1) (0 : Fin 1)) - k0_pay29 v41 (ix2 (0 : Fin 1) (0 : Fin 1)))) * 1
      = ((KLForms.klSpec xr yr : ℝ) : EReal) := by
  have hX' : ∀ p : Fin 512 × Fin 512, k0_pay23 v40 (ix2 p.1 p.2) = ((xr p : ℝ) : EReal) :=
    fun p => (pay23_apply v40 _).trans (hX p)
  have hY' : ∀ p : Fin 512 × Fin 512, k0_pay24 v41 (ix2 p.1 p.2) = ((yr p : ℝ) : EReal) :=
    fun p => (pay24_apply v41 _).trans (hY p)
  obtain ⟨Mx, hMx⟩ := KLForms.fold_max_of_coe (fun p : Fin 512 × Fin 512 => k0_pay23 v40 (ix2 p.1 p.2)) xr hX'
  obtain ⟨My, hMy⟩ := KLForms.fold_max_of_coe (fun p : Fin 512 × Fin 512 => k0_pay24 v41 (ix2 p.1 p.2)) yr hY'
  have eMX : maxOf (k0_pay23 v40) = ((Mx : ℝ) : EReal) := (maxOf_eq _).trans hMx
  have eMY : maxOf (k0_pay24 v41) = ((My : ℝ) : EReal) := (maxOf_eq _).trans hMy
  have eA : k0_pay25 v40 (ix2 (0 : Fin 1) (0 : Fin 1)) = ((Mx : ℝ) : EReal)
      + Ideal.log (∑ p : Fin 512 × Fin 512, Ideal.exp (k0_pay23 v40 (ix2 p.1 p.2) - ((Mx : ℝ) : EReal))) := by
    rw [pay25_struct, totalOf_eq, eMX]
    simp only [exp_sub_pt]
  have eZY : totalOf (k0_pay27 v41)
      = ∑ p : Fin 512 × Fin 512, Ideal.exp (k0_pay24 v41 (ix2 p.1 p.2) - ((My : ℝ) : EReal)) := by
    rw [totalOf_eq]
    refine Finset.sum_congr rfl fun p _ => ?_
    rw [pay27_apply, eMY]
  have eB : k0_pay29 v41 (ix2 (0 : Fin 1) (0 : Fin 1)) = ((My : ℝ) : EReal)
      + Ideal.log (∑ p : Fin 512 × Fin 512, Ideal.exp (k0_pay24 v41 (ix2 p.1 p.2) - ((My : ℝ) : EReal))) := by
    rw [pay29_struct, eMY, eZY]
  have ePt : ∀ W : FVec Ideal S512x512 .f32,
      totalOf (mulf (k0_pay30 v41) W)
        = ∑ p : Fin 512 × Fin 512, Ideal.div (Ideal.exp (k0_pay24 v41 (ix2 p.1 p.2) - ((My : ℝ) : EReal)))
            (∑ q : Fin 512 × Fin 512, Ideal.exp (k0_pay24 v41 (ix2 q.1 q.2) - ((My : ℝ) : EReal))) * W (ix2 p.1 p.2) := by
    intro W
    rw [totalOf_eq]
    refine Finset.sum_congr rfl fun p _ => ?_
    rw [mulf_pt, pay30_apply, pay28_struct, eZY, pay27_apply, eMY]
  have e31 : k0_pay31 v41 (ix2 (0 : Fin 1) (0 : Fin 1))
      = ∑ p : Fin 512 × Fin 512, Ideal.div (Ideal.exp (k0_pay24 v41 (ix2 p.1 p.2) - ((My : ℝ) : EReal)))
            (∑ q : Fin 512 × Fin 512, Ideal.exp (k0_pay24 v41 (ix2 q.1 q.2) - ((My : ℝ) : EReal))) * k0_pay24 v41 (ix2 p.1 p.2) := by
    rw [pay31_struct, ePt]
  have e32 : k0_pay32 v40 v41
      = ∑ p : Fin 512 × Fin 512, Ideal.div (Ideal.exp (k0_pay24 v41 (ix2 p.1 p.2) - ((My : ℝ) : EReal)))
            (∑ q : Fin 512 × Fin 512, Ideal.exp (k0_pay24 v41 (ix2 q.1 q.2) - ((My : ℝ) : EReal))) * k0_pay23 v40 (ix2 p.1 p.2) := by
    rw [pay32_struct, ePt]
  rw [e31, e32, eA, eB, KLForms.mul_one']
  exact KLForms.kl_K (fun p : Fin 512 × Fin 512 => k0_pay23 v40 (ix2 p.1 p.2)) (fun p : Fin 512 × Fin 512 => k0_pay24 v41 (ix2 p.1 p.2))
    ((Mx : ℝ) : EReal) ((My : ℝ) : EReal) xr yr Mx My hX' hY' rfl rfl

/-- The Kullback-Leibler number of the body-masked planes. -/
theorem kl_body (i : grid0.Coords) (x0 x1 : Vec Ideal S1x1x512x512 .f32) (x2 : Vec Ideal S1x1x512x512 .i32)
    (s t : Fin 512 × Fin 512 → ℝ)
    (hs : ∀ p : Fin 512 × Fin 512, x0 (ix4 (0 : Fin 1) (0 : Fin 1) p.1 p.2) = ((s p : ℝ) : EReal))
    (ht : ∀ p : Fin 512 × Fin 512, x1 (ix4 (0 : Fin 1) (0 : Fin 1) p.1 p.2) = ((t p : ℝ) : EReal)) :
    ((k0_pay31 (k0_pay13 (k0_pay8 i x2) (k0_pay10 x1)) (ix2 (0 : Fin 1) (0 : Fin 1))
          - k0_pay32 (k0_pay12 (k0_pay8 i x2) (k0_pay9 x0)) (k0_pay13 (k0_pay8 i x2) (k0_pay10 x1)))
        + (k0_pay25 (k0_pay12 (k0_pay8 i x2) (k0_pay9 x0)) (ix2 (0 : Fin 1) (0 : Fin 1))
          - k0_pay29 (k0_pay13 (k0_pay8 i x2) (k0_pay10 x1)) (ix2 (0 : Fin 1) (0 : Fin 1)))) * 1
      = ((KLForms.klSpec (fun p : Fin 512 × Fin 512 => s p * ind (body (planeRegion i x2) p.1.val p.2.val))
          (fun p : Fin 512 × Fin 512 => t p * ind (body (planeRegion i x2) p.1.val p.2.val)) : ℝ) : EReal) := by
  refine kl_number_body _ _ _ _ (fun p => ?_) (fun p => ?_)
  · have e : k0_pay12 (k0_pay8 i x2) (k0_pay9 x0) (ix2 p.1 p.2)
        = shapeCast S512x512 x0 shapeCasts_S1x1x512x512_S512x512 (ix2 p.1 p.2) * k0_pay8 i x2 (ix2 p.1 p.2) := rfl
    rw [e, plane_apply', hs p, pay8_apply, EReal.coe_mul]
  · have e : k0_pay13 (k0_pay8 i x2) (k0_pay10 x1) (ix2 p.1 p.2)
        = shapeCast S512x512 x1 shapeCasts_S1x1x512x512_S512x512 (ix2 p.1 p.2) * k0_pay8 i x2 (ix2 p.1 p.2) := rfl
    rw [e, plane_apply', ht p, pay8_apply, EReal.coe_mul]

end Cert.KKL

end
-- ==== Proof.KKLLawB.lean ====
/-
  The second Kullback-Leibler table after a grid point: the entry before plus, at the grid point's own entry, the
  Kullback-Leibler divergence of the body-masked softmax distributions.
-/
import proofs.«165479_j24979529793863_2_alg».proof.Proof.KKLNew
import proofs.«165479_j24979529793863_2_alg».proof.Proof.KKLBody

noncomputable section

namespace Cert.KKL

open Idealize.ShloMosaic Idealize.ShloMosaic.ValueIdx Cert.KernelIdeal Cert.KernelIdeal.Gen Cert.Spec Cert.KMask

/-- The second Kullback-Leibler table after a grid point: entry (b', c') grows by the divergence of the body-masked
    softmax distributions at the grid point's entry, by nothing elsewhere. -/
theorem lawB : ∀ (i : grid0.Coords) (x0 x1 : Vec Ideal S1x1x512x512 .f32) (x2 : Vec Ideal S1x1x512x512 .i32)
    (s t : Fin 512 × Fin 512 → ℝ)
    (hs : ∀ h w : Fin 512, x0 (ix4 (0 : Fin 1) (0 : Fin 1) h w) = ((s (h, w) : ℝ) : EReal))
    (ht : ∀ h w : Fin 512, x1 (ix4 (0 : Fin 1) (0 : Fin 1) h w) = ((t (h, w) : ℝ) : EReal))
    (xs : Vec Ideal S4x13 .f32) (b' : Fin 4) (c' : Fin 13),
    Cert.KernelIdeal.KVal.newKlb i x0 x1 x2 xs (ix2 b' c')
      = xs (ix2 b' c')
        + (if b'.val = (i 0).val ∧ c'.val = (i 1).val then
            ((KLForms.klSpec (fun p : Fin 512 × Fin 512 => s p * ind (body (planeRegion i x2) p.1.val p.2.val))
              (fun p => t p * ind (body (planeRegion i x2) p.1.val p.2.val)) : ℝ) : EReal)
          else 0) := by
  intro i x0 x1 x2 s t hs ht xs b' c'
  refine (newKlb_struct i x0 x1 x2 xs b' c').trans ?_
  rw [kl_body i x0 x1 x2 s t (fun p => hs p.1 p.2) (fun p => ht p.1 p.2)]

end Cert.KKL

end
-- ==== Proof.lean ====
/-
  The certificate's claims.

  The kernel computes, for every batch entry b and class c, three numbers from the class's region in the label plane
  and the student and teacher logit planes: the number of edge pixels of the region (edge = where the 3x3-cross
  dilation and erosion differ), and the Kullback-Leibler sum between the softmax distributions of the teacher's and
  the student's logits masked to the edge, and the same masked to the body. It adds them into entry (b, c) of three
  4 by 13 accumulators over its 52 grid points and hands the accumulators to the last stage of the loss. The reference
  computes the same three 4 by 13 arrays in bulk and applies the same last stage.

  The two programs agree on the extended reals because: the masks agree pixel by pixel (arithmetic on 32-bit words
  that are 0 or 1 against logic on single bits, the border treated as outside the region on both sides); the edge count
  is one natural number, read as a float sum on one side and as an integer sum on the other; an accumulator that gets
  + 0 at every entry but the point's own holds, at the end, each point's value; and the kernel's "log-partition and
  expectation" arrangement of the Kullback-Leibler sum equals the reference's "log-softmax" arrangement for finite
  logits, whatever shift each side subtracts before exponentiating — which is where the precondition, every logit
  finite, is used. The last stage is the same function on both sides and is never opened.
-/
import proofs.«165479_j24979529793863_2_alg».proof.Defs
import proofs.«165479_j24979529793863_2_alg».proof.Proof.Gen.Kernel
import proofs.«165479_j24979529793863_2_alg».proof.Proof.Gen.Kernel.Skeleton
import proofs.«165479_j24979529793863_2_alg».proof.Proof.Gen.Kernel.Launch
import proofs.«165479_j24979529793863_2_alg».proof.Proof.Gen.Kernel.Points
import proofs.«165479_j24979529793863_2_alg».proof.Proof.Gen.Kernel.Frame
import proofs.«165479_j24979529793863_2_alg».proof.Proof.Gen.KernelIdeal
import proofs.«165479_j24979529793863_2_alg».proof.Proof.Gen.KernelIdeal.Skeleton
import proofs.«165479_j24979529793863_2_alg».proof.Proof.Gen.KernelIdeal.Launch
import proofs.«165479_j24979529793863_2_alg».proof.Proof.Gen.KernelIdeal.Points
import proofs.«165479_j24979529793863_2_alg».proof.Proof.Gen.KernelIdeal.Frame
import proofs.«165479_j24979529793863_2_alg».proof.Proof.Gen.ReferenceIdeal
import proofs.«165479_j24979529793863_2_alg».proof.Proof.Gen.Pre_finite_inputs
import proofs.«165479_j24979529793863_2_alg».proof.Proof.KTail
import proofs.«165479_j24979529793863_2_alg».proof.Proof.RFinal
import proofs.«165479_j24979529793863_2_alg».proof.Proof.Bridge
import proofs.«165479_j24979529793863_2_alg».proof.Proof.KKLLawB
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.RFinal.run m ρ)

/-- The ideal pass rewrote nothing. -/
theorem preserves : Cert.preserves_Kernel_KernelIdeal := trivial

/-- At the ideal values, from memories agreeing on the arguments, the kernel program ends with the last stage of its
    accumulators and the reference with the last stage of its bulk arrays: the same two numbers. -/
theorem algebraic : Cert.algebraic_KernelIdeal_ReferenceIdeal := by
  intro m ρ m' ρ' hpre hagree
  refine ⟨fun c => Cert.KernelIdeal.KVal.kOut m c, Cert.KernelIdeal.KVal.run m ρ, ?_⟩
  refine (θ_run Cert.ReferenceIdeal.defs _ _).mono (fun _ h c => ⟨(h c).1.trans ?_, (h c).2⟩) (Cert.RFinal.run m' ρ')
  unfold Cert.RFinal.result
  rw [(hagree c).1, (hagree c).2.1, (hagree c).2.2]
  unfold Cert.KernelIdeal.KVal.kOut
  exact (Cert.Bridge.bridgeT m Cert.KKL.lawE Cert.KKL.lawB c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
